-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_inputs_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .f32) (main_arg1 : FVec F S512x8192 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x8192 : Shape := ⟨2, ![256, 8192]⟩
abbrev S2x256x4096 : Shape := ⟨3, ![2, 256, 4096]⟩
abbrev S8 : Shape := ⟨1, ![8]⟩
abbrev S_ : Shape := ⟨0, ![]⟩
abbrev S32x512 : Shape := ⟨2, ![32, 512]⟩
abbrev S32x4096 : Shape := ⟨2, ![32, 4096]⟩
abbrev S1x32x4096 : Shape := ⟨3, ![1, 32, 4096]⟩
abbrev S1 : Shape := ⟨1, ![1]⟩
abbrev S32 : Shape := ⟨1, ![32]⟩
abbrev S32x1 : Shape := ⟨2, ![32, 1]⟩

abbrev nBuf : Space → Nat
  | .hbm => 3
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .bf16⟩
  | .local _ .vmem, ⟨0, _⟩ => ⟨S256x512, .f32⟩
  | .local _ .vmem, ⟨1, _⟩ => ⟨S512x4096, .f32⟩
  | .local _ .vmem, ⟨2, _⟩ => ⟨S256x8192, .bf16⟩
  | .local _ .vmem, ⟨3, _⟩ => ⟨S2x256x4096, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  { ofTc nBuf bufTy 1 19 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v26 : BitVec 32 := Scalar.muli v2 c8_i32_18
  let v27 : BitVec 32 := Scalar.addi c0_i32_19 v26
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_20 : BitVec 32 := 4#32
  let v28 : BitVec 32 := Scalar.muli v9 c4_i32_20
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v30 : BitVec 32 := Scalar.muli v8 c1_i32_21
  let v31 : BitVec 32 := Scalar.addi v29 v30
  v31.toNat
def k0_dev3 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v49 : BitVec 32 := Scalar.muli v2 c8_i32_37
  let v50 : BitVec 32 := Scalar.addi c0_i32_38 v49
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_39 : BitVec 32 := 4#32
  let v51 : BitVec 32 := Scalar.muli v9 c4_i32_39
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v53 : BitVec 32 := Scalar.muli v8 c1_i32_40
  let v54 : BitVec 32 := Scalar.addi v52 v53
  v54.toNat
def k0_dev4 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v72 : BitVec 32 := Scalar.muli v2 c8_i32_55
  let v73 : BitVec 32 := Scalar.addi c0_i32_56 v72
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_57 : BitVec 32 := 4#32
  let v74 : BitVec 32 := Scalar.muli v9 c4_i32_57
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v76 : BitVec 32 := Scalar.muli v8 c1_i32_58
  let v77 : BitVec 32 := Scalar.addi v75 v76
  v77.toNat
def k0_dev5 (d0 : Dev nD) : Nat :=
  let c0_i32_73 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_72 : BitVec 32 := 8#32
  let v95 : BitVec 32 := Scalar.muli v2 c8_i32_72
  let v96 : BitVec 32 := Scalar.addi c0_i32_73 v95
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_74 : BitVec 32 := 4#32
  let v97 : BitVec 32 := Scalar.muli v9 c4_i32_74
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v99 : BitVec 32 := Scalar.muli v8 c1_i32_75
  let v100 : BitVec 32 := Scalar.addi v98 v99
  v100.toNat
def k0_dev6 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v118 : BitVec 32 := Scalar.muli v2 c8_i32_90
  let v119 : BitVec 32 := Scalar.addi c0_i32_91 v118
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_92 : BitVec 32 := 4#32
  let v120 : BitVec 32 := Scalar.muli v9 c4_i32_92
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v122 : BitVec 32 := Scalar.muli v8 c1_i32_93
  let v123 : BitVec 32 := Scalar.addi v121 v122
  v123.toNat
def k0_dev7 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v141 : BitVec 32 := Scalar.muli v2 c8_i32_107
  let v142 : BitVec 32 := Scalar.addi c0_i32_108 v141
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_109 : BitVec 32 := 4#32
  let v143 : BitVec 32 := Scalar.muli v9 c4_i32_109
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v145 : BitVec 32 := Scalar.muli v8 c1_i32_110
  let v146 : BitVec 32 := Scalar.addi v144 v145
  v146.toNat
def k0_dev8 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v164 : BitVec 32 := Scalar.muli v2 c8_i32_124
  let v165 : BitVec 32 := Scalar.addi c0_i32_125 v164
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_126 : BitVec 32 := 4#32
  let v166 : BitVec 32 := Scalar.muli v9 c4_i32_126
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v168 : BitVec 32 := Scalar.muli v8 c1_i32_127
  let v169 : BitVec 32 := Scalar.addi v167 v168
  v169.toNat
def k0_dev9 (d0 : Dev nD) : Nat :=
  let c0_i32_142 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_141 : BitVec 32 := 8#32
  let v187 : BitVec 32 := Scalar.muli v2 c8_i32_141
  let v188 : BitVec 32 := Scalar.addi c0_i32_142 v187
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_143 : BitVec 32 := 4#32
  let v189 : BitVec 32 := Scalar.muli v9 c4_i32_143
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v191 : BitVec 32 := Scalar.muli v8 c1_i32_144
  let v192 : BitVec 32 := Scalar.addi v190 v191
  v192.toNat
def k0_off1 (d0 : Dev nD) : Fin 2 → Nat :=
  let c0_177 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v237 : BitVec 32 := Scalar.muli v5 c4096_i32
  let v238 : Index := Scalar.indexCast v237
  ![0, v238.toNat]
def k0_off2 (d0 : Dev nD) : Fin 2 → Nat :=
  let c0_180 : Index := 0#32
  let c1_i32_178 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v243 : BitVec 32 := Scalar.subi c1_i32_178 v5
  let c4096_i32_179 : BitVec 32 := 4096#32
  let v244 : BitVec 32 := Scalar.muli v243 c4096_i32_179
  let v245 : Index := Scalar.indexCast v244
  ![0, v245.toNat]
def k0_off3 (d0 : Dev nD) : Fin 2 → Nat :=
  let c32_212 : Index := 32#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_211 : BitVec 32 := 4096#32
  let v283 : BitVec 32 := Scalar.muli v5 c4096_i32_211
  let v284 : Index := Scalar.indexCast v283
  ![32, v284.toNat]
def k0_off4 (d0 : Dev nD) : Fin 2 → Nat :=
  let c32_215 : Index := 32#32
  let c1_i32_213 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v289 : BitVec 32 := Scalar.subi c1_i32_213 v5
  let c4096_i32_214 : BitVec 32 := 4096#32
  let v290 : BitVec 32 := Scalar.muli v289 c4096_i32_214
  let v291 : Index := Scalar.indexCast v290
  ![32, v291.toNat]
def k0_off5 (d0 : Dev nD) : Fin 2 → Nat :=
  let c64_247 : Index := 64#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_246 : BitVec 32 := 4096#32
  let v329 : BitVec 32 := Scalar.muli v5 c4096_i32_246
  let v330 : Index := Scalar.indexCast v329
  ![64, v330.toNat]
def k0_off6 (d0 : Dev nD) : Fin 2 → Nat :=
  let c64_250 : Index := 64#32
  let c1_i32_248 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v335 : BitVec 32 := Scalar.subi c1_i32_248 v5
  let c4096_i32_249 : BitVec 32 := 4096#32
  let v336 : BitVec 32 := Scalar.muli v335 c4096_i32_249
  let v337 : Index := Scalar.indexCast v336
  ![64, v337.toNat]
def k0_off7 (d0 : Dev nD) : Fin 2 → Nat :=
  let c96_282 : Index := 96#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_281 : BitVec 32 := 4096#32
  let v375 : BitVec 32 := Scalar.muli v5 c4096_i32_281
  let v376 : Index := Scalar.indexCast v375
  ![96, v376.toNat]
def k0_off8 (d0 : Dev nD) : Fin 2 → Nat :=
  let c96_285 : Index := 96#32
  let c1_i32_283 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v381 : BitVec 32 := Scalar.subi c1_i32_283 v5
  let c4096_i32_284 : BitVec 32 := 4096#32
  let v382 : BitVec 32 := Scalar.muli v381 c4096_i32_284
  let v383 : Index := Scalar.indexCast v382
  ![96, v383.toNat]
def k0_off9 (d0 : Dev nD) : Fin 2 → Nat :=
  let c128_317 : Index := 128#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_316 : BitVec 32 := 4096#32
  let v421 : BitVec 32 := Scalar.muli v5 c4096_i32_316
  let v422 : Index := Scalar.indexCast v421
  ![128, v422.toNat]
def k0_off10 (d0 : Dev nD) : Fin 2 → Nat :=
  let c128_320 : Index := 128#32
  let c1_i32_318 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v427 : BitVec 32 := Scalar.subi c1_i32_318 v5
  let c4096_i32_319 : BitVec 32 := 4096#32
  let v428 : BitVec 32 := Scalar.muli v427 c4096_i32_319
  let v429 : Index := Scalar.indexCast v428
  ![128, v429.toNat]
def k0_off11 (d0 : Dev nD) : Fin 2 → Nat :=
  let c160_352 : Index := 160#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_351 : BitVec 32 := 4096#32
  let v467 : BitVec 32 := Scalar.muli v5 c4096_i32_351
  let v468 : Index := Scalar.indexCast v467
  ![160, v468.toNat]
def k0_off12 (d0 : Dev nD) : Fin 2 → Nat :=
  let c160_355 : Index := 160#32
  let c1_i32_353 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v473 : BitVec 32 := Scalar.subi c1_i32_353 v5
  let c4096_i32_354 : BitVec 32 := 4096#32
  let v474 : BitVec 32 := Scalar.muli v473 c4096_i32_354
  let v475 : Index := Scalar.indexCast v474
  ![160, v475.toNat]
def k0_off13 (d0 : Dev nD) : Fin 2 → Nat :=
  let c192_387 : Index := 192#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_386 : BitVec 32 := 4096#32
  let v513 : BitVec 32 := Scalar.muli v5 c4096_i32_386
  let v514 : Index := Scalar.indexCast v513
  ![192, v514.toNat]
def k0_off14 (d0 : Dev nD) : Fin 2 → Nat :=
  let c192_390 : Index := 192#32
  let c1_i32_388 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v519 : BitVec 32 := Scalar.subi c1_i32_388 v5
  let c4096_i32_389 : BitVec 32 := 4096#32
  let v520 : BitVec 32 := Scalar.muli v519 c4096_i32_389
  let v521 : Index := Scalar.indexCast v520
  ![192, v521.toNat]
def k0_off15 (d0 : Dev nD) : Fin 2 → Nat :=
  let c224_422 : Index := 224#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_421 : BitVec 32 := 4096#32
  let v559 : BitVec 32 := Scalar.muli v5 c4096_i32_421
  let v560 : Index := Scalar.indexCast v559
  ![224, v560.toNat]
def k0_off16 (d0 : Dev nD) : Fin 2 → Nat :=
  let c224_425 : Index := 224#32
  let c1_i32_423 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v565 : BitVec 32 := Scalar.subi c1_i32_423 v5
  let c4096_i32_424 : BitVec 32 := 4096#32
  let v566 : BitVec 32 := Scalar.muli v565 c4096_i32_424
  let v567 : Index := Scalar.indexCast v566
  ![224, v567.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S256x512_S32x512_0_0 : ∀ a, (![0, 0] : Fin 2 → Nat) a + S32x512.size a ≤ S256x512.size a
  h_S32x512 : 0 < S32x512.numel
  shapeCasts_S32x512_S32x512 : S32x512.ShapeCasts S32x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S2x256x4096_S1x32x4096_0_0_0 : ∀ a, (![0, 0, 0] : Fin 3 → Nat) a + S1x32x4096.size a ≤ S2x256x4096.size a
  h_S1x32x4096 : 0 < S1x32x4096.numel
  shapeCasts_S1x32x4096_S32x4096 : S1x32x4096.ShapeCasts S32x4096
  shapeCasts_S32x4096_S1x32x4096 : S32x4096.ShapeCasts S1x32x4096
  packedbf16_S2x256x4096_S1x32x4096_0_0_0 : (Rect.unit (s := S2x256x4096) ![0, 0, 0] S1x32x4096.size inb_S2x256x4096_S1x32x4096_0_0_0).PackedRows (EltTy.packing .bf16)
  inb_S8_S1_0 : ∀ a, (![0] : Fin 1 → Nat) a + S1.size a ≤ S8.size a
  squeezes_S1_S_ : S1.Squeezes S_
  inb_S2x256x4096_S1x32x4096_1_0_0 : ∀ a, (![1, 0, 0] : Fin 3 → Nat) a + S1x32x4096.size a ≤ S2x256x4096.size a
  squeezes_S1x32x4096_S32x4096 : S1x32x4096.Squeezes S32x4096
  wordsbf16_S2x256x4096_S1x32x4096_0_0_0 : (Rect.unit (s := S2x256x4096) ![0, 0, 0] S1x32x4096.size inb_S2x256x4096_S1x32x4096_0_0_0).WholeWords (EltTy.packing .bf16)
  wordsbf16_S2x256x4096_S1x32x4096_1_0_0 : (Rect.unit (s := S2x256x4096) ![1, 0, 0] S1x32x4096.size inb_S2x256x4096_S1x32x4096_1_0_0).WholeWords (EltTy.packing .bf16)
  inb_S256x512_S32x512_32_0 : ∀ a, (![32, 0] : Fin 2 → Nat) a + S32x512.size a ≤ S256x512.size a
  inb_S2x256x4096_S1x32x4096_0_32_0 : ∀ a, (![0, 32, 0] : Fin 3 → Nat) a + S1x32x4096.size a ≤ S2x256x4096.size a
  packedbf16_S2x256x4096_S1x32x4096_0_32_0 : (Rect.unit (s := S2x256x4096) ![0, 32, 0] S1x32x4096.size inb_S2x256x4096_S1x32x4096_0_32_0).PackedRows (EltTy.packing .bf16)
  inb_S8_S1_1 : ∀ a, (![1] : Fin 1 → Nat) a + S1.size a ≤ S8.size a
  inb_S2x256x4096_S1x32x4096_1_32_0 : ∀ a, (![1, 32, 0] : Fin 3 → Nat) a + S1x32x4096.size a ≤ S2x256x4096.size a
  wordsbf16_S2x256x4096_S1x32x4096_0_32_0 : (Rect.unit (s := S2x256x4096) ![0, 32, 0] S1x32x4096.size inb_S2x256x4096_S1x32x4096_0_32_0).WholeWords (EltTy.packing .bf16)
  wordsbf16_S2x256x4096_S1x32x4096_1_32_0 : (Rect.unit (s := S2x256x4096) ![1, 32, 0] S1x32x4096.size inb_S2x256x4096_S1x32x4096_1_32_0).WholeWords (EltTy.packing .bf16)
  inb_S256x512_S32x512_64_0 : ∀ a, (![64, 0] : Fin 2 → Nat) a + S32x512.size a ≤ S256x512.size a
  inb_S2x256x4096_S1x32x4096_0_64_0 : ∀ a, (![0, 64, 0] : Fin 3 → Nat) a + S1x32x4096.size a ≤ S2x256x4096.size a
  packedbf16_S2x256x4096_S1x32x4096_0_64_0 : (Rect.unit (s := S2x256x4096) ![0, 64, 0] S1x32x4096.size inb_S2x256x4096_S1x32x4096_0_64_0).PackedRows (EltTy.packing .bf16)
  inb_S8_S1_2 : ∀ a, (![2] : Fin 1 → Nat) a + S1.size a ≤ S8.size a
  inb_S2x256x4096_S1x32x4096_1_64_0 : ∀ a, (![1, 64, 0] : Fin 3 → Nat) a + S1x32x4096.size a ≤ S2x256x4096.size a
  wordsbf16_S2x256x4096_S1x32x4096_0_64_0 : (Rect.unit (s := S2x256x4096) ![0, 64, 0] S1x32x4096.size inb_S2x256x4096_S1x32x4096_0_64_0).WholeWords (EltTy.packing .bf16)
  wordsbf16_S2x256x4096_S1x32x4096_1_64_0 : (Rect.unit (s := S2x256x4096) ![1, 64, 0] S1x32x4096.size inb_S2x256x4096_S1x32x4096_1_64_0).WholeWords (EltTy.packing .bf16)
  inb_S256x512_S32x512_96_0 : ∀ a, (![96, 0] : Fin 2 → Nat) a + S32x512.size a ≤ S256x512.size a
  inb_S2x256x4096_S1x32x4096_0_96_0 : ∀ a, (![0, 96, 0] : Fin 3 → Nat) a + S1x32x4096.size a ≤ S2x256x4096.size a
  packedbf16_S2x256x4096_S1x32x4096_0_96_0 : (Rect.unit (s := S2x256x4096) ![0, 96, 0] S1x32x4096.size inb_S2x256x4096_S1x32x4096_0_96_0).PackedRows (EltTy.packing .bf16)
  inb_S8_S1_3 : ∀ a, (![3] : Fin 1 → Nat) a + S1.size a ≤ S8.size a
  inb_S2x256x4096_S1x32x4096_1_96_0 : ∀ a, (![1, 96, 0] : Fin 3 → Nat) a + S1x32x4096.size a ≤ S2x256x4096.size a
  wordsbf16_S2x256x4096_S1x32x4096_0_96_0 : (Rect.unit (s := S2x256x4096) ![0, 96, 0] S1x32x4096.size inb_S2x256x4096_S1x32x4096_0_96_0).WholeWords (EltTy.packing .bf16)
  wordsbf16_S2x256x4096_S1x32x4096_1_96_0 : (Rect.unit (s := S2x256x4096) ![1, 96, 0] S1x32x4096.size inb_S2x256x4096_S1x32x4096_1_96_0).WholeWords (EltTy.packing .bf16)
  inb_S256x512_S32x512_128_0 : ∀ a, (![128, 0] : Fin 2 → Nat) a + S32x512.size a ≤ S256x512.size a
  inb_S2x256x4096_S1x32x4096_0_128_0 : ∀ a, (![0, 128, 0] : Fin 3 → Nat) a + S1x32x4096.size a ≤ S2x256x4096.size a
  packedbf16_S2x256x4096_S1x32x4096_0_128_0 : (Rect.unit (s := S2x256x4096) ![0, 128, 0] S1x32x4096.size inb_S2x256x4096_S1x32x4096_0_128_0).PackedRows (EltTy.packing .bf16)
  inb_S8_S1_4 : ∀ a, (![4] : Fin 1 → Nat) a + S1.size a ≤ S8.size a
  inb_S2x256x4096_S1x32x4096_1_128_0 : ∀ a, (![1, 128, 0] : Fin 3 → Nat) a + S1x32x4096.size a ≤ S2x256x4096.size a
  wordsbf16_S2x256x4096_S1x32x4096_0_128_0 : (Rect.unit (s := S2x256x4096) ![0, 128, 0] S1x32x4096.size inb_S2x256x4096_S1x32x4096_0_128_0).WholeWords (EltTy.packing .bf16)
  wordsbf16_S2x256x4096_S1x32x4096_1_128_0 : (Rect.unit (s := S2x256x4096) ![1, 128, 0] S1x32x4096.size inb_S2x256x4096_S1x32x4096_1_128_0).WholeWords (EltTy.packing .bf16)
  inb_S256x512_S32x512_160_0 : ∀ a, (![160, 0] : Fin 2 → Nat) a + S32x512.size a ≤ S256x512.size a
  inb_S2x256x4096_S1x32x4096_0_160_0 : ∀ a, (![0, 160, 0] : Fin 3 → Nat) a + S1x32x4096.size a ≤ S2x256x4096.size a
  packedbf16_S2x256x4096_S1x32x4096_0_160_0 : (Rect.unit (s := S2x256x4096) ![0, 160, 0] S1x32x4096.size inb_S2x256x4096_S1x32x4096_0_160_0).PackedRows (EltTy.packing .bf16)
  inb_S8_S1_5 : ∀ a, (![5] : Fin 1 → Nat) a + S1.size a ≤ S8.size a
  inb_S2x256x4096_S1x32x4096_1_160_0 : ∀ a, (![1, 160, 0] : Fin 3 → Nat) a + S1x32x4096.size a ≤ S2x256x4096.size a
  wordsbf16_S2x256x4096_S1x32x4096_0_160_0 : (Rect.unit (s := S2x256x4096) ![0, 160, 0] S1x32x4096.size inb_S2x256x4096_S1x32x4096_0_160_0).WholeWords (EltTy.packing .bf16)
  wordsbf16_S2x256x4096_S1x32x4096_1_160_0 : (Rect.unit (s := S2x256x4096) ![1, 160, 0] S1x32x4096.size inb_S2x256x4096_S1x32x4096_1_160_0).WholeWords (EltTy.packing .bf16)
  inb_S256x512_S32x512_192_0 : ∀ a, (![192, 0] : Fin 2 → Nat) a + S32x512.size a ≤ S256x512.size a
  inb_S2x256x4096_S1x32x4096_0_192_0 : ∀ a, (![0, 192, 0] : Fin 3 → Nat) a + S1x32x4096.size a ≤ S2x256x4096.size a
  packedbf16_S2x256x4096_S1x32x4096_0_192_0 : (Rect.unit (s := S2x256x4096) ![0, 192, 0] S1x32x4096.size inb_S2x256x4096_S1x32x4096_0_192_0).PackedRows (EltTy.packing .bf16)
  inb_S8_S1_6 : ∀ a, (![6] : Fin 1 → Nat) a + S1.size a ≤ S8.size a
  inb_S2x256x4096_S1x32x4096_1_192_0 : ∀ a, (![1, 192, 0] : Fin 3 → Nat) a + S1x32x4096.size a ≤ S2x256x4096.size a
  wordsbf16_S2x256x4096_S1x32x4096_0_192_0 : (Rect.unit (s := S2x256x4096) ![0, 192, 0] S1x32x4096.size inb_S2x256x4096_S1x32x4096_0_192_0).WholeWords (EltTy.packing .bf16)
  wordsbf16_S2x256x4096_S1x32x4096_1_192_0 : (Rect.unit (s := S2x256x4096) ![1, 192, 0] S1x32x4096.size inb_S2x256x4096_S1x32x4096_1_192_0).WholeWords (EltTy.packing .bf16)
  inb_S256x512_S32x512_224_0 : ∀ a, (![224, 0] : Fin 2 → Nat) a + S32x512.size a ≤ S256x512.size a
  inb_S2x256x4096_S1x32x4096_0_224_0 : ∀ a, (![0, 224, 0] : Fin 3 → Nat) a + S1x32x4096.size a ≤ S2x256x4096.size a
  packedbf16_S2x256x4096_S1x32x4096_0_224_0 : (Rect.unit (s := S2x256x4096) ![0, 224, 0] S1x32x4096.size inb_S2x256x4096_S1x32x4096_0_224_0).PackedRows (EltTy.packing .bf16)
  inb_S8_S1_7 : ∀ a, (![7] : Fin 1 → Nat) a + S1.size a ≤ S8.size a
  inb_S2x256x4096_S1x32x4096_1_224_0 : ∀ a, (![1, 224, 0] : Fin 3 → Nat) a + S1x32x4096.size a ≤ S2x256x4096.size a
  wordsbf16_S2x256x4096_S1x32x4096_0_224_0 : (Rect.unit (s := S2x256x4096) ![0, 224, 0] S1x32x4096.size inb_S2x256x4096_S1x32x4096_0_224_0).WholeWords (EltTy.packing .bf16)
  wordsbf16_S2x256x4096_S1x32x4096_1_224_0 : (Rect.unit (s := S2x256x4096) ![1, 224, 0] S1x32x4096.size inb_S2x256x4096_S1x32x4096_1_224_0).WholeWords (EltTy.packing .bf16)
  reduces_S32x4096_S32 : S32x4096.Reduces [1] S32
  shapeCasts_S32_S32x1 : S32.ShapeCasts S32x1
  broadcasts_S32x1_S32x4096 : S32x1.Broadcasts S32x4096
  h_S32x4096 : 0 < S32x4096.numel
  dot_S32x512_S512x4096_S32x4096_1_0_0_1_n_n_wf : DotDims.WF S32x512 S512x4096 S32x4096 [1] [0] [0] [1] [] []
  hcc0_scratch1 : 3 + S8.numel ≤ 19
  hcc0_scratch2 : 11 + S8.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off1_inb : ∀ d0 : Dev nD, ∀ a, (k0_off1 d0) a + S32x4096.size a ≤ S256x8192.size a
  k0_off1_packedbf16 : ∀ d0 : Dev nD, (Rect.unit (s := S256x8192) (k0_off1 d0) S32x4096.size (k0_off1_inb d0)).PackedRows (EltTy.packing .bf16)
  k0_off2_inb : ∀ d0 : Dev nD, ∀ a, (k0_off2 d0) a + S32x4096.size a ≤ S256x8192.size a
  k0_off2_packedbf16 : ∀ d0 : Dev nD, (Rect.unit (s := S256x8192) (k0_off2 d0) S32x4096.size (k0_off2_inb d0)).PackedRows (EltTy.packing .bf16)
  k0_off3_inb : ∀ d0 : Dev nD, ∀ a, (k0_off3 d0) a + S32x4096.size a ≤ S256x8192.size a
  k0_off3_packedbf16 : ∀ d0 : Dev nD, (Rect.unit (s := S256x8192) (k0_off3 d0) S32x4096.size (k0_off3_inb d0)).PackedRows (EltTy.packing .bf16)
  k0_off4_inb : ∀ d0 : Dev nD, ∀ a, (k0_off4 d0) a + S32x4096.size a ≤ S256x8192.size a
  k0_off4_packedbf16 : ∀ d0 : Dev nD, (Rect.unit (s := S256x8192) (k0_off4 d0) S32x4096.size (k0_off4_inb d0)).PackedRows (EltTy.packing .bf16)
  k0_off5_inb : ∀ d0 : Dev nD, ∀ a, (k0_off5 d0) a + S32x4096.size a ≤ S256x8192.size a
  k0_off5_packedbf16 : ∀ d0 : Dev nD, (Rect.unit (s := S256x8192) (k0_off5 d0) S32x4096.size (k0_off5_inb d0)).PackedRows (EltTy.packing .bf16)
  k0_off6_inb : ∀ d0 : Dev nD, ∀ a, (k0_off6 d0) a + S32x4096.size a ≤ S256x8192.size a
  k0_off6_packedbf16 : ∀ d0 : Dev nD, (Rect.unit (s := S256x8192) (k0_off6 d0) S32x4096.size (k0_off6_inb d0)).PackedRows (EltTy.packing .bf16)
  k0_off7_inb : ∀ d0 : Dev nD, ∀ a, (k0_off7 d0) a + S32x4096.size a ≤ S256x8192.size a
  k0_off7_packedbf16 : ∀ d0 : Dev nD, (Rect.unit (s := S256x8192) (k0_off7 d0) S32x4096.size (k0_off7_inb d0)).PackedRows (EltTy.packing .bf16)
  k0_off8_inb : ∀ d0 : Dev nD, ∀ a, (k0_off8 d0) a + S32x4096.size a ≤ S256x8192.size a
  k0_off8_packedbf16 : ∀ d0 : Dev nD, (Rect.unit (s := S256x8192) (k0_off8 d0) S32x4096.size (k0_off8_inb d0)).PackedRows (EltTy.packing .bf16)
  k0_off9_inb : ∀ d0 : Dev nD, ∀ a, (k0_off9 d0) a + S32x4096.size a ≤ S256x8192.size a
  k0_off9_packedbf16 : ∀ d0 : Dev nD, (Rect.unit (s := S256x8192) (k0_off9 d0) S32x4096.size (k0_off9_inb d0)).PackedRows (EltTy.packing .bf16)
  k0_off10_inb : ∀ d0 : Dev nD, ∀ a, (k0_off10 d0) a + S32x4096.size a ≤ S256x8192.size a
  k0_off10_packedbf16 : ∀ d0 : Dev nD, (Rect.unit (s := S256x8192) (k0_off10 d0) S32x4096.size (k0_off10_inb d0)).PackedRows (EltTy.packing .bf16)
  k0_off11_inb : ∀ d0 : Dev nD, ∀ a, (k0_off11 d0) a + S32x4096.size a ≤ S256x8192.size a
  k0_off11_packedbf16 : ∀ d0 : Dev nD, (Rect.unit (s := S256x8192) (k0_off11 d0) S32x4096.size (k0_off11_inb d0)).PackedRows (EltTy.packing .bf16)
  k0_off12_inb : ∀ d0 : Dev nD, ∀ a, (k0_off12 d0) a + S32x4096.size a ≤ S256x8192.size a
  k0_off12_packedbf16 : ∀ d0 : Dev nD, (Rect.unit (s := S256x8192) (k0_off12 d0) S32x4096.size (k0_off12_inb d0)).PackedRows (EltTy.packing .bf16)
  k0_off13_inb : ∀ d0 : Dev nD, ∀ a, (k0_off13 d0) a + S32x4096.size a ≤ S256x8192.size a
  k0_off13_packedbf16 : ∀ d0 : Dev nD, (Rect.unit (s := S256x8192) (k0_off13 d0) S32x4096.size (k0_off13_inb d0)).PackedRows (EltTy.packing .bf16)
  k0_off14_inb : ∀ d0 : Dev nD, ∀ a, (k0_off14 d0) a + S32x4096.size a ≤ S256x8192.size a
  k0_off14_packedbf16 : ∀ d0 : Dev nD, (Rect.unit (s := S256x8192) (k0_off14 d0) S32x4096.size (k0_off14_inb d0)).PackedRows (EltTy.packing .bf16)
  k0_off15_inb : ∀ d0 : Dev nD, ∀ a, (k0_off15 d0) a + S32x4096.size a ≤ S256x8192.size a
  k0_off15_packedbf16 : ∀ d0 : Dev nD, (Rect.unit (s := S256x8192) (k0_off15 d0) S32x4096.size (k0_off15_inb d0)).PackedRows (EltTy.packing .bf16)
  k0_off16_inb : ∀ d0 : Dev nD, ∀ a, (k0_off16 d0) a + S32x4096.size a ≤ S256x8192.size a
  k0_off16_packedbf16 : ∀ d0 : Dev nD, (Rect.unit (s := S256x8192) (k0_off16 d0) S32x4096.size (k0_off16_inb d0)).PackedRows (EltTy.packing .bf16)
  hstage0_0 : ∀ j, (stage0_0 j).IsWhole
  hstage0_1 : ∀ j, (stage0_1 j).IsWhole
  hstage0_2 : ∀ j, (stage0_2 j).IsWhole

variable [Facts₀]

abbrev cc0_scratch1 : DmaSems sig S8 := SemArray.consecutive 3 S8 hcc0_scratch1
abbrev cc0_scratch2 : DmaSems sig S8 := SemArray.consecutive 11 S8 hcc0_scratch2
def dot_S32x512_S512x4096_S32x4096_1_0_0_1_n_n : DotDims S32x512 S512x4096 S32x4096 where
  lhsContracting := [1]
  rhsContracting := [0]
  lhsNonContracting := [0]
  rhsNonContracting := [1]
  lhsBatch := []
  rhsBatch := []
  wf := dot_S32x512_S512x4096_S32x4096_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 15
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | .hbm, ⟨14, _⟩ => ⟨S256x8192, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  reducesTo_S256x8192_S256_d1 : S256x8192.ReducesTo [1] S256
  h_S_ : 0 < S_.numel
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  bitsLt_bf16_f32 : FTy.bits .bf16 < FTy.bits .f32
  dot_S256x512_S512x8192_S256x8192_1_0_0_1_n_n_wf : DotDims.WF S256x512 S512x8192 S256x8192 [1] [0] [0] [1] [] []

variable [Facts₀]

def dot_S256x512_S512x8192_S256x8192_1_0_0_1_n_n : DotDims S256x512 S512x8192 S256x8192 where
  lhsContracting := [1]
  rhsContracting := [0]
  lhsNonContracting := [0]
  rhsNonContracting := [1]
  lhsBatch := []
  rhsBatch := []
  wf := dot_S256x512_S512x8192_S256x8192_1_0_0_1_n_n_wf

class Facts : Prop extends Facts₀ where

variable [Facts]
-- ==== Proof.MeshIdeal.lean ====
/-
  The mesh and the pairing of devices.

  The sixteen devices form a 2 × 2 × 4 mesh; device `c` has coordinates `x = c / 8`, `y = (c / 4) % 2`, `z = c % 4`.
  Each device works with the one device that differs from it in the `y` coordinate only: its PEER,
  `8·x + 4·(1 - y) + z`.  Pairing is an involution without fixed points.  Every device id the kernel computes
  (one for its barrier signal, one for each of its eight remote copies) is the peer.
-/
import proofs.«900346_g7700000000000347_dist_arsfmx_v7x_xyz2x2x4_y_t256_d512_v4096_bf16_1_alg».proof.Proof.Gen.KernelIdeal

namespace Cert.KernelIdeal.Mesh

open Idealize.ShloMosaic Cert.KernelIdeal Cert.KernelIdeal.Gen

/-- The `y` coordinate of a device: which half of `W`'s columns it holds. -/
def yOf (c : Dev nD) : Nat := (c.val / 4) % 2

theorem yOf_lt (c : Dev nD) : yOf c < 2 := Nat.mod_lt _ (by decide)

/-- The device that differs from `c` in the `y` coordinate only. -/
def peer (c : Dev nD) : Dev nD :=
  ⟨(8 * (c.val / 8) + (c.val % 4) + 4) - 4 * ((c.val / 4) % 2), by have := c.isLt; simp only [nD] at this ⊢; omega⟩

theorem peer_peer (c : Dev nD) : peer (peer c) = c := by revert c; decide
theorem peer_ne (c : Dev nD) : peer c ≠ c := by revert c; decide
theorem yOf_peer (c : Dev nD) : yOf (peer c) = 1 - yOf c := by revert c; decide

/-- Pairing as a permutation of the devices. -/
def pairing : Dev nD ≃ Dev nD := ⟨peer, peer, peer_peer, peer_peer⟩

/-- Each device id the kernel computes is the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

end Cert.KernelIdeal.Mesh
-- ==== Proof.DataIdeal.lean ====
/-
  What the buffers hold, as pure terms of the launched arrays — stated once, for any float instance.

  Device `c` stages its copy of `x` (256 × 512) and its half of `W`'s columns (512 × 4096).  It cuts the rows of `x`
  into eight chunks of 32.  For chunk `k` it computes the 32 × 4096 block of logits `x[32k .. 32k+32, :] · W_c`,
  narrowed to bf16, and keeps it in rows `32k ..` of slab 0 of a two-slab scratch buffer; the same block is copied to
  rows `32k ..` of slab 1 of its peer's scratch.  So at the end slab 0 of `c`'s scratch holds `c`'s own eight
  blocks and slab 1 the peer's eight.
  For chunk `k` the device then forms, from its own block `a` and the peer's block `b`, the two 32 × 4096 blocks it
  writes to the result: `exp a` and `exp b`, each scaled by the reciprocal of the row sums of both together.  The
  first goes to the column half the device's own `y` names, the second to the other half.
  Each of these values is a composition of the body's printed arithmetic (the generated payload terms), so the
  statements made here hold at the word-level instance and at the exact one alike.
-/
import proofs.«900346_g7700000000000347_dist_arsfmx_v7x_xyz2x2x4_y_t256_d512_v4096_bf16_1_alg».proof.Proof.Gen.KernelIdeal.Skeleton
import proofs.«900346_g7700000000000347_dist_arsfmx_v7x_xyz2x2x4_y_t256_d512_v4096_bf16_1_alg».proof.Proof.MeshIdeal

noncomputable section

namespace Cert.KernelIdeal.Data

open Idealize.ShloMosaic Idealize.ShloMosaic.TcCoe Idealize.SL.Sem
open Cert.KernelIdeal Cert.KernelIdeal.Gen Cert.KernelIdeal.Mesh

variable {F : FTy → Type} [FloatOps F]
variable (m : (ℓ : Loc nD τ sig) → Buf (Elt F) ℓ)

/-- The staged arguments, the staged result and the scratch buffer, each as a whole-buffer memref. -/
abbrev xM : Memref sig .tc .vmem S256x512 .f32 := Memref.whole cc0_stg0_0
abbrev wM : Memref sig .tc .vmem S512x4096 .f32 := Memref.whole cc0_stg1_0
abbrev oM : Memref sig .tc .vmem S256x8192 .bf16 := Memref.whole cc0_stg2_0
abbrev cM : Memref sig .tc .vmem S2x256x4096 .bf16 := Memref.whole cc0_scratch0

/-- Device `c`'s staged copy of `x` and staged half of `W`: the whole-array blocks of the launched arguments. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The rectangle of rows `32k .. 32k+32` of `x`; of slab `s`, rows `32k ..`, of the scratch. -/
def xRect : Fin 8 → Rect S256x512
  | ⟨0, _⟩ => Rect.unit (s := S256x512) ![0, 0] S32x512.size inb_S256x512_S32x512_0_0
  | ⟨1, _⟩ => Rect.unit (s := S256x512) ![32, 0] S32x512.size inb_S256x512_S32x512_32_0
  | ⟨2, _⟩ => Rect.unit (s := S256x512) ![64, 0] S32x512.size inb_S256x512_S32x512_64_0
  | ⟨3, _⟩ => Rect.unit (s := S256x512) ![96, 0] S32x512.size inb_S256x512_S32x512_96_0
  | ⟨4, _⟩ => Rect.unit (s := S256x512) ![128, 0] S32x512.size inb_S256x512_S32x512_128_0
  | ⟨5, _⟩ => Rect.unit (s := S256x512) ![160, 0] S32x512.size inb_S256x512_S32x512_160_0
  | ⟨6, _⟩ => Rect.unit (s := S256x512) ![192, 0] S32x512.size inb_S256x512_S32x512_192_0
  | ⟨7, _⟩ => Rect.unit (s := S256x512) ![224, 0] S32x512.size inb_S256x512_S32x512_224_0
  | ⟨_ + 8, h⟩ => absurd h (Nat.not_lt.2 (Nat.le_add_left _ _))
def c0Rect : Fin 8 → Rect S2x256x4096
  | ⟨0, _⟩ => Rect.unit (s := S2x256x4096) ![0, 0, 0] S1x32x4096.size inb_S2x256x4096_S1x32x4096_0_0_0
  | ⟨1, _⟩ => Rect.unit (s := S2x256x4096) ![0, 32, 0] S1x32x4096.size inb_S2x256x4096_S1x32x4096_0_32_0
  | ⟨2, _⟩ => Rect.unit (s := S2x256x4096) ![0, 64, 0] S1x32x4096.size inb_S2x256x4096_S1x32x4096_0_64_0
  | ⟨3, _⟩ => Rect.unit (s := S2x256x4096) ![0, 96, 0] S1x32x4096.size inb_S2x256x4096_S1x32x4096_0_96_0
  | ⟨4, _⟩ => Rect.unit (s := S2x256x4096) ![0, 128, 0] S1x32x4096.size inb_S2x256x4096_S1x32x4096_0_128_0
  | ⟨5, _⟩ => Rect.unit (s := S2x256x4096) ![0, 160, 0] S1x32x4096.size inb_S2x256x4096_S1x32x4096_0_160_0
  | ⟨6, _⟩ => Rect.unit (s := S2x256x4096) ![0, 192, 0] S1x32x4096.size inb_S2x256x4096_S1x32x4096_0_192_0
  | ⟨7, _⟩ => Rect.unit (s := S2x256x4096) ![0, 224, 0] S1x32x4096.size inb_S2x256x4096_S1x32x4096_0_224_0
  | ⟨_ + 8, h⟩ => absurd h (Nat.not_lt.2 (Nat.le_add_left _ _))
def c1Rect : Fin 8 → Rect S2x256x4096
  | ⟨0, _⟩ => Rect.unit (s := S2x256x4096) ![1, 0, 0] S1x32x4096.size inb_S2x256x4096_S1x32x4096_1_0_0
  | ⟨1, _⟩ => Rect.unit (s := S2x256x4096) ![1, 32, 0] S1x32x4096.size inb_S2x256x4096_S1x32x4096_1_32_0
  | ⟨2, _⟩ => Rect.unit (s := S2x256x4096) ![1, 64, 0] S1x32x4096.size inb_S2x256x4096_S1x32x4096_1_64_0
  | ⟨3, _⟩ => Rect.unit (s := S2x256x4096) ![1, 96, 0] S1x32x4096.size inb_S2x256x4096_S1x32x4096_1_96_0
  | ⟨4, _⟩ => Rect.unit (s := S2x256x4096) ![1, 128, 0] S1x32x4096.size inb_S2x256x4096_S1x32x4096_1_128_0
  | ⟨5, _⟩ => Rect.unit (s := S2x256x4096) ![1, 160, 0] S1x32x4096.size inb_S2x256x4096_S1x32x4096_1_160_0
  | ⟨6, _⟩ => Rect.unit (s := S2x256x4096) ![1, 192, 0] S1x32x4096.size inb_S2x256x4096_S1x32x4096_1_192_0
  | ⟨7, _⟩ => Rect.unit (s := S2x256x4096) ![1, 224, 0] S1x32x4096.size inb_S2x256x4096_S1x32x4096_1_224_0
  | ⟨_ + 8, h⟩ => absurd h (Nat.not_lt.2 (Nat.le_add_left _ _))
abbrev wRect : Rect S512x4096 := Rect.unit (s := S512x4096) ![0, 0] S512x4096.size inb_S512x4096_S512x4096_0_0

/-- What the body's loads of chunk `k` of `x` and of the whole `W` half return on device `c`. -/
def xrows (c : Dev nD) : Fin 8 → Vec F S32x512 .f32
  | ⟨0, _⟩ => (xM).view.readAt (Elt F) (Rect.unit (s := S256x512) ![0, 0] S32x512.size inb_S256x512_S32x512_0_0).toLoadRect (xstg m c)
  | ⟨1, _⟩ => (xM).view.readAt (Elt F) (Rect.unit (s := S256x512) ![32, 0] S32x512.size inb_S256x512_S32x512_32_0).toLoadRect (xstg m c)
  | ⟨2, _⟩ => (xM).view.readAt (Elt F) (Rect.unit (s := S256x512) ![64, 0] S32x512.size inb_S256x512_S32x512_64_0).toLoadRect (xstg m c)
  | ⟨3, _⟩ => (xM).view.readAt (Elt F) (Rect.unit (s := S256x512) ![96, 0] S32x512.size inb_S256x512_S32x512_96_0).toLoadRect (xstg m c)
  | ⟨4, _⟩ => (xM).view.readAt (Elt F) (Rect.unit (s := S256x512) ![128, 0] S32x512.size inb_S256x512_S32x512_128_0).toLoadRect (xstg m c)
  | ⟨5, _⟩ => (xM).view.readAt (Elt F) (Rect.unit (s := S256x512) ![160, 0] S32x512.size inb_S256x512_S32x512_160_0).toLoadRect (xstg m c)
  | ⟨6, _⟩ => (xM).view.readAt (Elt F) (Rect.unit (s := S256x512) ![192, 0] S32x512.size inb_S256x512_S32x512_192_0).toLoadRect (xstg m c)
  | ⟨7, _⟩ => (xM).view.readAt (Elt F) (Rect.unit (s := S256x512) ![224, 0] S32x512.size inb_S256x512_S32x512_224_0).toLoadRect (xstg m c)
  | ⟨_ + 8, h⟩ => absurd h (Nat.not_lt.2 (Nat.le_add_left _ _))
def wload (c : Dev nD) : Vec F S512x4096 .f32 := (wM).view.readAt (Elt F) wRect.toLoadRect (wstg m c)

/-- Chunk `k` of device `c`'s logits, narrowed to bf16, as the body stores it (a 1 × 32 × 4096 block). -/
def lg (c : Dev nD) : Fin 8 → FVec F S1x32x4096 .bf16
  | ⟨0, _⟩ => k0_pay2 (xrows m c 0) (wload m c)
  | ⟨1, _⟩ => k0_pay3 (xrows m c 1) (wload m c)
  | ⟨2, _⟩ => k0_pay4 (xrows m c 2) (wload m c)
  | ⟨3, _⟩ => k0_pay6 (k0_pay5 (xrows m c 3) (wload m c))
  | ⟨4, _⟩ => k0_pay7 (xrows m c 4) (wload m c)
  | ⟨5, _⟩ => k0_pay8 (xrows m c 5) (wload m c)
  | ⟨6, _⟩ => k0_pay9 (xrows m c 6) (wload m c)
  | ⟨7, _⟩ => k0_pay11 (k0_pay10 (xrows m c 7) (wload m c))
  | ⟨_ + 8, h⟩ => absurd h (Nat.not_lt.2 (Nat.le_add_left _ _))

/-- The two blocks chunk `k` writes to the result, from the own block `a` and the peer's block `b` as loaded:
    `own` for the device's own column half, `oth` for the other. -/
def own : Fin 8 → Vec F S1x32x4096 .bf16 → Vec F S1x32x4096 .bf16 → FVec F S32x4096 .bf16
  | ⟨0, _⟩ => fun a b => k0_pay15 (k0_pay12 a) b
  | ⟨1, _⟩ => fun a b => k0_pay22 (k0_pay17 a) (k0_pay19 a) (k0_pay20 b)
  | ⟨2, _⟩ => fun a b => k0_pay27 (k0_pay24 a) b
  | ⟨3, _⟩ => fun a b => k0_pay32 (k0_pay29 a) b
  | ⟨4, _⟩ => fun a b => k0_pay37 (k0_pay34 a) b
  | ⟨5, _⟩ => fun a b => k0_pay42 (k0_pay39 a) b
  | ⟨6, _⟩ => fun a b => k0_pay47 (k0_pay44 a) (k0_pay45 b)
  | ⟨7, _⟩ => fun a b => k0_pay52 (k0_pay49 a) b
  | ⟨_ + 8, h⟩ => absurd h (Nat.not_lt.2 (Nat.le_add_left _ _))
def oth : Fin 8 → Vec F S1x32x4096 .bf16 → Vec F S1x32x4096 .bf16 → FVec F S32x4096 .bf16
  | ⟨0, _⟩ => fun a b => k0_pay16 (k0_pay12 a) b
  | ⟨1, _⟩ => fun a b => k0_pay23 (k0_pay18 b) (k0_pay19 a) (k0_pay20 b)
  | ⟨2, _⟩ => fun a b => k0_pay28 (k0_pay24 a) b
  | ⟨3, _⟩ => fun a b => k0_pay33 (k0_pay30 b) (k0_pay31 (k0_pay29 a) b)
  | ⟨4, _⟩ => fun a b => k0_pay38 (k0_pay34 a) b
  | ⟨5, _⟩ => fun a b => k0_pay43 (k0_pay39 a) b
  | ⟨6, _⟩ => fun a b => k0_pay48 (k0_pay44 a) (k0_pay45 b)
  | ⟨7, _⟩ => fun a b => k0_pay1 (k0_pay50 b) (k0_pay51 (k0_pay49 a) b)
  | ⟨_ + 8, h⟩ => absurd h (Nat.not_lt.2 (Nat.le_add_left _ _))

/-- The chunk a row of the 256 belongs to, and its place inside the chunk. -/
def chunkOf (r : Fin 256) : Fin 8 := ⟨r.val / 32, by omega⟩
def inChunk (r : Fin 256) : Fin 32 := ⟨r.val % 32, Nat.mod_lt _ (by decide)⟩

/-- Index `(0, q, j)` of a 1 × 32 × 4096 block; index `(q, j)` of a 32 × 4096 block. -/
def ix3 (q : Fin 32) (j : Fin 4096) : S1x32x4096.Idx := fun a => match a with
  | ⟨0, _⟩ => ⟨0, Nat.one_pos⟩ | ⟨1, _⟩ => ⟨q.val, q.isLt⟩ | ⟨2, _⟩ => ⟨j.val, j.isLt⟩
def ix2b (q : Fin 32) (j : Fin 4096) : S32x4096.Idx := fun a => match a with
  | ⟨0, _⟩ => ⟨q.val, q.isLt⟩ | ⟨1, _⟩ => ⟨j.val, j.isLt⟩

/-- The whole scratch buffer of device `c` once every copy has landed: slab 0 its own eight blocks, slab 1 its peer's. -/
def commOf (c : Dev nD) : (cc0_scratch0 : Ref sig .tc).ty.Contents (Elt F) := fun i =>
  let r : Fin 256 := ⟨(i 1).val, (i 1).isLt⟩
  let j : Fin 4096 := ⟨(i 2).val, (i 2).isLt⟩
  if (i 0).val = 0 then lg m c (chunkOf r) (ix3 (inChunk r) j) else lg m (peer c) (chunkOf r) (ix3 (inChunk r) j)

/-- What the second loop's loads of chunk `k` return once the copies have landed: the own block and the peer's. -/
def mine (c : Dev nD) : Fin 8 → Vec F S1x32x4096 .bf16
  | ⟨0, _⟩ => (cM).view.readAt (Elt F) (Rect.unit (s := S2x256x4096) ![0, 0, 0] S1x32x4096.size inb_S2x256x4096_S1x32x4096_0_0_0).toLoadRect (commOf m c)
  | ⟨1, _⟩ => (cM).view.readAt (Elt F) (Rect.unit (s := S2x256x4096) ![0, 32, 0] S1x32x4096.size inb_S2x256x4096_S1x32x4096_0_32_0).toLoadRect (commOf m c)
  | ⟨2, _⟩ => (cM).view.readAt (Elt F) (Rect.unit (s := S2x256x4096) ![0, 64, 0] S1x32x4096.size inb_S2x256x4096_S1x32x4096_0_64_0).toLoadRect (commOf m c)
  | ⟨3, _⟩ => (cM).view.readAt (Elt F) (Rect.unit (s := S2x256x4096) ![0, 96, 0] S1x32x4096.size inb_S2x256x4096_S1x32x4096_0_96_0).toLoadRect (commOf m c)
  | ⟨4, _⟩ => (cM).view.readAt (Elt F) (Rect.unit (s := S2x256x4096) ![0, 128, 0] S1x32x4096.size inb_S2x256x4096_S1x32x4096_0_128_0).toLoadRect (commOf m c)
  | ⟨5, _⟩ => (cM).view.readAt (Elt F) (Rect.unit (s := S2x256x4096) ![0, 160, 0] S1x32x4096.size inb_S2x256x4096_S1x32x4096_0_160_0).toLoadRect (commOf m c)
  | ⟨6, _⟩ => (cM).view.readAt (Elt F) (Rect.unit (s := S2x256x4096) ![0, 192, 0] S1x32x4096.size inb_S2x256x4096_S1x32x4096_0_192_0).toLoadRect (commOf m c)
  | ⟨7, _⟩ => (cM).view.readAt (Elt F) (Rect.unit (s := S2x256x4096) ![0, 224, 0] S1x32x4096.size inb_S2x256x4096_S1x32x4096_0_224_0).toLoadRect (commOf m c)
  | ⟨_ + 8, h⟩ => absurd h (Nat.not_lt.2 (Nat.le_add_left _ _))
def theirs (c : Dev nD) : Fin 8 → Vec F S1x32x4096 .bf16
  | ⟨0, _⟩ => (cM).view.readAt (Elt F) (Rect.unit (s := S2x256x4096) ![1, 0, 0] S1x32x4096.size inb_S2x256x4096_S1x32x4096_1_0_0).toLoadRect (commOf m c)
  | ⟨1, _⟩ => (cM).view.readAt (Elt F) (Rect.unit (s := S2x256x4096) ![1, 32, 0] S1x32x4096.size inb_S2x256x4096_S1x32x4096_1_32_0).toLoadRect (commOf m c)
  | ⟨2, _⟩ => (cM).view.readAt (Elt F) (Rect.unit (s := S2x256x4096) ![1, 64, 0] S1x32x4096.size inb_S2x256x4096_S1x32x4096_1_64_0).toLoadRect (commOf m c)
  | ⟨3, _⟩ => (cM).view.readAt (Elt F) (Rect.unit (s := S2x256x4096) ![1, 96, 0] S1x32x4096.size inb_S2x256x4096_S1x32x4096_1_96_0).toLoadRect (commOf m c)
  | ⟨4, _⟩ => (cM).view.readAt (Elt F) (Rect.unit (s := S2x256x4096) ![1, 128, 0] S1x32x4096.size inb_S2x256x4096_S1x32x4096_1_128_0).toLoadRect (commOf m c)
  | ⟨5, _⟩ => (cM).view.readAt (Elt F) (Rect.unit (s := S2x256x4096) ![1, 160, 0] S1x32x4096.size inb_S2x256x4096_S1x32x4096_1_160_0).toLoadRect (commOf m c)
  | ⟨6, _⟩ => (cM).view.readAt (Elt F) (Rect.unit (s := S2x256x4096) ![1, 192, 0] S1x32x4096.size inb_S2x256x4096_S1x32x4096_1_192_0).toLoadRect (commOf m c)
  | ⟨7, _⟩ => (cM).view.readAt (Elt F) (Rect.unit (s := S2x256x4096) ![1, 224, 0] S1x32x4096.size inb_S2x256x4096_S1x32x4096_1_224_0).toLoadRect (commOf m c)
  | ⟨_ + 8, h⟩ => absurd h (Nat.not_lt.2 (Nat.le_add_left _ _))

/-- The whole staged result of device `c` after the body: row `r`, column `j` comes from chunk `r / 32`; the
    column half `j / 4096` equal to the device's `y` takes the own block, the other half the peer's. -/
def outOf (c : Dev nD) : (cc0_stg2_0 : Ref sig .tc).ty.Contents (Elt F) := fun i =>
  let r : Fin 256 := ⟨(i 0).val, (i 0).isLt⟩
  let jj : Fin 4096 := ⟨(i 1).val % 4096, Nat.mod_lt _ (by decide)⟩
  if (i 1).val / 4096 = yOf c then own (chunkOf r) (mine m c (chunkOf r)) (theirs m c (chunkOf r)) (ix2b (inChunk r) jj)
  else oth (chunkOf r) (mine m c (chunkOf r)) (theirs m c (chunkOf r)) (ix2b (inChunk r) jj)

end Cert.KernelIdeal.Data

end
-- ==== Proof.SchedIdeal.lean ====
/-
  The protocol between a device and its peer, as cells, duties and payloads.

  Each device has seventeen cells.  Its BARRIER cell (the runtime's barrier semaphore) has one duty: the peer's
  entry signal, one unit, which hands the device the peer's slab 1 of the scratch buffer — the eight row blocks the
  device's copies will land in — together with the knowledge that the peer's eight receive cells are at their first
  round.  Send cell `k` has one duty, paid on the device itself when its copy `k` has read its source: it returns the
  share of rows `32k ..` of slab 0 lent to the copy.  Receive cell `k` has one duty, paid by the PEER's copy `k` when
  it has written rows `32k ..` of the device's slab 1: it hands over those rows holding the peer's block `k`.
  A device owes, at launch, one unit to its peer's barrier cell and the eight copies' credit to its peer's receive
  cells; barrier cells sit below receive cells in the order of waiting, so a device that waits on its barrier while
  still owing its copies cannot be part of a cycle.
-/
import proofs.«900346_g7700000000000347_dist_arsfmx_v7x_xyz2x2x4_y_t256_d512_v4096_bf16_1_alg».proof.Proof.DataIdeal
import Idealize.ShloMosaic.Lib.Pipeline.Launch
import Idealize.ShloMosaic.Lib.Pipeline.Kit
import Idealize.ShloMosaic.Lib.Tactic

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the staging pipeline's and the pairing protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Semaphores, cells and the row blocks of the scratch buffer -/

/-- The runtime's barrier semaphore; the send and the receive semaphore of chunk `k`. -/
abbrev barS : Sem sig := (SemArray.scalar (sig.barrier 0 rfl) : Sems sig S_).sem
def sendS : Fin 8 → DmaSem sig
  | ⟨0, _⟩ => ((cc0_scratch1.slice (Rect.unit (s := S8) ![0] S1.size inb_S8_S1_0)).squeeze S_ squeezes_S1_S_).sem
  | ⟨1, _⟩ => ((cc0_scratch1.slice (Rect.unit (s := S8) ![1] S1.size inb_S8_S1_1)).squeeze S_ squeezes_S1_S_).sem
  | ⟨2, _⟩ => ((cc0_scratch1.slice (Rect.unit (s := S8) ![2] S1.size inb_S8_S1_2)).squeeze S_ squeezes_S1_S_).sem
  | ⟨3, _⟩ => ((cc0_scratch1.slice (Rect.unit (s := S8) ![3] S1.size inb_S8_S1_3)).squeeze S_ squeezes_S1_S_).sem
  | ⟨4, _⟩ => ((cc0_scratch1.slice (Rect.unit (s := S8) ![4] S1.size inb_S8_S1_4)).squeeze S_ squeezes_S1_S_).sem
  | ⟨5, _⟩ => ((cc0_scratch1.slice (Rect.unit (s := S8) ![5] S1.size inb_S8_S1_5)).squeeze S_ squeezes_S1_S_).sem
  | ⟨6, _⟩ => ((cc0_scratch1.slice (Rect.unit (s := S8) ![6] S1.size inb_S8_S1_6)).squeeze S_ squeezes_S1_S_).sem
  | ⟨7, _⟩ => ((cc0_scratch1.slice (Rect.unit (s := S8) ![7] S1.size inb_S8_S1_7)).squeeze S_ squeezes_S1_S_).sem
  | ⟨_ + 8, h⟩ => absurd h (Nat.not_lt.2 (Nat.le_add_left _ _))
def recvS : Fin 8 → DmaSem sig
  | ⟨0, _⟩ => ((cc0_scratch2.slice (Rect.unit (s := S8) ![0] S1.size inb_S8_S1_0)).squeeze S_ squeezes_S1_S_).sem
  | ⟨1, _⟩ => ((cc0_scratch2.slice (Rect.unit (s := S8) ![1] S1.size inb_S8_S1_1)).squeeze S_ squeezes_S1_S_).sem
  | ⟨2, _⟩ => ((cc0_scratch2.slice (Rect.unit (s := S8) ![2] S1.size inb_S8_S1_2)).squeeze S_ squeezes_S1_S_).sem
  | ⟨3, _⟩ => ((cc0_scratch2.slice (Rect.unit (s := S8) ![3] S1.size inb_S8_S1_3)).squeeze S_ squeezes_S1_S_).sem
  | ⟨4, _⟩ => ((cc0_scratch2.slice (Rect.unit (s := S8) ![4] S1.size inb_S8_S1_4)).squeeze S_ squeezes_S1_S_).sem
  | ⟨5, _⟩ => ((cc0_scratch2.slice (Rect.unit (s := S8) ![5] S1.size inb_S8_S1_5)).squeeze S_ squeezes_S1_S_).sem
  | ⟨6, _⟩ => ((cc0_scratch2.slice (Rect.unit (s := S8) ![6] S1.size inb_S8_S1_6)).squeeze S_ squeezes_S1_S_).sem
  | ⟨7, _⟩ => ((cc0_scratch2.slice (Rect.unit (s := S8) ![7] S1.size inb_S8_S1_7)).squeeze S_ squeezes_S1_S_).sem
  | ⟨_ + 8, h⟩ => absurd h (Nat.not_lt.2 (Nat.le_add_left _ _))

theorem sendS_val (k : Fin 8) : (sendS k).val = 3 + k.val := by revert k; decide
theorem recvS_val (k : Fin 8) : (recvS k).val = 11 + k.val := by revert k; decide

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- Rows `32k ..` of slab 0 (a copy's source) and of slab 1 (a copy's destination), as 32 × 4096 memrefs. -/
def srcM : Fin 8 → Memref sig .tc .vmem S32x4096 .bf16
  | ⟨0, _⟩ => ((cM).slice (Rect.unit (s := S2x256x4096) ![0, 0, 0] S1x32x4096.size inb_S2x256x4096_S1x32x4096_0_0_0) (fun _ => rfl)).squeeze S32x4096 squeezes_S1x32x4096_S32x4096
  | ⟨1, _⟩ => ((cM).slice (Rect.unit (s := S2x256x4096) ![0, 32, 0] S1x32x4096.size inb_S2x256x4096_S1x32x4096_0_32_0) (fun _ => rfl)).squeeze S32x4096 squeezes_S1x32x4096_S32x4096
  | ⟨2, _⟩ => ((cM).slice (Rect.unit (s := S2x256x4096) ![0, 64, 0] S1x32x4096.size inb_S2x256x4096_S1x32x4096_0_64_0) (fun _ => rfl)).squeeze S32x4096 squeezes_S1x32x4096_S32x4096
  | ⟨3, _⟩ => ((cM).slice (Rect.unit (s := S2x256x4096) ![0, 96, 0] S1x32x4096.size inb_S2x256x4096_S1x32x4096_0_96_0) (fun _ => rfl)).squeeze S32x4096 squeezes_S1x32x4096_S32x4096
  | ⟨4, _⟩ => ((cM).slice (Rect.unit (s := S2x256x4096) ![0, 128, 0] S1x32x4096.size inb_S2x256x4096_S1x32x4096_0_128_0) (fun _ => rfl)).squeeze S32x4096 squeezes_S1x32x4096_S32x4096
  | ⟨5, _⟩ => ((cM).slice (Rect.unit (s := S2x256x4096) ![0, 160, 0] S1x32x4096.size inb_S2x256x4096_S1x32x4096_0_160_0) (fun _ => rfl)).squeeze S32x4096 squeezes_S1x32x4096_S32x4096
  | ⟨6, _⟩ => ((cM).slice (Rect.unit (s := S2x256x4096) ![0, 192, 0] S1x32x4096.size inb_S2x256x4096_S1x32x4096_0_192_0) (fun _ => rfl)).squeeze S32x4096 squeezes_S1x32x4096_S32x4096
  | ⟨7, _⟩ => ((cM).slice (Rect.unit (s := S2x256x4096) ![0, 224, 0] S1x32x4096.size inb_S2x256x4096_S1x32x4096_0_224_0) (fun _ => rfl)).squeeze S32x4096 squeezes_S1x32x4096_S32x4096
  | ⟨_ + 8, h⟩ => absurd h (Nat.not_lt.2 (Nat.le_add_left _ _))
def dstM : Fin 8 → Memref sig .tc .vmem S32x4096 .bf16
  | ⟨0, _⟩ => ((cM).slice (Rect.unit (s := S2x256x4096) ![1, 0, 0] S1x32x4096.size inb_S2x256x4096_S1x32x4096_1_0_0) (fun _ => rfl)).squeeze S32x4096 squeezes_S1x32x4096_S32x4096
  | ⟨1, _⟩ => ((cM).slice (Rect.unit (s := S2x256x4096) ![1, 32, 0] S1x32x4096.size inb_S2x256x4096_S1x32x4096_1_32_0) (fun _ => rfl)).squeeze S32x4096 squeezes_S1x32x4096_S32x4096
  | ⟨2, _⟩ => ((cM).slice (Rect.unit (s := S2x256x4096) ![1, 64, 0] S1x32x4096.size inb_S2x256x4096_S1x32x4096_1_64_0) (fun _ => rfl)).squeeze S32x4096 squeezes_S1x32x4096_S32x4096
  | ⟨3, _⟩ => ((cM).slice (Rect.unit (s := S2x256x4096) ![1, 96, 0] S1x32x4096.size inb_S2x256x4096_S1x32x4096_1_96_0) (fun _ => rfl)).squeeze S32x4096 squeezes_S1x32x4096_S32x4096
  | ⟨4, _⟩ => ((cM).slice (Rect.unit (s := S2x256x4096) ![1, 128, 0] S1x32x4096.size inb_S2x256x4096_S1x32x4096_1_128_0) (fun _ => rfl)).squeeze S32x4096 squeezes_S1x32x4096_S32x4096
  | ⟨5, _⟩ => ((cM).slice (Rect.unit (s := S2x256x4096) ![1, 160, 0] S1x32x4096.size inb_S2x256x4096_S1x32x4096_1_160_0) (fun _ => rfl)).squeeze S32x4096 squeezes_S1x32x4096_S32x4096
  | ⟨6, _⟩ => ((cM).slice (Rect.unit (s := S2x256x4096) ![1, 192, 0] S1x32x4096.size inb_S2x256x4096_S1x32x4096_1_192_0) (fun _ => rfl)).squeeze S32x4096 squeezes_S1x32x4096_S32x4096
  | ⟨7, _⟩ => ((cM).slice (Rect.unit (s := S2x256x4096) ![1, 224, 0] S1x32x4096.size inb_S2x256x4096_S1x32x4096_1_224_0) (fun _ => rfl)).squeeze S32x4096 squeezes_S1x32x4096_S32x4096
  | ⟨_ + 8, h⟩ => absurd h (Nat.not_lt.2 (Nat.le_add_left _ _))

/-- The credit one copy pays on each of its two cells: the same for every chunk. -/
abbrev N : ℕ := (dstM 0).view.dmaCredit
theorem N_pos : 0 < N := View.dmaCredit_pos _ (by decide)
theorem dst_credit (k : Fin 8) : (dstM k).view.dmaCredit = N := by revert k; decide

/-! ## What the cells hand over -/

/-- Rows `32k ..` of slab 1 of device `c`'s scratch, at some contents `f`, owned outright: what a copy into them needs. -/
def dstPts (c : Dev nD) : Fin 8 → (cc0_scratch0 : Ref sig .tc).ty.Contents (Elt F) → sProp 𝕄
  | ⟨0, _⟩ => fun f => ((((cM).slice (Rect.unit (s := S2x256x4096) ![1, 0, 0] S1x32x4096.size inb_S2x256x4096_S1x32x4096_1_0_0) (fun _ => rfl)).squeeze S32x4096 squeezes_S1x32x4096_S32x4096).view.loc (c : Thread nD τ) ↦[(((cM).slice (Rect.unit (s := S2x256x4096) ![1, 0, 0] S1x32x4096.size inb_S2x256x4096_S1x32x4096_1_0_0) (fun _ => rfl)).squeeze S32x4096 squeezes_S1x32x4096_S32x4096).view.set]{fullShare} f : sProp 𝕄)
  | ⟨1, _⟩ => fun f => ((((cM).slice (Rect.unit (s := S2x256x4096) ![1, 32, 0] S1x32x4096.size inb_S2x256x4096_S1x32x4096_1_32_0) (fun _ => rfl)).squeeze S32x4096 squeezes_S1x32x4096_S32x4096).view.loc (c : Thread nD τ) ↦[(((cM).slice (Rect.unit (s := S2x256x4096) ![1, 32, 0] S1x32x4096.size inb_S2x256x4096_S1x32x4096_1_32_0) (fun _ => rfl)).squeeze S32x4096 squeezes_S1x32x4096_S32x4096).view.set]{fullShare} f : sProp 𝕄)
  | ⟨2, _⟩ => fun f => ((((cM).slice (Rect.unit (s := S2x256x4096) ![1, 64, 0] S1x32x4096.size inb_S2x256x4096_S1x32x4096_1_64_0) (fun _ => rfl)).squeeze S32x4096 squeezes_S1x32x4096_S32x4096).view.loc (c : Thread nD τ) ↦[(((cM).slice (Rect.unit (s := S2x256x4096) ![1, 64, 0] S1x32x4096.size inb_S2x256x4096_S1x32x4096_1_64_0) (fun _ => rfl)).squeeze S32x4096 squeezes_S1x32x4096_S32x4096).view.set]{fullShare} f : sProp 𝕄)
  | ⟨3, _⟩ => fun f => ((((cM).slice (Rect.unit (s := S2x256x4096) ![1, 96, 0] S1x32x4096.size inb_S2x256x4096_S1x32x4096_1_96_0) (fun _ => rfl)).squeeze S32x4096 squeezes_S1x32x4096_S32x4096).view.loc (c : Thread nD τ) ↦[(((cM).slice (Rect.unit (s := S2x256x4096) ![1, 96, 0] S1x32x4096.size inb_S2x256x4096_S1x32x4096_1_96_0) (fun _ => rfl)).squeeze S32x4096 squeezes_S1x32x4096_S32x4096).view.set]{fullShare} f : sProp 𝕄)
  | ⟨4, _⟩ => fun f => ((((cM).slice (Rect.unit (s := S2x256x4096) ![1, 128, 0] S1x32x4096.size inb_S2x256x4096_S1x32x4096_1_128_0) (fun _ => rfl)).squeeze S32x4096 squeezes_S1x32x4096_S32x4096).view.loc (c : Thread nD τ) ↦[(((cM).slice (Rect.unit (s := S2x256x4096) ![1, 128, 0] S1x32x4096.size inb_S2x256x4096_S1x32x4096_1_128_0) (fun _ => rfl)).squeeze S32x4096 squeezes_S1x32x4096_S32x4096).view.set]{fullShare} f : sProp 𝕄)
  | ⟨5, _⟩ => fun f => ((((cM).slice (Rect.unit (s := S2x256x4096) ![1, 160, 0] S1x32x4096.size inb_S2x256x4096_S1x32x4096_1_160_0) (fun _ => rfl)).squeeze S32x4096 squeezes_S1x32x4096_S32x4096).view.loc (c : Thread nD τ) ↦[(((cM).slice (Rect.unit (s := S2x256x4096) ![1, 160, 0] S1x32x4096.size inb_S2x256x4096_S1x32x4096_1_160_0) (fun _ => rfl)).squeeze S32x4096 squeezes_S1x32x4096_S32x4096).view.set]{fullShare} f : sProp 𝕄)
  | ⟨6, _⟩ => fun f => ((((cM).slice (Rect.unit (s := S2x256x4096) ![1, 192, 0] S1x32x4096.size inb_S2x256x4096_S1x32x4096_1_192_0) (fun _ => rfl)).squeeze S32x4096 squeezes_S1x32x4096_S32x4096).view.loc (c : Thread nD τ) ↦[(((cM).slice (Rect.unit (s := S2x256x4096) ![1, 192, 0] S1x32x4096.size inb_S2x256x4096_S1x32x4096_1_192_0) (fun _ => rfl)).squeeze S32x4096 squeezes_S1x32x4096_S32x4096).view.set]{fullShare} f : sProp 𝕄)
  | ⟨7, _⟩ => fun f => ((((cM).slice (Rect.unit (s := S2x256x4096) ![1, 224, 0] S1x32x4096.size inb_S2x256x4096_S1x32x4096_1_224_0) (fun _ => rfl)).squeeze S32x4096 squeezes_S1x32x4096_S32x4096).view.loc (c : Thread nD τ) ↦[(((cM).slice (Rect.unit (s := S2x256x4096) ![1, 224, 0] S1x32x4096.size inb_S2x256x4096_S1x32x4096_1_224_0) (fun _ => rfl)).squeeze S32x4096 squeezes_S1x32x4096_S32x4096).view.set]{fullShare} f : sProp 𝕄)
  | ⟨_ + 8, h⟩ => absurd h (Nat.not_lt.2 (Nat.le_add_left _ _))
/-- Rows `32k ..` of slab 0 of device `c`'s scratch holding its own block `k`, at the share `q`. -/
def srcPts (c : Dev nD) : Fin 8 → PosShare TreeShare → sProp 𝕄
  | ⟨0, _⟩ => fun q => ((((cM).slice (Rect.unit (s := S2x256x4096) ![0, 0, 0] S1x32x4096.size inb_S2x256x4096_S1x32x4096_0_0_0) (fun _ => rfl)).squeeze S32x4096 squeezes_S1x32x4096_S32x4096).view.loc (c : Thread nD τ) ↦[(((cM).slice (Rect.unit (s := S2x256x4096) ![0, 0, 0] S1x32x4096.size inb_S2x256x4096_S1x32x4096_0_0_0) (fun _ => rfl)).squeeze S32x4096 squeezes_S1x32x4096_S32x4096).view.set]{q} commOf m c : sProp 𝕄)
  | ⟨1, _⟩ => fun q => ((((cM).slice (Rect.unit (s := S2x256x4096) ![0, 32, 0] S1x32x4096.size inb_S2x256x4096_S1x32x4096_0_32_0) (fun _ => rfl)).squeeze S32x4096 squeezes_S1x32x4096_S32x4096).view.loc (c : Thread nD τ) ↦[(((cM).slice (Rect.unit (s := S2x256x4096) ![0, 32, 0] S1x32x4096.size inb_S2x256x4096_S1x32x4096_0_32_0) (fun _ => rfl)).squeeze S32x4096 squeezes_S1x32x4096_S32x4096).view.set]{q} commOf m c : sProp 𝕄)
  | ⟨2, _⟩ => fun q => ((((cM).slice (Rect.unit (s := S2x256x4096) ![0, 64, 0] S1x32x4096.size inb_S2x256x4096_S1x32x4096_0_64_0) (fun _ => rfl)).squeeze S32x4096 squeezes_S1x32x4096_S32x4096).view.loc (c : Thread nD τ) ↦[(((cM).slice (Rect.unit (s := S2x256x4096) ![0, 64, 0] S1x32x4096.size inb_S2x256x4096_S1x32x4096_0_64_0) (fun _ => rfl)).squeeze S32x4096 squeezes_S1x32x4096_S32x4096).view.set]{q} commOf m c : sProp 𝕄)
  | ⟨3, _⟩ => fun q => ((((cM).slice (Rect.unit (s := S2x256x4096) ![0, 96, 0] S1x32x4096.size inb_S2x256x4096_S1x32x4096_0_96_0) (fun _ => rfl)).squeeze S32x4096 squeezes_S1x32x4096_S32x4096).view.loc (c : Thread nD τ) ↦[(((cM).slice (Rect.unit (s := S2x256x4096) ![0, 96, 0] S1x32x4096.size inb_S2x256x4096_S1x32x4096_0_96_0) (fun _ => rfl)).squeeze S32x4096 squeezes_S1x32x4096_S32x4096).view.set]{q} commOf m c : sProp 𝕄)
  | ⟨4, _⟩ => fun q => ((((cM).slice (Rect.unit (s := S2x256x4096) ![0, 128, 0] S1x32x4096.size inb_S2x256x4096_S1x32x4096_0_128_0) (fun _ => rfl)).squeeze S32x4096 squeezes_S1x32x4096_S32x4096).view.loc (c : Thread nD τ) ↦[(((cM).slice (Rect.unit (s := S2x256x4096) ![0, 128, 0] S1x32x4096.size inb_S2x256x4096_S1x32x4096_0_128_0) (fun _ => rfl)).squeeze S32x4096 squeezes_S1x32x4096_S32x4096).view.set]{q} commOf m c : sProp 𝕄)
  | ⟨5, _⟩ => fun q => ((((cM).slice (Rect.unit (s := S2x256x4096) ![0, 160, 0] S1x32x4096.size inb_S2x256x4096_S1x32x4096_0_160_0) (fun _ => rfl)).squeeze S32x4096 squeezes_S1x32x4096_S32x4096).view.loc (c : Thread nD τ) ↦[(((cM).slice (Rect.unit (s := S2x256x4096) ![0, 160, 0] S1x32x4096.size inb_S2x256x4096_S1x32x4096_0_160_0) (fun _ => rfl)).squeeze S32x4096 squeezes_S1x32x4096_S32x4096).view.set]{q} commOf m c : sProp 𝕄)
  | ⟨6, _⟩ => fun q => ((((cM).slice (Rect.unit (s := S2x256x4096) ![0, 192, 0] S1x32x4096.size inb_S2x256x4096_S1x32x4096_0_192_0) (fun _ => rfl)).squeeze S32x4096 squeezes_S1x32x4096_S32x4096).view.loc (c : Thread nD τ) ↦[(((cM).slice (Rect.unit (s := S2x256x4096) ![0, 192, 0] S1x32x4096.size inb_S2x256x4096_S1x32x4096_0_192_0) (fun _ => rfl)).squeeze S32x4096 squeezes_S1x32x4096_S32x4096).view.set]{q} commOf m c : sProp 𝕄)
  | ⟨7, _⟩ => fun q => ((((cM).slice (Rect.unit (s := S2x256x4096) ![0, 224, 0] S1x32x4096.size inb_S2x256x4096_S1x32x4096_0_224_0) (fun _ => rfl)).squeeze S32x4096 squeezes_S1x32x4096_S32x4096).view.loc (c : Thread nD τ) ↦[(((cM).slice (Rect.unit (s := S2x256x4096) ![0, 224, 0] S1x32x4096.size inb_S2x256x4096_S1x32x4096_0_224_0) (fun _ => rfl)).squeeze S32x4096 squeezes_S1x32x4096_S32x4096).view.set]{q} commOf m c : sProp 𝕄)
  | ⟨_ + 8, h⟩ => absurd h (Nat.not_lt.2 (Nat.le_add_left _ _))

/-- The peer's entry signal hands device `c` the peer's eight destination row blocks, at whatever they hold, and that
    each of the peer's receive cells is at its first round. -/
def barPay (c : Dev nD) : sProp 𝕄 :=
  iprop((∃ f, dstPts (F := F) (peer c) 0 f) ∗ reached ER (recvCell (peer c) 0) 0
    ∗ (∃ f, dstPts (F := F) (peer c) 1 f) ∗ reached ER (recvCell (peer c) 1) 0
    ∗ (∃ f, dstPts (F := F) (peer c) 2 f) ∗ reached ER (recvCell (peer c) 2) 0
    ∗ (∃ f, dstPts (F := F) (peer c) 3 f) ∗ reached ER (recvCell (peer c) 3) 0
    ∗ (∃ f, dstPts (F := F) (peer c) 4 f) ∗ reached ER (recvCell (peer c) 4) 0
    ∗ (∃ f, dstPts (F := F) (peer c) 5 f) ∗ reached ER (recvCell (peer c) 5) 0
    ∗ (∃ f, dstPts (F := F) (peer c) 6 f) ∗ reached ER (recvCell (peer c) 6) 0
    ∗ (∃ f, dstPts (F := F) (peer c) 7 f) ∗ reached ER (recvCell (peer c) 7) 0)
/-- Copy `k` having read its source returns the half share of the source rows it was lent. -/
def sendPay (c : Dev nD) (k : Fin 8) : sProp 𝕄 := srcPts m c k fullShare.left
/-- The peer's copy `k` having landed hands device `c` rows `32k ..` of its slab 1 holding the peer's block `k`. -/
def recvPay (c : Dev nD) (k : Fin 8) : sProp 𝕄 := dstPts c k (commOf m c)

/-- Which chunk a send or receive semaphore belongs to (its position in its array of eight). -/
def chunkS (s : DmaSem sig) : Fin 8 := ⟨(s.val + 5) % 8, Nat.mod_lt _ (by decide)⟩
theorem chunkS_send (k : Fin 8) : chunkS (sendS k) = k := by revert k; decide
theorem chunkS_recv (k : Fin 8) : chunkS (recvS k) = k := by revert k; decide

/-- One round: a barrier cell has one duty of one unit; a send or a receive cell one duty of a copy's credit. The
    staging semaphores (values below 3) are not the protocol's. -/
def pairRd : Rounds.Schedule (GSem nD τ sig) Unit 𝕄 where
  duties g r := if r = 0 ∧ g.1.2 = .tc then (match g.2 with | .reg _ => {()} | .dma s => if 3 ≤ s.val then {()} else ∅) else ∅
  amount g _ _ := match g.2 with | .reg _ => 1 | .dma _ => N
  payload g _ _ := match g.2 with
    | .reg _ => barPay g.1.1
    | .dma s => if s.val < 3 then iprop(emp) else if s.val < 11 then sendPay m g.1.1 (chunkS s) else recvPay m g.1.1 (chunkS s)
  amount_pos g _ _ _ := by
    cases hg : g.2 with
    | reg _ => simp only [hg]; exact Nat.one_pos
    | dma _ => simp only [hg]; exact N_pos

end Cert.KernelIdeal.Sched

end
-- ==== Proof.LevelsIdeal.lean ====
/-
  What a device owes at launch, and the order in which cells may be waited on.

  Device `c` owes its peer nine things: the credit of each of its eight copies, on the peer's eight receive cells, and
  one unit on the peer's barrier cell.  Cells are ranked: a staging or a send cell at 0, a barrier cell at 1, a receive
  cell at 2.  A device may wait on a cell only while everything it still owes is ranked strictly higher.  It waits on
  its staging cells owing everything (all ranked at least 1); on its barrier cell owing only the eight copies (ranked
  2); on its send and receive cells owing nothing.  A cycle of devices each waiting for the next would need ranks that
  increase around the cycle, so there is none.
-/
import proofs.«900346_g7700000000000347_dist_arsfmx_v7x_xyz2x2x4_y_t256_d512_v4096_bf16_1_alg».proof.Proof.SchedIdeal

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The eight copies' credit, owed to the peer's receive cells — summed with the first chunk's last, since the copies are paid in the order of the chunks and each payment takes the last summand off —; with the peer's barrier unit, everything owed at launch. -/
def Orecv (c : Dev nD) : CellTallies nD τ sig Unit := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N
def O₀ (c : Dev nD) : CellTallies nD τ sig Unit := Orecv c + tallyAt (barCell (peer c)) () 1

/-- Every TensorCore cell is ranked (at the one index); a barrier cell at 1, a receive cell at 2, the others at 0. -/
def L (g : GSem nD τ sig) : Finset Unit := if g.1.2 = .tc then {()} else ∅
def lv (g : GSem nD τ sig) (_ : Unit) : ℕ := match g.2 with | .reg _ => 1 | .dma s => if 11 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 8) (u : Unit) : lv (recvCell c k) u = 2 := by
  show (if 11 ≤ (recvS k).val then 2 else 0) = 2
  rw [recvS_val, if_pos (by omega)]
theorem lv_send (c : Dev nD) (k : Fin 8) (u : Unit) : lv (sendCell c k) u = 0 := by
  show (if 11 ≤ (sendS k).val then 2 else 0) = 0
  rw [sendS_val, if_neg (by have := k.isLt; omega)]
theorem lv_stage (c : Dev nD) (q : DmaSem sig) (hq : q.val < 3) (u : Unit) : lv ((c : Thread nD τ), .dma q) u = 0 := by
  show (if 11 ≤ q.val then 2 else 0) = 0
  rw [if_neg (by omega)]

/-- Everything `O` owes is ranked, strictly above `b`. -/
def Above (b : ℕ) (O : CellTallies nD τ sig Unit) : Prop := ∀ (g : GSem nD τ sig) (i : Unit), 0 < O g i → i ∈ L g ∧ b < lv g i

theorem Above.zero (b : ℕ) : Above b 0 := fun g i h => absurd h (Nat.lt_irrefl 0)
theorem Above.add {b : ℕ} {O₁ O₂ : CellTallies nD τ sig Unit} (h₁ : Above b O₁) (h₂ : Above b O₂) : Above b (O₁ + O₂) :=
  fun g i h => (Pipeline.add_pos_cases h).elim (h₁ g i) (h₂ g i)
theorem Above.mono {b b' : ℕ} {O : CellTallies nD τ sig Unit} (hb : b' ≤ b) (h : Above b O) : Above b' O :=
  fun g i hg => ⟨(h g i hg).1, Nat.lt_of_le_of_lt hb (h g i hg).2⟩
theorem Above.tally {b : ℕ} (g₀ : GSem nD τ sig) (n : ℕ) (hL : () ∈ L g₀) (hb : b < lv g₀ ()) : Above b (tallyAt g₀ () n) := fun g i h => by
  rw [tallyAt_apply] at h
  by_cases hh : g = g₀ ∧ i = ()
  · rw [hh.1]; exact ⟨hL, hb⟩
  · rw [if_neg hh] at h; exact absurd h (Nat.lt_irrefl 0)

theorem above_recv (c : Dev nD) (k : Fin 8) : Above 1 (tallyAt (recvCell c k) () N) :=
  Above.tally _ _ (by rw [L_tc]; exact Finset.mem_singleton_self _) (by rw [lv_recv]; decide)
theorem above_bar (c : Dev nD) : Above 0 (tallyAt (barCell c) () 1) :=
  Above.tally _ _ (by rw [L_tc]; exact Finset.mem_singleton_self _) (by rw [lv_bar]; decide)
theorem above_Orecv (c : Dev nD) : Above 1 (Orecv c) := by
  unfold Orecv
  exact ((((((((above_recv (peer c) 7).add (above_recv (peer c) 6)).add (above_recv (peer c) 5)).add (above_recv (peer c) 4)).add (above_recv (peer c) 3)).add (above_recv (peer c) 2)).add (above_recv (peer c) 1)).add (above_recv (peer c) 0))
theorem above_O₀ (c : Dev nD) : Above 0 (O₀ c) := ((above_Orecv c).mono (Nat.zero_le _)).add (above_bar (peer c))

/-- A wait on a cell ranked at most `b` is allowed while everything owed is ranked above `b`. -/
theorem mayWait_of_above (c : Dev nD) (s : SemLoc sig) {b : ℕ} {O : CellTallies nD τ sig Unit}
    (hs : lv ((c : Thread nD τ), s) () ≤ b) (h : Above b O) :
    (levAts L lv : sProp 𝕄) ⊢ MayWait (c : Thread nD τ) s () O :=
  Pipeline.mayWait_of_levAts (by rw [L_tc]; exact Finset.mem_singleton_self _)
    (fun g i hg => ⟨(h g i hg).1, Nat.lt_of_le_of_lt hs (h g i hg).2⟩)

/-- The barrier wait, owing the eight copies. -/
theorem mayWait_bar (c : Dev nD) : (levAts L lv : sProp 𝕄) ⊢ MayWait (c : Thread nD τ) (.reg barS) () (Orecv c) :=
  mayWait_of_above c _ (Nat.le_of_eq (lv_bar c ())) (above_Orecv c)

end Cert.KernelIdeal.Sched

end
-- ==== Proof.SchedTabIdeal.lean ====
/-
  The schedule's tables, entry by entry.

  The protocol's one round gives a barrier cell one duty of one unit, a send cell and a receive cell one duty each of
  a copy's credit, and no cell any duty in a later round.  Stated here as equations with the table entry on the left:
  the duties, the amount of each duty, the units a round expects (the sum of the amounts over the one duty), and what
  each duty hands over.  The semaphore of send cell k has value 3 + k and that of receive cell k has value 11 + k, so
  the tests on the value that tell the three kinds of cell apart are decided by arithmetic, and the chunk read back
  from the value is k.  The barrier's payload is written out as its sixteen conjuncts in order, two for each of the eight
  chunks; and each of the eight-way tables of semaphores and row blocks is given branch by branch.
-/
import proofs.«900346_g7700000000000347_dist_arsfmx_v7x_xyz2x2x4_y_t256_d512_v4096_bf16_1_alg».proof.Proof.SchedIdeal

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values that tell the cells apart -/

theorem sendS_ge (k : Fin 8) : 3 ≤ (sendS k).val := by rw [sendS_val]; omega
theorem sendS_not_lt (k : Fin 8) : ¬ (sendS k).val < 3 := by rw [sendS_val]; omega
theorem sendS_lt (k : Fin 8) : (sendS k).val < 11 := by rw [sendS_val]; omega
theorem recvS_ge (k : Fin 8) : 3 ≤ (recvS k).val := by rw [recvS_val]; omega
theorem recvS_not_lt3 (k : Fin 8) : ¬ (recvS k).val < 3 := by rw [recvS_val]; omega
theorem recvS_not_lt11 (k : Fin 8) : ¬ (recvS k).val < 11 := by rw [recvS_val]; omega

/-! ## Duties -/

theorem duties_bar (c : Dev nD) : (pairRd (F := F) m).duties (barCell c) 0 = {()} := by
  dsimp only [pairRd]; exact if_pos ⟨rfl, rfl⟩
theorem duties_send (c : Dev nD) (k : Fin 8) : (pairRd (F := F) m).duties (sendCell c k) 0 = {()} := by
  dsimp only [pairRd]; rw [if_pos ⟨rfl, rfl⟩]; exact if_pos (sendS_ge k)
theorem duties_recv (c : Dev nD) (k : Fin 8) : (pairRd (F := F) m).duties (recvCell c k) 0 = {()} := by
  dsimp only [pairRd]; rw [if_pos ⟨rfl, rfl⟩]; exact if_pos (recvS_ge k)
theorem duties_later (g : GSem nD τ sig) : ∀ r, 1 ≤ r → (pairRd (F := F) m).duties g r = ∅ :=
  fun r hr => by dsimp only [pairRd]; exact if_neg fun h => by have := h.1; omega

/-! ## Amounts and the units a round expects -/

theorem amount_bar (c : Dev nD) (d : Unit) : (pairRd (F := F) m).amount (barCell c) 0 d = 1 := rfl
theorem amount_send (c : Dev nD) (k : Fin 8) (d : Unit) : (pairRd (F := F) m).amount (sendCell c k) 0 d = N := rfl
theorem amount_recv (c : Dev nD) (k : Fin 8) (d : Unit) : (pairRd (F := F) m).amount (recvCell c k) 0 d = N := rfl

theorem expect_bar (c : Dev nD) : (pairRd (F := F) m).expect (barCell c) 0 = 1 := by
  unfold Schedule.expect Schedule.amountOf; rw [duties_bar, Finset.sum_singleton, amount_bar]
theorem expect_send (c : Dev nD) (k : Fin 8) : (pairRd (F := F) m).expect (sendCell c k) 0 = N := by
  unfold Schedule.expect Schedule.amountOf; rw [duties_send, Finset.sum_singleton, amount_send]
theorem expect_recv (c : Dev nD) (k : Fin 8) : (pairRd (F := F) m).expect (recvCell c k) 0 = N := by
  unfold Schedule.expect Schedule.amountOf; rw [duties_recv, Finset.sum_singleton, amount_recv]

/-! ## Payloads -/

theorem payload_bar (c : Dev nD) (d : Unit) : (pairRd (F := F) m).payload (barCell c) 0 d = barPay c := rfl
theorem payload_send (c : Dev nD) (k : Fin 8) (d : Unit) : (pairRd (F := F) m).payload (sendCell c k) 0 d = sendPay m c k := by
  dsimp only [pairRd]; rw [if_neg (sendS_not_lt k), if_pos (sendS_lt k), chunkS_send]
theorem payload_recv (c : Dev nD) (k : Fin 8) (d : Unit) : (pairRd (F := F) m).payload (recvCell c k) 0 d = recvPay m c k := by
  dsimp only [pairRd]; rw [if_neg (recvS_not_lt3 k), if_neg (recvS_not_lt11 k), chunkS_recv]

/-- The barrier's payload as its sixteen conjuncts: for each chunk, 0 first, the peer's destination rows at some contents
    and then that the peer's receive cell is at its first round. -/
theorem barPay_eq (c : Dev nD) : barPay (F := F) c = iprop((∃ f, dstPts (F := F) (peer c) 0 f) ∗ reached ER (recvCell (peer c) 0) 0 ∗ (∃ f, dstPts (F := F) (peer c) 1 f) ∗ reached ER (recvCell (peer c) 1) 0 ∗ (∃ f, dstPts (F := F) (peer c) 2 f) ∗ reached ER (recvCell (peer c) 2) 0 ∗ (∃ f, dstPts (F := F) (peer c) 3 f) ∗ reached ER (recvCell (peer c) 3) 0 ∗ (∃ f, dstPts (F := F) (peer c) 4 f) ∗ reached ER (recvCell (peer c) 4) 0 ∗ (∃ f, dstPts (F := F) (peer c) 5 f) ∗ reached ER (recvCell (peer c) 5) 0 ∗ (∃ f, dstPts (F := F) (peer c) 6 f) ∗ reached ER (recvCell (peer c) 6) 0 ∗ (∃ f, dstPts (F := F) (peer c) 7 f) ∗ reached ER (recvCell (peer c) 7) 0) := by
  unfold barPay; rfl

/-! ## The eight-way tables, branch by branch (the primed forms at an index given by its value and bound) -/

theorem sendS_0 : sendS 0 = ((cc0_scratch1.slice (Rect.unit (s := S8) ![0] S1.size inb_S8_S1_0)).squeeze S_ squeezes_S1_S_).sem := rfl
theorem sendS_0' : sendS ⟨0, by decide⟩ = ((cc0_scratch1.slice (Rect.unit (s := S8) ![0] S1.size inb_S8_S1_0)).squeeze S_ squeezes_S1_S_).sem := rfl
theorem sendS_1 : sendS 1 = ((cc0_scratch1.slice (Rect.unit (s := S8) ![1] S1.size inb_S8_S1_1)).squeeze S_ squeezes_S1_S_).sem := rfl
theorem sendS_1' : sendS ⟨1, by decide⟩ = ((cc0_scratch1.slice (Rect.unit (s := S8) ![1] S1.size inb_S8_S1_1)).squeeze S_ squeezes_S1_S_).sem := rfl
theorem sendS_2 : sendS 2 = ((cc0_scratch1.slice (Rect.unit (s := S8) ![2] S1.size inb_S8_S1_2)).squeeze S_ squeezes_S1_S_).sem := rfl
theorem sendS_2' : sendS ⟨2, by decide⟩ = ((cc0_scratch1.slice (Rect.unit (s := S8) ![2] S1.size inb_S8_S1_2)).squeeze S_ squeezes_S1_S_).sem := rfl
theorem sendS_3 : sendS 3 = ((cc0_scratch1.slice (Rect.unit (s := S8) ![3] S1.size inb_S8_S1_3)).squeeze S_ squeezes_S1_S_).sem := rfl
theorem sendS_3' : sendS ⟨3, by decide⟩ = ((cc0_scratch1.slice (Rect.unit (s := S8) ![3] S1.size inb_S8_S1_3)).squeeze S_ squeezes_S1_S_).sem := rfl
theorem sendS_4 : sendS 4 = ((cc0_scratch1.slice (Rect.unit (s := S8) ![4] S1.size inb_S8_S1_4)).squeeze S_ squeezes_S1_S_).sem := rfl
theorem sendS_4' : sendS ⟨4, by decide⟩ = ((cc0_scratch1.slice (Rect.unit (s := S8) ![4] S1.size inb_S8_S1_4)).squeeze S_ squeezes_S1_S_).sem := rfl
theorem sendS_5 : sendS 5 = ((cc0_scratch1.slice (Rect.unit (s := S8) ![5] S1.size inb_S8_S1_5)).squeeze S_ squeezes_S1_S_).sem := rfl
theorem sendS_5' : sendS ⟨5, by decide⟩ = ((cc0_scratch1.slice (Rect.unit (s := S8) ![5] S1.size inb_S8_S1_5)).squeeze S_ squeezes_S1_S_).sem := rfl
theorem sendS_6 : sendS 6 = ((cc0_scratch1.slice (Rect.unit (s := S8) ![6] S1.size inb_S8_S1_6)).squeeze S_ squeezes_S1_S_).sem := rfl
theorem sendS_6' : sendS ⟨6, by decide⟩ = ((cc0_scratch1.slice (Rect.unit (s := S8) ![6] S1.size inb_S8_S1_6)).squeeze S_ squeezes_S1_S_).sem := rfl
theorem sendS_7 : sendS 7 = ((cc0_scratch1.slice (Rect.unit (s := S8) ![7] S1.size inb_S8_S1_7)).squeeze S_ squeezes_S1_S_).sem := rfl
theorem sendS_7' : sendS ⟨7, by decide⟩ = ((cc0_scratch1.slice (Rect.unit (s := S8) ![7] S1.size inb_S8_S1_7)).squeeze S_ squeezes_S1_S_).sem := rfl

theorem recvS_0 : recvS 0 = ((cc0_scratch2.slice (Rect.unit (s := S8) ![0] S1.size inb_S8_S1_0)).squeeze S_ squeezes_S1_S_).sem := rfl
theorem recvS_0' : recvS ⟨0, by decide⟩ = ((cc0_scratch2.slice (Rect.unit (s := S8) ![0] S1.size inb_S8_S1_0)).squeeze S_ squeezes_S1_S_).sem := rfl
theorem recvS_1 : recvS 1 = ((cc0_scratch2.slice (Rect.unit (s := S8) ![1] S1.size inb_S8_S1_1)).squeeze S_ squeezes_S1_S_).sem := rfl
theorem recvS_1' : recvS ⟨1, by decide⟩ = ((cc0_scratch2.slice (Rect.unit (s := S8) ![1] S1.size inb_S8_S1_1)).squeeze S_ squeezes_S1_S_).sem := rfl
theorem recvS_2 : recvS 2 = ((cc0_scratch2.slice (Rect.unit (s := S8) ![2] S1.size inb_S8_S1_2)).squeeze S_ squeezes_S1_S_).sem := rfl
theorem recvS_2' : recvS ⟨2, by decide⟩ = ((cc0_scratch2.slice (Rect.unit (s := S8) ![2] S1.size inb_S8_S1_2)).squeeze S_ squeezes_S1_S_).sem := rfl
theorem recvS_3 : recvS 3 = ((cc0_scratch2.slice (Rect.unit (s := S8) ![3] S1.size inb_S8_S1_3)).squeeze S_ squeezes_S1_S_).sem := rfl
theorem recvS_3' : recvS ⟨3, by decide⟩ = ((cc0_scratch2.slice (Rect.unit (s := S8) ![3] S1.size inb_S8_S1_3)).squeeze S_ squeezes_S1_S_).sem := rfl
theorem recvS_4 : recvS 4 = ((cc0_scratch2.slice (Rect.unit (s := S8) ![4] S1.size inb_S8_S1_4)).squeeze S_ squeezes_S1_S_).sem := rfl
theorem recvS_4' : recvS ⟨4, by decide⟩ = ((cc0_scratch2.slice (Rect.unit (s := S8) ![4] S1.size inb_S8_S1_4)).squeeze S_ squeezes_S1_S_).sem := rfl
theorem recvS_5 : recvS 5 = ((cc0_scratch2.slice (Rect.unit (s := S8) ![5] S1.size inb_S8_S1_5)).squeeze S_ squeezes_S1_S_).sem := rfl
theorem recvS_5' : recvS ⟨5, by decide⟩ = ((cc0_scratch2.slice (Rect.unit (s := S8) ![5] S1.size inb_S8_S1_5)).squeeze S_ squeezes_S1_S_).sem := rfl
theorem recvS_6 : recvS 6 = ((cc0_scratch2.slice (Rect.unit (s := S8) ![6] S1.size inb_S8_S1_6)).squeeze S_ squeezes_S1_S_).sem := rfl
theorem recvS_6' : recvS ⟨6, by decide⟩ = ((cc0_scratch2.slice (Rect.unit (s := S8) ![6] S1.size inb_S8_S1_6)).squeeze S_ squeezes_S1_S_).sem := rfl
theorem recvS_7 : recvS 7 = ((cc0_scratch2.slice (Rect.unit (s := S8) ![7] S1.size inb_S8_S1_7)).squeeze S_ squeezes_S1_S_).sem := rfl
theorem recvS_7' : recvS ⟨7, by decide⟩ = ((cc0_scratch2.slice (Rect.unit (s := S8) ![7] S1.size inb_S8_S1_7)).squeeze S_ squeezes_S1_S_).sem := rfl

theorem srcPts_0 (c : Dev nD) (q : PosShare TreeShare) : srcPts m c 0 q = ((((cM).slice (Rect.unit (s := S2x256x4096) ![0, 0, 0] S1x32x4096.size inb_S2x256x4096_S1x32x4096_0_0_0) (fun _ => rfl)).squeeze S32x4096 squeezes_S1x32x4096_S32x4096).view.loc (c : Thread nD τ) ↦[(((cM).slice (Rect.unit (s := S2x256x4096) ![0, 0, 0] S1x32x4096.size inb_S2x256x4096_S1x32x4096_0_0_0) (fun _ => rfl)).squeeze S32x4096 squeezes_S1x32x4096_S32x4096).view.set]{q} commOf m c : sProp 𝕄) := rfl
theorem srcPts_0' (c : Dev nD) (q : PosShare TreeShare) : srcPts m c ⟨0, by decide⟩ q = ((((cM).slice (Rect.unit (s := S2x256x4096) ![0, 0, 0] S1x32x4096.size inb_S2x256x4096_S1x32x4096_0_0_0) (fun _ => rfl)).squeeze S32x4096 squeezes_S1x32x4096_S32x4096).view.loc (c : Thread nD τ) ↦[(((cM).slice (Rect.unit (s := S2x256x4096) ![0, 0, 0] S1x32x4096.size inb_S2x256x4096_S1x32x4096_0_0_0) (fun _ => rfl)).squeeze S32x4096 squeezes_S1x32x4096_S32x4096).view.set]{q} commOf m c : sProp 𝕄) := rfl
theorem srcPts_1 (c : Dev nD) (q : PosShare TreeShare) : srcPts m c 1 q = ((((cM).slice (Rect.unit (s := S2x256x4096) ![0, 32, 0] S1x32x4096.size inb_S2x256x4096_S1x32x4096_0_32_0) (fun _ => rfl)).squeeze S32x4096 squeezes_S1x32x4096_S32x4096).view.loc (c : Thread nD τ) ↦[(((cM).slice (Rect.unit (s := S2x256x4096) ![0, 32, 0] S1x32x4096.size inb_S2x256x4096_S1x32x4096_0_32_0) (fun _ => rfl)).squeeze S32x4096 squeezes_S1x32x4096_S32x4096).view.set]{q} commOf m c : sProp 𝕄) := rfl
theorem srcPts_1' (c : Dev nD) (q : PosShare TreeShare) : srcPts m c ⟨1, by decide⟩ q = ((((cM).slice (Rect.unit (s := S2x256x4096) ![0, 32, 0] S1x32x4096.size inb_S2x256x4096_S1x32x4096_0_32_0) (fun _ => rfl)).squeeze S32x4096 squeezes_S1x32x4096_S32x4096).view.loc (c : Thread nD τ) ↦[(((cM).slice (Rect.unit (s := S2x256x4096) ![0, 32, 0] S1x32x4096.size inb_S2x256x4096_S1x32x4096_0_32_0) (fun _ => rfl)).squeeze S32x4096 squeezes_S1x32x4096_S32x4096).view.set]{q} commOf m c : sProp 𝕄) := rfl
theorem srcPts_2 (c : Dev nD) (q : PosShare TreeShare) : srcPts m c 2 q = ((((cM).slice (Rect.unit (s := S2x256x4096) ![0, 64, 0] S1x32x4096.size inb_S2x256x4096_S1x32x4096_0_64_0) (fun _ => rfl)).squeeze S32x4096 squeezes_S1x32x4096_S32x4096).view.loc (c : Thread nD τ) ↦[(((cM).slice (Rect.unit (s := S2x256x4096) ![0, 64, 0] S1x32x4096.size inb_S2x256x4096_S1x32x4096_0_64_0) (fun _ => rfl)).squeeze S32x4096 squeezes_S1x32x4096_S32x4096).view.set]{q} commOf m c : sProp 𝕄) := rfl
theorem srcPts_2' (c : Dev nD) (q : PosShare TreeShare) : srcPts m c ⟨2, by decide⟩ q = ((((cM).slice (Rect.unit (s := S2x256x4096) ![0, 64, 0] S1x32x4096.size inb_S2x256x4096_S1x32x4096_0_64_0) (fun _ => rfl)).squeeze S32x4096 squeezes_S1x32x4096_S32x4096).view.loc (c : Thread nD τ) ↦[(((cM).slice (Rect.unit (s := S2x256x4096) ![0, 64, 0] S1x32x4096.size inb_S2x256x4096_S1x32x4096_0_64_0) (fun _ => rfl)).squeeze S32x4096 squeezes_S1x32x4096_S32x4096).view.set]{q} commOf m c : sProp 𝕄) := rfl
theorem srcPts_3 (c : Dev nD) (q : PosShare TreeShare) : srcPts m c 3 q = ((((cM).slice (Rect.unit (s := S2x256x4096) ![0, 96, 0] S1x32x4096.size inb_S2x256x4096_S1x32x4096_0_96_0) (fun _ => rfl)).squeeze S32x4096 squeezes_S1x32x4096_S32x4096).view.loc (c : Thread nD τ) ↦[(((cM).slice (Rect.unit (s := S2x256x4096) ![0, 96, 0] S1x32x4096.size inb_S2x256x4096_S1x32x4096_0_96_0) (fun _ => rfl)).squeeze S32x4096 squeezes_S1x32x4096_S32x4096).view.set]{q} commOf m c : sProp 𝕄) := rfl
theorem srcPts_3' (c : Dev nD) (q : PosShare TreeShare) : srcPts m c ⟨3, by decide⟩ q = ((((cM).slice (Rect.unit (s := S2x256x4096) ![0, 96, 0] S1x32x4096.size inb_S2x256x4096_S1x32x4096_0_96_0) (fun _ => rfl)).squeeze S32x4096 squeezes_S1x32x4096_S32x4096).view.loc (c : Thread nD τ) ↦[(((cM).slice (Rect.unit (s := S2x256x4096) ![0, 96, 0] S1x32x4096.size inb_S2x256x4096_S1x32x4096_0_96_0) (fun _ => rfl)).squeeze S32x4096 squeezes_S1x32x4096_S32x4096).view.set]{q} commOf m c : sProp 𝕄) := rfl
theorem srcPts_4 (c : Dev nD) (q : PosShare TreeShare) : srcPts m c 4 q = ((((cM).slice (Rect.unit (s := S2x256x4096) ![0, 128, 0] S1x32x4096.size inb_S2x256x4096_S1x32x4096_0_128_0) (fun _ => rfl)).squeeze S32x4096 squeezes_S1x32x4096_S32x4096).view.loc (c : Thread nD τ) ↦[(((cM).slice (Rect.unit (s := S2x256x4096) ![0, 128, 0] S1x32x4096.size inb_S2x256x4096_S1x32x4096_0_128_0) (fun _ => rfl)).squeeze S32x4096 squeezes_S1x32x4096_S32x4096).view.set]{q} commOf m c : sProp 𝕄) := rfl
theorem srcPts_4' (c : Dev nD) (q : PosShare TreeShare) : srcPts m c ⟨4, by decide⟩ q = ((((cM).slice (Rect.unit (s := S2x256x4096) ![0, 128, 0] S1x32x4096.size inb_S2x256x4096_S1x32x4096_0_128_0) (fun _ => rfl)).squeeze S32x4096 squeezes_S1x32x4096_S32x4096).view.loc (c : Thread nD τ) ↦[(((cM).slice (Rect.unit (s := S2x256x4096) ![0, 128, 0] S1x32x4096.size inb_S2x256x4096_S1x32x4096_0_128_0) (fun _ => rfl)).squeeze S32x4096 squeezes_S1x32x4096_S32x4096).view.set]{q} commOf m c : sProp 𝕄) := rfl
theorem srcPts_5 (c : Dev nD) (q : PosShare TreeShare) : srcPts m c 5 q = ((((cM).slice (Rect.unit (s := S2x256x4096) ![0, 160, 0] S1x32x4096.size inb_S2x256x4096_S1x32x4096_0_160_0) (fun _ => rfl)).squeeze S32x4096 squeezes_S1x32x4096_S32x4096).view.loc (c : Thread nD τ) ↦[(((cM).slice (Rect.unit (s := S2x256x4096) ![0, 160, 0] S1x32x4096.size inb_S2x256x4096_S1x32x4096_0_160_0) (fun _ => rfl)).squeeze S32x4096 squeezes_S1x32x4096_S32x4096).view.set]{q} commOf m c : sProp 𝕄) := rfl
theorem srcPts_5' (c : Dev nD) (q : PosShare TreeShare) : srcPts m c ⟨5, by decide⟩ q = ((((cM).slice (Rect.unit (s := S2x256x4096) ![0, 160, 0] S1x32x4096.size inb_S2x256x4096_S1x32x4096_0_160_0) (fun _ => rfl)).squeeze S32x4096 squeezes_S1x32x4096_S32x4096).view.loc (c : Thread nD τ) ↦[(((cM).slice (Rect.unit (s := S2x256x4096) ![0, 160, 0] S1x32x4096.size inb_S2x256x4096_S1x32x4096_0_160_0) (fun _ => rfl)).squeeze S32x4096 squeezes_S1x32x4096_S32x4096).view.set]{q} commOf m c : sProp 𝕄) := rfl
theorem srcPts_6 (c : Dev nD) (q : PosShare TreeShare) : srcPts m c 6 q = ((((cM).slice (Rect.unit (s := S2x256x4096) ![0, 192, 0] S1x32x4096.size inb_S2x256x4096_S1x32x4096_0_192_0) (fun _ => rfl)).squeeze S32x4096 squeezes_S1x32x4096_S32x4096).view.loc (c : Thread nD τ) ↦[(((cM).slice (Rect.unit (s := S2x256x4096) ![0, 192, 0] S1x32x4096.size inb_S2x256x4096_S1x32x4096_0_192_0) (fun _ => rfl)).squeeze S32x4096 squeezes_S1x32x4096_S32x4096).view.set]{q} commOf m c : sProp 𝕄) := rfl
theorem srcPts_6' (c : Dev nD) (q : PosShare TreeShare) : srcPts m c ⟨6, by decide⟩ q = ((((cM).slice (Rect.unit (s := S2x256x4096) ![0, 192, 0] S1x32x4096.size inb_S2x256x4096_S1x32x4096_0_192_0) (fun _ => rfl)).squeeze S32x4096 squeezes_S1x32x4096_S32x4096).view.loc (c : Thread nD τ) ↦[(((cM).slice (Rect.unit (s := S2x256x4096) ![0, 192, 0] S1x32x4096.size inb_S2x256x4096_S1x32x4096_0_192_0) (fun _ => rfl)).squeeze S32x4096 squeezes_S1x32x4096_S32x4096).view.set]{q} commOf m c : sProp 𝕄) := rfl
theorem srcPts_7 (c : Dev nD) (q : PosShare TreeShare) : srcPts m c 7 q = ((((cM).slice (Rect.unit (s := S2x256x4096) ![0, 224, 0] S1x32x4096.size inb_S2x256x4096_S1x32x4096_0_224_0) (fun _ => rfl)).squeeze S32x4096 squeezes_S1x32x4096_S32x4096).view.loc (c : Thread nD τ) ↦[(((cM).slice (Rect.unit (s := S2x256x4096) ![0, 224, 0] S1x32x4096.size inb_S2x256x4096_S1x32x4096_0_224_0) (fun _ => rfl)).squeeze S32x4096 squeezes_S1x32x4096_S32x4096).view.set]{q} commOf m c : sProp 𝕄) := rfl
theorem srcPts_7' (c : Dev nD) (q : PosShare TreeShare) : srcPts m c ⟨7, by decide⟩ q = ((((cM).slice (Rect.unit (s := S2x256x4096) ![0, 224, 0] S1x32x4096.size inb_S2x256x4096_S1x32x4096_0_224_0) (fun _ => rfl)).squeeze S32x4096 squeezes_S1x32x4096_S32x4096).view.loc (c : Thread nD τ) ↦[(((cM).slice (Rect.unit (s := S2x256x4096) ![0, 224, 0] S1x32x4096.size inb_S2x256x4096_S1x32x4096_0_224_0) (fun _ => rfl)).squeeze S32x4096 squeezes_S1x32x4096_S32x4096).view.set]{q} commOf m c : sProp 𝕄) := rfl

theorem dstPts_0 (c : Dev nD) (f : (cc0_scratch0 : Ref sig .tc).ty.Contents (Elt F)) : dstPts (F := F) c 0 f = ((((cM).slice (Rect.unit (s := S2x256x4096) ![1, 0, 0] S1x32x4096.size inb_S2x256x4096_S1x32x4096_1_0_0) (fun _ => rfl)).squeeze S32x4096 squeezes_S1x32x4096_S32x4096).view.loc (c : Thread nD τ) ↦[(((cM).slice (Rect.unit (s := S2x256x4096) ![1, 0, 0] S1x32x4096.size inb_S2x256x4096_S1x32x4096_1_0_0) (fun _ => rfl)).squeeze S32x4096 squeezes_S1x32x4096_S32x4096).view.set]{fullShare} f : sProp 𝕄) := rfl
theorem dstPts_0' (c : Dev nD) (f : (cc0_scratch0 : Ref sig .tc).ty.Contents (Elt F)) : dstPts (F := F) c ⟨0, by decide⟩ f = ((((cM).slice (Rect.unit (s := S2x256x4096) ![1, 0, 0] S1x32x4096.size inb_S2x256x4096_S1x32x4096_1_0_0) (fun _ => rfl)).squeeze S32x4096 squeezes_S1x32x4096_S32x4096).view.loc (c : Thread nD τ) ↦[(((cM).slice (Rect.unit (s := S2x256x4096) ![1, 0, 0] S1x32x4096.size inb_S2x256x4096_S1x32x4096_1_0_0) (fun _ => rfl)).squeeze S32x4096 squeezes_S1x32x4096_S32x4096).view.set]{fullShare} f : sProp 𝕄) := rfl
theorem dstPts_1 (c : Dev nD) (f : (cc0_scratch0 : Ref sig .tc).ty.Contents (Elt F)) : dstPts (F := F) c 1 f = ((((cM).slice (Rect.unit (s := S2x256x4096) ![1, 32, 0] S1x32x4096.size inb_S2x256x4096_S1x32x4096_1_32_0) (fun _ => rfl)).squeeze S32x4096 squeezes_S1x32x4096_S32x4096).view.loc (c : Thread nD τ) ↦[(((cM).slice (Rect.unit (s := S2x256x4096) ![1, 32, 0] S1x32x4096.size inb_S2x256x4096_S1x32x4096_1_32_0) (fun _ => rfl)).squeeze S32x4096 squeezes_S1x32x4096_S32x4096).view.set]{fullShare} f : sProp 𝕄) := rfl
theorem dstPts_1' (c : Dev nD) (f : (cc0_scratch0 : Ref sig .tc).ty.Contents (Elt F)) : dstPts (F := F) c ⟨1, by decide⟩ f = ((((cM).slice (Rect.unit (s := S2x256x4096) ![1, 32, 0] S1x32x4096.size inb_S2x256x4096_S1x32x4096_1_32_0) (fun _ => rfl)).squeeze S32x4096 squeezes_S1x32x4096_S32x4096).view.loc (c : Thread nD τ) ↦[(((cM).slice (Rect.unit (s := S2x256x4096) ![1, 32, 0] S1x32x4096.size inb_S2x256x4096_S1x32x4096_1_32_0) (fun _ => rfl)).squeeze S32x4096 squeezes_S1x32x4096_S32x4096).view.set]{fullShare} f : sProp 𝕄) := rfl
theorem dstPts_2 (c : Dev nD) (f : (cc0_scratch0 : Ref sig .tc).ty.Contents (Elt F)) : dstPts (F := F) c 2 f = ((((cM).slice (Rect.unit (s := S2x256x4096) ![1, 64, 0] S1x32x4096.size inb_S2x256x4096_S1x32x4096_1_64_0) (fun _ => rfl)).squeeze S32x4096 squeezes_S1x32x4096_S32x4096).view.loc (c : Thread nD τ) ↦[(((cM).slice (Rect.unit (s := S2x256x4096) ![1, 64, 0] S1x32x4096.size inb_S2x256x4096_S1x32x4096_1_64_0) (fun _ => rfl)).squeeze S32x4096 squeezes_S1x32x4096_S32x4096).view.set]{fullShare} f : sProp 𝕄) := rfl
theorem dstPts_2' (c : Dev nD) (f : (cc0_scratch0 : Ref sig .tc).ty.Contents (Elt F)) : dstPts (F := F) c ⟨2, by decide⟩ f = ((((cM).slice (Rect.unit (s := S2x256x4096) ![1, 64, 0] S1x32x4096.size inb_S2x256x4096_S1x32x4096_1_64_0) (fun _ => rfl)).squeeze S32x4096 squeezes_S1x32x4096_S32x4096).view.loc (c : Thread nD τ) ↦[(((cM).slice (Rect.unit (s := S2x256x4096) ![1, 64, 0] S1x32x4096.size inb_S2x256x4096_S1x32x4096_1_64_0) (fun _ => rfl)).squeeze S32x4096 squeezes_S1x32x4096_S32x4096).view.set]{fullShare} f : sProp 𝕄) := rfl
theorem dstPts_3 (c : Dev nD) (f : (cc0_scratch0 : Ref sig .tc).ty.Contents (Elt F)) : dstPts (F := F) c 3 f = ((((cM).slice (Rect.unit (s := S2x256x4096) ![1, 96, 0] S1x32x4096.size inb_S2x256x4096_S1x32x4096_1_96_0) (fun _ => rfl)).squeeze S32x4096 squeezes_S1x32x4096_S32x4096).view.loc (c : Thread nD τ) ↦[(((cM).slice (Rect.unit (s := S2x256x4096) ![1, 96, 0] S1x32x4096.size inb_S2x256x4096_S1x32x4096_1_96_0) (fun _ => rfl)).squeeze S32x4096 squeezes_S1x32x4096_S32x4096).view.set]{fullShare} f : sProp 𝕄) := rfl
theorem dstPts_3' (c : Dev nD) (f : (cc0_scratch0 : Ref sig .tc).ty.Contents (Elt F)) : dstPts (F := F) c ⟨3, by decide⟩ f = ((((cM).slice (Rect.unit (s := S2x256x4096) ![1, 96, 0] S1x32x4096.size inb_S2x256x4096_S1x32x4096_1_96_0) (fun _ => rfl)).squeeze S32x4096 squeezes_S1x32x4096_S32x4096).view.loc (c : Thread nD τ) ↦[(((cM).slice (Rect.unit (s := S2x256x4096) ![1, 96, 0] S1x32x4096.size inb_S2x256x4096_S1x32x4096_1_96_0) (fun _ => rfl)).squeeze S32x4096 squeezes_S1x32x4096_S32x4096).view.set]{fullShare} f : sProp 𝕄) := rfl
theorem dstPts_4 (c : Dev nD) (f : (cc0_scratch0 : Ref sig .tc).ty.Contents (Elt F)) : dstPts (F := F) c 4 f = ((((cM).slice (Rect.unit (s := S2x256x4096) ![1, 128, 0] S1x32x4096.size inb_S2x256x4096_S1x32x4096_1_128_0) (fun _ => rfl)).squeeze S32x4096 squeezes_S1x32x4096_S32x4096).view.loc (c : Thread nD τ) ↦[(((cM).slice (Rect.unit (s := S2x256x4096) ![1, 128, 0] S1x32x4096.size inb_S2x256x4096_S1x32x4096_1_128_0) (fun _ => rfl)).squeeze S32x4096 squeezes_S1x32x4096_S32x4096).view.set]{fullShare} f : sProp 𝕄) := rfl
theorem dstPts_4' (c : Dev nD) (f : (cc0_scratch0 : Ref sig .tc).ty.Contents (Elt F)) : dstPts (F := F) c ⟨4, by decide⟩ f = ((((cM).slice (Rect.unit (s := S2x256x4096) ![1, 128, 0] S1x32x4096.size inb_S2x256x4096_S1x32x4096_1_128_0) (fun _ => rfl)).squeeze S32x4096 squeezes_S1x32x4096_S32x4096).view.loc (c : Thread nD τ) ↦[(((cM).slice (Rect.unit (s := S2x256x4096) ![1, 128, 0] S1x32x4096.size inb_S2x256x4096_S1x32x4096_1_128_0) (fun _ => rfl)).squeeze S32x4096 squeezes_S1x32x4096_S32x4096).view.set]{fullShare} f : sProp 𝕄) := rfl
theorem dstPts_5 (c : Dev nD) (f : (cc0_scratch0 : Ref sig .tc).ty.Contents (Elt F)) : dstPts (F := F) c 5 f = ((((cM).slice (Rect.unit (s := S2x256x4096) ![1, 160, 0] S1x32x4096.size inb_S2x256x4096_S1x32x4096_1_160_0) (fun _ => rfl)).squeeze S32x4096 squeezes_S1x32x4096_S32x4096).view.loc (c : Thread nD τ) ↦[(((cM).slice (Rect.unit (s := S2x256x4096) ![1, 160, 0] S1x32x4096.size inb_S2x256x4096_S1x32x4096_1_160_0) (fun _ => rfl)).squeeze S32x4096 squeezes_S1x32x4096_S32x4096).view.set]{fullShare} f : sProp 𝕄) := rfl
theorem dstPts_5' (c : Dev nD) (f : (cc0_scratch0 : Ref sig .tc).ty.Contents (Elt F)) : dstPts (F := F) c ⟨5, by decide⟩ f = ((((cM).slice (Rect.unit (s := S2x256x4096) ![1, 160, 0] S1x32x4096.size inb_S2x256x4096_S1x32x4096_1_160_0) (fun _ => rfl)).squeeze S32x4096 squeezes_S1x32x4096_S32x4096).view.loc (c : Thread nD τ) ↦[(((cM).slice (Rect.unit (s := S2x256x4096) ![1, 160, 0] S1x32x4096.size inb_S2x256x4096_S1x32x4096_1_160_0) (fun _ => rfl)).squeeze S32x4096 squeezes_S1x32x4096_S32x4096).view.set]{fullShare} f : sProp 𝕄) := rfl
theorem dstPts_6 (c : Dev nD) (f : (cc0_scratch0 : Ref sig .tc).ty.Contents (Elt F)) : dstPts (F := F) c 6 f = ((((cM).slice (Rect.unit (s := S2x256x4096) ![1, 192, 0] S1x32x4096.size inb_S2x256x4096_S1x32x4096_1_192_0) (fun _ => rfl)).squeeze S32x4096 squeezes_S1x32x4096_S32x4096).view.loc (c : Thread nD τ) ↦[(((cM).slice (Rect.unit (s := S2x256x4096) ![1, 192, 0] S1x32x4096.size inb_S2x256x4096_S1x32x4096_1_192_0) (fun _ => rfl)).squeeze S32x4096 squeezes_S1x32x4096_S32x4096).view.set]{fullShare} f : sProp 𝕄) := rfl
theorem dstPts_6' (c : Dev nD) (f : (cc0_scratch0 : Ref sig .tc).ty.Contents (Elt F)) : dstPts (F := F) c ⟨6, by decide⟩ f = ((((cM).slice (Rect.unit (s := S2x256x4096) ![1, 192, 0] S1x32x4096.size inb_S2x256x4096_S1x32x4096_1_192_0) (fun _ => rfl)).squeeze S32x4096 squeezes_S1x32x4096_S32x4096).view.loc (c : Thread nD τ) ↦[(((cM).slice (Rect.unit (s := S2x256x4096) ![1, 192, 0] S1x32x4096.size inb_S2x256x4096_S1x32x4096_1_192_0) (fun _ => rfl)).squeeze S32x4096 squeezes_S1x32x4096_S32x4096).view.set]{fullShare} f : sProp 𝕄) := rfl
theorem dstPts_7 (c : Dev nD) (f : (cc0_scratch0 : Ref sig .tc).ty.Contents (Elt F)) : dstPts (F := F) c 7 f = ((((cM).slice (Rect.unit (s := S2x256x4096) ![1, 224, 0] S1x32x4096.size inb_S2x256x4096_S1x32x4096_1_224_0) (fun _ => rfl)).squeeze S32x4096 squeezes_S1x32x4096_S32x4096).view.loc (c : Thread nD τ) ↦[(((cM).slice (Rect.unit (s := S2x256x4096) ![1, 224, 0] S1x32x4096.size inb_S2x256x4096_S1x32x4096_1_224_0) (fun _ => rfl)).squeeze S32x4096 squeezes_S1x32x4096_S32x4096).view.set]{fullShare} f : sProp 𝕄) := rfl
theorem dstPts_7' (c : Dev nD) (f : (cc0_scratch0 : Ref sig .tc).ty.Contents (Elt F)) : dstPts (F := F) c ⟨7, by decide⟩ f = ((((cM).slice (Rect.unit (s := S2x256x4096) ![1, 224, 0] S1x32x4096.size inb_S2x256x4096_S1x32x4096_1_224_0) (fun _ => rfl)).squeeze S32x4096 squeezes_S1x32x4096_S32x4096).view.loc (c : Thread nD τ) ↦[(((cM).slice (Rect.unit (s := S2x256x4096) ![1, 224, 0] S1x32x4096.size inb_S2x256x4096_S1x32x4096_1_224_0) (fun _ => rfl)).squeeze S32x4096 squeezes_S1x32x4096_S32x4096).view.set]{fullShare} f : sProp 𝕄) := rfl

end Cert.KernelIdeal.Sched

end
-- ==== Proof.ProtoIdeal.lean ====
/-
  What a device holds at each stage, and the pipeline's proof data.

  A device's seventeen cells are numbered: 0 its barrier cell, 1 + k its send cell of chunk k, 9 + k its receive
  cell of chunk k.  At the start of its body a device knows the invariants of its own cells, of its peer's barrier
  cell (which it signals) and of its peer's eight receive cells (which its copies pay); it stands at the first round
  of each of its own cells; it knows the first round reached on the cells it pays and on its own send and receive
  cells; and it holds the seventeen tokens of the duties it pays: its peer's barrier duty, its own eight send
  duties, its peer's eight receive duties.  With that it holds the credit others owe it — one unit on its barrier
  cell, one copy's worth on each receive cell —, the ranking of the cells, and its scratch buffer at whatever it
  holds.  After the body the scratch buffer holds its own eight blocks and its peer's, and its sixteen send and
  receive semaphores are back at zero.
  The staged copy of x and the staged half of W are left as fetched; the staged result holds the whole softmax.
-/
import proofs.«900346_g7700000000000347_dist_arsfmx_v7x_xyz2x2x4_y_t256_d512_v4096_bf16_1_alg».proof.Proof.LevelsIdeal
import proofs.«900346_g7700000000000347_dist_arsfmx_v7x_xyz2x2x4_y_t256_d512_v4096_bf16_1_alg».proof.Proof.SchedTabIdeal

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's seventeen semaphores in the numbering above, and its cells. -/
def csem : Fin 17 → SemLoc sig := fun j =>
  if j.val = 0 then .reg barS else if h : j.val < 9 then .dma (sendS ⟨j.val - 1, by omega⟩) else .dma (recvS ⟨j.val - 9, by omega⟩)
abbrev kcell (ck : Dev nD × Fin 17) : GSem nD τ sig := ((ck.1 : Thread nD τ), csem ck.2)

theorem kcell_bar (c : Dev nD) : kcell (c, 0) = barCell c := rfl
theorem csem_send (k : Fin 8) : csem ⟨1 + k.val, by omega⟩ = .dma (sendS k) := by revert k; decide
theorem csem_recv (k : Fin 8) : csem ⟨9 + k.val, by omega⟩ = .dma (recvS k) := by revert k; decide
theorem kcell_send (c : Dev nD) (k : Fin 8) : kcell (c, ⟨1 + k.val, by omega⟩) = sendCell c k := congrArg (Prod.mk (c : Thread nD τ)) (csem_send k)
theorem kcell_recv (c : Dev nD) (k : Fin 8) : kcell (c, ⟨9 + k.val, by omega⟩) = recvCell c k := congrArg (Prod.mk (c : Thread nD τ)) (csem_recv k)

/-- The invariants a device's body opens, under the names `K` the launch allocated them at. -/
def cellInvs (K : Dev nD × Fin 17 → ℕ) (c : Dev nD) : sProp 𝕄 :=
  iprop(cellInv ER (pairRd m) (K (c, 0)) (barCell c)
    ∗ cellInv ER (pairRd m) (K (c, 1)) (sendCell c 0)
    ∗ cellInv ER (pairRd m) (K (c, 2)) (sendCell c 1)
    ∗ cellInv ER (pairRd m) (K (c, 3)) (sendCell c 2)
    ∗ cellInv ER (pairRd m) (K (c, 4)) (sendCell c 3)
    ∗ cellInv ER (pairRd m) (K (c, 5)) (sendCell c 4)
    ∗ cellInv ER (pairRd m) (K (c, 6)) (sendCell c 5)
    ∗ cellInv ER (pairRd m) (K (c, 7)) (sendCell c 6)
    ∗ cellInv ER (pairRd m) (K (c, 8)) (sendCell c 7)
    ∗ cellInv ER (pairRd m) (K (c, 9)) (recvCell c 0)
    ∗ cellInv ER (pairRd m) (K (c, 10)) (recvCell c 1)
    ∗ cellInv ER (pairRd m) (K (c, 11)) (recvCell c 2)
    ∗ cellInv ER (pairRd m) (K (c, 12)) (recvCell c 3)
    ∗ cellInv ER (pairRd m) (K (c, 13)) (recvCell c 4)
    ∗ cellInv ER (pairRd m) (K (c, 14)) (recvCell c 5)
    ∗ cellInv ER (pairRd m) (K (c, 15)) (recvCell c 6)
    ∗ cellInv ER (pairRd m) (K (c, 16)) (recvCell c 7)
    ∗ cellInv ER (pairRd m) (K (peer c, 0)) (barCell (peer c))
    ∗ cellInv ER (pairRd m) (K (peer c, 9)) (recvCell (peer c) 0)
    ∗ cellInv ER (pairRd m) (K (peer c, 10)) (recvCell (peer c) 1)
    ∗ cellInv ER (pairRd m) (K (peer c, 11)) (recvCell (peer c) 2)
    ∗ cellInv ER (pairRd m) (K (peer c, 12)) (recvCell (peer c) 3)
    ∗ cellInv ER (pairRd m) (K (peer c, 13)) (recvCell (peer c) 4)
    ∗ cellInv ER (pairRd m) (K (peer c, 14)) (recvCell (peer c) 5)
    ∗ cellInv ER (pairRd m) (K (peer c, 15)) (recvCell (peer c) 6)
    ∗ cellInv ER (pairRd m) (K (peer c, 16)) (recvCell (peer c) 7))

instance cellInvs_persistent (K : Dev nD × Fin 17 → ℕ) (c : Dev nD) : BI.Persistent (cellInvs m K c) := by unfold cellInvs; infer_instance

/-- The protocol's ghost state a device starts from: invariants, positions, reached rounds, the tokens it pays with. -/
def ghost (K : Dev nD × Fin 17 → ℕ) (c : Dev nD) : sProp 𝕄 :=
  iprop(cellInvs m K c
    ∗ atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ reached ER (barCell (peer c)) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ dutyTok ER (barCell (peer c)) 0 ()
    ∗ dutyTok ER (sendCell c 0) 0 ()
    ∗ dutyTok ER (sendCell c 1) 0 ()
    ∗ dutyTok ER (sendCell c 2) 0 ()
    ∗ dutyTok ER (sendCell c 3) 0 ()
    ∗ dutyTok ER (sendCell c 4) 0 ()
    ∗ dutyTok ER (sendCell c 5) 0 ()
    ∗ dutyTok ER (sendCell c 6) 0 ()
    ∗ dutyTok ER (sendCell c 7) 0 ()
    ∗ dutyTok ER (recvCell (peer c) 0) 0 ()
    ∗ dutyTok ER (recvCell (peer c) 1) 0 ()
    ∗ dutyTok ER (recvCell (peer c) 2) 0 ()
    ∗ dutyTok ER (recvCell (peer c) 3) 0 ()
    ∗ dutyTok ER (recvCell (peer c) 4) 0 ()
    ∗ dutyTok ER (recvCell (peer c) 5) 0 ()
    ∗ dutyTok ER (recvCell (peer c) 6) 0 ()
    ∗ dutyTok ER (recvCell (peer c) 7) 0 ())

/-- The credit others owe a device at launch: its peer's entry signal and its peer's eight copies. -/
def launchCreds (c : Dev nD) : sProp 𝕄 :=
  iprop(cred (tallyAt (barCell c) () 1) ∗ cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))

/-- What a device's body starts from, but for its scratch buffer. -/
def start (c : Dev nD) : sProp 𝕄 :=
  iprop((∃ K, ghost m K c) ∗ launchCreds (F := F) c ∗ levAts L lv)

/-- The scratch buffer of device `c`, whole. -/
def scrPts (c : Dev nD) (f : (cc0_scratch0 : Ref sig .tc).ty.Contents (Elt F)) : sProp 𝕄 :=
  (((c : Thread nD τ).loc cc0_scratch0) ↦{fullShare} f)

/-- Before the point, and after it. -/
def Φ₀ (c : Dev nD) : sProp 𝕄 := iprop(start m c ∗ ∃ f, scrPts (F := F) c f)
def Φ₁ (c : Dev nD) : sProp 𝕄 :=
  iprop(scrPts c (commOf m c) ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0)

/-- The pipeline's proof data: the arrays as launched; the staged inputs left as fetched; the staged result at the
    whole softmax; everything owed before the point, nothing after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Sched

end
-- ==== Proof.CommFacts.lean ====
/-
  The scratch buffer, row block by row block.

  The whole-scratch function commOf says what every element of a device's two-slab scratch holds once all copies have
  landed: slab 0, row r, lane j holds the device's own chunk r / 32 at place (r % 32, j); slab 1 the peer's.  A row
  block of 32 rows starting at row R = 32 k of slab s, seen as a 32 × 4096 array, has its element (q, j) at
  (s, R + q, j): the squeeze re-indexes (q, j) as (0, q, j), both at row-major position q · 4096 + j, and the
  rectangle adds its offsets.  So an element lies under the block exactly when its slab is s and its row is in
  [R, R + 32), and then it is the block's element (row - R, lane).

  Two consequences, each on the rows concerned only.  Writing chunk k through the 1 × 32 × 4096 rectangle at rows
  R.. of slab 0 leaves there what commOf says.  And copying the source block (rows R.. of slab 0, read off commOf
  of device c) over rows R.. of slab 1 leaves there what commOf of the PEER says: the peer's slab 1 holds the chunks
  of the peer's peer, which is c.
-/
import proofs.«900346_g7700000000000347_dist_arsfmx_v7x_xyz2x2x4_y_t256_d512_v4096_bf16_1_alg».proof.Proof.SchedIdeal
import Idealize.ShloMosaic.Lib.Pipeline.Value

noncomputable section

namespace Cert.KernelIdeal.CommFacts

open Cert.KernelIdeal Cert.KernelIdeal.Gen Cert.KernelIdeal.Mesh Cert.KernelIdeal.Data
open Idealize.ShloMosaic Idealize.ShloMosaic.TcCoe

/-! ## A row block of the scratch buffer as a 32 × 4096 view -/

/-- Rows off 1 .. off 1 + 32 of slab off 0 (lanes off 2 .. off 2 + 4096), squeezed to 32 × 4096. -/
abbrev blk (off : Fin 3 → Nat) (inb : ∀ a, off a + S1x32x4096.size a ≤ S2x256x4096.size a) : View sig .tc .vmem S32x4096 .bf16 :=
  ((cM.slice (Rect.unit (s := S2x256x4096) off S1x32x4096.size inb) (fun _ => rfl)).squeeze S32x4096 squeezes_S1x32x4096_S32x4096).view

/-- Element (q, j) of the block is element (0, q, j) of the rectangle: the same row-major position. -/
theorem emb_blk_eq (off : Fin 3 → Nat) (inb : ∀ a, off a + S1x32x4096.size a ≤ S2x256x4096.size a) (q : Fin 32) (j : Fin 4096) :
    (blk off inb).emb (ix2b q j) = (cM.access (Rect.unit (s := S2x256x4096) off S1x32x4096.size inb)).emb (ix3 q j) := by
  have e : Shape.reshapeEquiv squeezes_S1x32x4096_S32x4096.numel_eq (ix2b q j) = ix3 q j :=
    Shape.reshapeEquiv_eq_of_rowMajor _ (by
      rw [Shape.rowMajor_val_three, Shape.rowMajor_val_two]
      show (0 * 32 + q.val) * 4096 + j.val = q.val * 4096 + j.val
      omega)
  show (Rect.unit (s := S2x256x4096) off S1x32x4096.size inb).emb (Shape.reshapeEquiv squeezes_S1x32x4096_S32x4096.numel_eq (ix2b q j)) = _
  rw [e]; rfl

/-- Its coordinates: the rectangle's offsets plus (0, q, j). -/
theorem emb_blk (off : Fin 3 → Nat) (inb : ∀ a, off a + S1x32x4096.size a ≤ S2x256x4096.size a) (q : Fin 32) (j : Fin 4096) (a : Fin 3) :
    ((blk off inb).emb (ix2b q j) a : Nat) = off a + (ix3 q j a : Nat) := by
  rw [emb_blk_eq]
  show ((Rect.unit (s := S2x256x4096) off S1x32x4096.size inb).emb (ix3 q j) a : Nat) = _
  rw [Rect.emb_apply]
  show off a + 1 * (ix3 q j a : Nat) = _
  rw [Nat.one_mul]

/-- An element lies under the block exactly when each coordinate is within the rectangle's range. -/
theorem mem_blk (off : Fin 3 → Nat) (inb : ∀ a, off a + S1x32x4096.size a ≤ S2x256x4096.size a) (i : (cc0_scratch0 : Ref sig .tc).ty.Idx) :
    i ∈ (blk off inb).set ↔ ∀ a, off a ≤ i a ∧ (i a : Nat) < off a + S1x32x4096.size a := by
  -- the squeeze keeps the set of elements, and a rectangle of the whole buffer covers the rectangle's own set
  have hs : (blk off inb).set = (Rect.unit (s := S2x256x4096) off S1x32x4096.size inb).set :=
    (View.set_reshape ((View.whole cc0_scratch0).slice (Rect.unit (s := S2x256x4096) off S1x32x4096.size inb))
      squeezes_S1x32x4096_S32x4096.numel_eq).trans (View.set_slice_whole cc0_scratch0 _)
  rw [hs]
  exact Rect.mem_set_unit

/-- The same with the slab and the first row named: slab s, rows R .. R + 32, every lane. -/
theorem mem_core (off : Fin 3 → Nat) (inb : ∀ a, off a + S1x32x4096.size a ≤ S2x256x4096.size a) (s R : Nat)
    (h0 : off 0 = s) (h1 : off 1 = R) (h2 : off 2 = 0) (i : (cc0_scratch0 : Ref sig .tc).ty.Idx) :
    i ∈ (blk off inb).set ↔ (i 0).val = s ∧ R ≤ (i 1).val ∧ (i 1).val < R + 32 := by
  rw [mem_blk]
  constructor
  · intro h
    have a0 : off 0 ≤ (i 0).val ∧ (i 0).val < off 0 + 1 := h 0
    have a1 : off 1 ≤ (i 1).val ∧ (i 1).val < off 1 + 32 := h 1
    omega
  · intro h a
    have l2 : (i 2).val < 4096 := (i 2).isLt
    match a with
    | ⟨0, _⟩ => show off 0 ≤ (i 0).val ∧ (i 0).val < off 0 + 1; omega
    | ⟨1, _⟩ => show off 1 ≤ (i 1).val ∧ (i 1).val < off 1 + 32; omega
    | ⟨2, _⟩ => show off 2 ≤ (i 2).val ∧ (i 2).val < off 2 + 4096; omega

/-- An element under the block is the block's element (row - first row, lane - first lane). -/
theorem eq_emb_of_mem (off : Fin 3 → Nat) (inb : ∀ a, off a + S1x32x4096.size a ≤ S2x256x4096.size a)
    (i : (cc0_scratch0 : Ref sig .tc).ty.Idx) (hi : i ∈ (blk off inb).set) : ∃ (q : Fin 32) (j : Fin 4096), i = (blk off inb).emb (ix2b q j) := by
  rw [mem_blk] at hi
  have a0 : off 0 ≤ (i 0).val ∧ (i 0).val < off 0 + 1 := hi 0
  have a1 : off 1 ≤ (i 1).val ∧ (i 1).val < off 1 + 32 := hi 1
  have a2 : off 2 ≤ (i 2).val ∧ (i 2).val < off 2 + 4096 := hi 2
  refine ⟨⟨(i 1).val - off 1, by omega⟩, ⟨(i 2).val - off 2, by omega⟩, funext fun a => Fin.ext ?_⟩
  rw [emb_blk]
  match a with
  | ⟨0, _⟩ => show (i 0).val = off 0 + 0; omega
  | ⟨1, _⟩ => show (i 1).val = off 1 + ((i 1).val - off 1); omega
  | ⟨2, _⟩ => show (i 2).val = off 2 + ((i 2).val - off 2); omega

/-! ## What the scratch holds at a row of chunk k -/

variable {F : FTy → Type} [FloatOps F]
variable (m : (ℓ : Loc nD τ sig) → Buf (Elt F) ℓ)

/-- At row 32 k + q and lane j the scratch holds place (q, j) of chunk k: the device's own in slab 0, the peer's otherwise. -/
theorem commOf_at (c : Dev nD) (i : (cc0_scratch0 : Ref sig .tc).ty.Idx) (k : Fin 8) (q : Fin 32) (j : Fin 4096)
    (h1 : (i 1).val = 32 * k.val + q.val) (h2 : (i 2).val = j.val) :
    commOf m c i = if (i 0).val = 0 then lg m c k (ix3 q j) else lg m (peer c) k (ix3 q j) := by
  have hk : chunkOf ⟨(i 1).val, (i 1).isLt⟩ = k := Fin.ext (by show (i 1).val / 32 = k.val; omega)
  have hq : inChunk ⟨(i 1).val, (i 1).isLt⟩ = q := Fin.ext (by show (i 1).val % 32 = q.val; omega)
  have hj : (⟨(i 2).val, (i 2).isLt⟩ : Fin 4096) = j := Fin.ext h2
  show (if (i 0).val = 0 then lg m c (chunkOf ⟨(i 1).val, (i 1).isLt⟩) (ix3 (inChunk ⟨(i 1).val, (i 1).isLt⟩) ⟨(i 2).val, (i 2).isLt⟩)
    else lg m (peer c) (chunkOf ⟨(i 1).val, (i 1).isLt⟩) (ix3 (inChunk ⟨(i 1).val, (i 1).isLt⟩) ⟨(i 2).val, (i 2).isLt⟩)) = _
  rw [hk, hq, hj]

/-- The block's element (q, j), when the block is rows 32 k .. of slab 0: the device's own chunk k at (q, j). -/
theorem commOf_blk0 (k : Fin 8) (off : Fin 3 → Nat) (inb : ∀ a, off a + S1x32x4096.size a ≤ S2x256x4096.size a)
    (h0 : off 0 = 0) (h1 : off 1 = 32 * k.val) (h2 : off 2 = 0) (c : Dev nD) (q : Fin 32) (j : Fin 4096) :
    commOf m c ((blk off inb).emb (ix2b q j)) = lg m c k (ix3 q j) := by
  have e0 := emb_blk off inb q j 0
  have e1 := emb_blk off inb q j 1
  have e2 := emb_blk off inb q j 2
  rw [commOf_at m c _ k q j (by rw [e1]; show off 1 + q.val = _; omega) (by rw [e2]; show off 2 + j.val = _; omega),
    if_pos (by rw [e0]; show off 0 + 0 = 0; omega)]

/-- The same when the block is rows 32 k .. of slab 1: the peer's chunk k at (q, j). -/
theorem commOf_blk1 (k : Fin 8) (off : Fin 3 → Nat) (inb : ∀ a, off a + S1x32x4096.size a ≤ S2x256x4096.size a)
    (h0 : off 0 = 1) (h1 : off 1 = 32 * k.val) (h2 : off 2 = 0) (c : Dev nD) (q : Fin 32) (j : Fin 4096) :
    commOf m c ((blk off inb).emb (ix2b q j)) = lg m (peer c) k (ix3 q j) := by
  have e0 := emb_blk off inb q j 0
  have e1 := emb_blk off inb q j 1
  have e2 := emb_blk off inb q j 2
  rw [commOf_at m c _ k q j (by rw [e1]; show off 1 + q.val = _; omega) (by rw [e2]; show off 2 + j.val = _; omega),
    if_neg (by rw [e0]; show ¬ off 0 + 0 = 0; omega)]

/-! ## The two facts, for a block given by its offsets -/

/-- Chunk k written through the rectangle at rows 32 k .. of slab 0 leaves, under that block, what commOf says. -/
theorem stored_core (k : Fin 8) (off : Fin 3 → Nat) (inb : ∀ a, off a + S1x32x4096.size a ≤ S2x256x4096.size a)
    (h0 : off 0 = 0) (h1 : off 1 = 32 * k.val) (h2 : off 2 = 0) (c : Dev nD) (f0 : (cc0_scratch0 : Ref sig .tc).ty.Contents (Elt F)) :
    ∀ i ∈ (blk off inb).set,
      View.write (Elt F) (cM.access (Rect.unit (s := S2x256x4096) off S1x32x4096.size inb)) f0 (lg m c k) Finset.univ i = commOf m c i := by
  intro i hi
  obtain ⟨q, j, rfl⟩ := eq_emb_of_mem off inb i hi
  -- the written value at the rectangle's element (0, q, j) is the payload there
  have hw : View.write (Elt F) (cM.access (Rect.unit (s := S2x256x4096) off S1x32x4096.size inb)) f0 (lg m c k) Finset.univ
      ((cM.access (Rect.unit (s := S2x256x4096) off S1x32x4096.size inb)).emb (ix3 q j)) = lg m c k (ix3 q j) :=
    View.write_emb_of_mem (v := cM.access (Rect.unit (s := S2x256x4096) off S1x32x4096.size inb)) (Val := Elt F) f0 (lg m c k)
      (M := Finset.univ) (x := ix3 q j) (Finset.mem_univ _)
  exact (congrArg (View.write (Elt F) (cM.access (Rect.unit (s := S2x256x4096) off S1x32x4096.size inb)) f0 (lg m c k) Finset.univ)
    (emb_blk_eq off inb q j)).trans (hw.trans (commOf_blk0 m k off inb h0 h1 h2 c q j).symm)

/-- The source block (rows 32 k .. of slab 0) read off commOf of c and written over the destination block (rows 32 k .. of
    slab 1) leaves, under the destination block, what commOf of the peer says. -/
theorem landed_core (k : Fin 8) (offS : Fin 3 → Nat) (inbS : ∀ a, offS a + S1x32x4096.size a ≤ S2x256x4096.size a)
    (offD : Fin 3 → Nat) (inbD : ∀ a, offD a + S1x32x4096.size a ≤ S2x256x4096.size a)
    (s0 : offS 0 = 0) (s1 : offS 1 = 32 * k.val) (s2 : offS 2 = 0) (d0 : offD 0 = 1) (d1 : offD 1 = 32 * k.val) (d2 : offD 2 = 0)
    (c : Dev nD) (fd : (cc0_scratch0 : Ref sig .tc).ty.Contents (Elt F)) :
    ∀ i ∈ (blk offD inbD).set,
      (blk offD inbD).write (Elt F) fd ((blk offS inbS).read (Elt F) (commOf m c)) Finset.univ i = commOf m (peer c) i := by
  intro i hi
  obtain ⟨q, j, rfl⟩ := eq_emb_of_mem offD inbD i hi
  -- the source block read off commOf of c, at (q, j): c's own chunk k there
  have hr : (blk offS inbS).read (Elt F) (commOf m c) (ix2b q j) = lg m c k (ix3 q j) :=
    commOf_blk0 m k offS inbS s0 s1 s2 c q j
  -- the written value at the destination block's element (q, j) is the payload there
  have hw : (blk offD inbD).write (Elt F) fd ((blk offS inbS).read (Elt F) (commOf m c)) Finset.univ ((blk offD inbD).emb (ix2b q j))
      = (blk offS inbS).read (Elt F) (commOf m c) (ix2b q j) :=
    View.write_emb_of_mem (v := blk offD inbD) (Val := Elt F) fd ((blk offS inbS).read (Elt F) (commOf m c))
      (M := Finset.univ) (x := ix2b q j) (Finset.mem_univ _)
  -- the peer's slab 1 holds the chunks of the peer's peer, which is c
  have hd : commOf m (peer c) ((blk offD inbD).emb (ix2b q j)) = lg m c k (ix3 q j) := by
    have h := commOf_blk1 m k offD inbD d0 d1 d2 (peer c) q j
    rw [peer_peer] at h
    exact h
  exact hw.trans (hr.trans hd.symm)

/-! ## The sixteen blocks -/

theorem stored_0 (c : Dev nD) (f0 : (cc0_scratch0 : Ref sig .tc).ty.Contents (Elt F)) :
    ∀ i ∈ ((cM.slice (Rect.unit (s := S2x256x4096) ![0, 0, 0] S1x32x4096.size inb_S2x256x4096_S1x32x4096_0_0_0) (fun _ => rfl)).squeeze S32x4096 squeezes_S1x32x4096_S32x4096).view.set, View.write (Elt F) (cM.access (Rect.unit (s := S2x256x4096) ![0, 0, 0] S1x32x4096.size inb_S2x256x4096_S1x32x4096_0_0_0)) f0 (lg m c ⟨0, by decide⟩) Finset.univ i = commOf m c i :=
  stored_core m ⟨0, by decide⟩ ![0, 0, 0] inb_S2x256x4096_S1x32x4096_0_0_0 rfl rfl rfl c f0
theorem landed_0 (c : Dev nD) (fd : (cc0_scratch0 : Ref sig .tc).ty.Contents (Elt F)) :
    ∀ i ∈ ((cM.slice (Rect.unit (s := S2x256x4096) ![1, 0, 0] S1x32x4096.size inb_S2x256x4096_S1x32x4096_1_0_0) (fun _ => rfl)).squeeze S32x4096 squeezes_S1x32x4096_S32x4096).view.set, ((cM.slice (Rect.unit (s := S2x256x4096) ![1, 0, 0] S1x32x4096.size inb_S2x256x4096_S1x32x4096_1_0_0) (fun _ => rfl)).squeeze S32x4096 squeezes_S1x32x4096_S32x4096).view.write (Elt F) fd (((cM.slice (Rect.unit (s := S2x256x4096) ![0, 0, 0] S1x32x4096.size inb_S2x256x4096_S1x32x4096_0_0_0) (fun _ => rfl)).squeeze S32x4096 squeezes_S1x32x4096_S32x4096).view.read (Elt F) (commOf m c)) Finset.univ i = commOf m (peer c) i :=
  landed_core m ⟨0, by decide⟩ ![0, 0, 0] inb_S2x256x4096_S1x32x4096_0_0_0 ![1, 0, 0] inb_S2x256x4096_S1x32x4096_1_0_0 rfl rfl rfl rfl rfl rfl c fd
theorem stored_1 (c : Dev nD) (f0 : (cc0_scratch0 : Ref sig .tc).ty.Contents (Elt F)) :
    ∀ i ∈ ((cM.slice (Rect.unit (s := S2x256x4096) ![0, 32, 0] S1x32x4096.size inb_S2x256x4096_S1x32x4096_0_32_0) (fun _ => rfl)).squeeze S32x4096 squeezes_S1x32x4096_S32x4096).view.set, View.write (Elt F) (cM.access (Rect.unit (s := S2x256x4096) ![0, 32, 0] S1x32x4096.size inb_S2x256x4096_S1x32x4096_0_32_0)) f0 (lg m c ⟨1, by decide⟩) Finset.univ i = commOf m c i :=
  stored_core m ⟨1, by decide⟩ ![0, 32, 0] inb_S2x256x4096_S1x32x4096_0_32_0 rfl rfl rfl c f0
theorem landed_1 (c : Dev nD) (fd : (cc0_scratch0 : Ref sig .tc).ty.Contents (Elt F)) :
    ∀ i ∈ ((cM.slice (Rect.unit (s := S2x256x4096) ![1, 32, 0] S1x32x4096.size inb_S2x256x4096_S1x32x4096_1_32_0) (fun _ => rfl)).squeeze S32x4096 squeezes_S1x32x4096_S32x4096).view.set, ((cM.slice (Rect.unit (s := S2x256x4096) ![1, 32, 0] S1x32x4096.size inb_S2x256x4096_S1x32x4096_1_32_0) (fun _ => rfl)).squeeze S32x4096 squeezes_S1x32x4096_S32x4096).view.write (Elt F) fd (((cM.slice (Rect.unit (s := S2x256x4096) ![0, 32, 0] S1x32x4096.size inb_S2x256x4096_S1x32x4096_0_32_0) (fun _ => rfl)).squeeze S32x4096 squeezes_S1x32x4096_S32x4096).view.read (Elt F) (commOf m c)) Finset.univ i = commOf m (peer c) i :=
  landed_core m ⟨1, by decide⟩ ![0, 32, 0] inb_S2x256x4096_S1x32x4096_0_32_0 ![1, 32, 0] inb_S2x256x4096_S1x32x4096_1_32_0 rfl rfl rfl rfl rfl rfl c fd
theorem stored_2 (c : Dev nD) (f0 : (cc0_scratch0 : Ref sig .tc).ty.Contents (Elt F)) :
    ∀ i ∈ ((cM.slice (Rect.unit (s := S2x256x4096) ![0, 64, 0] S1x32x4096.size inb_S2x256x4096_S1x32x4096_0_64_0) (fun _ => rfl)).squeeze S32x4096 squeezes_S1x32x4096_S32x4096).view.set, View.write (Elt F) (cM.access (Rect.unit (s := S2x256x4096) ![0, 64, 0] S1x32x4096.size inb_S2x256x4096_S1x32x4096_0_64_0)) f0 (lg m c ⟨2, by decide⟩) Finset.univ i = commOf m c i :=
  stored_core m ⟨2, by decide⟩ ![0, 64, 0] inb_S2x256x4096_S1x32x4096_0_64_0 rfl rfl rfl c f0
theorem landed_2 (c : Dev nD) (fd : (cc0_scratch0 : Ref sig .tc).ty.Contents (Elt F)) :
    ∀ i ∈ ((cM.slice (Rect.unit (s := S2x256x4096) ![1, 64, 0] S1x32x4096.size inb_S2x256x4096_S1x32x4096_1_64_0) (fun _ => rfl)).squeeze S32x4096 squeezes_S1x32x4096_S32x4096).view.set, ((cM.slice (Rect.unit (s := S2x256x4096) ![1, 64, 0] S1x32x4096.size inb_S2x256x4096_S1x32x4096_1_64_0) (fun _ => rfl)).squeeze S32x4096 squeezes_S1x32x4096_S32x4096).view.write (Elt F) fd (((cM.slice (Rect.unit (s := S2x256x4096) ![0, 64, 0] S1x32x4096.size inb_S2x256x4096_S1x32x4096_0_64_0) (fun _ => rfl)).squeeze S32x4096 squeezes_S1x32x4096_S32x4096).view.read (Elt F) (commOf m c)) Finset.univ i = commOf m (peer c) i :=
  landed_core m ⟨2, by decide⟩ ![0, 64, 0] inb_S2x256x4096_S1x32x4096_0_64_0 ![1, 64, 0] inb_S2x256x4096_S1x32x4096_1_64_0 rfl rfl rfl rfl rfl rfl c fd
theorem stored_3 (c : Dev nD) (f0 : (cc0_scratch0 : Ref sig .tc).ty.Contents (Elt F)) :
    ∀ i ∈ ((cM.slice (Rect.unit (s := S2x256x4096) ![0, 96, 0] S1x32x4096.size inb_S2x256x4096_S1x32x4096_0_96_0) (fun _ => rfl)).squeeze S32x4096 squeezes_S1x32x4096_S32x4096).view.set, View.write (Elt F) (cM.access (Rect.unit (s := S2x256x4096) ![0, 96, 0] S1x32x4096.size inb_S2x256x4096_S1x32x4096_0_96_0)) f0 (lg m c ⟨3, by decide⟩) Finset.univ i = commOf m c i :=
  stored_core m ⟨3, by decide⟩ ![0, 96, 0] inb_S2x256x4096_S1x32x4096_0_96_0 rfl rfl rfl c f0
theorem landed_3 (c : Dev nD) (fd : (cc0_scratch0 : Ref sig .tc).ty.Contents (Elt F)) :
    ∀ i ∈ ((cM.slice (Rect.unit (s := S2x256x4096) ![1, 96, 0] S1x32x4096.size inb_S2x256x4096_S1x32x4096_1_96_0) (fun _ => rfl)).squeeze S32x4096 squeezes_S1x32x4096_S32x4096).view.set, ((cM.slice (Rect.unit (s := S2x256x4096) ![1, 96, 0] S1x32x4096.size inb_S2x256x4096_S1x32x4096_1_96_0) (fun _ => rfl)).squeeze S32x4096 squeezes_S1x32x4096_S32x4096).view.write (Elt F) fd (((cM.slice (Rect.unit (s := S2x256x4096) ![0, 96, 0] S1x32x4096.size inb_S2x256x4096_S1x32x4096_0_96_0) (fun _ => rfl)).squeeze S32x4096 squeezes_S1x32x4096_S32x4096).view.read (Elt F) (commOf m c)) Finset.univ i = commOf m (peer c) i :=
  landed_core m ⟨3, by decide⟩ ![0, 96, 0] inb_S2x256x4096_S1x32x4096_0_96_0 ![1, 96, 0] inb_S2x256x4096_S1x32x4096_1_96_0 rfl rfl rfl rfl rfl rfl c fd
theorem stored_4 (c : Dev nD) (f0 : (cc0_scratch0 : Ref sig .tc).ty.Contents (Elt F)) :
    ∀ i ∈ ((cM.slice (Rect.unit (s := S2x256x4096) ![0, 128, 0] S1x32x4096.size inb_S2x256x4096_S1x32x4096_0_128_0) (fun _ => rfl)).squeeze S32x4096 squeezes_S1x32x4096_S32x4096).view.set, View.write (Elt F) (cM.access (Rect.unit (s := S2x256x4096) ![0, 128, 0] S1x32x4096.size inb_S2x256x4096_S1x32x4096_0_128_0)) f0 (lg m c ⟨4, by decide⟩) Finset.univ i = commOf m c i :=
  stored_core m ⟨4, by decide⟩ ![0, 128, 0] inb_S2x256x4096_S1x32x4096_0_128_0 rfl rfl rfl c f0
theorem landed_4 (c : Dev nD) (fd : (cc0_scratch0 : Ref sig .tc).ty.Contents (Elt F)) :
    ∀ i ∈ ((cM.slice (Rect.unit (s := S2x256x4096) ![1, 128, 0] S1x32x4096.size inb_S2x256x4096_S1x32x4096_1_128_0) (fun _ => rfl)).squeeze S32x4096 squeezes_S1x32x4096_S32x4096).view.set, ((cM.slice (Rect.unit (s := S2x256x4096) ![1, 128, 0] S1x32x4096.size inb_S2x256x4096_S1x32x4096_1_128_0) (fun _ => rfl)).squeeze S32x4096 squeezes_S1x32x4096_S32x4096).view.write (Elt F) fd (((cM.slice (Rect.unit (s := S2x256x4096) ![0, 128, 0] S1x32x4096.size inb_S2x256x4096_S1x32x4096_0_128_0) (fun _ => rfl)).squeeze S32x4096 squeezes_S1x32x4096_S32x4096).view.read (Elt F) (commOf m c)) Finset.univ i = commOf m (peer c) i :=
  landed_core m ⟨4, by decide⟩ ![0, 128, 0] inb_S2x256x4096_S1x32x4096_0_128_0 ![1, 128, 0] inb_S2x256x4096_S1x32x4096_1_128_0 rfl rfl rfl rfl rfl rfl c fd
theorem stored_5 (c : Dev nD) (f0 : (cc0_scratch0 : Ref sig .tc).ty.Contents (Elt F)) :
    ∀ i ∈ ((cM.slice (Rect.unit (s := S2x256x4096) ![0, 160, 0] S1x32x4096.size inb_S2x256x4096_S1x32x4096_0_160_0) (fun _ => rfl)).squeeze S32x4096 squeezes_S1x32x4096_S32x4096).view.set, View.write (Elt F) (cM.access (Rect.unit (s := S2x256x4096) ![0, 160, 0] S1x32x4096.size inb_S2x256x4096_S1x32x4096_0_160_0)) f0 (lg m c ⟨5, by decide⟩) Finset.univ i = commOf m c i :=
  stored_core m ⟨5, by decide⟩ ![0, 160, 0] inb_S2x256x4096_S1x32x4096_0_160_0 rfl rfl rfl c f0
theorem landed_5 (c : Dev nD) (fd : (cc0_scratch0 : Ref sig .tc).ty.Contents (Elt F)) :
    ∀ i ∈ ((cM.slice (Rect.unit (s := S2x256x4096) ![1, 160, 0] S1x32x4096.size inb_S2x256x4096_S1x32x4096_1_160_0) (fun _ => rfl)).squeeze S32x4096 squeezes_S1x32x4096_S32x4096).view.set, ((cM.slice (Rect.unit (s := S2x256x4096) ![1, 160, 0] S1x32x4096.size inb_S2x256x4096_S1x32x4096_1_160_0) (fun _ => rfl)).squeeze S32x4096 squeezes_S1x32x4096_S32x4096).view.write (Elt F) fd (((cM.slice (Rect.unit (s := S2x256x4096) ![0, 160, 0] S1x32x4096.size inb_S2x256x4096_S1x32x4096_0_160_0) (fun _ => rfl)).squeeze S32x4096 squeezes_S1x32x4096_S32x4096).view.read (Elt F) (commOf m c)) Finset.univ i = commOf m (peer c) i :=
  landed_core m ⟨5, by decide⟩ ![0, 160, 0] inb_S2x256x4096_S1x32x4096_0_160_0 ![1, 160, 0] inb_S2x256x4096_S1x32x4096_1_160_0 rfl rfl rfl rfl rfl rfl c fd
theorem stored_6 (c : Dev nD) (f0 : (cc0_scratch0 : Ref sig .tc).ty.Contents (Elt F)) :
    ∀ i ∈ ((cM.slice (Rect.unit (s := S2x256x4096) ![0, 192, 0] S1x32x4096.size inb_S2x256x4096_S1x32x4096_0_192_0) (fun _ => rfl)).squeeze S32x4096 squeezes_S1x32x4096_S32x4096).view.set, View.write (Elt F) (cM.access (Rect.unit (s := S2x256x4096) ![0, 192, 0] S1x32x4096.size inb_S2x256x4096_S1x32x4096_0_192_0)) f0 (lg m c ⟨6, by decide⟩) Finset.univ i = commOf m c i :=
  stored_core m ⟨6, by decide⟩ ![0, 192, 0] inb_S2x256x4096_S1x32x4096_0_192_0 rfl rfl rfl c f0
theorem landed_6 (c : Dev nD) (fd : (cc0_scratch0 : Ref sig .tc).ty.Contents (Elt F)) :
    ∀ i ∈ ((cM.slice (Rect.unit (s := S2x256x4096) ![1, 192, 0] S1x32x4096.size inb_S2x256x4096_S1x32x4096_1_192_0) (fun _ => rfl)).squeeze S32x4096 squeezes_S1x32x4096_S32x4096).view.set, ((cM.slice (Rect.unit (s := S2x256x4096) ![1, 192, 0] S1x32x4096.size inb_S2x256x4096_S1x32x4096_1_192_0) (fun _ => rfl)).squeeze S32x4096 squeezes_S1x32x4096_S32x4096).view.write (Elt F) fd (((cM.slice (Rect.unit (s := S2x256x4096) ![0, 192, 0] S1x32x4096.size inb_S2x256x4096_S1x32x4096_0_192_0) (fun _ => rfl)).squeeze S32x4096 squeezes_S1x32x4096_S32x4096).view.read (Elt F) (commOf m c)) Finset.univ i = commOf m (peer c) i :=
  landed_core m ⟨6, by decide⟩ ![0, 192, 0] inb_S2x256x4096_S1x32x4096_0_192_0 ![1, 192, 0] inb_S2x256x4096_S1x32x4096_1_192_0 rfl rfl rfl rfl rfl rfl c fd
theorem stored_7 (c : Dev nD) (f0 : (cc0_scratch0 : Ref sig .tc).ty.Contents (Elt F)) :
    ∀ i ∈ ((cM.slice (Rect.unit (s := S2x256x4096) ![0, 224, 0] S1x32x4096.size inb_S2x256x4096_S1x32x4096_0_224_0) (fun _ => rfl)).squeeze S32x4096 squeezes_S1x32x4096_S32x4096).view.set, View.write (Elt F) (cM.access (Rect.unit (s := S2x256x4096) ![0, 224, 0] S1x32x4096.size inb_S2x256x4096_S1x32x4096_0_224_0)) f0 (lg m c ⟨7, by decide⟩) Finset.univ i = commOf m c i :=
  stored_core m ⟨7, by decide⟩ ![0, 224, 0] inb_S2x256x4096_S1x32x4096_0_224_0 rfl rfl rfl c f0
theorem landed_7 (c : Dev nD) (fd : (cc0_scratch0 : Ref sig .tc).ty.Contents (Elt F)) :
    ∀ i ∈ ((cM.slice (Rect.unit (s := S2x256x4096) ![1, 224, 0] S1x32x4096.size inb_S2x256x4096_S1x32x4096_1_224_0) (fun _ => rfl)).squeeze S32x4096 squeezes_S1x32x4096_S32x4096).view.set, ((cM.slice (Rect.unit (s := S2x256x4096) ![1, 224, 0] S1x32x4096.size inb_S2x256x4096_S1x32x4096_1_224_0) (fun _ => rfl)).squeeze S32x4096 squeezes_S1x32x4096_S32x4096).view.write (Elt F) fd (((cM.slice (Rect.unit (s := S2x256x4096) ![0, 224, 0] S1x32x4096.size inb_S2x256x4096_S1x32x4096_0_224_0) (fun _ => rfl)).squeeze S32x4096 squeezes_S1x32x4096_S32x4096).view.read (Elt F) (commOf m c)) Finset.univ i = commOf m (peer c) i :=
  landed_core m ⟨7, by decide⟩ ![0, 224, 0] inb_S2x256x4096_S1x32x4096_0_224_0 ![1, 224, 0] inb_S2x256x4096_S1x32x4096_1_224_0 rfl rfl rfl rfl rfl rfl c fd

theorem mem_src_0 (i : (cc0_scratch0 : Ref sig .tc).ty.Idx) :
    i ∈ ((cM.slice (Rect.unit (s := S2x256x4096) ![0, 0, 0] S1x32x4096.size inb_S2x256x4096_S1x32x4096_0_0_0) (fun _ => rfl)).squeeze S32x4096 squeezes_S1x32x4096_S32x4096).view.set ↔ (i 0).val = 0 ∧ 0 ≤ (i 1).val ∧ (i 1).val < 0 + 32 :=
  mem_core ![0, 0, 0] inb_S2x256x4096_S1x32x4096_0_0_0 0 0 rfl rfl rfl i
theorem mem_dst_0 (i : (cc0_scratch0 : Ref sig .tc).ty.Idx) :
    i ∈ ((cM.slice (Rect.unit (s := S2x256x4096) ![1, 0, 0] S1x32x4096.size inb_S2x256x4096_S1x32x4096_1_0_0) (fun _ => rfl)).squeeze S32x4096 squeezes_S1x32x4096_S32x4096).view.set ↔ (i 0).val = 1 ∧ 0 ≤ (i 1).val ∧ (i 1).val < 0 + 32 :=
  mem_core ![1, 0, 0] inb_S2x256x4096_S1x32x4096_1_0_0 1 0 rfl rfl rfl i
theorem mem_src_1 (i : (cc0_scratch0 : Ref sig .tc).ty.Idx) :
    i ∈ ((cM.slice (Rect.unit (s := S2x256x4096) ![0, 32, 0] S1x32x4096.size inb_S2x256x4096_S1x32x4096_0_32_0) (fun _ => rfl)).squeeze S32x4096 squeezes_S1x32x4096_S32x4096).view.set ↔ (i 0).val = 0 ∧ 32 ≤ (i 1).val ∧ (i 1).val < 32 + 32 :=
  mem_core ![0, 32, 0] inb_S2x256x4096_S1x32x4096_0_32_0 0 32 rfl rfl rfl i
theorem mem_dst_1 (i : (cc0_scratch0 : Ref sig .tc).ty.Idx) :
    i ∈ ((cM.slice (Rect.unit (s := S2x256x4096) ![1, 32, 0] S1x32x4096.size inb_S2x256x4096_S1x32x4096_1_32_0) (fun _ => rfl)).squeeze S32x4096 squeezes_S1x32x4096_S32x4096).view.set ↔ (i 0).val = 1 ∧ 32 ≤ (i 1).val ∧ (i 1).val < 32 + 32 :=
  mem_core ![1, 32, 0] inb_S2x256x4096_S1x32x4096_1_32_0 1 32 rfl rfl rfl i
theorem mem_src_2 (i : (cc0_scratch0 : Ref sig .tc).ty.Idx) :
    i ∈ ((cM.slice (Rect.unit (s := S2x256x4096) ![0, 64, 0] S1x32x4096.size inb_S2x256x4096_S1x32x4096_0_64_0) (fun _ => rfl)).squeeze S32x4096 squeezes_S1x32x4096_S32x4096).view.set ↔ (i 0).val = 0 ∧ 64 ≤ (i 1).val ∧ (i 1).val < 64 + 32 :=
  mem_core ![0, 64, 0] inb_S2x256x4096_S1x32x4096_0_64_0 0 64 rfl rfl rfl i
theorem mem_dst_2 (i : (cc0_scratch0 : Ref sig .tc).ty.Idx) :
    i ∈ ((cM.slice (Rect.unit (s := S2x256x4096) ![1, 64, 0] S1x32x4096.size inb_S2x256x4096_S1x32x4096_1_64_0) (fun _ => rfl)).squeeze S32x4096 squeezes_S1x32x4096_S32x4096).view.set ↔ (i 0).val = 1 ∧ 64 ≤ (i 1).val ∧ (i 1).val < 64 + 32 :=
  mem_core ![1, 64, 0] inb_S2x256x4096_S1x32x4096_1_64_0 1 64 rfl rfl rfl i
theorem mem_src_3 (i : (cc0_scratch0 : Ref sig .tc).ty.Idx) :
    i ∈ ((cM.slice (Rect.unit (s := S2x256x4096) ![0, 96, 0] S1x32x4096.size inb_S2x256x4096_S1x32x4096_0_96_0) (fun _ => rfl)).squeeze S32x4096 squeezes_S1x32x4096_S32x4096).view.set ↔ (i 0).val = 0 ∧ 96 ≤ (i 1).val ∧ (i 1).val < 96 + 32 :=
  mem_core ![0, 96, 0] inb_S2x256x4096_S1x32x4096_0_96_0 0 96 rfl rfl rfl i
theorem mem_dst_3 (i : (cc0_scratch0 : Ref sig .tc).ty.Idx) :
    i ∈ ((cM.slice (Rect.unit (s := S2x256x4096) ![1, 96, 0] S1x32x4096.size inb_S2x256x4096_S1x32x4096_1_96_0) (fun _ => rfl)).squeeze S32x4096 squeezes_S1x32x4096_S32x4096).view.set ↔ (i 0).val = 1 ∧ 96 ≤ (i 1).val ∧ (i 1).val < 96 + 32 :=
  mem_core ![1, 96, 0] inb_S2x256x4096_S1x32x4096_1_96_0 1 96 rfl rfl rfl i
theorem mem_src_4 (i : (cc0_scratch0 : Ref sig .tc).ty.Idx) :
    i ∈ ((cM.slice (Rect.unit (s := S2x256x4096) ![0, 128, 0] S1x32x4096.size inb_S2x256x4096_S1x32x4096_0_128_0) (fun _ => rfl)).squeeze S32x4096 squeezes_S1x32x4096_S32x4096).view.set ↔ (i 0).val = 0 ∧ 128 ≤ (i 1).val ∧ (i 1).val < 128 + 32 :=
  mem_core ![0, 128, 0] inb_S2x256x4096_S1x32x4096_0_128_0 0 128 rfl rfl rfl i
theorem mem_dst_4 (i : (cc0_scratch0 : Ref sig .tc).ty.Idx) :
    i ∈ ((cM.slice (Rect.unit (s := S2x256x4096) ![1, 128, 0] S1x32x4096.size inb_S2x256x4096_S1x32x4096_1_128_0) (fun _ => rfl)).squeeze S32x4096 squeezes_S1x32x4096_S32x4096).view.set ↔ (i 0).val = 1 ∧ 128 ≤ (i 1).val ∧ (i 1).val < 128 + 32 :=
  mem_core ![1, 128, 0] inb_S2x256x4096_S1x32x4096_1_128_0 1 128 rfl rfl rfl i
theorem mem_src_5 (i : (cc0_scratch0 : Ref sig .tc).ty.Idx) :
    i ∈ ((cM.slice (Rect.unit (s := S2x256x4096) ![0, 160, 0] S1x32x4096.size inb_S2x256x4096_S1x32x4096_0_160_0) (fun _ => rfl)).squeeze S32x4096 squeezes_S1x32x4096_S32x4096).view.set ↔ (i 0).val = 0 ∧ 160 ≤ (i 1).val ∧ (i 1).val < 160 + 32 :=
  mem_core ![0, 160, 0] inb_S2x256x4096_S1x32x4096_0_160_0 0 160 rfl rfl rfl i
theorem mem_dst_5 (i : (cc0_scratch0 : Ref sig .tc).ty.Idx) :
    i ∈ ((cM.slice (Rect.unit (s := S2x256x4096) ![1, 160, 0] S1x32x4096.size inb_S2x256x4096_S1x32x4096_1_160_0) (fun _ => rfl)).squeeze S32x4096 squeezes_S1x32x4096_S32x4096).view.set ↔ (i 0).val = 1 ∧ 160 ≤ (i 1).val ∧ (i 1).val < 160 + 32 :=
  mem_core ![1, 160, 0] inb_S2x256x4096_S1x32x4096_1_160_0 1 160 rfl rfl rfl i
theorem mem_src_6 (i : (cc0_scratch0 : Ref sig .tc).ty.Idx) :
    i ∈ ((cM.slice (Rect.unit (s := S2x256x4096) ![0, 192, 0] S1x32x4096.size inb_S2x256x4096_S1x32x4096_0_192_0) (fun _ => rfl)).squeeze S32x4096 squeezes_S1x32x4096_S32x4096).view.set ↔ (i 0).val = 0 ∧ 192 ≤ (i 1).val ∧ (i 1).val < 192 + 32 :=
  mem_core ![0, 192, 0] inb_S2x256x4096_S1x32x4096_0_192_0 0 192 rfl rfl rfl i
theorem mem_dst_6 (i : (cc0_scratch0 : Ref sig .tc).ty.Idx) :
    i ∈ ((cM.slice (Rect.unit (s := S2x256x4096) ![1, 192, 0] S1x32x4096.size inb_S2x256x4096_S1x32x4096_1_192_0) (fun _ => rfl)).squeeze S32x4096 squeezes_S1x32x4096_S32x4096).view.set ↔ (i 0).val = 1 ∧ 192 ≤ (i 1).val ∧ (i 1).val < 192 + 32 :=
  mem_core ![1, 192, 0] inb_S2x256x4096_S1x32x4096_1_192_0 1 192 rfl rfl rfl i
theorem mem_src_7 (i : (cc0_scratch0 : Ref sig .tc).ty.Idx) :
    i ∈ ((cM.slice (Rect.unit (s := S2x256x4096) ![0, 224, 0] S1x32x4096.size inb_S2x256x4096_S1x32x4096_0_224_0) (fun _ => rfl)).squeeze S32x4096 squeezes_S1x32x4096_S32x4096).view.set ↔ (i 0).val = 0 ∧ 224 ≤ (i 1).val ∧ (i 1).val < 224 + 32 :=
  mem_core ![0, 224, 0] inb_S2x256x4096_S1x32x4096_0_224_0 0 224 rfl rfl rfl i
theorem mem_dst_7 (i : (cc0_scratch0 : Ref sig .tc).ty.Idx) :
    i ∈ ((cM.slice (Rect.unit (s := S2x256x4096) ![1, 224, 0] S1x32x4096.size inb_S2x256x4096_S1x32x4096_1_224_0) (fun _ => rfl)).squeeze S32x4096 squeezes_S1x32x4096_S32x4096).view.set ↔ (i 0).val = 1 ∧ 224 ≤ (i 1).val ∧ (i 1).val < 224 + 32 :=
  mem_core ![1, 224, 0] inb_S2x256x4096_S1x32x4096_1_224_0 1 224 rfl rfl rfl i

end Cert.KernelIdeal.CommFacts

end
-- ==== Proof.ScratchSplit.lean ====
/-
  The whole scratch buffer as its sixteen row blocks.

  The scratch buffer has two slabs of 256 rows.  Cut each slab into eight blocks of 32 rows: block t of the sixteen is
  slab t / 8, rows 32 (t % 8) .. 32 (t % 8) + 32, every lane.  An element lies under block t exactly when its slab is
  t / 8 and its row is in that range; so two different blocks share no element (a different slab, or disjoint row
  ranges), and every element lies under one (its slab is 0 or 1, and its row, below 256, is in the range of row / 32).
  Ownership of the whole buffer at contents f is therefore the same assertion as the sixteen ownerships of the blocks at
  f, conjoined in order: slab 0's eight blocks, then slab 1's.  No decision looks at the lane axis.
-/
import proofs.«900346_g7700000000000347_dist_arsfmx_v7x_xyz2x2x4_y_t256_d512_v4096_bf16_1_alg».proof.Proof.CommFacts
import Idealize.ShloMosaic.Rules.PointsTo

noncomputable section

namespace Cert.KernelIdeal.ScratchSplit

open Cert.KernelIdeal Cert.KernelIdeal.Gen Cert.KernelIdeal.Mesh Cert.KernelIdeal.Data
open Cert.KernelIdeal.Sched Cert.KernelIdeal.CommFacts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The sixteen blocks -/

/-- Block t: slab t / 8, first row 32 (t % 8), first lane 0. -/
abbrev offG (t : Fin 16) : Fin 3 → Nat := ![t.val / 8, 32 * (t.val % 8), 0]

theorem inbG (t : Fin 16) : ∀ a, offG t a + S1x32x4096.size a ≤ S2x256x4096.size a := by
  intro a
  have := t.isLt
  match a with
  | ⟨0, _⟩ => show t.val / 8 + 1 ≤ 2; omega
  | ⟨1, _⟩ => show 32 * (t.val % 8) + 32 ≤ 256; omega
  | ⟨2, _⟩ => show 0 + 4096 ≤ 4096; omega

/-- The elements under block t. -/
abbrev K (t : Fin 16) : Finset ((cc0_scratch0 : Ref sig .tc).ty.Idx) := (blk (offG t) (inbG t)).set

theorem mem_K (t : Fin 16) (i : (cc0_scratch0 : Ref sig .tc).ty.Idx) :
    i ∈ K t ↔ (i 0).val = t.val / 8 ∧ 32 * (t.val % 8) ≤ (i 1).val ∧ (i 1).val < 32 * (t.val % 8) + 32 :=
  mem_core (offG t) (inbG t) (t.val / 8) (32 * (t.val % 8)) rfl rfl rfl i

/-- Different blocks share no element: the slab and the row range determine t. -/
theorem K_disj (t t' : Fin 16) (h : t ≠ t') : Disjoint (K t) (K t') :=
  Finset.disjoint_left.mpr fun i hi hi' => by
    rw [mem_K] at hi hi'
    have := t.isLt
    have := t'.isLt
    exact h (Fin.ext (by omega))

/-- Every element lies under a block: that of its slab and of its row / 32. -/
theorem K_cover : (Finset.univ : Finset ((cc0_scratch0 : Ref sig .tc).ty.Idx)) = (Finset.univ : Finset (Fin 16)).biUnion K := by
  ext i
  have h0 : (i 0).val < 2 := (i 0).isLt
  have h1 : (i 1).val < 256 := (i 1).isLt
  refine ⟨fun _ => Finset.mem_biUnion.mpr ⟨⟨8 * (i 0).val + (i 1).val / 32, by omega⟩, Finset.mem_univ _, ?_⟩, fun _ => Finset.mem_univ _⟩
  rw [mem_K]
  show (i 0).val = (8 * (i 0).val + (i 1).val / 32) / 8 ∧ 32 * ((8 * (i 0).val + (i 1).val / 32) % 8) ≤ (i 1).val
    ∧ (i 1).val < 32 * ((8 * (i 0).val + (i 1).val / 32) % 8) + 32
  omega

/-! ## Ownership of the whole is ownership of the sixteen -/

/-- As an equation of assertions: the whole buffer at f, and the sixteen blocks at f, slab 0's eight then slab 1's. -/
theorem scratch_eq (c : Dev nD) (f : (cc0_scratch0 : Ref sig .tc).ty.Contents (Elt F)) :
    (((c : Thread nD τ).loc cc0_scratch0) ↦{fullShare} f : sProp 𝕄)
      = iprop((((cM.slice (Rect.unit (s := S2x256x4096) ![0, 0, 0] S1x32x4096.size inb_S2x256x4096_S1x32x4096_0_0_0) (fun _ => rfl)).squeeze S32x4096 squeezes_S1x32x4096_S32x4096).view.loc (c : Thread nD τ) ↦[((cM.slice (Rect.unit (s := S2x256x4096) ![0, 0, 0] S1x32x4096.size inb_S2x256x4096_S1x32x4096_0_0_0) (fun _ => rfl)).squeeze S32x4096 squeezes_S1x32x4096_S32x4096).view.set]{fullShare} f) ∗ (((cM.slice (Rect.unit (s := S2x256x4096) ![0, 32, 0] S1x32x4096.size inb_S2x256x4096_S1x32x4096_0_32_0) (fun _ => rfl)).squeeze S32x4096 squeezes_S1x32x4096_S32x4096).view.loc (c : Thread nD τ) ↦[((cM.slice (Rect.unit (s := S2x256x4096) ![0, 32, 0] S1x32x4096.size inb_S2x256x4096_S1x32x4096_0_32_0) (fun _ => rfl)).squeeze S32x4096 squeezes_S1x32x4096_S32x4096).view.set]{fullShare} f) ∗ (((cM.slice (Rect.unit (s := S2x256x4096) ![0, 64, 0] S1x32x4096.size inb_S2x256x4096_S1x32x4096_0_64_0) (fun _ => rfl)).squeeze S32x4096 squeezes_S1x32x4096_S32x4096).view.loc (c : Thread nD τ) ↦[((cM.slice (Rect.unit (s := S2x256x4096) ![0, 64, 0] S1x32x4096.size inb_S2x256x4096_S1x32x4096_0_64_0) (fun _ => rfl)).squeeze S32x4096 squeezes_S1x32x4096_S32x4096).view.set]{fullShare} f) ∗ (((cM.slice (Rect.unit (s := S2x256x4096) ![0, 96, 0] S1x32x4096.size inb_S2x256x4096_S1x32x4096_0_96_0) (fun _ => rfl)).squeeze S32x4096 squeezes_S1x32x4096_S32x4096).view.loc (c : Thread nD τ) ↦[((cM.slice (Rect.unit (s := S2x256x4096) ![0, 96, 0] S1x32x4096.size inb_S2x256x4096_S1x32x4096_0_96_0) (fun _ => rfl)).squeeze S32x4096 squeezes_S1x32x4096_S32x4096).view.set]{fullShare} f) ∗ (((cM.slice (Rect.unit (s := S2x256x4096) ![0, 128, 0] S1x32x4096.size inb_S2x256x4096_S1x32x4096_0_128_0) (fun _ => rfl)).squeeze S32x4096 squeezes_S1x32x4096_S32x4096).view.loc (c : Thread nD τ) ↦[((cM.slice (Rect.unit (s := S2x256x4096) ![0, 128, 0] S1x32x4096.size inb_S2x256x4096_S1x32x4096_0_128_0) (fun _ => rfl)).squeeze S32x4096 squeezes_S1x32x4096_S32x4096).view.set]{fullShare} f) ∗ (((cM.slice (Rect.unit (s := S2x256x4096) ![0, 160, 0] S1x32x4096.size inb_S2x256x4096_S1x32x4096_0_160_0) (fun _ => rfl)).squeeze S32x4096 squeezes_S1x32x4096_S32x4096).view.loc (c : Thread nD τ) ↦[((cM.slice (Rect.unit (s := S2x256x4096) ![0, 160, 0] S1x32x4096.size inb_S2x256x4096_S1x32x4096_0_160_0) (fun _ => rfl)).squeeze S32x4096 squeezes_S1x32x4096_S32x4096).view.set]{fullShare} f) ∗ (((cM.slice (Rect.unit (s := S2x256x4096) ![0, 192, 0] S1x32x4096.size inb_S2x256x4096_S1x32x4096_0_192_0) (fun _ => rfl)).squeeze S32x4096 squeezes_S1x32x4096_S32x4096).view.loc (c : Thread nD τ) ↦[((cM.slice (Rect.unit (s := S2x256x4096) ![0, 192, 0] S1x32x4096.size inb_S2x256x4096_S1x32x4096_0_192_0) (fun _ => rfl)).squeeze S32x4096 squeezes_S1x32x4096_S32x4096).view.set]{fullShare} f) ∗ (((cM.slice (Rect.unit (s := S2x256x4096) ![0, 224, 0] S1x32x4096.size inb_S2x256x4096_S1x32x4096_0_224_0) (fun _ => rfl)).squeeze S32x4096 squeezes_S1x32x4096_S32x4096).view.loc (c : Thread nD τ) ↦[((cM.slice (Rect.unit (s := S2x256x4096) ![0, 224, 0] S1x32x4096.size inb_S2x256x4096_S1x32x4096_0_224_0) (fun _ => rfl)).squeeze S32x4096 squeezes_S1x32x4096_S32x4096).view.set]{fullShare} f) ∗ (((cM.slice (Rect.unit (s := S2x256x4096) ![1, 0, 0] S1x32x4096.size inb_S2x256x4096_S1x32x4096_1_0_0) (fun _ => rfl)).squeeze S32x4096 squeezes_S1x32x4096_S32x4096).view.loc (c : Thread nD τ) ↦[((cM.slice (Rect.unit (s := S2x256x4096) ![1, 0, 0] S1x32x4096.size inb_S2x256x4096_S1x32x4096_1_0_0) (fun _ => rfl)).squeeze S32x4096 squeezes_S1x32x4096_S32x4096).view.set]{fullShare} f) ∗ (((cM.slice (Rect.unit (s := S2x256x4096) ![1, 32, 0] S1x32x4096.size inb_S2x256x4096_S1x32x4096_1_32_0) (fun _ => rfl)).squeeze S32x4096 squeezes_S1x32x4096_S32x4096).view.loc (c : Thread nD τ) ↦[((cM.slice (Rect.unit (s := S2x256x4096) ![1, 32, 0] S1x32x4096.size inb_S2x256x4096_S1x32x4096_1_32_0) (fun _ => rfl)).squeeze S32x4096 squeezes_S1x32x4096_S32x4096).view.set]{fullShare} f) ∗ (((cM.slice (Rect.unit (s := S2x256x4096) ![1, 64, 0] S1x32x4096.size inb_S2x256x4096_S1x32x4096_1_64_0) (fun _ => rfl)).squeeze S32x4096 squeezes_S1x32x4096_S32x4096).view.loc (c : Thread nD τ) ↦[((cM.slice (Rect.unit (s := S2x256x4096) ![1, 64, 0] S1x32x4096.size inb_S2x256x4096_S1x32x4096_1_64_0) (fun _ => rfl)).squeeze S32x4096 squeezes_S1x32x4096_S32x4096).view.set]{fullShare} f) ∗ (((cM.slice (Rect.unit (s := S2x256x4096) ![1, 96, 0] S1x32x4096.size inb_S2x256x4096_S1x32x4096_1_96_0) (fun _ => rfl)).squeeze S32x4096 squeezes_S1x32x4096_S32x4096).view.loc (c : Thread nD τ) ↦[((cM.slice (Rect.unit (s := S2x256x4096) ![1, 96, 0] S1x32x4096.size inb_S2x256x4096_S1x32x4096_1_96_0) (fun _ => rfl)).squeeze S32x4096 squeezes_S1x32x4096_S32x4096).view.set]{fullShare} f) ∗ (((cM.slice (Rect.unit (s := S2x256x4096) ![1, 128, 0] S1x32x4096.size inb_S2x256x4096_S1x32x4096_1_128_0) (fun _ => rfl)).squeeze S32x4096 squeezes_S1x32x4096_S32x4096).view.loc (c : Thread nD τ) ↦[((cM.slice (Rect.unit (s := S2x256x4096) ![1, 128, 0] S1x32x4096.size inb_S2x256x4096_S1x32x4096_1_128_0) (fun _ => rfl)).squeeze S32x4096 squeezes_S1x32x4096_S32x4096).view.set]{fullShare} f) ∗ (((cM.slice (Rect.unit (s := S2x256x4096) ![1, 160, 0] S1x32x4096.size inb_S2x256x4096_S1x32x4096_1_160_0) (fun _ => rfl)).squeeze S32x4096 squeezes_S1x32x4096_S32x4096).view.loc (c : Thread nD τ) ↦[((cM.slice (Rect.unit (s := S2x256x4096) ![1, 160, 0] S1x32x4096.size inb_S2x256x4096_S1x32x4096_1_160_0) (fun _ => rfl)).squeeze S32x4096 squeezes_S1x32x4096_S32x4096).view.set]{fullShare} f) ∗ (((cM.slice (Rect.unit (s := S2x256x4096) ![1, 192, 0] S1x32x4096.size inb_S2x256x4096_S1x32x4096_1_192_0) (fun _ => rfl)).squeeze S32x4096 squeezes_S1x32x4096_S32x4096).view.loc (c : Thread nD τ) ↦[((cM.slice (Rect.unit (s := S2x256x4096) ![1, 192, 0] S1x32x4096.size inb_S2x256x4096_S1x32x4096_1_192_0) (fun _ => rfl)).squeeze S32x4096 squeezes_S1x32x4096_S32x4096).view.set]{fullShare} f) ∗ (((cM.slice (Rect.unit (s := S2x256x4096) ![1, 224, 0] S1x32x4096.size inb_S2x256x4096_S1x32x4096_1_224_0) (fun _ => rfl)).squeeze S32x4096 squeezes_S1x32x4096_S32x4096).view.loc (c : Thread nD τ) ↦[((cM.slice (Rect.unit (s := S2x256x4096) ![1, 224, 0] S1x32x4096.size inb_S2x256x4096_S1x32x4096_1_224_0) (fun _ => rfl)).squeeze S32x4096 squeezes_S1x32x4096_S32x4096).view.set]{fullShare} f)) := by
  have h1 : (((c : Thread nD τ).loc cc0_scratch0) ↦{fullShare} f : sProp 𝕄)
      = bigSep (Finset.univ : Finset (Fin 16)) fun t => (((c : Thread nD τ).loc cc0_scratch0) ↦[K t]{fullShare} f : sProp 𝕄) := by
    have hb : (((c : Thread nD τ).loc cc0_scratch0) ↦[(Finset.univ : Finset (Fin 16)).biUnion K]{fullShare} f : sProp 𝕄)
        = bigSep (Finset.univ : Finset (Fin 16)) fun t => (((c : Thread nD τ).loc cc0_scratch0) ↦[K t]{fullShare} f : sProp 𝕄) :=
      pointsTo_biUnion (ℓ := (c : Thread nD τ).loc cc0_scratch0) Finset.univ K (fun t _ t' _ h => K_disj t t' h)
    rw [← K_cover] at hb
    exact hb
  rw [h1]
  exact bigSep_univ_eq_bigSepL [(0 : Fin 16), 1, 2, 3, 4, 5, 6, 7, 8, 9, 10, 11, 12, 13, 14, 15] (by decide) (by decide) _

/-- The same as a two-way entailment: .1 splits the whole buffer, .2 joins the sixteen blocks back. -/
theorem scratch_split (c : Dev nD) (f : (cc0_scratch0 : Ref sig .tc).ty.Contents (Elt F)) :
    (((c : Thread nD τ).loc cc0_scratch0) ↦{fullShare} f : sProp 𝕄)
      ⊣⊢ iprop((((cM.slice (Rect.unit (s := S2x256x4096) ![0, 0, 0] S1x32x4096.size inb_S2x256x4096_S1x32x4096_0_0_0) (fun _ => rfl)).squeeze S32x4096 squeezes_S1x32x4096_S32x4096).view.loc (c : Thread nD τ) ↦[((cM.slice (Rect.unit (s := S2x256x4096) ![0, 0, 0] S1x32x4096.size inb_S2x256x4096_S1x32x4096_0_0_0) (fun _ => rfl)).squeeze S32x4096 squeezes_S1x32x4096_S32x4096).view.set]{fullShare} f) ∗ (((cM.slice (Rect.unit (s := S2x256x4096) ![0, 32, 0] S1x32x4096.size inb_S2x256x4096_S1x32x4096_0_32_0) (fun _ => rfl)).squeeze S32x4096 squeezes_S1x32x4096_S32x4096).view.loc (c : Thread nD τ) ↦[((cM.slice (Rect.unit (s := S2x256x4096) ![0, 32, 0] S1x32x4096.size inb_S2x256x4096_S1x32x4096_0_32_0) (fun _ => rfl)).squeeze S32x4096 squeezes_S1x32x4096_S32x4096).view.set]{fullShare} f) ∗ (((cM.slice (Rect.unit (s := S2x256x4096) ![0, 64, 0] S1x32x4096.size inb_S2x256x4096_S1x32x4096_0_64_0) (fun _ => rfl)).squeeze S32x4096 squeezes_S1x32x4096_S32x4096).view.loc (c : Thread nD τ) ↦[((cM.slice (Rect.unit (s := S2x256x4096) ![0, 64, 0] S1x32x4096.size inb_S2x256x4096_S1x32x4096_0_64_0) (fun _ => rfl)).squeeze S32x4096 squeezes_S1x32x4096_S32x4096).view.set]{fullShare} f) ∗ (((cM.slice (Rect.unit (s := S2x256x4096) ![0, 96, 0] S1x32x4096.size inb_S2x256x4096_S1x32x4096_0_96_0) (fun _ => rfl)).squeeze S32x4096 squeezes_S1x32x4096_S32x4096).view.loc (c : Thread nD τ) ↦[((cM.slice (Rect.unit (s := S2x256x4096) ![0, 96, 0] S1x32x4096.size inb_S2x256x4096_S1x32x4096_0_96_0) (fun _ => rfl)).squeeze S32x4096 squeezes_S1x32x4096_S32x4096).view.set]{fullShare} f) ∗ (((cM.slice (Rect.unit (s := S2x256x4096) ![0, 128, 0] S1x32x4096.size inb_S2x256x4096_S1x32x4096_0_128_0) (fun _ => rfl)).squeeze S32x4096 squeezes_S1x32x4096_S32x4096).view.loc (c : Thread nD τ) ↦[((cM.slice (Rect.unit (s := S2x256x4096) ![0, 128, 0] S1x32x4096.size inb_S2x256x4096_S1x32x4096_0_128_0) (fun _ => rfl)).squeeze S32x4096 squeezes_S1x32x4096_S32x4096).view.set]{fullShare} f) ∗ (((cM.slice (Rect.unit (s := S2x256x4096) ![0, 160, 0] S1x32x4096.size inb_S2x256x4096_S1x32x4096_0_160_0) (fun _ => rfl)).squeeze S32x4096 squeezes_S1x32x4096_S32x4096).view.loc (c : Thread nD τ) ↦[((cM.slice (Rect.unit (s := S2x256x4096) ![0, 160, 0] S1x32x4096.size inb_S2x256x4096_S1x32x4096_0_160_0) (fun _ => rfl)).squeeze S32x4096 squeezes_S1x32x4096_S32x4096).view.set]{fullShare} f) ∗ (((cM.slice (Rect.unit (s := S2x256x4096) ![0, 192, 0] S1x32x4096.size inb_S2x256x4096_S1x32x4096_0_192_0) (fun _ => rfl)).squeeze S32x4096 squeezes_S1x32x4096_S32x4096).view.loc (c : Thread nD τ) ↦[((cM.slice (Rect.unit (s := S2x256x4096) ![0, 192, 0] S1x32x4096.size inb_S2x256x4096_S1x32x4096_0_192_0) (fun _ => rfl)).squeeze S32x4096 squeezes_S1x32x4096_S32x4096).view.set]{fullShare} f) ∗ (((cM.slice (Rect.unit (s := S2x256x4096) ![0, 224, 0] S1x32x4096.size inb_S2x256x4096_S1x32x4096_0_224_0) (fun _ => rfl)).squeeze S32x4096 squeezes_S1x32x4096_S32x4096).view.loc (c : Thread nD τ) ↦[((cM.slice (Rect.unit (s := S2x256x4096) ![0, 224, 0] S1x32x4096.size inb_S2x256x4096_S1x32x4096_0_224_0) (fun _ => rfl)).squeeze S32x4096 squeezes_S1x32x4096_S32x4096).view.set]{fullShare} f) ∗ (((cM.slice (Rect.unit (s := S2x256x4096) ![1, 0, 0] S1x32x4096.size inb_S2x256x4096_S1x32x4096_1_0_0) (fun _ => rfl)).squeeze S32x4096 squeezes_S1x32x4096_S32x4096).view.loc (c : Thread nD τ) ↦[((cM.slice (Rect.unit (s := S2x256x4096) ![1, 0, 0] S1x32x4096.size inb_S2x256x4096_S1x32x4096_1_0_0) (fun _ => rfl)).squeeze S32x4096 squeezes_S1x32x4096_S32x4096).view.set]{fullShare} f) ∗ (((cM.slice (Rect.unit (s := S2x256x4096) ![1, 32, 0] S1x32x4096.size inb_S2x256x4096_S1x32x4096_1_32_0) (fun _ => rfl)).squeeze S32x4096 squeezes_S1x32x4096_S32x4096).view.loc (c : Thread nD τ) ↦[((cM.slice (Rect.unit (s := S2x256x4096) ![1, 32, 0] S1x32x4096.size inb_S2x256x4096_S1x32x4096_1_32_0) (fun _ => rfl)).squeeze S32x4096 squeezes_S1x32x4096_S32x4096).view.set]{fullShare} f) ∗ (((cM.slice (Rect.unit (s := S2x256x4096) ![1, 64, 0] S1x32x4096.size inb_S2x256x4096_S1x32x4096_1_64_0) (fun _ => rfl)).squeeze S32x4096 squeezes_S1x32x4096_S32x4096).view.loc (c : Thread nD τ) ↦[((cM.slice (Rect.unit (s := S2x256x4096) ![1, 64, 0] S1x32x4096.size inb_S2x256x4096_S1x32x4096_1_64_0) (fun _ => rfl)).squeeze S32x4096 squeezes_S1x32x4096_S32x4096).view.set]{fullShare} f) ∗ (((cM.slice (Rect.unit (s := S2x256x4096) ![1, 96, 0] S1x32x4096.size inb_S2x256x4096_S1x32x4096_1_96_0) (fun _ => rfl)).squeeze S32x4096 squeezes_S1x32x4096_S32x4096).view.loc (c : Thread nD τ) ↦[((cM.slice (Rect.unit (s := S2x256x4096) ![1, 96, 0] S1x32x4096.size inb_S2x256x4096_S1x32x4096_1_96_0) (fun _ => rfl)).squeeze S32x4096 squeezes_S1x32x4096_S32x4096).view.set]{fullShare} f) ∗ (((cM.slice (Rect.unit (s := S2x256x4096) ![1, 128, 0] S1x32x4096.size inb_S2x256x4096_S1x32x4096_1_128_0) (fun _ => rfl)).squeeze S32x4096 squeezes_S1x32x4096_S32x4096).view.loc (c : Thread nD τ) ↦[((cM.slice (Rect.unit (s := S2x256x4096) ![1, 128, 0] S1x32x4096.size inb_S2x256x4096_S1x32x4096_1_128_0) (fun _ => rfl)).squeeze S32x4096 squeezes_S1x32x4096_S32x4096).view.set]{fullShare} f) ∗ (((cM.slice (Rect.unit (s := S2x256x4096) ![1, 160, 0] S1x32x4096.size inb_S2x256x4096_S1x32x4096_1_160_0) (fun _ => rfl)).squeeze S32x4096 squeezes_S1x32x4096_S32x4096).view.loc (c : Thread nD τ) ↦[((cM.slice (Rect.unit (s := S2x256x4096) ![1, 160, 0] S1x32x4096.size inb_S2x256x4096_S1x32x4096_1_160_0) (fun _ => rfl)).squeeze S32x4096 squeezes_S1x32x4096_S32x4096).view.set]{fullShare} f) ∗ (((cM.slice (Rect.unit (s := S2x256x4096) ![1, 192, 0] S1x32x4096.size inb_S2x256x4096_S1x32x4096_1_192_0) (fun _ => rfl)).squeeze S32x4096 squeezes_S1x32x4096_S32x4096).view.loc (c : Thread nD τ) ↦[((cM.slice (Rect.unit (s := S2x256x4096) ![1, 192, 0] S1x32x4096.size inb_S2x256x4096_S1x32x4096_1_192_0) (fun _ => rfl)).squeeze S32x4096 squeezes_S1x32x4096_S32x4096).view.set]{fullShare} f) ∗ (((cM.slice (Rect.unit (s := S2x256x4096) ![1, 224, 0] S1x32x4096.size inb_S2x256x4096_S1x32x4096_1_224_0) (fun _ => rfl)).squeeze S32x4096 squeezes_S1x32x4096_S32x4096).view.loc (c : Thread nD τ) ↦[((cM.slice (Rect.unit (s := S2x256x4096) ![1, 224, 0] S1x32x4096.size inb_S2x256x4096_S1x32x4096_1_224_0) (fun _ => rfl)).squeeze S32x4096 squeezes_S1x32x4096_S32x4096).view.set]{fullShare} f)) :=
  BiEntails.of_eq (scratch_eq c f)

end Cert.KernelIdeal.ScratchSplit

end
-- ==== Proof.OutGeom.lean ====
/-
  The sixteen rectangles of the result a device stores through.

  The staged result is 256 × 8192.  For chunk k the device stores two 32 × 4096 blocks, both at rows 32 k .. 32 k + 32:
  one at columns 4096 y .. with y the device's own half, the other at columns 4096 (1 - y) .., the other half.  A
  rectangle at row offset R and column offset 4096 y has its element (q, j) at (R + q, 4096 y + j); so an element
  (r, col) of the result lies under it exactly when R ≤ r < R + 32 and col / 4096 = y, and it is then the block's element
  (r - R, col % 4096), where r - R = r % 32 because 32 divides R.  A store through the rectangle leaves the payload
  there and the old contents everywhere else.  Nothing is decided over the column axis but col / 4096.
-/
import proofs.«900346_g7700000000000347_dist_arsfmx_v7x_xyz2x2x4_y_t256_d512_v4096_bf16_1_alg».proof.Proof.DataIdeal
import proofs.«900346_g7700000000000347_dist_arsfmx_v7x_xyz2x2x4_y_t256_d512_v4096_bf16_1_alg».proof.Proof.MeshIdeal
import proofs.«900346_g7700000000000347_dist_arsfmx_v7x_xyz2x2x4_y_t256_d512_v4096_bf16_1_alg».proof.Proof.Gen.KernelIdeal
import Idealize.ShloMosaic.Lib.Pipeline.Value

noncomputable section

namespace Cert.KernelIdeal.OutGeom

open Cert.KernelIdeal Cert.KernelIdeal.Gen Cert.KernelIdeal.Mesh Cert.KernelIdeal.Data
open Idealize.ShloMosaic Idealize.ShloMosaic.TcCoe

/-! ## A 32 × 4096 rectangle of the result, given by its offsets -/

section Core
variable (off : Fin 2 → Nat) (inb : ∀ a, off a + S32x4096.size a ≤ S256x8192.size a)

/-- The rectangle's element x sits at the offsets plus x. -/
theorem emb_core (x : S32x4096.Idx) (a : Fin 2) :
    ((oM.access (Rect.unit (s := S256x8192) off S32x4096.size inb)).emb x a : Nat) = off a + (x a : Nat) := by
  show ((Rect.unit (s := S256x8192) off S32x4096.size inb).emb x a : Nat) = _
  rw [Rect.emb_apply]
  show off a + 1 * (x a : Nat) = _
  rw [Nat.one_mul]

/-- Its element (q, j), with the two offsets named. -/
theorem emb_pair (R C : Nat) (h0 : off 0 = R) (h1 : off 1 = C) (q : Fin 32) (j : Fin 4096) :
    ((oM.access (Rect.unit (s := S256x8192) off S32x4096.size inb)).emb (ix2b q j) 0).val = R + q.val
      ∧ ((oM.access (Rect.unit (s := S256x8192) off S32x4096.size inb)).emb (ix2b q j) 1).val = C + j.val :=
  ⟨(emb_core off inb (ix2b q j) 0).trans (by rw [h0]; rfl), (emb_core off inb (ix2b q j) 1).trans (by rw [h1]; rfl)⟩

/-- The elements under it: each coordinate within the rectangle's range. -/
theorem mem_range (i : (cc0_stg2_0 : Ref sig .tc).ty.Idx) :
    i ∈ (oM.access (Rect.unit (s := S256x8192) off S32x4096.size inb)).set ↔ ∀ a, off a ≤ i a ∧ (i a : Nat) < off a + S32x4096.size a := by
  have hs : (oM.access (Rect.unit (s := S256x8192) off S32x4096.size inb)).set = (Rect.unit (s := S256x8192) off S32x4096.size inb).set :=
    View.set_slice_whole cc0_stg2_0 _
  rw [hs]
  exact Rect.mem_set_unit

/-- The same with the row offset R and the column half y named: rows R .. R + 32, columns of half y. -/
theorem mem_core (R y : Nat) (h0 : off 0 = R) (h1 : off 1 = 4096 * y) (i : (cc0_stg2_0 : Ref sig .tc).ty.Idx) :
    i ∈ (oM.access (Rect.unit (s := S256x8192) off S32x4096.size inb)).set ↔ R ≤ (i 0).val ∧ (i 0).val < R + 32 ∧ (i 1).val / 4096 = y := by
  rw [mem_range]
  have l1 : (i 1).val < 8192 := (i 1).isLt
  constructor
  · intro h
    have a0 : off 0 ≤ (i 0).val ∧ (i 0).val < off 0 + 32 := h 0
    have a1 : off 1 ≤ (i 1).val ∧ (i 1).val < off 1 + 4096 := h 1
    omega
  · intro h a
    match a with
    | ⟨0, _⟩ => show off 0 ≤ (i 0).val ∧ (i 0).val < off 0 + 32; omega
    | ⟨1, _⟩ => show off 1 ≤ (i 1).val ∧ (i 1).val < off 1 + 4096; omega

variable {F : FTy → Type} [FloatOps F]

/-- A store through the rectangle, read at the element that is the rectangle's (q, j): the payload there. -/
theorem write_at (f : (cc0_stg2_0 : Ref sig .tc).ty.Contents (Elt F)) (w : FVec F S32x4096 .bf16) (i : (cc0_stg2_0 : Ref sig .tc).ty.Idx)
    (q : Fin 32) (j : Fin 4096) (hq : (i 0).val = off 0 + q.val) (hj : (i 1).val = off 1 + j.val) :
    View.write (Elt F) (oM.access (Rect.unit (s := S256x8192) off S32x4096.size inb)) f w Finset.univ i = w (ix2b q j) := by
  have e : i = (oM.access (Rect.unit (s := S256x8192) off S32x4096.size inb)).emb (ix2b q j) :=
    funext fun a => Fin.ext (by
      rw [emb_core]
      match a with
      | ⟨0, _⟩ => exact hq
      | ⟨1, _⟩ => exact hj)
  have hw : View.write (Elt F) (oM.access (Rect.unit (s := S256x8192) off S32x4096.size inb)) f w Finset.univ
      ((oM.access (Rect.unit (s := S256x8192) off S32x4096.size inb)).emb (ix2b q j)) = w (ix2b q j) :=
    View.write_emb_of_mem (v := oM.access (Rect.unit (s := S256x8192) off S32x4096.size inb)) (Val := Elt F) f w
      (M := Finset.univ) (x := ix2b q j) (Finset.mem_univ _)
  exact (congrArg (View.write (Elt F) (oM.access (Rect.unit (s := S256x8192) off S32x4096.size inb)) f w Finset.univ) e).trans hw

/-- At an element under the rectangle: the payload at (row % 32, column % 4096), the row offset being a multiple of 32. -/
theorem write_mem (R y : Nat) (h0 : off 0 = R) (h1 : off 1 = 4096 * y) (hR : R % 32 = 0)
    (f : (cc0_stg2_0 : Ref sig .tc).ty.Contents (Elt F)) (w : FVec F S32x4096 .bf16) (i : (cc0_stg2_0 : Ref sig .tc).ty.Idx)
    (hi : i ∈ (oM.access (Rect.unit (s := S256x8192) off S32x4096.size inb)).set) :
    View.write (Elt F) (oM.access (Rect.unit (s := S256x8192) off S32x4096.size inb)) f w Finset.univ i
      = w (ix2b (inChunk ⟨(i 0).val, (i 0).isLt⟩) ⟨(i 1).val % 4096, Nat.mod_lt _ (by decide)⟩) := by
  rw [mem_core off inb R y h0 h1] at hi
  have l1 : (i 1).val < 8192 := (i 1).isLt
  exact write_at off inb f w i _ _ (by show (i 0).val = off 0 + (i 0).val % 32; omega) (by show (i 1).val = off 1 + (i 1).val % 4096; omega)

/-- At an element not under the rectangle: the old contents. -/
theorem write_not (f : (cc0_stg2_0 : Ref sig .tc).ty.Contents (Elt F)) (w : FVec F S32x4096 .bf16) (i : (cc0_stg2_0 : Ref sig .tc).ty.Idx)
    (hi : i ∉ (oM.access (Rect.unit (s := S256x8192) off S32x4096.size inb)).set) :
    View.write (Elt F) (oM.access (Rect.unit (s := S256x8192) off S32x4096.size inb)) f w Finset.univ i = f i := by
  -- under the whole mask the masked elements are the view's elements
  have hi' : i ∉ (oM.access (Rect.unit (s := S256x8192) off S32x4096.size inb)).setOn Finset.univ := by
    rw [View.setOn_univ]; exact hi
  exact View.write_of_not_mem (v := oM.access (Rect.unit (s := S256x8192) off S32x4096.size inb)) (Val := Elt F) f w Finset.univ hi'

end Core

/-! ## The sixteen rectangles, as the stores spell them -/

variable {F : FTy → Type} [FloatOps F]

/-! ### Chunk 0: rows 0 .. 32 -/

theorem row_own_0 (c : Dev nD) : k0_off1 c 0 = 0 := by rw [k0_off1_eq]; rfl
theorem col_own_0 (c : Dev nD) : k0_off1 c 1 = 4096 * yOf c := by rw [k0_off1_eq]; rfl
theorem row_oth_0 (c : Dev nD) : k0_off2 c 0 = 0 := by rw [k0_off2_eq]; rfl
theorem col_oth_0 (c : Dev nD) : k0_off2 c 1 = 4096 * (1 - yOf c) := by
  rw [k0_off2_eq]; show 4096 - 4096 * yOf c = 4096 * (1 - yOf c); have := yOf_lt c; omega

theorem mem_own_0 (c : Dev nD) (i : (cc0_stg2_0 : Ref sig .tc).ty.Idx) :
    i ∈ (oM.access (Rect.unit (s := S256x8192) (k0_off1 c) S32x4096.size (k0_off1_inb c))).set ↔ 0 ≤ (i 0).val ∧ (i 0).val < 0 + 32 ∧ (i 1).val / 4096 = yOf c :=
  mem_core (k0_off1 c) (k0_off1_inb c) 0 (yOf c) (row_own_0 c) (col_own_0 c) i
theorem mem_oth_0 (c : Dev nD) (i : (cc0_stg2_0 : Ref sig .tc).ty.Idx) :
    i ∈ (oM.access (Rect.unit (s := S256x8192) (k0_off2 c) S32x4096.size (k0_off2_inb c))).set ↔ 0 ≤ (i 0).val ∧ (i 0).val < 0 + 32 ∧ (i 1).val / 4096 = 1 - yOf c :=
  mem_core (k0_off2 c) (k0_off2_inb c) 0 (1 - yOf c) (row_oth_0 c) (col_oth_0 c) i

theorem emb_own_0 (c : Dev nD) (q : Fin 32) (j : Fin 4096) :
    ((oM.access (Rect.unit (s := S256x8192) (k0_off1 c) S32x4096.size (k0_off1_inb c))).emb (ix2b q j) 0).val = 0 + q.val ∧ ((oM.access (Rect.unit (s := S256x8192) (k0_off1 c) S32x4096.size (k0_off1_inb c))).emb (ix2b q j) 1).val = 4096 * yOf c + j.val :=
  emb_pair (k0_off1 c) (k0_off1_inb c) 0 (4096 * yOf c) (row_own_0 c) (col_own_0 c) q j
theorem emb_oth_0 (c : Dev nD) (q : Fin 32) (j : Fin 4096) :
    ((oM.access (Rect.unit (s := S256x8192) (k0_off2 c) S32x4096.size (k0_off2_inb c))).emb (ix2b q j) 0).val = 0 + q.val ∧ ((oM.access (Rect.unit (s := S256x8192) (k0_off2 c) S32x4096.size (k0_off2_inb c))).emb (ix2b q j) 1).val = 4096 * (1 - yOf c) + j.val :=
  emb_pair (k0_off2 c) (k0_off2_inb c) 0 (4096 * (1 - yOf c)) (row_oth_0 c) (col_oth_0 c) q j

theorem write_own_0 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off1 c) S32x4096.size (k0_off1_inb c))).set) :
    View.write (Elt F) (oM.access (Rect.unit (s := S256x8192) (k0_off1 c) S32x4096.size (k0_off1_inb c))) f w Finset.univ i
      = w (ix2b (inChunk ⟨(i 0).val, (i 0).isLt⟩) ⟨(i 1).val % 4096, Nat.mod_lt _ (by decide)⟩) :=
  write_mem (k0_off1 c) (k0_off1_inb c) 0 (yOf c) (row_own_0 c) (col_own_0 c) (by decide) f w i hi
theorem write_own_0_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off1 c) S32x4096.size (k0_off1_inb c))).set) :
    View.write (Elt F) (oM.access (Rect.unit (s := S256x8192) (k0_off1 c) S32x4096.size (k0_off1_inb c))) f w Finset.univ i = f i :=
  write_not (k0_off1 c) (k0_off1_inb c) f w i hi
theorem write_oth_0 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off2 c) S32x4096.size (k0_off2_inb c))).set) :
    View.write (Elt F) (oM.access (Rect.unit (s := S256x8192) (k0_off2 c) S32x4096.size (k0_off2_inb c))) f w Finset.univ i
      = w (ix2b (inChunk ⟨(i 0).val, (i 0).isLt⟩) ⟨(i 1).val % 4096, Nat.mod_lt _ (by decide)⟩) :=
  write_mem (k0_off2 c) (k0_off2_inb c) 0 (1 - yOf c) (row_oth_0 c) (col_oth_0 c) (by decide) f w i hi
theorem write_oth_0_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off2 c) S32x4096.size (k0_off2_inb c))).set) :
    View.write (Elt F) (oM.access (Rect.unit (s := S256x8192) (k0_off2 c) S32x4096.size (k0_off2_inb c))) f w Finset.univ i = f i :=
  write_not (k0_off2 c) (k0_off2_inb c) f w i hi

/-! ### Chunk 1: rows 32 .. 64 -/

theorem row_own_1 (c : Dev nD) : k0_off3 c 0 = 32 := by rw [k0_off3_eq]; rfl
theorem col_own_1 (c : Dev nD) : k0_off3 c 1 = 4096 * yOf c := by rw [k0_off3_eq]; rfl
theorem row_oth_1 (c : Dev nD) : k0_off4 c 0 = 32 := by rw [k0_off4_eq]; rfl
theorem col_oth_1 (c : Dev nD) : k0_off4 c 1 = 4096 * (1 - yOf c) := by
  rw [k0_off4_eq]; show 4096 - 4096 * yOf c = 4096 * (1 - yOf c); have := yOf_lt c; omega

theorem mem_own_1 (c : Dev nD) (i : (cc0_stg2_0 : Ref sig .tc).ty.Idx) :
    i ∈ (oM.access (Rect.unit (s := S256x8192) (k0_off3 c) S32x4096.size (k0_off3_inb c))).set ↔ 32 ≤ (i 0).val ∧ (i 0).val < 32 + 32 ∧ (i 1).val / 4096 = yOf c :=
  mem_core (k0_off3 c) (k0_off3_inb c) 32 (yOf c) (row_own_1 c) (col_own_1 c) i
theorem mem_oth_1 (c : Dev nD) (i : (cc0_stg2_0 : Ref sig .tc).ty.Idx) :
    i ∈ (oM.access (Rect.unit (s := S256x8192) (k0_off4 c) S32x4096.size (k0_off4_inb c))).set ↔ 32 ≤ (i 0).val ∧ (i 0).val < 32 + 32 ∧ (i 1).val / 4096 = 1 - yOf c :=
  mem_core (k0_off4 c) (k0_off4_inb c) 32 (1 - yOf c) (row_oth_1 c) (col_oth_1 c) i

theorem emb_own_1 (c : Dev nD) (q : Fin 32) (j : Fin 4096) :
    ((oM.access (Rect.unit (s := S256x8192) (k0_off3 c) S32x4096.size (k0_off3_inb c))).emb (ix2b q j) 0).val = 32 + q.val ∧ ((oM.access (Rect.unit (s := S256x8192) (k0_off3 c) S32x4096.size (k0_off3_inb c))).emb (ix2b q j) 1).val = 4096 * yOf c + j.val :=
  emb_pair (k0_off3 c) (k0_off3_inb c) 32 (4096 * yOf c) (row_own_1 c) (col_own_1 c) q j
theorem emb_oth_1 (c : Dev nD) (q : Fin 32) (j : Fin 4096) :
    ((oM.access (Rect.unit (s := S256x8192) (k0_off4 c) S32x4096.size (k0_off4_inb c))).emb (ix2b q j) 0).val = 32 + q.val ∧ ((oM.access (Rect.unit (s := S256x8192) (k0_off4 c) S32x4096.size (k0_off4_inb c))).emb (ix2b q j) 1).val = 4096 * (1 - yOf c) + j.val :=
  emb_pair (k0_off4 c) (k0_off4_inb c) 32 (4096 * (1 - yOf c)) (row_oth_1 c) (col_oth_1 c) q j

theorem write_own_1 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off3 c) S32x4096.size (k0_off3_inb c))).set) :
    View.write (Elt F) (oM.access (Rect.unit (s := S256x8192) (k0_off3 c) S32x4096.size (k0_off3_inb c))) f w Finset.univ i
      = w (ix2b (inChunk ⟨(i 0).val, (i 0).isLt⟩) ⟨(i 1).val % 4096, Nat.mod_lt _ (by decide)⟩) :=
  write_mem (k0_off3 c) (k0_off3_inb c) 32 (yOf c) (row_own_1 c) (col_own_1 c) (by decide) f w i hi
theorem write_own_1_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off3 c) S32x4096.size (k0_off3_inb c))).set) :
    View.write (Elt F) (oM.access (Rect.unit (s := S256x8192) (k0_off3 c) S32x4096.size (k0_off3_inb c))) f w Finset.univ i = f i :=
  write_not (k0_off3 c) (k0_off3_inb c) f w i hi
theorem write_oth_1 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off4 c) S32x4096.size (k0_off4_inb c))).set) :
    View.write (Elt F) (oM.access (Rect.unit (s := S256x8192) (k0_off4 c) S32x4096.size (k0_off4_inb c))) f w Finset.univ i
      = w (ix2b (inChunk ⟨(i 0).val, (i 0).isLt⟩) ⟨(i 1).val % 4096, Nat.mod_lt _ (by decide)⟩) :=
  write_mem (k0_off4 c) (k0_off4_inb c) 32 (1 - yOf c) (row_oth_1 c) (col_oth_1 c) (by decide) f w i hi
theorem write_oth_1_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off4 c) S32x4096.size (k0_off4_inb c))).set) :
    View.write (Elt F) (oM.access (Rect.unit (s := S256x8192) (k0_off4 c) S32x4096.size (k0_off4_inb c))) f w Finset.univ i = f i :=
  write_not (k0_off4 c) (k0_off4_inb c) f w i hi

/-! ### Chunk 2: rows 64 .. 96 -/

theorem row_own_2 (c : Dev nD) : k0_off5 c 0 = 64 := by rw [k0_off5_eq]; rfl
theorem col_own_2 (c : Dev nD) : k0_off5 c 1 = 4096 * yOf c := by rw [k0_off5_eq]; rfl
theorem row_oth_2 (c : Dev nD) : k0_off6 c 0 = 64 := by rw [k0_off6_eq]; rfl
theorem col_oth_2 (c : Dev nD) : k0_off6 c 1 = 4096 * (1 - yOf c) := by
  rw [k0_off6_eq]; show 4096 - 4096 * yOf c = 4096 * (1 - yOf c); have := yOf_lt c; omega

theorem mem_own_2 (c : Dev nD) (i : (cc0_stg2_0 : Ref sig .tc).ty.Idx) :
    i ∈ (oM.access (Rect.unit (s := S256x8192) (k0_off5 c) S32x4096.size (k0_off5_inb c))).set ↔ 64 ≤ (i 0).val ∧ (i 0).val < 64 + 32 ∧ (i 1).val / 4096 = yOf c :=
  mem_core (k0_off5 c) (k0_off5_inb c) 64 (yOf c) (row_own_2 c) (col_own_2 c) i
theorem mem_oth_2 (c : Dev nD) (i : (cc0_stg2_0 : Ref sig .tc).ty.Idx) :
    i ∈ (oM.access (Rect.unit (s := S256x8192) (k0_off6 c) S32x4096.size (k0_off6_inb c))).set ↔ 64 ≤ (i 0).val ∧ (i 0).val < 64 + 32 ∧ (i 1).val / 4096 = 1 - yOf c :=
  mem_core (k0_off6 c) (k0_off6_inb c) 64 (1 - yOf c) (row_oth_2 c) (col_oth_2 c) i

theorem emb_own_2 (c : Dev nD) (q : Fin 32) (j : Fin 4096) :
    ((oM.access (Rect.unit (s := S256x8192) (k0_off5 c) S32x4096.size (k0_off5_inb c))).emb (ix2b q j) 0).val = 64 + q.val ∧ ((oM.access (Rect.unit (s := S256x8192) (k0_off5 c) S32x4096.size (k0_off5_inb c))).emb (ix2b q j) 1).val = 4096 * yOf c + j.val :=
  emb_pair (k0_off5 c) (k0_off5_inb c) 64 (4096 * yOf c) (row_own_2 c) (col_own_2 c) q j
theorem emb_oth_2 (c : Dev nD) (q : Fin 32) (j : Fin 4096) :
    ((oM.access (Rect.unit (s := S256x8192) (k0_off6 c) S32x4096.size (k0_off6_inb c))).emb (ix2b q j) 0).val = 64 + q.val ∧ ((oM.access (Rect.unit (s := S256x8192) (k0_off6 c) S32x4096.size (k0_off6_inb c))).emb (ix2b q j) 1).val = 4096 * (1 - yOf c) + j.val :=
  emb_pair (k0_off6 c) (k0_off6_inb c) 64 (4096 * (1 - yOf c)) (row_oth_2 c) (col_oth_2 c) q j

theorem write_own_2 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off5 c) S32x4096.size (k0_off5_inb c))).set) :
    View.write (Elt F) (oM.access (Rect.unit (s := S256x8192) (k0_off5 c) S32x4096.size (k0_off5_inb c))) f w Finset.univ i
      = w (ix2b (inChunk ⟨(i 0).val, (i 0).isLt⟩) ⟨(i 1).val % 4096, Nat.mod_lt _ (by decide)⟩) :=
  write_mem (k0_off5 c) (k0_off5_inb c) 64 (yOf c) (row_own_2 c) (col_own_2 c) (by decide) f w i hi
theorem write_own_2_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off5 c) S32x4096.size (k0_off5_inb c))).set) :
    View.write (Elt F) (oM.access (Rect.unit (s := S256x8192) (k0_off5 c) S32x4096.size (k0_off5_inb c))) f w Finset.univ i = f i :=
  write_not (k0_off5 c) (k0_off5_inb c) f w i hi
theorem write_oth_2 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off6 c) S32x4096.size (k0_off6_inb c))).set) :
    View.write (Elt F) (oM.access (Rect.unit (s := S256x8192) (k0_off6 c) S32x4096.size (k0_off6_inb c))) f w Finset.univ i
      = w (ix2b (inChunk ⟨(i 0).val, (i 0).isLt⟩) ⟨(i 1).val % 4096, Nat.mod_lt _ (by decide)⟩) :=
  write_mem (k0_off6 c) (k0_off6_inb c) 64 (1 - yOf c) (row_oth_2 c) (col_oth_2 c) (by decide) f w i hi
theorem write_oth_2_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off6 c) S32x4096.size (k0_off6_inb c))).set) :
    View.write (Elt F) (oM.access (Rect.unit (s := S256x8192) (k0_off6 c) S32x4096.size (k0_off6_inb c))) f w Finset.univ i = f i :=
  write_not (k0_off6 c) (k0_off6_inb c) f w i hi

/-! ### Chunk 3: rows 96 .. 128 -/

theorem row_own_3 (c : Dev nD) : k0_off7 c 0 = 96 := by rw [k0_off7_eq]; rfl
theorem col_own_3 (c : Dev nD) : k0_off7 c 1 = 4096 * yOf c := by rw [k0_off7_eq]; rfl
theorem row_oth_3 (c : Dev nD) : k0_off8 c 0 = 96 := by rw [k0_off8_eq]; rfl
theorem col_oth_3 (c : Dev nD) : k0_off8 c 1 = 4096 * (1 - yOf c) := by
  rw [k0_off8_eq]; show 4096 - 4096 * yOf c = 4096 * (1 - yOf c); have := yOf_lt c; omega

theorem mem_own_3 (c : Dev nD) (i : (cc0_stg2_0 : Ref sig .tc).ty.Idx) :
    i ∈ (oM.access (Rect.unit (s := S256x8192) (k0_off7 c) S32x4096.size (k0_off7_inb c))).set ↔ 96 ≤ (i 0).val ∧ (i 0).val < 96 + 32 ∧ (i 1).val / 4096 = yOf c :=
  mem_core (k0_off7 c) (k0_off7_inb c) 96 (yOf c) (row_own_3 c) (col_own_3 c) i
theorem mem_oth_3 (c : Dev nD) (i : (cc0_stg2_0 : Ref sig .tc).ty.Idx) :
    i ∈ (oM.access (Rect.unit (s := S256x8192) (k0_off8 c) S32x4096.size (k0_off8_inb c))).set ↔ 96 ≤ (i 0).val ∧ (i 0).val < 96 + 32 ∧ (i 1).val / 4096 = 1 - yOf c :=
  mem_core (k0_off8 c) (k0_off8_inb c) 96 (1 - yOf c) (row_oth_3 c) (col_oth_3 c) i

theorem emb_own_3 (c : Dev nD) (q : Fin 32) (j : Fin 4096) :
    ((oM.access (Rect.unit (s := S256x8192) (k0_off7 c) S32x4096.size (k0_off7_inb c))).emb (ix2b q j) 0).val = 96 + q.val ∧ ((oM.access (Rect.unit (s := S256x8192) (k0_off7 c) S32x4096.size (k0_off7_inb c))).emb (ix2b q j) 1).val = 4096 * yOf c + j.val :=
  emb_pair (k0_off7 c) (k0_off7_inb c) 96 (4096 * yOf c) (row_own_3 c) (col_own_3 c) q j
theorem emb_oth_3 (c : Dev nD) (q : Fin 32) (j : Fin 4096) :
    ((oM.access (Rect.unit (s := S256x8192) (k0_off8 c) S32x4096.size (k0_off8_inb c))).emb (ix2b q j) 0).val = 96 + q.val ∧ ((oM.access (Rect.unit (s := S256x8192) (k0_off8 c) S32x4096.size (k0_off8_inb c))).emb (ix2b q j) 1).val = 4096 * (1 - yOf c) + j.val :=
  emb_pair (k0_off8 c) (k0_off8_inb c) 96 (4096 * (1 - yOf c)) (row_oth_3 c) (col_oth_3 c) q j

theorem write_own_3 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off7 c) S32x4096.size (k0_off7_inb c))).set) :
    View.write (Elt F) (oM.access (Rect.unit (s := S256x8192) (k0_off7 c) S32x4096.size (k0_off7_inb c))) f w Finset.univ i
      = w (ix2b (inChunk ⟨(i 0).val, (i 0).isLt⟩) ⟨(i 1).val % 4096, Nat.mod_lt _ (by decide)⟩) :=
  write_mem (k0_off7 c) (k0_off7_inb c) 96 (yOf c) (row_own_3 c) (col_own_3 c) (by decide) f w i hi
theorem write_own_3_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off7 c) S32x4096.size (k0_off7_inb c))).set) :
    View.write (Elt F) (oM.access (Rect.unit (s := S256x8192) (k0_off7 c) S32x4096.size (k0_off7_inb c))) f w Finset.univ i = f i :=
  write_not (k0_off7 c) (k0_off7_inb c) f w i hi
theorem write_oth_3 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off8 c) S32x4096.size (k0_off8_inb c))).set) :
    View.write (Elt F) (oM.access (Rect.unit (s := S256x8192) (k0_off8 c) S32x4096.size (k0_off8_inb c))) f w Finset.univ i
      = w (ix2b (inChunk ⟨(i 0).val, (i 0).isLt⟩) ⟨(i 1).val % 4096, Nat.mod_lt _ (by decide)⟩) :=
  write_mem (k0_off8 c) (k0_off8_inb c) 96 (1 - yOf c) (row_oth_3 c) (col_oth_3 c) (by decide) f w i hi
theorem write_oth_3_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off8 c) S32x4096.size (k0_off8_inb c))).set) :
    View.write (Elt F) (oM.access (Rect.unit (s := S256x8192) (k0_off8 c) S32x4096.size (k0_off8_inb c))) f w Finset.univ i = f i :=
  write_not (k0_off8 c) (k0_off8_inb c) f w i hi

/-! ### Chunk 4: rows 128 .. 160 -/

theorem row_own_4 (c : Dev nD) : k0_off9 c 0 = 128 := by rw [k0_off9_eq]; rfl
theorem col_own_4 (c : Dev nD) : k0_off9 c 1 = 4096 * yOf c := by rw [k0_off9_eq]; rfl
theorem row_oth_4 (c : Dev nD) : k0_off10 c 0 = 128 := by rw [k0_off10_eq]; rfl
theorem col_oth_4 (c : Dev nD) : k0_off10 c 1 = 4096 * (1 - yOf c) := by
  rw [k0_off10_eq]; show 4096 - 4096 * yOf c = 4096 * (1 - yOf c); have := yOf_lt c; omega

theorem mem_own_4 (c : Dev nD) (i : (cc0_stg2_0 : Ref sig .tc).ty.Idx) :
    i ∈ (oM.access (Rect.unit (s := S256x8192) (k0_off9 c) S32x4096.size (k0_off9_inb c))).set ↔ 128 ≤ (i 0).val ∧ (i 0).val < 128 + 32 ∧ (i 1).val / 4096 = yOf c :=
  mem_core (k0_off9 c) (k0_off9_inb c) 128 (yOf c) (row_own_4 c) (col_own_4 c) i
theorem mem_oth_4 (c : Dev nD) (i : (cc0_stg2_0 : Ref sig .tc).ty.Idx) :
    i ∈ (oM.access (Rect.unit (s := S256x8192) (k0_off10 c) S32x4096.size (k0_off10_inb c))).set ↔ 128 ≤ (i 0).val ∧ (i 0).val < 128 + 32 ∧ (i 1).val / 4096 = 1 - yOf c :=
  mem_core (k0_off10 c) (k0_off10_inb c) 128 (1 - yOf c) (row_oth_4 c) (col_oth_4 c) i

theorem emb_own_4 (c : Dev nD) (q : Fin 32) (j : Fin 4096) :
    ((oM.access (Rect.unit (s := S256x8192) (k0_off9 c) S32x4096.size (k0_off9_inb c))).emb (ix2b q j) 0).val = 128 + q.val ∧ ((oM.access (Rect.unit (s := S256x8192) (k0_off9 c) S32x4096.size (k0_off9_inb c))).emb (ix2b q j) 1).val = 4096 * yOf c + j.val :=
  emb_pair (k0_off9 c) (k0_off9_inb c) 128 (4096 * yOf c) (row_own_4 c) (col_own_4 c) q j
theorem emb_oth_4 (c : Dev nD) (q : Fin 32) (j : Fin 4096) :
    ((oM.access (Rect.unit (s := S256x8192) (k0_off10 c) S32x4096.size (k0_off10_inb c))).emb (ix2b q j) 0).val = 128 + q.val ∧ ((oM.access (Rect.unit (s := S256x8192) (k0_off10 c) S32x4096.size (k0_off10_inb c))).emb (ix2b q j) 1).val = 4096 * (1 - yOf c) + j.val :=
  emb_pair (k0_off10 c) (k0_off10_inb c) 128 (4096 * (1 - yOf c)) (row_oth_4 c) (col_oth_4 c) q j

theorem write_own_4 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off9 c) S32x4096.size (k0_off9_inb c))).set) :
    View.write (Elt F) (oM.access (Rect.unit (s := S256x8192) (k0_off9 c) S32x4096.size (k0_off9_inb c))) f w Finset.univ i
      = w (ix2b (inChunk ⟨(i 0).val, (i 0).isLt⟩) ⟨(i 1).val % 4096, Nat.mod_lt _ (by decide)⟩) :=
  write_mem (k0_off9 c) (k0_off9_inb c) 128 (yOf c) (row_own_4 c) (col_own_4 c) (by decide) f w i hi
theorem write_own_4_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off9 c) S32x4096.size (k0_off9_inb c))).set) :
    View.write (Elt F) (oM.access (Rect.unit (s := S256x8192) (k0_off9 c) S32x4096.size (k0_off9_inb c))) f w Finset.univ i = f i :=
  write_not (k0_off9 c) (k0_off9_inb c) f w i hi
theorem write_oth_4 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off10 c) S32x4096.size (k0_off10_inb c))).set) :
    View.write (Elt F) (oM.access (Rect.unit (s := S256x8192) (k0_off10 c) S32x4096.size (k0_off10_inb c))) f w Finset.univ i
      = w (ix2b (inChunk ⟨(i 0).val, (i 0).isLt⟩) ⟨(i 1).val % 4096, Nat.mod_lt _ (by decide)⟩) :=
  write_mem (k0_off10 c) (k0_off10_inb c) 128 (1 - yOf c) (row_oth_4 c) (col_oth_4 c) (by decide) f w i hi
theorem write_oth_4_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off10 c) S32x4096.size (k0_off10_inb c))).set) :
    View.write (Elt F) (oM.access (Rect.unit (s := S256x8192) (k0_off10 c) S32x4096.size (k0_off10_inb c))) f w Finset.univ i = f i :=
  write_not (k0_off10 c) (k0_off10_inb c) f w i hi

/-! ### Chunk 5: rows 160 .. 192 -/

theorem row_own_5 (c : Dev nD) : k0_off11 c 0 = 160 := by rw [k0_off11_eq]; rfl
theorem col_own_5 (c : Dev nD) : k0_off11 c 1 = 4096 * yOf c := by rw [k0_off11_eq]; rfl
theorem row_oth_5 (c : Dev nD) : k0_off12 c 0 = 160 := by rw [k0_off12_eq]; rfl
theorem col_oth_5 (c : Dev nD) : k0_off12 c 1 = 4096 * (1 - yOf c) := by
  rw [k0_off12_eq]; show 4096 - 4096 * yOf c = 4096 * (1 - yOf c); have := yOf_lt c; omega

theorem mem_own_5 (c : Dev nD) (i : (cc0_stg2_0 : Ref sig .tc).ty.Idx) :
    i ∈ (oM.access (Rect.unit (s := S256x8192) (k0_off11 c) S32x4096.size (k0_off11_inb c))).set ↔ 160 ≤ (i 0).val ∧ (i 0).val < 160 + 32 ∧ (i 1).val / 4096 = yOf c :=
  mem_core (k0_off11 c) (k0_off11_inb c) 160 (yOf c) (row_own_5 c) (col_own_5 c) i
theorem mem_oth_5 (c : Dev nD) (i : (cc0_stg2_0 : Ref sig .tc).ty.Idx) :
    i ∈ (oM.access (Rect.unit (s := S256x8192) (k0_off12 c) S32x4096.size (k0_off12_inb c))).set ↔ 160 ≤ (i 0).val ∧ (i 0).val < 160 + 32 ∧ (i 1).val / 4096 = 1 - yOf c :=
  mem_core (k0_off12 c) (k0_off12_inb c) 160 (1 - yOf c) (row_oth_5 c) (col_oth_5 c) i

theorem emb_own_5 (c : Dev nD) (q : Fin 32) (j : Fin 4096) :
    ((oM.access (Rect.unit (s := S256x8192) (k0_off11 c) S32x4096.size (k0_off11_inb c))).emb (ix2b q j) 0).val = 160 + q.val ∧ ((oM.access (Rect.unit (s := S256x8192) (k0_off11 c) S32x4096.size (k0_off11_inb c))).emb (ix2b q j) 1).val = 4096 * yOf c + j.val :=
  emb_pair (k0_off11 c) (k0_off11_inb c) 160 (4096 * yOf c) (row_own_5 c) (col_own_5 c) q j
theorem emb_oth_5 (c : Dev nD) (q : Fin 32) (j : Fin 4096) :
    ((oM.access (Rect.unit (s := S256x8192) (k0_off12 c) S32x4096.size (k0_off12_inb c))).emb (ix2b q j) 0).val = 160 + q.val ∧ ((oM.access (Rect.unit (s := S256x8192) (k0_off12 c) S32x4096.size (k0_off12_inb c))).emb (ix2b q j) 1).val = 4096 * (1 - yOf c) + j.val :=
  emb_pair (k0_off12 c) (k0_off12_inb c) 160 (4096 * (1 - yOf c)) (row_oth_5 c) (col_oth_5 c) q j

theorem write_own_5 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off11 c) S32x4096.size (k0_off11_inb c))).set) :
    View.write (Elt F) (oM.access (Rect.unit (s := S256x8192) (k0_off11 c) S32x4096.size (k0_off11_inb c))) f w Finset.univ i
      = w (ix2b (inChunk ⟨(i 0).val, (i 0).isLt⟩) ⟨(i 1).val % 4096, Nat.mod_lt _ (by decide)⟩) :=
  write_mem (k0_off11 c) (k0_off11_inb c) 160 (yOf c) (row_own_5 c) (col_own_5 c) (by decide) f w i hi
theorem write_own_5_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off11 c) S32x4096.size (k0_off11_inb c))).set) :
    View.write (Elt F) (oM.access (Rect.unit (s := S256x8192) (k0_off11 c) S32x4096.size (k0_off11_inb c))) f w Finset.univ i = f i :=
  write_not (k0_off11 c) (k0_off11_inb c) f w i hi
theorem write_oth_5 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off12 c) S32x4096.size (k0_off12_inb c))).set) :
    View.write (Elt F) (oM.access (Rect.unit (s := S256x8192) (k0_off12 c) S32x4096.size (k0_off12_inb c))) f w Finset.univ i
      = w (ix2b (inChunk ⟨(i 0).val, (i 0).isLt⟩) ⟨(i 1).val % 4096, Nat.mod_lt _ (by decide)⟩) :=
  write_mem (k0_off12 c) (k0_off12_inb c) 160 (1 - yOf c) (row_oth_5 c) (col_oth_5 c) (by decide) f w i hi
theorem write_oth_5_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off12 c) S32x4096.size (k0_off12_inb c))).set) :
    View.write (Elt F) (oM.access (Rect.unit (s := S256x8192) (k0_off12 c) S32x4096.size (k0_off12_inb c))) f w Finset.univ i = f i :=
  write_not (k0_off12 c) (k0_off12_inb c) f w i hi

/-! ### Chunk 6: rows 192 .. 224 -/

theorem row_own_6 (c : Dev nD) : k0_off13 c 0 = 192 := by rw [k0_off13_eq]; rfl
theorem col_own_6 (c : Dev nD) : k0_off13 c 1 = 4096 * yOf c := by rw [k0_off13_eq]; rfl
theorem row_oth_6 (c : Dev nD) : k0_off14 c 0 = 192 := by rw [k0_off14_eq]; rfl
theorem col_oth_6 (c : Dev nD) : k0_off14 c 1 = 4096 * (1 - yOf c) := by
  rw [k0_off14_eq]; show 4096 - 4096 * yOf c = 4096 * (1 - yOf c); have := yOf_lt c; omega

theorem mem_own_6 (c : Dev nD) (i : (cc0_stg2_0 : Ref sig .tc).ty.Idx) :
    i ∈ (oM.access (Rect.unit (s := S256x8192) (k0_off13 c) S32x4096.size (k0_off13_inb c))).set ↔ 192 ≤ (i 0).val ∧ (i 0).val < 192 + 32 ∧ (i 1).val / 4096 = yOf c :=
  mem_core (k0_off13 c) (k0_off13_inb c) 192 (yOf c) (row_own_6 c) (col_own_6 c) i
theorem mem_oth_6 (c : Dev nD) (i : (cc0_stg2_0 : Ref sig .tc).ty.Idx) :
    i ∈ (oM.access (Rect.unit (s := S256x8192) (k0_off14 c) S32x4096.size (k0_off14_inb c))).set ↔ 192 ≤ (i 0).val ∧ (i 0).val < 192 + 32 ∧ (i 1).val / 4096 = 1 - yOf c :=
  mem_core (k0_off14 c) (k0_off14_inb c) 192 (1 - yOf c) (row_oth_6 c) (col_oth_6 c) i

theorem emb_own_6 (c : Dev nD) (q : Fin 32) (j : Fin 4096) :
    ((oM.access (Rect.unit (s := S256x8192) (k0_off13 c) S32x4096.size (k0_off13_inb c))).emb (ix2b q j) 0).val = 192 + q.val ∧ ((oM.access (Rect.unit (s := S256x8192) (k0_off13 c) S32x4096.size (k0_off13_inb c))).emb (ix2b q j) 1).val = 4096 * yOf c + j.val :=
  emb_pair (k0_off13 c) (k0_off13_inb c) 192 (4096 * yOf c) (row_own_6 c) (col_own_6 c) q j
theorem emb_oth_6 (c : Dev nD) (q : Fin 32) (j : Fin 4096) :
    ((oM.access (Rect.unit (s := S256x8192) (k0_off14 c) S32x4096.size (k0_off14_inb c))).emb (ix2b q j) 0).val = 192 + q.val ∧ ((oM.access (Rect.unit (s := S256x8192) (k0_off14 c) S32x4096.size (k0_off14_inb c))).emb (ix2b q j) 1).val = 4096 * (1 - yOf c) + j.val :=
  emb_pair (k0_off14 c) (k0_off14_inb c) 192 (4096 * (1 - yOf c)) (row_oth_6 c) (col_oth_6 c) q j

theorem write_own_6 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off13 c) S32x4096.size (k0_off13_inb c))).set) :
    View.write (Elt F) (oM.access (Rect.unit (s := S256x8192) (k0_off13 c) S32x4096.size (k0_off13_inb c))) f w Finset.univ i
      = w (ix2b (inChunk ⟨(i 0).val, (i 0).isLt⟩) ⟨(i 1).val % 4096, Nat.mod_lt _ (by decide)⟩) :=
  write_mem (k0_off13 c) (k0_off13_inb c) 192 (yOf c) (row_own_6 c) (col_own_6 c) (by decide) f w i hi
theorem write_own_6_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off13 c) S32x4096.size (k0_off13_inb c))).set) :
    View.write (Elt F) (oM.access (Rect.unit (s := S256x8192) (k0_off13 c) S32x4096.size (k0_off13_inb c))) f w Finset.univ i = f i :=
  write_not (k0_off13 c) (k0_off13_inb c) f w i hi
theorem write_oth_6 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off14 c) S32x4096.size (k0_off14_inb c))).set) :
    View.write (Elt F) (oM.access (Rect.unit (s := S256x8192) (k0_off14 c) S32x4096.size (k0_off14_inb c))) f w Finset.univ i
      = w (ix2b (inChunk ⟨(i 0).val, (i 0).isLt⟩) ⟨(i 1).val % 4096, Nat.mod_lt _ (by decide)⟩) :=
  write_mem (k0_off14 c) (k0_off14_inb c) 192 (1 - yOf c) (row_oth_6 c) (col_oth_6 c) (by decide) f w i hi
theorem write_oth_6_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off14 c) S32x4096.size (k0_off14_inb c))).set) :
    View.write (Elt F) (oM.access (Rect.unit (s := S256x8192) (k0_off14 c) S32x4096.size (k0_off14_inb c))) f w Finset.univ i = f i :=
  write_not (k0_off14 c) (k0_off14_inb c) f w i hi

/-! ### Chunk 7: rows 224 .. 256 -/

theorem row_own_7 (c : Dev nD) : k0_off15 c 0 = 224 := by rw [k0_off15_eq]; rfl
theorem col_own_7 (c : Dev nD) : k0_off15 c 1 = 4096 * yOf c := by rw [k0_off15_eq]; rfl
theorem row_oth_7 (c : Dev nD) : k0_off16 c 0 = 224 := by rw [k0_off16_eq]; rfl
theorem col_oth_7 (c : Dev nD) : k0_off16 c 1 = 4096 * (1 - yOf c) := by
  rw [k0_off16_eq]; show 4096 - 4096 * yOf c = 4096 * (1 - yOf c); have := yOf_lt c; omega

theorem mem_own_7 (c : Dev nD) (i : (cc0_stg2_0 : Ref sig .tc).ty.Idx) :
    i ∈ (oM.access (Rect.unit (s := S256x8192) (k0_off15 c) S32x4096.size (k0_off15_inb c))).set ↔ 224 ≤ (i 0).val ∧ (i 0).val < 224 + 32 ∧ (i 1).val / 4096 = yOf c :=
  mem_core (k0_off15 c) (k0_off15_inb c) 224 (yOf c) (row_own_7 c) (col_own_7 c) i
theorem mem_oth_7 (c : Dev nD) (i : (cc0_stg2_0 : Ref sig .tc).ty.Idx) :
    i ∈ (oM.access (Rect.unit (s := S256x8192) (k0_off16 c) S32x4096.size (k0_off16_inb c))).set ↔ 224 ≤ (i 0).val ∧ (i 0).val < 224 + 32 ∧ (i 1).val / 4096 = 1 - yOf c :=
  mem_core (k0_off16 c) (k0_off16_inb c) 224 (1 - yOf c) (row_oth_7 c) (col_oth_7 c) i

theorem emb_own_7 (c : Dev nD) (q : Fin 32) (j : Fin 4096) :
    ((oM.access (Rect.unit (s := S256x8192) (k0_off15 c) S32x4096.size (k0_off15_inb c))).emb (ix2b q j) 0).val = 224 + q.val ∧ ((oM.access (Rect.unit (s := S256x8192) (k0_off15 c) S32x4096.size (k0_off15_inb c))).emb (ix2b q j) 1).val = 4096 * yOf c + j.val :=
  emb_pair (k0_off15 c) (k0_off15_inb c) 224 (4096 * yOf c) (row_own_7 c) (col_own_7 c) q j
theorem emb_oth_7 (c : Dev nD) (q : Fin 32) (j : Fin 4096) :
    ((oM.access (Rect.unit (s := S256x8192) (k0_off16 c) S32x4096.size (k0_off16_inb c))).emb (ix2b q j) 0).val = 224 + q.val ∧ ((oM.access (Rect.unit (s := S256x8192) (k0_off16 c) S32x4096.size (k0_off16_inb c))).emb (ix2b q j) 1).val = 4096 * (1 - yOf c) + j.val :=
  emb_pair (k0_off16 c) (k0_off16_inb c) 224 (4096 * (1 - yOf c)) (row_oth_7 c) (col_oth_7 c) q j

theorem write_own_7 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off15 c) S32x4096.size (k0_off15_inb c))).set) :
    View.write (Elt F) (oM.access (Rect.unit (s := S256x8192) (k0_off15 c) S32x4096.size (k0_off15_inb c))) f w Finset.univ i
      = w (ix2b (inChunk ⟨(i 0).val, (i 0).isLt⟩) ⟨(i 1).val % 4096, Nat.mod_lt _ (by decide)⟩) :=
  write_mem (k0_off15 c) (k0_off15_inb c) 224 (yOf c) (row_own_7 c) (col_own_7 c) (by decide) f w i hi
theorem write_own_7_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off15 c) S32x4096.size (k0_off15_inb c))).set) :
    View.write (Elt F) (oM.access (Rect.unit (s := S256x8192) (k0_off15 c) S32x4096.size (k0_off15_inb c))) f w Finset.univ i = f i :=
  write_not (k0_off15 c) (k0_off15_inb c) f w i hi
theorem write_oth_7 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off16 c) S32x4096.size (k0_off16_inb c))).set) :
    View.write (Elt F) (oM.access (Rect.unit (s := S256x8192) (k0_off16 c) S32x4096.size (k0_off16_inb c))) f w Finset.univ i
      = w (ix2b (inChunk ⟨(i 0).val, (i 0).isLt⟩) ⟨(i 1).val % 4096, Nat.mod_lt _ (by decide)⟩) :=
  write_mem (k0_off16 c) (k0_off16_inb c) 224 (1 - yOf c) (row_oth_7 c) (col_oth_7 c) (by decide) f w i hi
theorem write_oth_7_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off16 c) S32x4096.size (k0_off16_inb c))).set) :
    View.write (Elt F) (oM.access (Rect.unit (s := S256x8192) (k0_off16 c) S32x4096.size (k0_off16_inb c))) f w Finset.univ i = f i :=
  write_not (k0_off16 c) (k0_off16_inb c) f w i hi

end Cert.KernelIdeal.OutGeom

end
-- ==== Proof.OutBridge.lean ====
/-
  What the sixteen stores leave in the staged result is the function outOf.

  The body stores, for each chunk k, the block own k through the rectangle at rows 32 k .. of the device's own column
  half and the block oth k through the rectangle at the same rows of the other half.  Each stored block agrees with
  outOf on its rectangle: the rectangle's element (q, j) is the result's element (32 k + q, 4096 h + j), whose chunk is
  k, whose place in the chunk is q, whose column half is h and whose lane is j — and outOf there is own k at (q, j)
  when h is the device's own half, oth k at (q, j) when it is the other.  The sixteen rectangles cover the result: a
  row below 256 lies in the rows of chunk row / 32, a column below 8192 in one of the two halves.  Writes whose
  payloads all agree with one function, and which cover, leave that function, whatever the buffer held before and in
  whatever order they were made.
-/
import proofs.«900346_g7700000000000347_dist_arsfmx_v7x_xyz2x2x4_y_t256_d512_v4096_bf16_1_alg».proof.Proof.OutGeom
import proofs.«900346_g7700000000000347_dist_arsfmx_v7x_xyz2x2x4_y_t256_d512_v4096_bf16_1_alg».proof.Proof.DataIdeal
import Idealize.ShloMosaic.Lib.Writes

noncomputable section

namespace Cert.KernelIdeal.OutBridge

open Cert.KernelIdeal Cert.KernelIdeal.Gen Cert.KernelIdeal.Mesh Cert.KernelIdeal.Data
open Idealize.ShloMosaic Idealize.ShloMosaic.TcCoe

variable {F : FTy → Type} [FloatOps F]
variable (m : (ℓ : Loc nD τ sig) → Buf (Elt F) ℓ)

/-! ## outOf at an element given by its chunk, place, half and lane -/

/-- At row 32 k + q and a column whose lane is j, outOf is own k at (q, j) in the device's own half, oth k at (q, j) in the other. -/
theorem outOf_at (c : Dev nD) (i : (cc0_stg2_0 : Ref sig .tc).ty.Idx) (k : Fin 8) (q : Fin 32) (j : Fin 4096)
    (h0 : (i 0).val = 32 * k.val + q.val) (h1 : (i 1).val % 4096 = j.val) :
    outOf m c i = if (i 1).val / 4096 = yOf c then own k (mine m c k) (theirs m c k) (ix2b q j)
      else oth k (mine m c k) (theirs m c k) (ix2b q j) := by
  have hk : chunkOf ⟨(i 0).val, (i 0).isLt⟩ = k := Fin.ext (by show (i 0).val / 32 = k.val; omega)
  have hq : inChunk ⟨(i 0).val, (i 0).isLt⟩ = q := Fin.ext (by show (i 0).val % 32 = q.val; omega)
  have hj : (⟨(i 1).val % 4096, Nat.mod_lt _ (by decide)⟩ : Fin 4096) = j := Fin.ext h1
  show (if (i 1).val / 4096 = yOf c
      then own (chunkOf ⟨(i 0).val, (i 0).isLt⟩) (mine m c (chunkOf ⟨(i 0).val, (i 0).isLt⟩)) (theirs m c (chunkOf ⟨(i 0).val, (i 0).isLt⟩))
        (ix2b (inChunk ⟨(i 0).val, (i 0).isLt⟩) ⟨(i 1).val % 4096, Nat.mod_lt _ (by decide)⟩)
      else oth (chunkOf ⟨(i 0).val, (i 0).isLt⟩) (mine m c (chunkOf ⟨(i 0).val, (i 0).isLt⟩)) (theirs m c (chunkOf ⟨(i 0).val, (i 0).isLt⟩))
        (ix2b (inChunk ⟨(i 0).val, (i 0).isLt⟩) ⟨(i 1).val % 4096, Nat.mod_lt _ (by decide)⟩)) = _
  rw [hk, hq, hj]

/-! ## Each stored block agrees with outOf on its rectangle -/

/-- The block own k, stored at rows 32 k .. of the device's own half. -/
theorem piece_own_core (c : Dev nD) (off : Fin 2 → Nat) (inb : ∀ a, off a + S32x4096.size a ≤ S256x8192.size a) (k : Fin 8)
    (h0 : off 0 = 32 * k.val) (h1 : off 1 = 4096 * yOf c) (x : S32x4096.Idx) :
    own k (mine m c k) (theirs m c k) x = outOf m c ((Rect.unit (s := S256x8192) off S32x4096.size inb).emb x) := by
  have e0 : (((Rect.unit (s := S256x8192) off S32x4096.size inb).emb x) 0).val = off 0 + (x 0).val := OutGeom.emb_core off inb x 0
  have e1 : (((Rect.unit (s := S256x8192) off S32x4096.size inb).emb x) 1).val = off 1 + (x 1).val := OutGeom.emb_core off inb x 1
  have hx0 : (x 0).val < 32 := (x 0).isLt
  have hx1 : (x 1).val < 4096 := (x 1).isLt
  have hy := yOf_lt c
  rw [outOf_at m c _ k ⟨(x 0).val, hx0⟩ ⟨(x 1).val, hx1⟩ (by rw [e0]; show off 0 + (x 0).val = 32 * k.val + (x 0).val; omega)
      (by rw [e1]; show (off 1 + (x 1).val) % 4096 = (x 1).val; omega),
    if_pos (by rw [e1]; omega)]
  exact congrArg (own k (mine m c k) (theirs m c k)) (funext fun a => match a with | ⟨0, _⟩ => rfl | ⟨1, _⟩ => rfl)

/-- The block oth k, stored at rows 32 k .. of the other half. -/
theorem piece_oth_core (c : Dev nD) (off : Fin 2 → Nat) (inb : ∀ a, off a + S32x4096.size a ≤ S256x8192.size a) (k : Fin 8)
    (h0 : off 0 = 32 * k.val) (h1 : off 1 = 4096 * (1 - yOf c)) (x : S32x4096.Idx) :
    oth k (mine m c k) (theirs m c k) x = outOf m c ((Rect.unit (s := S256x8192) off S32x4096.size inb).emb x) := by
  have e0 : (((Rect.unit (s := S256x8192) off S32x4096.size inb).emb x) 0).val = off 0 + (x 0).val := OutGeom.emb_core off inb x 0
  have e1 : (((Rect.unit (s := S256x8192) off S32x4096.size inb).emb x) 1).val = off 1 + (x 1).val := OutGeom.emb_core off inb x 1
  have hx0 : (x 0).val < 32 := (x 0).isLt
  have hx1 : (x 1).val < 4096 := (x 1).isLt
  have hy := yOf_lt c
  rw [outOf_at m c _ k ⟨(x 0).val, hx0⟩ ⟨(x 1).val, hx1⟩ (by rw [e0]; show off 0 + (x 0).val = 32 * k.val + (x 0).val; omega)
      (by rw [e1]; show (off 1 + (x 1).val) % 4096 = (x 1).val; omega),
    if_neg (by rw [e1]; omega)]
  exact congrArg (oth k (mine m c k) (theirs m c k)) (funext fun a => match a with | ⟨0, _⟩ => rfl | ⟨1, _⟩ => rfl)

/-- The elements of a rectangle itself (not of the view through it): rows R .. R + 32, columns of half y. -/
theorem mem_rect (off : Fin 2 → Nat) (inb : ∀ a, off a + S32x4096.size a ≤ S256x8192.size a) (R y : Nat)
    (h0 : off 0 = R) (h1 : off 1 = 4096 * y) (i : S256x8192.Idx) :
    i ∈ (Rect.unit (s := S256x8192) off S32x4096.size inb).set ↔ R ≤ (i 0).val ∧ (i 0).val < R + 32 ∧ (i 1).val / 4096 = y := by
  rw [← View.set_slice_whole cc0_stg2_0 (Rect.unit (s := S256x8192) off S32x4096.size inb)]
  exact OutGeom.mem_core off inb R y h0 h1 i

/-! ## The sixteen pieces, newest first -/

abbrev p_oth7 (c : Dev nD) : View.Piece (Elt F) S256x8192 .bf16 := ⟨Rect.unit (s := S256x8192) (k0_off16 c) S32x4096.size (k0_off16_inb c), oth ⟨7, by decide⟩ (mine m c ⟨7, by decide⟩) (theirs m c ⟨7, by decide⟩)⟩
abbrev p_own7 (c : Dev nD) : View.Piece (Elt F) S256x8192 .bf16 := ⟨Rect.unit (s := S256x8192) (k0_off15 c) S32x4096.size (k0_off15_inb c), own ⟨7, by decide⟩ (mine m c ⟨7, by decide⟩) (theirs m c ⟨7, by decide⟩)⟩
abbrev p_oth6 (c : Dev nD) : View.Piece (Elt F) S256x8192 .bf16 := ⟨Rect.unit (s := S256x8192) (k0_off14 c) S32x4096.size (k0_off14_inb c), oth ⟨6, by decide⟩ (mine m c ⟨6, by decide⟩) (theirs m c ⟨6, by decide⟩)⟩
abbrev p_own6 (c : Dev nD) : View.Piece (Elt F) S256x8192 .bf16 := ⟨Rect.unit (s := S256x8192) (k0_off13 c) S32x4096.size (k0_off13_inb c), own ⟨6, by decide⟩ (mine m c ⟨6, by decide⟩) (theirs m c ⟨6, by decide⟩)⟩
abbrev p_oth5 (c : Dev nD) : View.Piece (Elt F) S256x8192 .bf16 := ⟨Rect.unit (s := S256x8192) (k0_off12 c) S32x4096.size (k0_off12_inb c), oth ⟨5, by decide⟩ (mine m c ⟨5, by decide⟩) (theirs m c ⟨5, by decide⟩)⟩
abbrev p_own5 (c : Dev nD) : View.Piece (Elt F) S256x8192 .bf16 := ⟨Rect.unit (s := S256x8192) (k0_off11 c) S32x4096.size (k0_off11_inb c), own ⟨5, by decide⟩ (mine m c ⟨5, by decide⟩) (theirs m c ⟨5, by decide⟩)⟩
abbrev p_oth4 (c : Dev nD) : View.Piece (Elt F) S256x8192 .bf16 := ⟨Rect.unit (s := S256x8192) (k0_off10 c) S32x4096.size (k0_off10_inb c), oth ⟨4, by decide⟩ (mine m c ⟨4, by decide⟩) (theirs m c ⟨4, by decide⟩)⟩
abbrev p_own4 (c : Dev nD) : View.Piece (Elt F) S256x8192 .bf16 := ⟨Rect.unit (s := S256x8192) (k0_off9 c) S32x4096.size (k0_off9_inb c), own ⟨4, by decide⟩ (mine m c ⟨4, by decide⟩) (theirs m c ⟨4, by decide⟩)⟩
abbrev p_oth3 (c : Dev nD) : View.Piece (Elt F) S256x8192 .bf16 := ⟨Rect.unit (s := S256x8192) (k0_off8 c) S32x4096.size (k0_off8_inb c), oth ⟨3, by decide⟩ (mine m c ⟨3, by decide⟩) (theirs m c ⟨3, by decide⟩)⟩
abbrev p_own3 (c : Dev nD) : View.Piece (Elt F) S256x8192 .bf16 := ⟨Rect.unit (s := S256x8192) (k0_off7 c) S32x4096.size (k0_off7_inb c), own ⟨3, by decide⟩ (mine m c ⟨3, by decide⟩) (theirs m c ⟨3, by decide⟩)⟩
abbrev p_oth2 (c : Dev nD) : View.Piece (Elt F) S256x8192 .bf16 := ⟨Rect.unit (s := S256x8192) (k0_off6 c) S32x4096.size (k0_off6_inb c), oth ⟨2, by decide⟩ (mine m c ⟨2, by decide⟩) (theirs m c ⟨2, by decide⟩)⟩
abbrev p_own2 (c : Dev nD) : View.Piece (Elt F) S256x8192 .bf16 := ⟨Rect.unit (s := S256x8192) (k0_off5 c) S32x4096.size (k0_off5_inb c), own ⟨2, by decide⟩ (mine m c ⟨2, by decide⟩) (theirs m c ⟨2, by decide⟩)⟩
abbrev p_oth1 (c : Dev nD) : View.Piece (Elt F) S256x8192 .bf16 := ⟨Rect.unit (s := S256x8192) (k0_off4 c) S32x4096.size (k0_off4_inb c), oth ⟨1, by decide⟩ (mine m c ⟨1, by decide⟩) (theirs m c ⟨1, by decide⟩)⟩
abbrev p_own1 (c : Dev nD) : View.Piece (Elt F) S256x8192 .bf16 := ⟨Rect.unit (s := S256x8192) (k0_off3 c) S32x4096.size (k0_off3_inb c), own ⟨1, by decide⟩ (mine m c ⟨1, by decide⟩) (theirs m c ⟨1, by decide⟩)⟩
abbrev p_oth0 (c : Dev nD) : View.Piece (Elt F) S256x8192 .bf16 := ⟨Rect.unit (s := S256x8192) (k0_off2 c) S32x4096.size (k0_off2_inb c), oth ⟨0, by decide⟩ (mine m c ⟨0, by decide⟩) (theirs m c ⟨0, by decide⟩)⟩
abbrev p_own0 (c : Dev nD) : View.Piece (Elt F) S256x8192 .bf16 := ⟨Rect.unit (s := S256x8192) (k0_off1 c) S32x4096.size (k0_off1_inb c), own ⟨0, by decide⟩ (mine m c ⟨0, by decide⟩) (theirs m c ⟨0, by decide⟩)⟩

/-- The stores in the order the body makes them, the last one first: chunk 7's other half, chunk 7's own half, … , chunk 0's. -/
abbrev pieces (c : Dev nD) : List (View.Piece (Elt F) S256x8192 .bf16) := [p_oth7 m c, p_own7 m c, p_oth6 m c, p_own6 m c, p_oth5 m c, p_own5 m c, p_oth4 m c, p_own4 m c, p_oth3 m c, p_own3 m c, p_oth2 m c, p_own2 m c, p_oth1 m c, p_own1 m c, p_oth0 m c, p_own0 m c]

/-- Every piece's payload is outOf on its rectangle. -/
theorem pieces_agree (c : Dev nD) : ∀ p ∈ pieces m c, ∀ x : p.1.shape.Idx, p.2 x = outOf m c (p.1.emb x) :=
  List.forall_mem_cons.2 ⟨piece_oth_core m c (k0_off16 c) (k0_off16_inb c) ⟨7, by decide⟩ (OutGeom.row_oth_7 c) (OutGeom.col_oth_7 c),
    List.forall_mem_cons.2 ⟨piece_own_core m c (k0_off15 c) (k0_off15_inb c) ⟨7, by decide⟩ (OutGeom.row_own_7 c) (OutGeom.col_own_7 c),
    List.forall_mem_cons.2 ⟨piece_oth_core m c (k0_off14 c) (k0_off14_inb c) ⟨6, by decide⟩ (OutGeom.row_oth_6 c) (OutGeom.col_oth_6 c),
    List.forall_mem_cons.2 ⟨piece_own_core m c (k0_off13 c) (k0_off13_inb c) ⟨6, by decide⟩ (OutGeom.row_own_6 c) (OutGeom.col_own_6 c),
    List.forall_mem_cons.2 ⟨piece_oth_core m c (k0_off12 c) (k0_off12_inb c) ⟨5, by decide⟩ (OutGeom.row_oth_5 c) (OutGeom.col_oth_5 c),
    List.forall_mem_cons.2 ⟨piece_own_core m c (k0_off11 c) (k0_off11_inb c) ⟨5, by decide⟩ (OutGeom.row_own_5 c) (OutGeom.col_own_5 c),
    List.forall_mem_cons.2 ⟨piece_oth_core m c (k0_off10 c) (k0_off10_inb c) ⟨4, by decide⟩ (OutGeom.row_oth_4 c) (OutGeom.col_oth_4 c),
    List.forall_mem_cons.2 ⟨piece_own_core m c (k0_off9 c) (k0_off9_inb c) ⟨4, by decide⟩ (OutGeom.row_own_4 c) (OutGeom.col_own_4 c),
    List.forall_mem_cons.2 ⟨piece_oth_core m c (k0_off8 c) (k0_off8_inb c) ⟨3, by decide⟩ (OutGeom.row_oth_3 c) (OutGeom.col_oth_3 c),
    List.forall_mem_cons.2 ⟨piece_own_core m c (k0_off7 c) (k0_off7_inb c) ⟨3, by decide⟩ (OutGeom.row_own_3 c) (OutGeom.col_own_3 c),
    List.forall_mem_cons.2 ⟨piece_oth_core m c (k0_off6 c) (k0_off6_inb c) ⟨2, by decide⟩ (OutGeom.row_oth_2 c) (OutGeom.col_oth_2 c),
    List.forall_mem_cons.2 ⟨piece_own_core m c (k0_off5 c) (k0_off5_inb c) ⟨2, by decide⟩ (OutGeom.row_own_2 c) (OutGeom.col_own_2 c),
    List.forall_mem_cons.2 ⟨piece_oth_core m c (k0_off4 c) (k0_off4_inb c) ⟨1, by decide⟩ (OutGeom.row_oth_1 c) (OutGeom.col_oth_1 c),
    List.forall_mem_cons.2 ⟨piece_own_core m c (k0_off3 c) (k0_off3_inb c) ⟨1, by decide⟩ (OutGeom.row_own_1 c) (OutGeom.col_own_1 c),
    List.forall_mem_cons.2 ⟨piece_oth_core m c (k0_off2 c) (k0_off2_inb c) ⟨0, by decide⟩ (OutGeom.row_oth_0 c) (OutGeom.col_oth_0 c),
    List.forall_mem_cons.2 ⟨piece_own_core m c (k0_off1 c) (k0_off1_inb c) ⟨0, by decide⟩ (OutGeom.row_own_0 c) (OutGeom.col_own_0 c),
    fun _ h => absurd h List.not_mem_nil⟩⟩⟩⟩⟩⟩⟩⟩⟩⟩⟩⟩⟩⟩⟩⟩

/-- Every element of the result lies under a piece: that of its chunk and of its column half. -/
theorem pieces_cover (c : Dev nD) (i : S256x8192.Idx) : ∃ p ∈ pieces m c, i ∈ p.1.set := by
  have l0 : (i 0).val < 256 := (i 0).isLt
  have l1 : (i 1).val < 8192 := (i 1).isLt
  have hy := yOf_lt c
  obtain ⟨k, hk⟩ : ∃ k : Fin 8, (i 0).val / 32 = k.val := ⟨⟨(i 0).val / 32, by omega⟩, rfl⟩
  by_cases hh : (i 1).val / 4096 = yOf c
  · match k, hk with
    | ⟨0, _⟩, hk =>
      have hk' : (i 0).val / 32 = 0 := hk
      exact ⟨p_own0 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), (mem_rect (k0_off1 c) (k0_off1_inb c) 0 (yOf c) (OutGeom.row_own_0 c) (OutGeom.col_own_0 c) i).mpr ⟨by omega, by omega, hh⟩⟩
    | ⟨1, _⟩, hk =>
      have hk' : (i 0).val / 32 = 1 := hk
      exact ⟨p_own1 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), (mem_rect (k0_off3 c) (k0_off3_inb c) 32 (yOf c) (OutGeom.row_own_1 c) (OutGeom.col_own_1 c) i).mpr ⟨by omega, by omega, hh⟩⟩
    | ⟨2, _⟩, hk =>
      have hk' : (i 0).val / 32 = 2 := hk
      exact ⟨p_own2 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), (mem_rect (k0_off5 c) (k0_off5_inb c) 64 (yOf c) (OutGeom.row_own_2 c) (OutGeom.col_own_2 c) i).mpr ⟨by omega, by omega, hh⟩⟩
    | ⟨3, _⟩, hk =>
      have hk' : (i 0).val / 32 = 3 := hk
      exact ⟨p_own3 m c, List.Mem.tail _ (List.Mem.tail _ (List.Mem.tail _ (List.Mem.tail _ (List.Mem.tail _ (List.Mem.tail _ (List.Mem.tail _ (List.Mem.tail _ (List.Mem.tail _ (List.Mem.head _))))))))), (mem_rect (k0_off7 c) (k0_off7_inb c) 96 (yOf c) (OutGeom.row_own_3 c) (OutGeom.col_own_3 c) i).mpr ⟨by omega, by omega, hh⟩⟩
    | ⟨4, _⟩, hk =>
      have hk' : (i 0).val / 32 = 4 := hk
      exact ⟨p_own4 m c, List.Mem.tail _ (List.Mem.tail _ (List.Mem.tail _ (List.Mem.tail _ (List.Mem.tail _ (List.Mem.tail _ (List.Mem.tail _ (List.Mem.head _))))))), (mem_rect (k0_off9 c) (k0_off9_inb c) 128 (yOf c) (OutGeom.row_own_4 c) (OutGeom.col_own_4 c) i).mpr ⟨by omega, by omega, hh⟩⟩
    | ⟨5, _⟩, hk =>
      have hk' : (i 0).val / 32 = 5 := hk
      exact ⟨p_own5 m c, List.Mem.tail _ (List.Mem.tail _ (List.Mem.tail _ (List.Mem.tail _ (List.Mem.tail _ (List.Mem.head _))))), (mem_rect (k0_off11 c) (k0_off11_inb c) 160 (yOf c) (OutGeom.row_own_5 c) (OutGeom.col_own_5 c) i).mpr ⟨by omega, by omega, hh⟩⟩
    | ⟨6, _⟩, hk =>
      have hk' : (i 0).val / 32 = 6 := hk
      exact ⟨p_own6 m c, List.Mem.tail _ (List.Mem.tail _ (List.Mem.tail _ (List.Mem.head _))), (mem_rect (k0_off13 c) (k0_off13_inb c) 192 (yOf c) (OutGeom.row_own_6 c) (OutGeom.col_own_6 c) i).mpr ⟨by omega, by omega, hh⟩⟩
    | ⟨7, _⟩, hk =>
      have hk' : (i 0).val / 32 = 7 := hk
      exact ⟨p_own7 m c, List.Mem.tail _ (List.Mem.head _), (mem_rect (k0_off15 c) (k0_off15_inb c) 224 (yOf c) (OutGeom.row_own_7 c) (OutGeom.col_own_7 c) i).mpr ⟨by omega, by omega, hh⟩⟩
  · have hh' : (i 1).val / 4096 = 1 - yOf c := by omega
    match k, hk with
    | ⟨0, _⟩, hk =>
      have hk' : (i 0).val / 32 = 0 := hk
      exact ⟨p_oth0 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), (mem_rect (k0_off2 c) (k0_off2_inb c) 0 (1 - yOf c) (OutGeom.row_oth_0 c) (OutGeom.col_oth_0 c) i).mpr ⟨by omega, by omega, hh'⟩⟩
    | ⟨1, _⟩, hk =>
      have hk' : (i 0).val / 32 = 1 := hk
      exact ⟨p_oth1 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), (mem_rect (k0_off4 c) (k0_off4_inb c) 32 (1 - yOf c) (OutGeom.row_oth_1 c) (OutGeom.col_oth_1 c) i).mpr ⟨by omega, by omega, hh'⟩⟩
    | ⟨2, _⟩, hk =>
      have hk' : (i 0).val / 32 = 2 := hk
      exact ⟨p_oth2 m c, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), (mem_rect (k0_off6 c) (k0_off6_inb c) 64 (1 - yOf c) (OutGeom.row_oth_2 c) (OutGeom.col_oth_2 c) i).mpr ⟨by omega, by omega, hh'⟩⟩
    | ⟨3, _⟩, hk =>
      have hk' : (i 0).val / 32 = 3 := hk
      exact ⟨p_oth3 m c, List.Mem.tail _ (List.Mem.tail _ (List.Mem.tail _ (List.Mem.tail _ (List.Mem.tail _ (List.Mem.tail _ (List.Mem.tail _ (List.Mem.tail _ (List.Mem.head _)))))))), (mem_rect (k0_off8 c) (k0_off8_inb c) 96 (1 - yOf c) (OutGeom.row_oth_3 c) (OutGeom.col_oth_3 c) i).mpr ⟨by omega, by omega, hh'⟩⟩
    | ⟨4, _⟩, hk =>
      have hk' : (i 0).val / 32 = 4 := hk
      exact ⟨p_oth4 m c, List.Mem.tail _ (List.Mem.tail _ (List.Mem.tail _ (List.Mem.tail _ (List.Mem.tail _ (List.Mem.tail _ (List.Mem.head _)))))), (mem_rect (k0_off10 c) (k0_off10_inb c) 128 (1 - yOf c) (OutGeom.row_oth_4 c) (OutGeom.col_oth_4 c) i).mpr ⟨by omega, by omega, hh'⟩⟩
    | ⟨5, _⟩, hk =>
      have hk' : (i 0).val / 32 = 5 := hk
      exact ⟨p_oth5 m c, List.Mem.tail _ (List.Mem.tail _ (List.Mem.tail _ (List.Mem.tail _ (List.Mem.head _)))), (mem_rect (k0_off12 c) (k0_off12_inb c) 160 (1 - yOf c) (OutGeom.row_oth_5 c) (OutGeom.col_oth_5 c) i).mpr ⟨by omega, by omega, hh'⟩⟩
    | ⟨6, _⟩, hk =>
      have hk' : (i 0).val / 32 = 6 := hk
      exact ⟨p_oth6 m c, List.Mem.tail _ (List.Mem.tail _ (List.Mem.head _)), (mem_rect (k0_off14 c) (k0_off14_inb c) 192 (1 - yOf c) (OutGeom.row_oth_6 c) (OutGeom.col_oth_6 c) i).mpr ⟨by omega, by omega, hh'⟩⟩
    | ⟨7, _⟩, hk =>
      have hk' : (i 0).val / 32 = 7 := hk
      exact ⟨p_oth7 m c, List.Mem.head _, (mem_rect (k0_off16 c) (k0_off16_inb c) 224 (1 - yOf c) (OutGeom.row_oth_7 c) (OutGeom.col_oth_7 c) i).mpr ⟨by omega, by omega, hh'⟩⟩

/-! ## The bridge -/

/-- What the sixteen stores leave over any old contents is outOf. -/
theorem out_bridge (c : Dev nD) (fo : (cc0_stg2_0 : Ref sig .tc).ty.Contents (Elt F)) :
    oM.view.writes (Elt F) fo
      [⟨Rect.unit (s := S256x8192) (k0_off16 c) S32x4096.size (k0_off16_inb c), oth ⟨7, by decide⟩ (mine m c ⟨7, by decide⟩) (theirs m c ⟨7, by decide⟩)⟩,
        ⟨Rect.unit (s := S256x8192) (k0_off15 c) S32x4096.size (k0_off15_inb c), own ⟨7, by decide⟩ (mine m c ⟨7, by decide⟩) (theirs m c ⟨7, by decide⟩)⟩,
        ⟨Rect.unit (s := S256x8192) (k0_off14 c) S32x4096.size (k0_off14_inb c), oth ⟨6, by decide⟩ (mine m c ⟨6, by decide⟩) (theirs m c ⟨6, by decide⟩)⟩,
        ⟨Rect.unit (s := S256x8192) (k0_off13 c) S32x4096.size (k0_off13_inb c), own ⟨6, by decide⟩ (mine m c ⟨6, by decide⟩) (theirs m c ⟨6, by decide⟩)⟩,
        ⟨Rect.unit (s := S256x8192) (k0_off12 c) S32x4096.size (k0_off12_inb c), oth ⟨5, by decide⟩ (mine m c ⟨5, by decide⟩) (theirs m c ⟨5, by decide⟩)⟩,
        ⟨Rect.unit (s := S256x8192) (k0_off11 c) S32x4096.size (k0_off11_inb c), own ⟨5, by decide⟩ (mine m c ⟨5, by decide⟩) (theirs m c ⟨5, by decide⟩)⟩,
        ⟨Rect.unit (s := S256x8192) (k0_off10 c) S32x4096.size (k0_off10_inb c), oth ⟨4, by decide⟩ (mine m c ⟨4, by decide⟩) (theirs m c ⟨4, by decide⟩)⟩,
        ⟨Rect.unit (s := S256x8192) (k0_off9 c) S32x4096.size (k0_off9_inb c), own ⟨4, by decide⟩ (mine m c ⟨4, by decide⟩) (theirs m c ⟨4, by decide⟩)⟩,
        ⟨Rect.unit (s := S256x8192) (k0_off8 c) S32x4096.size (k0_off8_inb c), oth ⟨3, by decide⟩ (mine m c ⟨3, by decide⟩) (theirs m c ⟨3, by decide⟩)⟩,
        ⟨Rect.unit (s := S256x8192) (k0_off7 c) S32x4096.size (k0_off7_inb c), own ⟨3, by decide⟩ (mine m c ⟨3, by decide⟩) (theirs m c ⟨3, by decide⟩)⟩,
        ⟨Rect.unit (s := S256x8192) (k0_off6 c) S32x4096.size (k0_off6_inb c), oth ⟨2, by decide⟩ (mine m c ⟨2, by decide⟩) (theirs m c ⟨2, by decide⟩)⟩,
        ⟨Rect.unit (s := S256x8192) (k0_off5 c) S32x4096.size (k0_off5_inb c), own ⟨2, by decide⟩ (mine m c ⟨2, by decide⟩) (theirs m c ⟨2, by decide⟩)⟩,
        ⟨Rect.unit (s := S256x8192) (k0_off4 c) S32x4096.size (k0_off4_inb c), oth ⟨1, by decide⟩ (mine m c ⟨1, by decide⟩) (theirs m c ⟨1, by decide⟩)⟩,
        ⟨Rect.unit (s := S256x8192) (k0_off3 c) S32x4096.size (k0_off3_inb c), own ⟨1, by decide⟩ (mine m c ⟨1, by decide⟩) (theirs m c ⟨1, by decide⟩)⟩,
        ⟨Rect.unit (s := S256x8192) (k0_off2 c) S32x4096.size (k0_off2_inb c), oth ⟨0, by decide⟩ (mine m c ⟨0, by decide⟩) (theirs m c ⟨0, by decide⟩)⟩,
        ⟨Rect.unit (s := S256x8192) (k0_off1 c) S32x4096.size (k0_off1_inb c), own ⟨0, by decide⟩ (mine m c ⟨0, by decide⟩) (theirs m c ⟨0, by decide⟩)⟩]
      = outOf m c := by
  show oM.view.writes (Elt F) fo (pieces m c) = outOf m c
  funext i
  -- reading the whole buffer at i is the contents at i
  exact (congrFun (View.read_whole (Val := Elt F) cc0_stg2_0 (oM.view.writes (Elt F) fo (pieces m c))) i).symm.trans
    (View.read_writes_apply_of_pieces (v := oM.view) (Val := Elt F) fo (outOf m c) (pieces m c) (pieces_agree m c) i (pieces_cover m c i))

end Cert.KernelIdeal.OutBridge

end
-- ==== Proof.BodyIdeal.lean ====
/-
  One device's body, stepped from what the device holds at its start to what it holds at its end.

  The device splits its scratch buffer into the sixteen row blocks (eight of slab 0, eight of slab 1).  It signals
  its peer's barrier cell, handing over its eight slab-1 blocks; computes and stores chunk 0; waits on its own
  barrier cell, which brings its peer's eight slab-1 blocks.  For each chunk it then makes the stored rows the rows
  of the whole-scratch function, lends the left half of them to the copy into the peer's slab 1, and keeps the right
  half, from which the second loop reads the block back while the copy may still be reading it.  In the second loop
  each send wait returns the lent half and each receive wait brings the peer's block; the two result blocks are
  formed and written.  At the end the sixteen send and receive cells are closed, their semaphores back at zero; the
  halves and then the sixteen row blocks are joined into the whole scratch buffer; and the sixteen writes into the
  staged result are the whole softmax, whatever the buffer held before.
-/
import proofs.«900346_g7700000000000347_dist_arsfmx_v7x_xyz2x2x4_y_t256_d512_v4096_bf16_1_alg».proof.Proof.ProtoIdeal
import proofs.«900346_g7700000000000347_dist_arsfmx_v7x_xyz2x2x4_y_t256_d512_v4096_bf16_1_alg».proof.Proof.CommFacts
import proofs.«900346_g7700000000000347_dist_arsfmx_v7x_xyz2x2x4_y_t256_d512_v4096_bf16_1_alg».proof.Proof.ScratchSplit
import proofs.«900346_g7700000000000347_dist_arsfmx_v7x_xyz2x2x4_y_t256_d512_v4096_bf16_1_alg».proof.Proof.OutBridge

noncomputable section

namespace Cert.KernelIdeal.Body

open Cert.KernelIdeal Cert.KernelIdeal.Gen Cert.KernelIdeal.Mesh Cert.KernelIdeal.Data Cert.KernelIdeal.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_bar duties_send duties_recv amount_bar amount_send amount_recv expect_bar expect_send expect_recv
  payload_bar payload_send payload_recv barPay_eq peer_peer sendPay recvPay
  dstPts_0 dstPts_1 dstPts_2 dstPts_3 dstPts_4 dstPts_5 dstPts_6 dstPts_7
  srcPts_0 srcPts_1 srcPts_2 srcPts_3 srcPts_4 srcPts_5 srcPts_6 srcPts_7

/-- What the body starts from: the protocol's ghost state, the launch credit, the ranking, the whole scratch buffer at
    some contents, everything owed, and the three staging buffers — the inputs as fetched, the result at some contents. -/
def pre (K : Dev nD × Fin 17 → ℕ) (c : Dev nD) (W : Waits sig Unit)
    (f0 : (cc0_scratch0 : Ref sig .tc).ty.Contents (Elt F)) (fo : (cc0_stg2_0 : Ref sig .tc).ty.Contents (Elt F)) : sProp 𝕄 :=
  iprop(ghost m K c ∗ launchCreds (F := F) c ∗ levAts L lv ∗ scrPts c f0 ∗ owes (c : Thread nD τ) (O₀ c) W
    ∗ ((xM).view.loc (c : Thread nD τ) ↦{fullShare} xstg m c) ∗ ((wM).view.loc (c : Thread nD τ) ↦{fullShare} wstg m c)
    ∗ ((oM).view.loc (c : Thread nD τ) ↦{fullShare} fo))

/-- What it ends with: the scratch buffer at the two devices' blocks, the sixteen semaphores at zero, nothing owed,
    the staged inputs untouched and the staged result at the whole softmax. -/
def post (c : Dev nD) : sProp 𝕄 :=
  iprop(scrPts c (commOf m c)
    ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0
    ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0
    ∗ (∃ W', owes (c : Thread nD τ) 0 W')
    ∗ ((xM).view.loc (c : Thread nD τ) ↦{fullShare} xstg m c) ∗ ((wM).view.loc (c : Thread nD τ) ↦{fullShare} wstg m c)
    ∗ ((oM).view.loc (c : Thread nD τ) ↦{fullShare} outOf m c))

omit [FloatOps F] in
/-- A buffer held at contents equal to `G` is held at `G`. -/
theorem pts_of_eq (c : Dev nD) (R G : (cc0_stg2_0 : Ref sig .tc).ty.Contents (Elt F)) (h : R = G) :
    (((oM).view.loc (c : Thread nD τ) ↦{fullShare} R : sProp 𝕄)) ⊢ ((oM).view.loc (c : Thread nD τ) ↦{fullShare} G) := h ▸ BI.Entails.refl _

set_option maxHeartbeats 4000000 in
/-- The body on device `c`, from `pre` to `post`. -/
theorem body_run (K : Dev nD × Fin 17 → ℕ) (c : Dev nD) (W : Waits sig Unit)
    (f0 : (cc0_scratch0 : Ref sig .tc).ty.Contents (Elt F)) (fo : (cc0_stg2_0 : Ref sig .tc).ty.Contents (Elt F))
    :
    pre m K c W f0 fo
      ⊢ wp frame (wpE (defs₀ (F := F)) 𝒱₀ (c : Thread nD τ) none) Set.univ
          (cc0_body xM (Memref.isWhole_whole _) wM (Memref.isWhole_whole _) oM (Memref.isWhole_whole _) cM (Memref.isWhole_whole _) cc0_scratch1 cc0_scratch2) (fun _ => post m c) := by
  unfold pre ghost cellInvs launchCreds scrPts O₀ Orecv
  iintro ⟨⟨⟨#HIb, #HIs0, #HIs1, #HIs2, #HIs3, #HIs4, #HIs5, #HIs6, #HIs7, #HIr0, #HIr1, #HIr2, #HIr3, #HIr4, #HIr5, #HIr6, #HIr7, #HIbp, #HIrp0, #HIrp1, #HIrp2, #HIrp3, #HIrp4, #HIrp5, #HIrp6, #HIrp7⟩, Hat, Hats0, Hats1, Hats2, Hats3, Hats4, Hats5, Hats6, Hats7, Hatr0, Hatr1, Hatr2, Hatr3, Hatr4, Hatr5, Hatr6, Hatr7, #Hrbp, #Hrs0, #Hrs1, #Hrs2, #Hrs3, #Hrs4, #Hrs5, #Hrs6, #Hrs7, #Hr0, #Hr1, #Hr2, #Hr3, #Hr4, #Hr5, #Hr6, #Hr7, Htok, Hts0, Hts1, Hts2, Hts3, Hts4, Hts5, Hts6, Hts7, Htr0, Htr1, Htr2, Htr3, Htr4, Htr5, Htr6, Htr7⟩, ⟨Hcr, Hcr0, Hcr1, Hcr2, Hcr3, Hcr4, Hcr5, Hcr6, Hcr7⟩, #Hlev, Hscr, HO, Hx, Hw, Ho⟩
  -- the scratch buffer as its sixteen row blocks
  ihave Hpieces := (ScratchSplit.scratch_split (F := F) c f0).1 $$ Hscr
  icases Hpieces with ⟨Hs0, Hs1, Hs2, Hs3, Hs4, Hs5, Hs6, Hs7, Hd0, Hd1, Hd2, Hd3, Hd4, Hd5, Hd6, Hd7⟩
  -- the destination blocks first: the source blocks, what is owed and the staging buffers are taken up again after them
  irevert Hs0
  iintro Hs0
  irevert Hs1
  iintro Hs1
  irevert Hs2
  iintro Hs2
  irevert Hs3
  iintro Hs3
  irevert Hs4
  iintro Hs4
  irevert Hs5
  iintro Hs5
  irevert Hs6
  iintro Hs6
  irevert Hs7
  iintro Hs7
  irevert HO
  iintro HO
  irevert Hx
  iintro Hx
  irevert Hw
  iintro Hw
  irevert Ho
  iintro Ho
  have hd1 := dev1_eq
  have hd2 := dev2_eq
  have hd3 := dev3_eq
  have hd4 := dev4_eq
  have hd5 := dev5_eq
  have hd6 := dev6_eq
  have hd7 := dev7_eq
  have hd8 := dev8_eq
  have hd9 := dev9_eq
  have hbar := mayWait_bar (F := F)
  sl_exec
  -- the copy of chunk 0: its stored rows are the whole-scratch function's rows; the left half is lent
  ihave Hs0 := (Entails.of_eq (pointsTo_congr (CommFacts.stored_0 m c f0))) $$ Hs0
  ihave Hs0 := (pointsTo_share (PosShare.mem_left_op_right fullShare)).1 $$ Hs0
  icases Hs0 with ⟨Hs0l, Hs0r⟩
  iapply (Rounds.wp_send_pointsTo 𝒱₀ ER (pairRd m) (c : Thread nD τ) none (c' := ((peer c : Dev nD) : Thread nD τ))
      (src := (((cM).slice (Rect.unit (s := S2x256x4096) ![0, 0, 0] S1x32x4096.size inb_S2x256x4096_S1x32x4096_0_0_0) (fun _ => rfl)).squeeze S32x4096 squeezes_S1x32x4096_S32x4096)) (dst := (((cM).slice (Rect.unit (s := S2x256x4096) ![1, 0, 0] S1x32x4096.size inb_S2x256x4096_S1x32x4096_1_0_0) (fun _ => rfl)).squeeze S32x4096 squeezes_S1x32x4096_S32x4096))
      (κ₁ := K (c, 1)) (κ₂ := K (peer c, 9))
      (r₁ := 0) (r₂ := 0) (d₁ := ()) (d₂ := ()) (fd := Hat_pay1_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N) (W := insert (SemLoc.reg barS, ()) W)
      (by rw [duties_send]; exact Finset.mem_singleton_self _) (by rw [duties_recv]; exact Finset.mem_singleton_self _)
      () () N rfl (amount_send m c 0 ()) (amount_recv m (peer c) 0 ())
      (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N) rfl
      (by rw [payload_send]; first | done | exact BI.Entails.refl _)
      (by rw [payload_recv]; unfold recvPay; rw [dstPts_0, pointsTo_congr (CommFacts.landed_0 m c Hat_pay1_v)]; first | done | exact BI.Entails.refl _))
    $$ [Hs0l Hat_pay1 HO Hts0 Htr0 Hat_pay2]
  · isplitr; · iexact HIs0
    isplitr; · iexact HIrp0
    isplitl [Hs0l]; · iexact Hs0l
    isplitl [Hat_pay1]; · iexact Hat_pay1
    isplitl [HO]; · iexact HO
    isplitl [Hts0]; · iexact Hts0
    isplitr; · iexact Hrs0
    isplitl [Htr0]; · iexact Htr0
    iexact Hat_pay2
  iintro ⟨HcS0, HO⟩
  sl_exec
  -- the copy of chunk 1: its stored rows are the whole-scratch function's rows; the left half is lent
  ihave Hs1 := (Entails.of_eq (pointsTo_congr (CommFacts.stored_1 m c f0))) $$ Hs1
  ihave Hs1 := (pointsTo_share (PosShare.mem_left_op_right fullShare)).1 $$ Hs1
  icases Hs1 with ⟨Hs1l, Hs1r⟩
  iapply (Rounds.wp_send_pointsTo 𝒱₀ ER (pairRd m) (c : Thread nD τ) none (c' := ((peer c : Dev nD) : Thread nD τ))
      (src := (((cM).slice (Rect.unit (s := S2x256x4096) ![0, 32, 0] S1x32x4096.size inb_S2x256x4096_S1x32x4096_0_32_0) (fun _ => rfl)).squeeze S32x4096 squeezes_S1x32x4096_S32x4096)) (dst := (((cM).slice (Rect.unit (s := S2x256x4096) ![1, 32, 0] S1x32x4096.size inb_S2x256x4096_S1x32x4096_1_32_0) (fun _ => rfl)).squeeze S32x4096 squeezes_S1x32x4096_S32x4096))
      (κ₁ := K (c, 2)) (κ₂ := K (peer c, 10))
      (r₁ := 0) (r₂ := 0) (d₁ := ()) (d₂ := ()) (fd := Hat_pay3_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N) (W := insert (SemLoc.reg barS, ()) W)
      (by rw [duties_send]; exact Finset.mem_singleton_self _) (by rw [duties_recv]; exact Finset.mem_singleton_self _)
      () () N rfl (amount_send m c 1 ()) (amount_recv m (peer c) 1 ())
      (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) rfl
      (by rw [payload_send]; first | done | exact BI.Entails.refl _)
      (by rw [payload_recv]; unfold recvPay; rw [dstPts_1, pointsTo_congr (CommFacts.landed_1 m c Hat_pay3_v)]; first | done | exact BI.Entails.refl _))
    $$ [Hs1l Hat_pay3 HO Hts1 Htr1 Hat_pay4]
  · isplitr; · iexact HIs1
    isplitr; · iexact HIrp1
    isplitl [Hs1l]; · iexact Hs1l
    isplitl [Hat_pay3]; · iexact Hat_pay3
    isplitl [HO]; · iexact HO
    isplitl [Hts1]; · iexact Hts1
    isplitr; · iexact Hrs1
    isplitl [Htr1]; · iexact Htr1
    iexact Hat_pay4
  iintro ⟨HcS1, HO⟩
  sl_exec
  -- the copy of chunk 2: its stored rows are the whole-scratch function's rows; the left half is lent
  ihave Hs2 := (Entails.of_eq (pointsTo_congr (CommFacts.stored_2 m c f0))) $$ Hs2
  ihave Hs2 := (pointsTo_share (PosShare.mem_left_op_right fullShare)).1 $$ Hs2
  icases Hs2 with ⟨Hs2l, Hs2r⟩
  iapply (Rounds.wp_send_pointsTo 𝒱₀ ER (pairRd m) (c : Thread nD τ) none (c' := ((peer c : Dev nD) : Thread nD τ))
      (src := (((cM).slice (Rect.unit (s := S2x256x4096) ![0, 64, 0] S1x32x4096.size inb_S2x256x4096_S1x32x4096_0_64_0) (fun _ => rfl)).squeeze S32x4096 squeezes_S1x32x4096_S32x4096)) (dst := (((cM).slice (Rect.unit (s := S2x256x4096) ![1, 64, 0] S1x32x4096.size inb_S2x256x4096_S1x32x4096_1_64_0) (fun _ => rfl)).squeeze S32x4096 squeezes_S1x32x4096_S32x4096))
      (κ₁ := K (c, 3)) (κ₂ := K (peer c, 11))
      (r₁ := 0) (r₂ := 0) (d₁ := ()) (d₂ := ()) (fd := Hat_pay5_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) (W := insert (SemLoc.reg barS, ()) W)
      (by rw [duties_send]; exact Finset.mem_singleton_self _) (by rw [duties_recv]; exact Finset.mem_singleton_self _)
      () () N rfl (amount_send m c 2 ()) (amount_recv m (peer c) 2 ())
      (tallyAt (recvCell (peer c) 7) () N + tallyAt (recvCell (peer c) 6) () N + tallyAt (recvCell (peer c) 5) () N + tallyAt (recvCell (peer c) 4) () N + tallyAt (recvCell (peer c) 3) () N) rfl
      (by rw [payload_send]; first | done | exact BI.Entails.refl _)
      (by rw [payload_recv]; unfold recvPay; rw [dstPts_2, pointsTo_congr (CommFacts.landed_2 m c Hat_pay5_v)]; first | done | exact BI.Entails.refl _))
    $$ [Hs2l Hat_pay5 HO Hts2 Htr2 Hat_pay6]
  · isplitr; · iexact HIs2
    isplitr; · iexact HIrp2
    isplitl [Hs2l]; · iexact Hs2l
    isplitl [Hat_pay5]; · iexact Hat_pay5
    isplitl [HO]; · iexact HO
    isplitl [Hts2]; · iexact Hts2
    isplitr; · iexact Hrs2
    isplitl [Htr2]; · iexact Htr2
    iexact Hat_pay6
  iintro ⟨HcS2, HO⟩
  sl_exec
  -- the copy of chunk 3: its stored rows are the whole-scratch function's rows; the left half is lent
  ihave Hs3 := (Entails.of_eq (pointsTo_congr (CommFacts.stored_3 m c f0))) $$ Hs3
  ihave Hs3 := (pointsTo_share (PosShare.mem_left_op_right fullShare)).1 $$ Hs3
  icases Hs3 with ⟨Hs3l, Hs3r⟩
  iapply (Rounds.wp_send_pointsTo 𝒱₀ ER (pairRd m) (c : Thread nD τ) none (c' := ((peer c : Dev nD) : Thread nD τ))
      (src := (((cM).slice (Rect.unit (s := S2x256x4096) ![0, 96, 0] S1x32x4096.size inb_S2x256x4096_S1x32x4096_0_96_0) (fun _ => rfl)).squeeze S32x4096 squeezes_S1x32x4096_S32x4096)) (dst := (((cM).slice (Rect.unit (s := S2x256x4096) ![1, 96, 0] S1x32x4096.size inb_S2x256x4096_S1x32x4096_1_96_0) (fun _ => rfl)).squeeze S32x4096 squeezes_S1x32x4096_S32x4096))
      (κ₁ := K (c, 4)) (κ₂ := K (peer c, 12))
      (r₁ := 0) (r₂ := 0) (d₁ := ()) (d₂ := ()) (fd := Hat_pay7_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N) (W := insert (SemLoc.reg barS, ()) W)
      (by rw [duties_send]; exact Finset.mem_singleton_self _) (by rw [duties_recv]; exact Finset.mem_singleton_self _)
      () () N rfl (amount_send m c 3 ()) (amount_recv m (peer c) 3 ())
      (tallyAt (recvCell (peer c) 7) () N + tallyAt (recvCell (peer c) 6) () N + tallyAt (recvCell (peer c) 5) () N + tallyAt (recvCell (peer c) 4) () N) rfl
      (by rw [payload_send]; first | done | exact BI.Entails.refl _)
      (by rw [payload_recv]; unfold recvPay; rw [dstPts_3, pointsTo_congr (CommFacts.landed_3 m c Hat_pay7_v)]; first | done | exact BI.Entails.refl _))
    $$ [Hs3l Hat_pay7 HO Hts3 Htr3 Hat_pay8]
  · isplitr; · iexact HIs3
    isplitr; · iexact HIrp3
    isplitl [Hs3l]; · iexact Hs3l
    isplitl [Hat_pay7]; · iexact Hat_pay7
    isplitl [HO]; · iexact HO
    isplitl [Hts3]; · iexact Hts3
    isplitr; · iexact Hrs3
    isplitl [Htr3]; · iexact Htr3
    iexact Hat_pay8
  iintro ⟨HcS3, HO⟩
  sl_exec
  -- the copy of chunk 4: its stored rows are the whole-scratch function's rows; the left half is lent
  ihave Hs4 := (Entails.of_eq (pointsTo_congr (CommFacts.stored_4 m c f0))) $$ Hs4
  ihave Hs4 := (pointsTo_share (PosShare.mem_left_op_right fullShare)).1 $$ Hs4
  icases Hs4 with ⟨Hs4l, Hs4r⟩
  iapply (Rounds.wp_send_pointsTo 𝒱₀ ER (pairRd m) (c : Thread nD τ) none (c' := ((peer c : Dev nD) : Thread nD τ))
      (src := (((cM).slice (Rect.unit (s := S2x256x4096) ![0, 128, 0] S1x32x4096.size inb_S2x256x4096_S1x32x4096_0_128_0) (fun _ => rfl)).squeeze S32x4096 squeezes_S1x32x4096_S32x4096)) (dst := (((cM).slice (Rect.unit (s := S2x256x4096) ![1, 128, 0] S1x32x4096.size inb_S2x256x4096_S1x32x4096_1_128_0) (fun _ => rfl)).squeeze S32x4096 squeezes_S1x32x4096_S32x4096))
      (κ₁ := K (c, 5)) (κ₂ := K (peer c, 13))
      (r₁ := 0) (r₂ := 0) (d₁ := ()) (d₂ := ()) (fd := Hat_pay9_v) (q := fullShare.left) (fs := commOf m c)
      (O₀ := tallyAt (recvCell (peer c) 7) () N + tallyAt (recvCell (peer c) 6) () N + tallyAt (recvCell (peer c) 5) () N + tallyAt (recvCell (peer c) 4) () N) (W := insert (SemLoc.reg barS, ()) W)
      (by rw [duties_send]; exact Finset.mem_singleton_self _) (by rw [duties_recv]; exact Finset.mem_singleton_self _)
      () () N rfl (amount_send m c 4 ()) (amount_recv m (peer c) 4 ())
      (tallyAt (recvCell (peer c) 7) () N + tallyAt (recvCell (peer c) 6) () N + tallyAt (recvCell (peer c) 5) () N) rfl
      (by rw [payload_send]; first | done | exact BI.Entails.refl _)
      (by rw [payload_recv]; unfold recvPay; rw [dstPts_4, pointsTo_congr (CommFacts.landed_4 m c Hat_pay9_v)]; first | done | exact BI.Entails.refl _))
    $$ [Hs4l Hat_pay9 HO Hts4 Htr4 Hat_pay10]
  · isplitr; · iexact HIs4
    isplitr; · iexact HIrp4
    isplitl [Hs4l]; · iexact Hs4l
    isplitl [Hat_pay9]; · iexact Hat_pay9
    isplitl [HO]; · iexact HO
    isplitl [Hts4]; · iexact Hts4
    isplitr; · iexact Hrs4
    isplitl [Htr4]; · iexact Htr4
    iexact Hat_pay10
  iintro ⟨HcS4, HO⟩
  sl_exec
  -- the copy of chunk 5: its stored rows are the whole-scratch function's rows; the left half is lent
  ihave Hs5 := (Entails.of_eq (pointsTo_congr (CommFacts.stored_5 m c f0))) $$ Hs5
  ihave Hs5 := (pointsTo_share (PosShare.mem_left_op_right fullShare)).1 $$ Hs5
  icases Hs5 with ⟨Hs5l, Hs5r⟩
  iapply (Rounds.wp_send_pointsTo 𝒱₀ ER (pairRd m) (c : Thread nD τ) none (c' := ((peer c : Dev nD) : Thread nD τ))
      (src := (((cM).slice (Rect.unit (s := S2x256x4096) ![0, 160, 0] S1x32x4096.size inb_S2x256x4096_S1x32x4096_0_160_0) (fun _ => rfl)).squeeze S32x4096 squeezes_S1x32x4096_S32x4096)) (dst := (((cM).slice (Rect.unit (s := S2x256x4096) ![1, 160, 0] S1x32x4096.size inb_S2x256x4096_S1x32x4096_1_160_0) (fun _ => rfl)).squeeze S32x4096 squeezes_S1x32x4096_S32x4096))
      (κ₁ := K (c, 6)) (κ₂ := K (peer c, 14))
      (r₁ := 0) (r₂ := 0) (d₁ := ()) (d₂ := ()) (fd := Hat_pay11_v) (q := fullShare.left) (fs := commOf m c)
      (O₀ := tallyAt (recvCell (peer c) 7) () N + tallyAt (recvCell (peer c) 6) () N + tallyAt (recvCell (peer c) 5) () N) (W := insert (SemLoc.reg barS, ()) W)
      (by rw [duties_send]; exact Finset.mem_singleton_self _) (by rw [duties_recv]; exact Finset.mem_singleton_self _)
      () () N rfl (amount_send m c 5 ()) (amount_recv m (peer c) 5 ())
      (tallyAt (recvCell (peer c) 7) () N + tallyAt (recvCell (peer c) 6) () N) rfl
      (by rw [payload_send]; first | done | exact BI.Entails.refl _)
      (by rw [payload_recv]; unfold recvPay; rw [dstPts_5, pointsTo_congr (CommFacts.landed_5 m c Hat_pay11_v)]; first | done | exact BI.Entails.refl _))
    $$ [Hs5l Hat_pay11 HO Hts5 Htr5 Hat_pay12]
  · isplitr; · iexact HIs5
    isplitr; · iexact HIrp5
    isplitl [Hs5l]; · iexact Hs5l
    isplitl [Hat_pay11]; · iexact Hat_pay11
    isplitl [HO]; · iexact HO
    isplitl [Hts5]; · iexact Hts5
    isplitr; · iexact Hrs5
    isplitl [Htr5]; · iexact Htr5
    iexact Hat_pay12
  iintro ⟨HcS5, HO⟩
  sl_exec
  -- the copy of chunk 6: its stored rows are the whole-scratch function's rows; the left half is lent
  ihave Hs6 := (Entails.of_eq (pointsTo_congr (CommFacts.stored_6 m c f0))) $$ Hs6
  ihave Hs6 := (pointsTo_share (PosShare.mem_left_op_right fullShare)).1 $$ Hs6
  icases Hs6 with ⟨Hs6l, Hs6r⟩
  iapply (Rounds.wp_send_pointsTo 𝒱₀ ER (pairRd m) (c : Thread nD τ) none (c' := ((peer c : Dev nD) : Thread nD τ))
      (src := (((cM).slice (Rect.unit (s := S2x256x4096) ![0, 192, 0] S1x32x4096.size inb_S2x256x4096_S1x32x4096_0_192_0) (fun _ => rfl)).squeeze S32x4096 squeezes_S1x32x4096_S32x4096)) (dst := (((cM).slice (Rect.unit (s := S2x256x4096) ![1, 192, 0] S1x32x4096.size inb_S2x256x4096_S1x32x4096_1_192_0) (fun _ => rfl)).squeeze S32x4096 squeezes_S1x32x4096_S32x4096))
      (κ₁ := K (c, 7)) (κ₂ := K (peer c, 15))
      (r₁ := 0) (r₂ := 0) (d₁ := ()) (d₂ := ()) (fd := Hat_pay13_v) (q := fullShare.left) (fs := commOf m c)
      (O₀ := tallyAt (recvCell (peer c) 7) () N + tallyAt (recvCell (peer c) 6) () N) (W := insert (SemLoc.reg barS, ()) W)
      (by rw [duties_send]; exact Finset.mem_singleton_self _) (by rw [duties_recv]; exact Finset.mem_singleton_self _)
      () () N rfl (amount_send m c 6 ()) (amount_recv m (peer c) 6 ())
      (tallyAt (recvCell (peer c) 7) () N) rfl
      (by rw [payload_send]; first | done | exact BI.Entails.refl _)
      (by rw [payload_recv]; unfold recvPay; rw [dstPts_6, pointsTo_congr (CommFacts.landed_6 m c Hat_pay13_v)]; first | done | exact BI.Entails.refl _))
    $$ [Hs6l Hat_pay13 HO Hts6 Htr6 Hat_pay14]
  · isplitr; · iexact HIs6
    isplitr; · iexact HIrp6
    isplitl [Hs6l]; · iexact Hs6l
    isplitl [Hat_pay13]; · iexact Hat_pay13
    isplitl [HO]; · iexact HO
    isplitl [Hts6]; · iexact Hts6
    isplitr; · iexact Hrs6
    isplitl [Htr6]; · iexact Htr6
    iexact Hat_pay14
  iintro ⟨HcS6, HO⟩
  sl_exec
  -- the copy of chunk 7: its stored rows are the whole-scratch function's rows; the left half is lent
  ihave Hs7 := (Entails.of_eq (pointsTo_congr (CommFacts.stored_7 m c f0))) $$ Hs7
  ihave Hs7 := (pointsTo_share (PosShare.mem_left_op_right fullShare)).1 $$ Hs7
  icases Hs7 with ⟨Hs7l, Hs7r⟩
  iapply (Rounds.wp_send_pointsTo 𝒱₀ ER (pairRd m) (c : Thread nD τ) none (c' := ((peer c : Dev nD) : Thread nD τ))
      (src := (((cM).slice (Rect.unit (s := S2x256x4096) ![0, 224, 0] S1x32x4096.size inb_S2x256x4096_S1x32x4096_0_224_0) (fun _ => rfl)).squeeze S32x4096 squeezes_S1x32x4096_S32x4096)) (dst := (((cM).slice (Rect.unit (s := S2x256x4096) ![1, 224, 0] S1x32x4096.size inb_S2x256x4096_S1x32x4096_1_224_0) (fun _ => rfl)).squeeze S32x4096 squeezes_S1x32x4096_S32x4096))
      (κ₁ := K (c, 8)) (κ₂ := K (peer c, 16))
      (r₁ := 0) (r₂ := 0) (d₁ := ()) (d₂ := ()) (fd := Hat_pay15_v) (q := fullShare.left) (fs := commOf m c)
      (O₀ := tallyAt (recvCell (peer c) 7) () N) (W := insert (SemLoc.reg barS, ()) W)
      (by rw [duties_send]; exact Finset.mem_singleton_self _) (by rw [duties_recv]; exact Finset.mem_singleton_self _)
      () () N rfl (amount_send m c 7 ()) (amount_recv m (peer c) 7 ())
      (0) (zero_add _).symm
      (by rw [payload_send]; first | done | exact BI.Entails.refl _)
      (by rw [payload_recv]; unfold recvPay; rw [dstPts_7, pointsTo_congr (CommFacts.landed_7 m c Hat_pay15_v)]; first | done | exact BI.Entails.refl _))
    $$ [Hs7l Hat_pay15 HO Hts7 Htr7 Hat_pay16]
  · isplitr; · iexact HIs7
    isplitr; · iexact HIrp7
    isplitl [Hs7l]; · iexact Hs7l
    isplitl [Hat_pay15]; · iexact Hat_pay15
    isplitl [HO]; · iexact HO
    isplitl [Hts7]; · iexact Hts7
    isplitr; · iexact Hrs7
    isplitl [Htr7]; · iexact Htr7
    iexact Hat_pay16
  iintro ⟨HcS7, HO⟩
  sl_exec
  -- the sixteen cells close; the halves of each source block are joined
  imod (Rounds.cell_close ER (pairRd m) (Set.mem_univ (K (c, 1))) (fun h => h) (R := 1) (duties_later m (sendCell c 0))) $$ [Hats0] with Hzs0
  · isplitr; · iexact HIs0
    iexact Hats0
  imod (Rounds.cell_close ER (pairRd m) (Set.mem_univ (K (c, 9))) (fun h => h) (R := 1) (duties_later m (recvCell c 0))) $$ [Hatr0] with Hzr0
  · isplitr; · iexact HIr0
    iexact Hatr0
  ihave Hs0 := (pointsTo_share (PosShare.mem_left_op_right fullShare)).2 $$ [Hats0_pay1 Hs0r]
  · isplitl [Hats0_pay1]; · iexact Hats0_pay1
    iexact Hs0r
  imod (Rounds.cell_close ER (pairRd m) (Set.mem_univ (K (c, 2))) (fun h => h) (R := 1) (duties_later m (sendCell c 1))) $$ [Hats1] with Hzs1
  · isplitr; · iexact HIs1
    iexact Hats1
  imod (Rounds.cell_close ER (pairRd m) (Set.mem_univ (K (c, 10))) (fun h => h) (R := 1) (duties_later m (recvCell c 1))) $$ [Hatr1] with Hzr1
  · isplitr; · iexact HIr1
    iexact Hatr1
  ihave Hs1 := (pointsTo_share (PosShare.mem_left_op_right fullShare)).2 $$ [Hats1_pay1 Hs1r]
  · isplitl [Hats1_pay1]; · iexact Hats1_pay1
    iexact Hs1r
  imod (Rounds.cell_close ER (pairRd m) (Set.mem_univ (K (c, 3))) (fun h => h) (R := 1) (duties_later m (sendCell c 2))) $$ [Hats2] with Hzs2
  · isplitr; · iexact HIs2
    iexact Hats2
  imod (Rounds.cell_close ER (pairRd m) (Set.mem_univ (K (c, 11))) (fun h => h) (R := 1) (duties_later m (recvCell c 2))) $$ [Hatr2] with Hzr2
  · isplitr; · iexact HIr2
    iexact Hatr2
  ihave Hs2 := (pointsTo_share (PosShare.mem_left_op_right fullShare)).2 $$ [Hats2_pay1 Hs2r]
  · isplitl [Hats2_pay1]; · iexact Hats2_pay1
    iexact Hs2r
  imod (Rounds.cell_close ER (pairRd m) (Set.mem_univ (K (c, 4))) (fun h => h) (R := 1) (duties_later m (sendCell c 3))) $$ [Hats3] with Hzs3
  · isplitr; · iexact HIs3
    iexact Hats3
  imod (Rounds.cell_close ER (pairRd m) (Set.mem_univ (K (c, 12))) (fun h => h) (R := 1) (duties_later m (recvCell c 3))) $$ [Hatr3] with Hzr3
  · isplitr; · iexact HIr3
    iexact Hatr3
  ihave Hs3 := (pointsTo_share (PosShare.mem_left_op_right fullShare)).2 $$ [Hats3_pay1 Hs3r]
  · isplitl [Hats3_pay1]; · iexact Hats3_pay1
    iexact Hs3r
  imod (Rounds.cell_close ER (pairRd m) (Set.mem_univ (K (c, 5))) (fun h => h) (R := 1) (duties_later m (sendCell c 4))) $$ [Hats4] with Hzs4
  · isplitr; · iexact HIs4
    iexact Hats4
  imod (Rounds.cell_close ER (pairRd m) (Set.mem_univ (K (c, 13))) (fun h => h) (R := 1) (duties_later m (recvCell c 4))) $$ [Hatr4] with Hzr4
  · isplitr; · iexact HIr4
    iexact Hatr4
  ihave Hs4 := (pointsTo_share (PosShare.mem_left_op_right fullShare)).2 $$ [Hats4_pay1 Hs4r]
  · isplitl [Hats4_pay1]; · iexact Hats4_pay1
    iexact Hs4r
  imod (Rounds.cell_close ER (pairRd m) (Set.mem_univ (K (c, 6))) (fun h => h) (R := 1) (duties_later m (sendCell c 5))) $$ [Hats5] with Hzs5
  · isplitr; · iexact HIs5
    iexact Hats5
  imod (Rounds.cell_close ER (pairRd m) (Set.mem_univ (K (c, 14))) (fun h => h) (R := 1) (duties_later m (recvCell c 5))) $$ [Hatr5] with Hzr5
  · isplitr; · iexact HIr5
    iexact Hatr5
  ihave Hs5 := (pointsTo_share (PosShare.mem_left_op_right fullShare)).2 $$ [Hats5_pay1 Hs5r]
  · isplitl [Hats5_pay1]; · iexact Hats5_pay1
    iexact Hs5r
  imod (Rounds.cell_close ER (pairRd m) (Set.mem_univ (K (c, 7))) (fun h => h) (R := 1) (duties_later m (sendCell c 6))) $$ [Hats6] with Hzs6
  · isplitr; · iexact HIs6
    iexact Hats6
  imod (Rounds.cell_close ER (pairRd m) (Set.mem_univ (K (c, 15))) (fun h => h) (R := 1) (duties_later m (recvCell c 6))) $$ [Hatr6] with Hzr6
  · isplitr; · iexact HIr6
    iexact Hatr6
  ihave Hs6 := (pointsTo_share (PosShare.mem_left_op_right fullShare)).2 $$ [Hats6_pay1 Hs6r]
  · isplitl [Hats6_pay1]; · iexact Hats6_pay1
    iexact Hs6r
  imod (Rounds.cell_close ER (pairRd m) (Set.mem_univ (K (c, 8))) (fun h => h) (R := 1) (duties_later m (sendCell c 7))) $$ [Hats7] with Hzs7
  · isplitr; · iexact HIs7
    iexact Hats7
  imod (Rounds.cell_close ER (pairRd m) (Set.mem_univ (K (c, 16))) (fun h => h) (R := 1) (duties_later m (recvCell c 7))) $$ [Hatr7] with Hzr7
  · isplitr; · iexact HIr7
    iexact Hatr7
  ihave Hs7 := (pointsTo_share (PosShare.mem_left_op_right fullShare)).2 $$ [Hats7_pay1 Hs7r]
  · isplitl [Hats7_pay1]; · iexact Hats7_pay1
    iexact Hs7r
  -- the sixteen row blocks are the whole scratch buffer again
  ihave Hscr := (ScratchSplit.scratch_split (F := F) c (commOf m c)).2 $$ [Hs0 Hs1 Hs2 Hs3 Hs4 Hs5 Hs6 Hs7 Hatr0_pay1 Hatr1_pay1 Hatr2_pay1 Hatr3_pay1 Hatr4_pay1 Hatr5_pay1 Hatr6_pay1 Hatr7_pay1]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hatr0_pay1]; · iexact Hatr0_pay1
    isplitl [Hatr1_pay1]; · iexact Hatr1_pay1
    isplitl [Hatr2_pay1]; · iexact Hatr2_pay1
    isplitl [Hatr3_pay1]; · iexact Hatr3_pay1
    isplitl [Hatr4_pay1]; · iexact Hatr4_pay1
    isplitl [Hatr5_pay1]; · iexact Hatr5_pay1
    isplitl [Hatr6_pay1]; · iexact Hatr6_pay1
    iexact Hatr7_pay1
  sl_step
  unfold post scrPts
  isplitl [Hscr]; · iexact Hscr
  isplitl [Hzs0]; · iexact Hzs0
  isplitl [Hzs1]; · iexact Hzs1
  isplitl [Hzs2]; · iexact Hzs2
  isplitl [Hzs3]; · iexact Hzs3
  isplitl [Hzs4]; · iexact Hzs4
  isplitl [Hzs5]; · iexact Hzs5
  isplitl [Hzs6]; · iexact Hzs6
  isplitl [Hzs7]; · iexact Hzs7
  isplitl [Hzr0]; · iexact Hzr0
  isplitl [Hzr1]; · iexact Hzr1
  isplitl [Hzr2]; · iexact Hzr2
  isplitl [Hzr3]; · iexact Hzr3
  isplitl [Hzr4]; · iexact Hzr4
  isplitl [Hzr5]; · iexact Hzr5
  isplitl [Hzr6]; · iexact Hzr6
  isplitl [Hzr7]; · iexact Hzr7
  isplitl [HO]; · iexists _; iexact HO
  isplitl [Hx]; · iexact Hx
  isplitl [Hw]; · iexact Hw
  -- the sixteen writes into the staged result are the whole softmax, whatever the buffer held before
  iapply (pts_of_eq (F := F) c _ _ ?_)
  rotate_left
  · iexact Ho
  · exact Eq.trans (by rfl) (OutBridge.out_bridge m c fo)

end Cert.KernelIdeal.Body

end
-- ==== Proof.DealCells.lean ====
/-
  The protocol's cells and tokens at launch.

  The seventeen cells of each device are pairwise distinct across devices and numbers, so the cells of all devices
  form a finite set indexed by (device, number); each cell has one duty in its one round, so the duty tokens are
  indexed the same way.  Funding the protocol's ghost state over these cells and tokens gives every device, for each
  of its own seventeen cells, the round state at counter zero, its position at the start of round 0, the knowledge
  that round 0 is reached, and the token of the cell's one duty.  Of a device's semaphores the sixteen of the copies
  are the kernel's own scoped ones and the barrier semaphore is the one unscoped one.
-/
import proofs.«900346_g7700000000000347_dist_arsfmx_v7x_xyz2x2x4_y_t256_d512_v4096_bf16_1_alg».proof.Proof.ProtoIdeal
import proofs.«900346_g7700000000000347_dist_arsfmx_v7x_xyz2x2x4_y_t256_d512_v4096_bf16_1_alg».proof.Proof.Gen.KernelIdeal.Launch

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, all different -/

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def pairCells : Finset (GSem nD τ sig) := Finset.univ.map ⟨kcell, kcell_injective⟩

/-- The one duty token of each cell's one round, as minted: indexed like the cells. -/
abbrev tokOf (cj : Dev nD × Fin 17) : GSem nD τ sig × ℕ × Unit := (kcell cj, 0, ())
theorem tokOf_injective : Function.Injective (tokOf : Dev nD × Fin 17 → GSem nD τ sig × ℕ × Unit) :=
  fun a b h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The tokens of device c's own cells' duties, as minted. -/
def toks (c : Dev nD) : sProp 𝕄 := bigSep Finset.univ fun j : Fin 17 => dutyTok ER (kcell (c, j)) 0 ()

/-- What the launch element deals device c. -/
def G (c : Dev nD) : sProp 𝕄 :=
  iprop((bigSep Finset.univ fun j : Fin 17 => roundState ER (pairRd m) (kcell (c, j)) 0)
    ∗ (bigSep Finset.univ fun j : Fin 17 => iprop(atPos ER (kcell (c, j)) 0 ∅ 0 ∗ reached ER (kcell (c, j)) 0)) ∗ toks c)

/-- What the global step makes of it. -/
def G' (c : Dev nD) : sProp 𝕄 := iprop(∃ K, ghost m K c)

/-- A conjunction over the seventeen numbers, written out in order. -/
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- A conjunction over a device's seventeen cells: its barrier cell, its send cells 0..7, its receive cells 0..7. -/
theorem bigSep_cells (c : Dev nD) (Φ : GSem nD τ sig → sProp 𝕄) :
    (bigSep Finset.univ fun j : Fin 17 => Φ (kcell (c, j)))
      = iprop(Φ (barCell c) ∗ Φ (sendCell c 0) ∗ Φ (sendCell c 1) ∗ Φ (sendCell c 2) ∗ Φ (sendCell c 3) ∗ Φ (sendCell c 4) ∗ Φ (sendCell c 5) ∗ Φ (sendCell c 6) ∗ Φ (sendCell c 7) ∗ Φ (recvCell c 0) ∗ Φ (recvCell c 1) ∗ Φ (recvCell c 2) ∗ Φ (recvCell c 3) ∗ Φ (recvCell c 4) ∗ Φ (recvCell c 5) ∗ Φ (recvCell c 6) ∗ Φ (recvCell c 7)) := by
  rw [bigSep_fin17]; rfl

theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun j : Fin 17 => Φ (kcell (c, j)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

/-- The kernel's own scoped semaphores: the sixteen of the copies, send 0..7 then receive 0..7. -/
abbrev osem : Fin 16 → SemLoc sig := fun j => csem ⟨j.val + 1, by omega⟩

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

end Cert.KernelIdeal.Sched

end
-- ==== Proof.DealStorable.lean ====
/-
  Every payload of the protocol can be kept inside an invariant.

  A payload is a conjunction of ownerships of row blocks of a scratch buffer (at given or at some contents) and of
  reached marks, or nothing; each of these is an assertion about the part of the ghost state that invariants may hold.
-/
import proofs.«900346_g7700000000000347_dist_arsfmx_v7x_xyz2x2x4_y_t256_d512_v4096_bf16_1_alg».proof.Proof.ProtoIdeal

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance dstPts_storable (c : Dev nD) (k : Fin 8) (f : (cc0_scratch0 : Ref sig .tc).ty.Contents (Elt F)) :
    BI.Storable (upEmb : UEmb _ 𝕄) (dstPts (F := F) c k f) := by
  match k with
  | ⟨0, _⟩ => unfold dstPts; infer_instance
  | ⟨1, _⟩ => unfold dstPts; infer_instance
  | ⟨2, _⟩ => unfold dstPts; infer_instance
  | ⟨3, _⟩ => unfold dstPts; infer_instance
  | ⟨4, _⟩ => unfold dstPts; infer_instance
  | ⟨5, _⟩ => unfold dstPts; infer_instance
  | ⟨6, _⟩ => unfold dstPts; infer_instance
  | ⟨7, _⟩ => unfold dstPts; infer_instance
  | ⟨n + 8, h⟩ => exact absurd h (by omega)

instance srcPts_storable (c : Dev nD) (k : Fin 8) (q : PosShare TreeShare) :
    BI.Storable (upEmb : UEmb _ 𝕄) (srcPts m c k q) := by
  match k with
  | ⟨0, _⟩ => unfold srcPts; infer_instance
  | ⟨1, _⟩ => unfold srcPts; infer_instance
  | ⟨2, _⟩ => unfold srcPts; infer_instance
  | ⟨3, _⟩ => unfold srcPts; infer_instance
  | ⟨4, _⟩ => unfold srcPts; infer_instance
  | ⟨5, _⟩ => unfold srcPts; infer_instance
  | ⟨6, _⟩ => unfold srcPts; infer_instance
  | ⟨7, _⟩ => unfold srcPts; infer_instance
  | ⟨n + 8, h⟩ => exact absurd h (by omega)

instance barPay_storable (c : Dev nD) : BI.Storable (upEmb : UEmb _ 𝕄) (barPay (F := F) c) := by
  unfold barPay; infer_instance

instance payload_storable (g : GSem nD τ sig) (r : ℕ) (d : Unit) : BI.Storable (upEmb : UEmb _ 𝕄) ((pairRd m).payload g r d) := by
  obtain ⟨t, sm⟩ := g
  cases sm with
  | reg s => exact barPay_storable t.1
  | dma s =>
    show BI.Storable (upEmb : UEmb _ 𝕄) (if s.val < 3 then iprop(emp) else if s.val < 11 then sendPay m t.1 (chunkS s) else recvPay m t.1 (chunkS s))
    split
    · infer_instance
    · split
      · unfold sendPay; infer_instance
      · unfold recvPay; infer_instance

end Cert.KernelIdeal.Sched

end
-- ==== Proof.DealGlob.lean ====
/-
  The dealing at launch.

  What funding gives a device concerns its own seventeen cells; what its body needs concerns the cells it acts on.  In
  one step, for every device at once: each cell's round state and its semaphore at zero are put into an invariant, under
  some name; the invariants and the reached marks of all cells of all devices are persistent, so every device may keep
  the ones it needs — its own seventeen, its peer's barrier cell's and its peer's eight receive cells'; the positions
  stay with the cells' own device; and the duty tokens go to the devices that pay them: the barrier token and the eight
  receive tokens of a device's own cells go to its peer, the eight send tokens stay.  Pairing is a bijection of the
  devices, so handing every device's tokens to its peer is a re-indexing of the conjunction over the devices.
-/
import proofs.«900346_g7700000000000347_dist_arsfmx_v7x_xyz2x2x4_y_t256_d512_v4096_bf16_1_alg».proof.Proof.DealCells
import proofs.«900346_g7700000000000347_dist_arsfmx_v7x_xyz2x2x4_y_t256_d512_v4096_bf16_1_alg».proof.Proof.DealStorable

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Each device: its seventeen invariants -/

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 17 => semVal (kcell (c, j)) 0 : sProp 𝕄) := by
  rw [ownSems0_eq, unscopedSems0_eq, bigSep_cells c (fun g => (semVal g 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (pairRd m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 17 => semVal (kcell (c, j)) 0) ∗ bigSep Finset.univ fun j : Fin 17 => roundState ER (pairRd m) (kcell (c, j)) 0)
      ⊢ (|={Set.univ}=> bigSep Finset.univ fun j => iprop(∃ κ : ℕ, cellInv ER (pairRd m) κ (kcell (c, j))) : sProp 𝕄) from by
        rw [← bigSep_sep']
        exact (bigSep_mono fun j _ => (Rounds.body_intro ER (pairRd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## What is shared, and what stays -/

/-- Every cell's invariant, under the names K, and every cell's reached mark: persistent, for every device to draw on. -/
def records (K : Dev nD × Fin 17 → ℕ) : sProp 𝕄 :=
  iprop((bigSep Finset.univ fun ck : Dev nD × Fin 17 => cellInv ER (pairRd m) (K ck) (kcell ck))
    ∗ bigSep Finset.univ fun ck : Dev nD × Fin 17 => reached ER (kcell ck) 0)
instance records_persistent (K : Dev nD × Fin 17 → ℕ) : BI.Persistent (records m K) := by unfold records; infer_instance

theorem inv_at (K : Dev nD × Fin 17 → ℕ) (ck : Dev nD × Fin 17) :
    (bigSep Finset.univ fun ck : Dev nD × Fin 17 => (cellInv ER (pairRd m) (K ck) (kcell ck) : sProp 𝕄)) ⊢ cellInv ER (pairRd m) (K ck) (kcell ck) :=
  bigSep_elim (Finset.mem_univ ck)
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-- The tokens of the duties device c pays: its peer's barrier duty, its own eight send duties, its peer's eight receive duties. -/
def payToks (c : Dev nD) : sProp 𝕄 :=
  iprop(dutyTok ER (barCell (peer c)) 0 () ∗ dutyTok ER (sendCell c 0) 0 () ∗ dutyTok ER (sendCell c 1) 0 () ∗ dutyTok ER (sendCell c 2) 0 () ∗ dutyTok ER (sendCell c 3) 0 () ∗ dutyTok ER (sendCell c 4) 0 () ∗ dutyTok ER (sendCell c 5) 0 () ∗ dutyTok ER (sendCell c 6) 0 () ∗ dutyTok ER (sendCell c 7) 0 () ∗ dutyTok ER (recvCell (peer c) 0) 0 () ∗ dutyTok ER (recvCell (peer c) 1) 0 () ∗ dutyTok ER (recvCell (peer c) 2) 0 () ∗ dutyTok ER (recvCell (peer c) 3) 0 () ∗ dutyTok ER (recvCell (peer c) 4) 0 () ∗ dutyTok ER (recvCell (peer c) 5) 0 () ∗ dutyTok ER (recvCell (peer c) 6) 0 () ∗ dutyTok ER (recvCell (peer c) 7) 0 ())
/-- Device c's positions on its own seventeen cells. -/
def ats (c : Dev nD) : sProp 𝕄 :=
  iprop(atPos ER (barCell c) 0 ∅ 0 ∗ atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0 ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0)
def linear (c : Dev nD) : sProp 𝕄 := iprop(ats (F := F) c ∗ payToks c)

set_option maxRecDepth 4000 in
theorem ghost_intro (K : Dev nD × Fin 17 → ℕ) (c : Dev nD) : iprop(records m K ∗ linear c) ⊢ G' m c := by
  unfold records linear ats payToks G' ghost cellInvs
  iintro ⟨⟨#HI, #HR⟩, ⟨Ha0, Ha1, Ha2, Ha3, Ha4, Ha5, Ha6, Ha7, Ha8, Ha9, Ha10, Ha11, Ha12, Ha13, Ha14, Ha15, Ha16⟩, Ht0, Ht1, Ht2, Ht3, Ht4, Ht5, Ht6, Ht7, Ht8, Ht9, Ht10, Ht11, Ht12, Ht13, Ht14, Ht15, Ht16⟩
  iexists K
  isplitr
  · isplitr; · iapply (show _ ⊢ (cellInv ER (pairRd m) (K (c, 0)) (barCell c) : sProp 𝕄) from inv_at m K (c, 0)); iexact HI
    isplitr; · iapply (show _ ⊢ (cellInv ER (pairRd m) (K (c, 1)) (sendCell c 0) : sProp 𝕄) from inv_at m K (c, 1)); iexact HI
    isplitr; · iapply (show _ ⊢ (cellInv ER (pairRd m) (K (c, 2)) (sendCell c 1) : sProp 𝕄) from inv_at m K (c, 2)); iexact HI
    isplitr; · iapply (show _ ⊢ (cellInv ER (pairRd m) (K (c, 3)) (sendCell c 2) : sProp 𝕄) from inv_at m K (c, 3)); iexact HI
    isplitr; · iapply (show _ ⊢ (cellInv ER (pairRd m) (K (c, 4)) (sendCell c 3) : sProp 𝕄) from inv_at m K (c, 4)); iexact HI
    isplitr; · iapply (show _ ⊢ (cellInv ER (pairRd m) (K (c, 5)) (sendCell c 4) : sProp 𝕄) from inv_at m K (c, 5)); iexact HI
    isplitr; · iapply (show _ ⊢ (cellInv ER (pairRd m) (K (c, 6)) (sendCell c 5) : sProp 𝕄) from inv_at m K (c, 6)); iexact HI
    isplitr; · iapply (show _ ⊢ (cellInv ER (pairRd m) (K (c, 7)) (sendCell c 6) : sProp 𝕄) from inv_at m K (c, 7)); iexact HI
    isplitr; · iapply (show _ ⊢ (cellInv ER (pairRd m) (K (c, 8)) (sendCell c 7) : sProp 𝕄) from inv_at m K (c, 8)); iexact HI
    isplitr; · iapply (show _ ⊢ (cellInv ER (pairRd m) (K (c, 9)) (recvCell c 0) : sProp 𝕄) from inv_at m K (c, 9)); iexact HI
    isplitr; · iapply (show _ ⊢ (cellInv ER (pairRd m) (K (c, 10)) (recvCell c 1) : sProp 𝕄) from inv_at m K (c, 10)); iexact HI
    isplitr; · iapply (show _ ⊢ (cellInv ER (pairRd m) (K (c, 11)) (recvCell c 2) : sProp 𝕄) from inv_at m K (c, 11)); iexact HI
    isplitr; · iapply (show _ ⊢ (cellInv ER (pairRd m) (K (c, 12)) (recvCell c 3) : sProp 𝕄) from inv_at m K (c, 12)); iexact HI
    isplitr; · iapply (show _ ⊢ (cellInv ER (pairRd m) (K (c, 13)) (recvCell c 4) : sProp 𝕄) from inv_at m K (c, 13)); iexact HI
    isplitr; · iapply (show _ ⊢ (cellInv ER (pairRd m) (K (c, 14)) (recvCell c 5) : sProp 𝕄) from inv_at m K (c, 14)); iexact HI
    isplitr; · iapply (show _ ⊢ (cellInv ER (pairRd m) (K (c, 15)) (recvCell c 6) : sProp 𝕄) from inv_at m K (c, 15)); iexact HI
    isplitr; · iapply (show _ ⊢ (cellInv ER (pairRd m) (K (c, 16)) (recvCell c 7) : sProp 𝕄) from inv_at m K (c, 16)); iexact HI
    isplitr; · iapply (show _ ⊢ (cellInv ER (pairRd m) (K (peer c, 0)) (barCell (peer c)) : sProp 𝕄) from inv_at m K (peer c, 0)); iexact HI
    isplitr; · iapply (show _ ⊢ (cellInv ER (pairRd m) (K (peer c, 9)) (recvCell (peer c) 0) : sProp 𝕄) from inv_at m K (peer c, 9)); iexact HI
    isplitr; · iapply (show _ ⊢ (cellInv ER (pairRd m) (K (peer c, 10)) (recvCell (peer c) 1) : sProp 𝕄) from inv_at m K (peer c, 10)); iexact HI
    isplitr; · iapply (show _ ⊢ (cellInv ER (pairRd m) (K (peer c, 11)) (recvCell (peer c) 2) : sProp 𝕄) from inv_at m K (peer c, 11)); iexact HI
    isplitr; · iapply (show _ ⊢ (cellInv ER (pairRd m) (K (peer c, 12)) (recvCell (peer c) 3) : sProp 𝕄) from inv_at m K (peer c, 12)); iexact HI
    isplitr; · iapply (show _ ⊢ (cellInv ER (pairRd m) (K (peer c, 13)) (recvCell (peer c) 4) : sProp 𝕄) from inv_at m K (peer c, 13)); iexact HI
    isplitr; · iapply (show _ ⊢ (cellInv ER (pairRd m) (K (peer c, 14)) (recvCell (peer c) 5) : sProp 𝕄) from inv_at m K (peer c, 14)); iexact HI
    isplitr; · iapply (show _ ⊢ (cellInv ER (pairRd m) (K (peer c, 15)) (recvCell (peer c) 6) : sProp 𝕄) from inv_at m K (peer c, 15)); iexact HI
    iapply (show _ ⊢ (cellInv ER (pairRd m) (K (peer c, 16)) (recvCell (peer c) 7) : sProp 𝕄) from inv_at m K (peer c, 16)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  isplitr; · iapply (show _ ⊢ (reached ER (barCell (peer c)) 0 : sProp 𝕄) from reached_at (F := F) (peer c, 0)); iexact HR
  isplitr; · iapply (show _ ⊢ (reached ER (sendCell c 0) 0 : sProp 𝕄) from reached_at (F := F) (c, 1)); iexact HR
  isplitr; · iapply (show _ ⊢ (reached ER (sendCell c 1) 0 : sProp 𝕄) from reached_at (F := F) (c, 2)); iexact HR
  isplitr; · iapply (show _ ⊢ (reached ER (sendCell c 2) 0 : sProp 𝕄) from reached_at (F := F) (c, 3)); iexact HR
  isplitr; · iapply (show _ ⊢ (reached ER (sendCell c 3) 0 : sProp 𝕄) from reached_at (F := F) (c, 4)); iexact HR
  isplitr; · iapply (show _ ⊢ (reached ER (sendCell c 4) 0 : sProp 𝕄) from reached_at (F := F) (c, 5)); iexact HR
  isplitr; · iapply (show _ ⊢ (reached ER (sendCell c 5) 0 : sProp 𝕄) from reached_at (F := F) (c, 6)); iexact HR
  isplitr; · iapply (show _ ⊢ (reached ER (sendCell c 6) 0 : sProp 𝕄) from reached_at (F := F) (c, 7)); iexact HR
  isplitr; · iapply (show _ ⊢ (reached ER (sendCell c 7) 0 : sProp 𝕄) from reached_at (F := F) (c, 8)); iexact HR
  isplitr; · iapply (show _ ⊢ (reached ER (recvCell c 0) 0 : sProp 𝕄) from reached_at (F := F) (c, 9)); iexact HR
  isplitr; · iapply (show _ ⊢ (reached ER (recvCell c 1) 0 : sProp 𝕄) from reached_at (F := F) (c, 10)); iexact HR
  isplitr; · iapply (show _ ⊢ (reached ER (recvCell c 2) 0 : sProp 𝕄) from reached_at (F := F) (c, 11)); iexact HR
  isplitr; · iapply (show _ ⊢ (reached ER (recvCell c 3) 0 : sProp 𝕄) from reached_at (F := F) (c, 12)); iexact HR
  isplitr; · iapply (show _ ⊢ (reached ER (recvCell c 4) 0 : sProp 𝕄) from reached_at (F := F) (c, 13)); iexact HR
  isplitr; · iapply (show _ ⊢ (reached ER (recvCell c 5) 0 : sProp 𝕄) from reached_at (F := F) (c, 14)); iexact HR
  isplitr; · iapply (show _ ⊢ (reached ER (recvCell c 6) 0 : sProp 𝕄) from reached_at (F := F) (c, 15)); iexact HR
  isplitr; · iapply (show _ ⊢ (reached ER (recvCell c 7) 0 : sProp 𝕄) from reached_at (F := F) (c, 16)); iexact HR
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  iexact Ht16

/-! ## The tokens handed to the peers -/

theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_cells c (fun g => (dutyTok ER g 0 () : sProp 𝕄)))]
  simp only [bigSep_sep']
  rw [bigSep_univ_equiv pairing (fun c : Dev nD => (dutyTok ER (barCell c) 0 () : sProp 𝕄)),
    bigSep_univ_equiv pairing (fun c : Dev nD => (dutyTok ER (recvCell c 0) 0 () : sProp 𝕄)),
    bigSep_univ_equiv pairing (fun c : Dev nD => (dutyTok ER (recvCell c 1) 0 () : sProp 𝕄)),
    bigSep_univ_equiv pairing (fun c : Dev nD => (dutyTok ER (recvCell c 2) 0 () : sProp 𝕄)),
    bigSep_univ_equiv pairing (fun c : Dev nD => (dutyTok ER (recvCell c 3) 0 () : sProp 𝕄)),
    bigSep_univ_equiv pairing (fun c : Dev nD => (dutyTok ER (recvCell c 4) 0 () : sProp 𝕄)),
    bigSep_univ_equiv pairing (fun c : Dev nD => (dutyTok ER (recvCell c 5) 0 () : sProp 𝕄)),
    bigSep_univ_equiv pairing (fun c : Dev nD => (dutyTok ER (recvCell c 6) 0 () : sProp 𝕄)),
    bigSep_univ_equiv pairing (fun c : Dev nD => (dutyTok ER (recvCell c 7) 0 () : sProp 𝕄))]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (pairRd m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 17 => iprop(∃ κ : ℕ, cellInv ER (pairRd m) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄)) payToks).symm).trans
      (bigSep_mono fun c _ => show _ ⊢ linear c from Entails.of_eq (by unfold linear ats; rw [bigSep_cells c (fun g => (atPos ER g 0 ∅ 0 : sProp 𝕄))])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Sched

end
-- ==== Proof.DealCreds.lean ====
/-
  The credit a device is dealt at launch.

  Every device owes its peer one unit on the peer's barrier cell and one copy's credit on each of the peer's eight
  receive cells, and nothing else.  Pairing is an involution, so the device that owes a device's cells is its peer:
  read at a barrier cell, what device d owes is one unit when d is the cell's device's peer and nothing otherwise;
  read at a receive cell of chunk k, one copy's credit when d is the peer, nothing otherwise.  The launch deals each
  device, for each of its cells, a credit token for everything owed to the cell; owed tallies that are sums deal
  separately, and a tally that every device owes on the same semaphore of its peer deals each device the matching
  token on its own semaphore.  So a device is dealt one unit on its barrier cell and one copy's credit on each of its
  receive cells.
-/
import proofs.«900346_g7700000000000347_dist_arsfmx_v7x_xyz2x2x4_y_t256_d512_v4096_bf16_1_alg».proof.Proof.ProtoIdeal

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed, read at a cell -/

theorem bar_eq_iff {a b : Dev nD} : Iff (barCell a = barCell b) (a = b) :=
  ⟨fun h => Fin.ext (congrArg (fun g : GSem nD τ sig => g.1.1.val) h), fun h => h ▸ rfl⟩

theorem recvS_injective : Function.Injective recvS := fun j k h =>
  Fin.ext (by have := congrArg Fin.val h; rw [recvS_val, recvS_val] at this; omega)

theorem recv_eq_iff {a b : Dev nD} {j k : Fin 8} : Iff (recvCell a j = recvCell b k) (a = b ∧ j = k) :=
  ⟨fun h => ⟨Fin.ext (congrArg (fun g : GSem nD τ sig => g.1.1.val) h),
      recvS_injective (SemLoc.dma.inj (congrArg Prod.snd h))⟩, fun ⟨h1, h2⟩ => h1 ▸ h2 ▸ rfl⟩

theorem recv_ne_bar (a b : Dev nD) (k : Fin 8) : recvCell a k ≠ barCell b := fun h => by
  have := congrArg Prod.snd h; cases this
theorem bar_ne_recv (a b : Dev nD) (k : Fin 8) : barCell a ≠ recvCell b k := fun h => by
  have := congrArg Prod.snd h; cases this

/-- A device's barrier unit, read at a barrier cell. -/
theorem tally_bar_bar (d c : Dev nD) : tallyAt (barCell (peer d)) () 1 (barCell c) () = if d = peer c then 1 else 0 := by
  rw [tallyAt_apply]
  by_cases h : d = peer c
  · rw [if_pos h, if_pos ⟨by rw [h, peer_peer], rfl⟩]
  · rw [if_neg h, if_neg (fun ⟨h1, _⟩ => h (by rw [bar_eq_iff.mp h1, peer_peer]))]

/-- A device's copy credit of chunk j, read at a receive cell of chunk k. -/
theorem tally_recv_recv (d c : Dev nD) (j k : Fin 8) :
    tallyAt (recvCell (peer d) j) () N (recvCell c k) () = if d = peer c ∧ j = k then N else 0 := by
  rw [tallyAt_apply]
  by_cases h : d = peer c ∧ j = k
  · rw [if_pos h, if_pos ⟨by rw [h.1, peer_peer, h.2], rfl⟩]
  · rw [if_neg h, if_neg (fun ⟨h1, _⟩ => h ⟨by rw [(recv_eq_iff.mp h1).1, peer_peer], (recv_eq_iff.mp h1).2.symm⟩)]

/-- What device d owes device c's barrier cell: one unit if d is c's peer. -/
theorem owed_bar (d c : Dev nD) : O₀ d (barCell c) () = if d = peer c then 1 else 0 := by
  unfold O₀ Orecv
  simp only [Pi.add_apply, Finsupp.add_apply]
  rw [tallyAt_ne_cell (bar_ne_recv c (peer d) 7), tallyAt_ne_cell (bar_ne_recv c (peer d) 6), tallyAt_ne_cell (bar_ne_recv c (peer d) 5),
    tallyAt_ne_cell (bar_ne_recv c (peer d) 4), tallyAt_ne_cell (bar_ne_recv c (peer d) 3), tallyAt_ne_cell (bar_ne_recv c (peer d) 2),
    tallyAt_ne_cell (bar_ne_recv c (peer d) 1), tallyAt_ne_cell (bar_ne_recv c (peer d) 0), Finsupp.zero_apply]
  simp only [Nat.zero_add]
  exact tally_bar_bar d c

/-- What device d owes device c's receive cell of chunk k: one copy's credit if d is c's peer. -/
theorem sum_ite8 (n : ℕ) (k : Fin 8) :
    (if (7 : Fin 8) = k then n else 0) + (if (6 : Fin 8) = k then n else 0) + (if (5 : Fin 8) = k then n else 0) + (if (4 : Fin 8) = k then n else 0)
      + (if (3 : Fin 8) = k then n else 0) + (if (2 : Fin 8) = k then n else 0) + (if (1 : Fin 8) = k then n else 0) + (if (0 : Fin 8) = k then n else 0) = n := by
  fin_cases k <;> simp

theorem owed_recv (d c : Dev nD) (k : Fin 8) : O₀ d (recvCell c k) () = if d = peer c then N else 0 := by
  unfold O₀ Orecv
  simp only [Pi.add_apply, Finsupp.add_apply]
  rw [tally_recv_recv d c 7 k, tally_recv_recv d c 6 k, tally_recv_recv d c 5 k, tally_recv_recv d c 4 k, tally_recv_recv d c 3 k,
    tally_recv_recv d c 2 k, tally_recv_recv d c 1 k, tally_recv_recv d c 0 k, tallyAt_ne_cell (recv_ne_bar c (peer d) k), Finsupp.zero_apply, Nat.add_zero]
  by_cases h : d = peer c
  · simp only [h, _root_.true_and, if_true]
    exact sum_ite8 N k
  · simp only [h, _root_.false_and, if_false]

/-! ## The credit dealt -/

/-- What a device owes, as the sum of its nine one-cell tallies. -/
theorem O₀_eq : (O₀ : Dev nD → CellTallies nD τ sig Unit) = fun d : Dev nD => (((((((tallyAt (recvCell (peer d) 7) () N + tallyAt (recvCell (peer d) 6) () N) + tallyAt (recvCell (peer d) 5) () N) + tallyAt (recvCell (peer d) 4) () N) + tallyAt (recvCell (peer d) 3) () N) + tallyAt (recvCell (peer d) 2) () N) + tallyAt (recvCell (peer d) 1) () N) + tallyAt (recvCell (peer d) 0) () N) + tallyAt (barCell (peer d)) () 1 := rfl

theorem creds (c : Dev nD) : (Pipeline.launchCred O₀ c : sProp 𝕄) ⊢ launchCreds c := by
  rw [O₀_eq, Pipeline.launchCred_add, Pipeline.launchCred_add, Pipeline.launchCred_add, Pipeline.launchCred_add, Pipeline.launchCred_add,
    Pipeline.launchCred_add, Pipeline.launchCred_add, Pipeline.launchCred_add]
  unfold launchCreds
  iintro ⟨⟨⟨⟨⟨⟨⟨⟨H7, H6⟩, H5⟩, H4⟩, H3⟩, H2⟩, H1⟩, H0⟩, HB⟩
  isplitl [HB]; · iapply (Pipeline.launchCred_tallyAt (.reg barS) peer peer peer_peer peer_peer () 1 c); iexact HB
  isplitl [H0]; · iapply (Pipeline.launchCred_tallyAt (.dma (recvS 0)) peer peer peer_peer peer_peer () N c); iexact H0
  isplitl [H1]; · iapply (Pipeline.launchCred_tallyAt (.dma (recvS 1)) peer peer peer_peer peer_peer () N c); iexact H1
  isplitl [H2]; · iapply (Pipeline.launchCred_tallyAt (.dma (recvS 2)) peer peer peer_peer peer_peer () N c); iexact H2
  isplitl [H3]; · iapply (Pipeline.launchCred_tallyAt (.dma (recvS 3)) peer peer peer_peer peer_peer () N c); iexact H3
  isplitl [H4]; · iapply (Pipeline.launchCred_tallyAt (.dma (recvS 4)) peer peer peer_peer peer_peer () N c); iexact H4
  isplitl [H5]; · iapply (Pipeline.launchCred_tallyAt (.dma (recvS 5)) peer peer peer_peer peer_peer () N c); iexact H5
  isplitl [H6]; · iapply (Pipeline.launchCred_tallyAt (.dma (recvS 6)) peer peer peer_peer peer_peer () N c); iexact H6
  iapply (Pipeline.launchCred_tallyAt (.dma (recvS 7)) peer peer peer_peer peer_peer () N c); iexact H7

end Cert.KernelIdeal.Sched

end
-- ==== Proof.DealIdeal.lean ====
/-
  The launch's ghost dealing, assembled: the cells and tokens and their funding, the payloads fit for invariants, the
  global step that hands every device what its body starts from, and the credit each device is dealt.
-/
import proofs.«900346_g7700000000000347_dist_arsfmx_v7x_xyz2x2x4_y_t256_d512_v4096_bf16_1_alg».proof.Proof.DealCells
import proofs.«900346_g7700000000000347_dist_arsfmx_v7x_xyz2x2x4_y_t256_d512_v4096_bf16_1_alg».proof.Proof.DealStorable
import proofs.«900346_g7700000000000347_dist_arsfmx_v7x_xyz2x2x4_y_t256_d512_v4096_bf16_1_alg».proof.Proof.DealGlob
import proofs.«900346_g7700000000000347_dist_arsfmx_v7x_xyz2x2x4_y_t256_d512_v4096_bf16_1_alg».proof.Proof.DealCreds
-- ==== Proof.LaunchIdeal.lean ====
/-
  From one device's body to the whole mesh.

  The pipeline hands the body its three staging buffers — the copy of x and the half of W as fetched, the result's at
  whatever it holds — with the invariant before the point; the body's own lemma takes it from there to the invariant
  after the point, the staged inputs untouched and the staged result at the whole softmax, which the pipeline then
  writes back.  At launch every device's seventeen cells are allocated in one step and each device is dealt the
  tokens it pays with; its scratch buffer, scoped to the kernel, comes with the region and goes back with it.  While
  the pipeline waits on a staging cell the device owes, at most, what it owes at launch, all of it ranked above the
  staging cells.  So every weakly fair execution of the sixteen devices' kernels terminates, nothing faults, and at
  the end each device's three arrays are: x and its half of W as they were, and the result the pipeline's flush of
  the staged softmax.
-/
import proofs.«900346_g7700000000000347_dist_arsfmx_v7x_xyz2x2x4_y_t256_d512_v4096_bf16_1_alg».proof.Proof.BodyIdeal
import proofs.«900346_g7700000000000347_dist_arsfmx_v7x_xyz2x2x4_y_t256_d512_v4096_bf16_1_alg».proof.Proof.DealIdeal
import proofs.«900346_g7700000000000347_dist_arsfmx_v7x_xyz2x2x4_y_t256_d512_v4096_bf16_1_alg».proof.Proof.Gen.KernelIdeal.Points

noncomputable section

namespace Cert.KernelIdeal.Launch

open Cert.KernelIdeal Cert.KernelIdeal.Gen Cert.KernelIdeal.Mesh Cert.KernelIdeal.Data Cert.KernelIdeal.Sched
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- A whole staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m c ∗ (dats m ρ 0 c).owesAt () t0_0.succ
    ∗ stg c cc0_stg0_0 (xstg m c) ∗ stg c cc0_stg1_0 (wstg m c) ∗ stg c cc0_stg2_0 (outOf m c))

/-- What the body ends with is what the pipeline asks of it after the point. -/
theorem post_to_bodyPost (c : Dev nD) : Body.post m c ⊢ bodyPost m ρ c := by
  unfold Body.post bodyPost Φ₁ Dat.owesAt Pipeline.owesWithin
  rw [show (dats m ρ 0 c).owed t0_0.succ = 0 from rfl]
  iintro ⟨Hscr, Hzs0, Hzs1, Hzs2, Hzs3, Hzs4, Hzs5, Hzs6, Hzs7, Hzr0, Hzr1, Hzr2, Hzr3, Hzr4, Hzr5, Hzr6, Hzr7, ⟨%W', HO⟩, Hx, Hw, Hout⟩
  isplitl [Hscr Hzs0 Hzs1 Hzs2 Hzs3 Hzs4 Hzs5 Hzs6 Hzs7 Hzr0 Hzr1 Hzr2 Hzr3 Hzr4 Hzr5 Hzr6 Hzr7]
  · isplitl [Hscr]; · iexact Hscr
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    iexact Hzr7
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 8000 in
/-- The library's body obligation on device `c`: the pipeline's form around the body's own lemma. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hcr, Hlev⟩, ⟨%f0, Hscr⟩⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = O₀ c from rfl]
  iapply (wp_mono Idealize.ShloMosaic.frame (wpE (defs₀ (F := F)) 𝒱₀ (c : Thread nD τ) none) Set.univ (Q := fun _ => Body.post m c) (fun _ => post_to_bodyPost m ρ c))
  iapply (Body.body_run m K c W f0 g2)
  unfold Body.pre
  isplitl [Hg]; · iexact Hg
  isplitl [Hcr]; · iexact Hcr
  isplitl [Hlev]; · iexact Hlev
  isplitl [Hscr]; · iexact Hscr
  isplitl [HO]; · iexact HO
  isplitl [Hx]; · iexact Hx
  isplitl [Hw]; · iexact Hw
  iexact Hout

/-! ## Into and out of the pipeline's invariant -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (commOf m c); iexact Hr

/-- While the pipeline waits on a staging cell the device owes what it owes at launch (before the point) or nothing
    (after it); every cell owed is ranked above the staging cells. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of_above c _ (Nat.le_of_eq (lv_stage c _ (by fin_cases w <;> fin_cases s <;> decide) ())) (above_O₀ c)
    · exact mayWait_of_above c _ (Nat.le_of_eq (lv_stage c _ (by fin_cases w <;> fin_cases s <;> decide) ())) (Above.zero 0)

/-! ## The run -/

def finalA (c : Dev nD) (w : Fin cfg0.W) : Buf (Elt F) ((cfg0.win w).arr.view.loc (c : Thread nD τ)) := (dats m ρ 0 c).arrAt w cfg0.N

/-- Every final state has each device's three arrays at the pipeline's final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly
    fair execution of the sixteen kernels — each handshaking with its peer on the barrier semaphore, copying its
    eight logit blocks to it and normalising over both halves — terminates, nothing faulting, with every device's
    arrays at the pipeline's final contents. -/
theorem run_main : θ_run defs (onTc (τ := τ) (main (F := F))) (Sched.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument arrays after the run hold what they held; the result array the flushed staged softmax. -/
theorem finalA_x (c : Dev nD) : finalA m ρ c (0 : Fin 3) = (Sched.s₀ m ρ).mem (win0_0.arr.view.loc (c : Thread nD τ)) :=
  (dats (F := F) m ρ 0 c).arrAt_in (0 : Fin 3) rfl _
theorem finalA_w (c : Dev nD) : finalA m ρ c (1 : Fin 3) = (Sched.s₀ m ρ).mem (win0_1.arr.view.loc (c : Thread nD τ)) :=
  (dats (F := F) m ρ 0 c).arrAt_in (1 : Fin 3) rfl _

end Cert.KernelIdeal.Launch

end
-- ==== Proof.FinalIdeal.lean ====
/-
  The arrays after the run, from the proof data.

  The grid has one point, and each window's one block is its whole array.  The result's window writes its block back at
  that point; what the body left in the staged result is outOf, and a whole array read through the rectangle at zero
  offsets of the array's own sizes is the array.  The one write-back covers every element, so after the run the result
  array holds outOf.  An input window's array is never written back: it holds what it held at launch.
-/
import proofs.«900346_g7700000000000347_dist_arsfmx_v7x_xyz2x2x4_y_t256_d512_v4096_bf16_1_alg».proof.Proof.ProtoIdeal
import proofs.«900346_g7700000000000347_dist_arsfmx_v7x_xyz2x2x4_y_t256_d512_v4096_bf16_1_alg».proof.Proof.Gen.KernelIdeal.Launch
import proofs.«900346_g7700000000000347_dist_arsfmx_v7x_xyz2x2x4_y_t256_d512_v4096_bf16_1_alg».proof.Proof.Gen.KernelIdeal.Points
import Idealize.ShloMosaic.Lib.Pipeline.Value

noncomputable section

namespace Cert.KernelIdeal.Sched

open Cert.KernelIdeal Cert.KernelIdeal.Gen Cert.KernelIdeal.Mesh Cert.KernelIdeal.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the one write-back writes: the result's one block, read through zero offsets of the array's own sizes, is the array. -/
theorem flushed_out (c : Dev nD) (t : Fin cfg0.N) (hf : (cfg0.win 2).flush t = true) :
    (dats (F := F) m ρ 0 c).flushed 2 t = ((cfg0.win 2).blk t).view.read (Elt F) (outOf m c) := by
  obtain rfl : t = t0_0 := fin_N0 t
  show (cfg0.win 2).cut (grid0.coords t0_0) ((dats (F := F) m ρ 0 c).after 2 t0_0) = _
  have hz' : (fun a => win0_2.index t0_0 a * main_v1.ty.shape.size a) = fun _ => 0 := funext fun a => by fin_cases a <;> decide
  exact (Memref.read_access_unit_zero (Elt F) main_v1 hz' (fun a => by rw [congrFun hz' a]; simp) (outOf m c)).symm

/-- The result array after the run. -/
theorem arrAt_out (c : Dev nD) : (dats (F := F) m ρ 0 c).arrAt (2 : Fin 3) cfg0.N = outOf m c :=
  (dats (F := F) m ρ 0 c).arrAt_eq_of_cover 2 (outOf m c) (flushed_out m ρ c) fun i =>
    ⟨t0_0, flush0_2 t0_0, by
      show i ∈ ((View.whole main_v1).slice (win0_2.rect t0_0)).set
      rw [View.set_slice_whole, Rect.mem_set_unit]
      intro a
      have h0 : (i 0 : Nat) < 256 := (i 0).isLt
      have h1 : (i 1 : Nat) < 8192 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 256 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 8192 from by decide +kernel]; omega⟩

/-- The two input arrays after the run: as launched. -/
theorem arrAt_x (c : Dev nD) : (dats (F := F) m ρ 0 c).arrAt (0 : Fin 3) cfg0.N = (s₀ m ρ).mem (win0_0.arr.view.loc (c : Thread nD τ)) :=
  (dats (F := F) m ρ 0 c).arrAt_in 0 rfl _
theorem arrAt_w (c : Dev nD) : (dats (F := F) m ρ 0 c).arrAt (1 : Fin 3) cfg0.N = (s₀ m ρ).mem (win0_1.arr.view.loc (c : Thread nD τ)) :=
  (dats (F := F) m ρ 0 c).arrAt_in 1 rfl _

end Cert.KernelIdeal.Sched

end
-- ==== Proof.MeshBits.lean ====
/-
  The mesh and the pairing of devices.

  The sixteen devices form a 2 × 2 × 4 mesh; device `c` has coordinates `x = c / 8`, `y = (c / 4) % 2`, `z = c % 4`.
  Each device works with the one device that differs from it in the `y` coordinate only: its PEER,
  `8·x + 4·(1 - y) + z`.  Pairing is an involution without fixed points.  Every device id the kernel computes
  (one for its barrier signal, one for each of its eight remote copies) is the peer.
-/
import proofs.«900346_g7700000000000347_dist_arsfmx_v7x_xyz2x2x4_y_t256_d512_v4096_bf16_1_alg».proof.Proof.Gen.Kernel

namespace Cert.Kernel.Mesh

open Idealize.ShloMosaic Cert.Kernel Cert.Kernel.Gen

/-- The `y` coordinate of a device: which half of `W`'s columns it holds. -/
def yOf (c : Dev nD) : Nat := (c.val / 4) % 2

theorem yOf_lt (c : Dev nD) : yOf c < 2 := Nat.mod_lt _ (by decide)

/-- The device that differs from `c` in the `y` coordinate only. -/
def peer (c : Dev nD) : Dev nD :=
  ⟨(8 * (c.val / 8) + (c.val % 4) + 4) - 4 * ((c.val / 4) % 2), by have := c.isLt; simp only [nD] at this ⊢; omega⟩

theorem peer_peer (c : Dev nD) : peer (peer c) = c := by revert c; decide
theorem peer_ne (c : Dev nD) : peer c ≠ c := by revert c; decide
theorem yOf_peer (c : Dev nD) : yOf (peer c) = 1 - yOf c := by revert c; decide

/-- Pairing as a permutation of the devices. -/
def pairing : Dev nD ≃ Dev nD := ⟨peer, peer, peer_peer, peer_peer⟩

/-- Each device id the kernel computes is the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

end Cert.Kernel.Mesh
-- ==== Proof.DataBits.lean ====
/-
  What the buffers hold, as pure terms of the launched arrays — stated once, for any float instance.

  Device `c` stages its copy of `x` (256 × 512) and its half of `W`'s columns (512 × 4096).  It cuts the rows of `x`
  into eight chunks of 32.  For chunk `k` it computes the 32 × 4096 block of logits `x[32k .. 32k+32, :] · W_c`,
  narrowed to bf16, and keeps it in rows `32k ..` of slab 0 of a two-slab scratch buffer; the same block is copied to
  rows `32k ..` of slab 1 of its peer's scratch.  So at the end slab 0 of `c`'s scratch holds `c`'s own eight
  blocks and slab 1 the peer's eight.
  For chunk `k` the device then forms, from its own block `a` and the peer's block `b`, the two 32 × 4096 blocks it
  writes to the result: `exp a` and `exp b`, each scaled by the reciprocal of the row sums of both together.  The
  first goes to the column half the device's own `y` names, the second to the other half.
  Each of these values is a composition of the body's printed arithmetic (the generated payload terms), so the
  statements made here hold at the word-level instance and at the exact one alike.
-/
import proofs.«900346_g7700000000000347_dist_arsfmx_v7x_xyz2x2x4_y_t256_d512_v4096_bf16_1_alg».proof.Proof.Gen.Kernel.Skeleton
import proofs.«900346_g7700000000000347_dist_arsfmx_v7x_xyz2x2x4_y_t256_d512_v4096_bf16_1_alg».proof.Proof.MeshBits

noncomputable section

namespace Cert.Kernel.Data

open Idealize.ShloMosaic Idealize.ShloMosaic.TcCoe Idealize.SL.Sem
open Cert.Kernel Cert.Kernel.Gen Cert.Kernel.Mesh

variable {F : FTy → Type} [FloatOps F]
variable (m : (ℓ : Loc nD τ sig) → Buf (Elt F) ℓ)

/-- The staged arguments, the staged result and the scratch buffer, each as a whole-buffer memref. -/
abbrev xM : Memref sig .tc .vmem S256x512 .f32 := Memref.whole cc0_stg0_0
abbrev wM : Memref sig .tc .vmem S512x4096 .f32 := Memref.whole cc0_stg1_0
abbrev oM : Memref sig .tc .vmem S256x8192 .bf16 := Memref.whole cc0_stg2_0
abbrev cM : Memref sig .tc .vmem S2x256x4096 .bf16 := Memref.whole cc0_scratch0

/-- Device `c`'s staged copy of `x` and staged half of `W`: the whole-array blocks of the launched arguments. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The rectangle of rows `32k .. 32k+32` of `x`; of slab `s`, rows `32k ..`, of the scratch. -/
def xRect : Fin 8 → Rect S256x512
  | ⟨0, _⟩ => Rect.unit (s := S256x512) ![0, 0] S32x512.size inb_S256x512_S32x512_0_0
  | ⟨1, _⟩ => Rect.unit (s := S256x512) ![32, 0] S32x512.size inb_S256x512_S32x512_32_0
  | ⟨2, _⟩ => Rect.unit (s := S256x512) ![64, 0] S32x512.size inb_S256x512_S32x512_64_0
  | ⟨3, _⟩ => Rect.unit (s := S256x512) ![96, 0] S32x512.size inb_S256x512_S32x512_96_0
  | ⟨4, _⟩ => Rect.unit (s := S256x512) ![128, 0] S32x512.size inb_S256x512_S32x512_128_0
  | ⟨5, _⟩ => Rect.unit (s := S256x512) ![160, 0] S32x512.size inb_S256x512_S32x512_160_0
  | ⟨6, _⟩ => Rect.unit (s := S256x512) ![192, 0] S32x512.size inb_S256x512_S32x512_192_0
  | ⟨7, _⟩ => Rect.unit (s := S256x512) ![224, 0] S32x512.size inb_S256x512_S32x512_224_0
  | ⟨_ + 8, h⟩ => absurd h (Nat.not_lt.2 (Nat.le_add_left _ _))
def c0Rect : Fin 8 → Rect S2x256x4096
  | ⟨0, _⟩ => Rect.unit (s := S2x256x4096) ![0, 0, 0] S1x32x4096.size inb_S2x256x4096_S1x32x4096_0_0_0
  | ⟨1, _⟩ => Rect.unit (s := S2x256x4096) ![0, 32, 0] S1x32x4096.size inb_S2x256x4096_S1x32x4096_0_32_0
  | ⟨2, _⟩ => Rect.unit (s := S2x256x4096) ![0, 64, 0] S1x32x4096.size inb_S2x256x4096_S1x32x4096_0_64_0
  | ⟨3, _⟩ => Rect.unit (s := S2x256x4096) ![0, 96, 0] S1x32x4096.size inb_S2x256x4096_S1x32x4096_0_96_0
  | ⟨4, _⟩ => Rect.unit (s := S2x256x4096) ![0, 128, 0] S1x32x4096.size inb_S2x256x4096_S1x32x4096_0_128_0
  | ⟨5, _⟩ => Rect.unit (s := S2x256x4096) ![0, 160, 0] S1x32x4096.size inb_S2x256x4096_S1x32x4096_0_160_0
  | ⟨6, _⟩ => Rect.unit (s := S2x256x4096) ![0, 192, 0] S1x32x4096.size inb_S2x256x4096_S1x32x4096_0_192_0
  | ⟨7, _⟩ => Rect.unit (s := S2x256x4096) ![0, 224, 0] S1x32x4096.size inb_S2x256x4096_S1x32x4096_0_224_0
  | ⟨_ + 8, h⟩ => absurd h (Nat.not_lt.2 (Nat.le_add_left _ _))
def c1Rect : Fin 8 → Rect S2x256x4096
  | ⟨0, _⟩ => Rect.unit (s := S2x256x4096) ![1, 0, 0] S1x32x4096.size inb_S2x256x4096_S1x32x4096_1_0_0
  | ⟨1, _⟩ => Rect.unit (s := S2x256x4096) ![1, 32, 0] S1x32x4096.size inb_S2x256x4096_S1x32x4096_1_32_0
  | ⟨2, _⟩ => Rect.unit (s := S2x256x4096) ![1, 64, 0] S1x32x4096.size inb_S2x256x4096_S1x32x4096_1_64_0
  | ⟨3, _⟩ => Rect.unit (s := S2x256x4096) ![1, 96, 0] S1x32x4096.size inb_S2x256x4096_S1x32x4096_1_96_0
  | ⟨4, _⟩ => Rect.unit (s := S2x256x4096) ![1, 128, 0] S1x32x4096.size inb_S2x256x4096_S1x32x4096_1_128_0
  | ⟨5, _⟩ => Rect.unit (s := S2x256x4096) ![1, 160, 0] S1x32x4096.size inb_S2x256x4096_S1x32x4096_1_160_0
  | ⟨6, _⟩ => Rect.unit (s := S2x256x4096) ![1, 192, 0] S1x32x4096.size inb_S2x256x4096_S1x32x4096_1_192_0
  | ⟨7, _⟩ => Rect.unit (s := S2x256x4096) ![1, 224, 0] S1x32x4096.size inb_S2x256x4096_S1x32x4096_1_224_0
  | ⟨_ + 8, h⟩ => absurd h (Nat.not_lt.2 (Nat.le_add_left _ _))
abbrev wRect : Rect S512x4096 := Rect.unit (s := S512x4096) ![0, 0] S512x4096.size inb_S512x4096_S512x4096_0_0

/-- What the body's loads of chunk `k` of `x` and of the whole `W` half return on device `c`. -/
def xrows (c : Dev nD) : Fin 8 → Vec F S32x512 .f32
  | ⟨0, _⟩ => (xM).view.readAt (Elt F) (Rect.unit (s := S256x512) ![0, 0] S32x512.size inb_S256x512_S32x512_0_0).toLoadRect (xstg m c)
  | ⟨1, _⟩ => (xM).view.readAt (Elt F) (Rect.unit (s := S256x512) ![32, 0] S32x512.size inb_S256x512_S32x512_32_0).toLoadRect (xstg m c)
  | ⟨2, _⟩ => (xM).view.readAt (Elt F) (Rect.unit (s := S256x512) ![64, 0] S32x512.size inb_S256x512_S32x512_64_0).toLoadRect (xstg m c)
  | ⟨3, _⟩ => (xM).view.readAt (Elt F) (Rect.unit (s := S256x512) ![96, 0] S32x512.size inb_S256x512_S32x512_96_0).toLoadRect (xstg m c)
  | ⟨4, _⟩ => (xM).view.readAt (Elt F) (Rect.unit (s := S256x512) ![128, 0] S32x512.size inb_S256x512_S32x512_128_0).toLoadRect (xstg m c)
  | ⟨5, _⟩ => (xM).view.readAt (Elt F) (Rect.unit (s := S256x512) ![160, 0] S32x512.size inb_S256x512_S32x512_160_0).toLoadRect (xstg m c)
  | ⟨6, _⟩ => (xM).view.readAt (Elt F) (Rect.unit (s := S256x512) ![192, 0] S32x512.size inb_S256x512_S32x512_192_0).toLoadRect (xstg m c)
  | ⟨7, _⟩ => (xM).view.readAt (Elt F) (Rect.unit (s := S256x512) ![224, 0] S32x512.size inb_S256x512_S32x512_224_0).toLoadRect (xstg m c)
  | ⟨_ + 8, h⟩ => absurd h (Nat.not_lt.2 (Nat.le_add_left _ _))
def wload (c : Dev nD) : Vec F S512x4096 .f32 := (wM).view.readAt (Elt F) wRect.toLoadRect (wstg m c)

/-- Chunk `k` of device `c`'s logits, narrowed to bf16, as the body stores it (a 1 × 32 × 4096 block). -/
def lg (c : Dev nD) : Fin 8 → FVec F S1x32x4096 .bf16
  | ⟨0, _⟩ => k0_pay2 (xrows m c 0) (wload m c)
  | ⟨1, _⟩ => k0_pay3 (xrows m c 1) (wload m c)
  | ⟨2, _⟩ => k0_pay4 (xrows m c 2) (wload m c)
  | ⟨3, _⟩ => k0_pay6 (k0_pay5 (xrows m c 3) (wload m c))
  | ⟨4, _⟩ => k0_pay7 (xrows m c 4) (wload m c)
  | ⟨5, _⟩ => k0_pay8 (xrows m c 5) (wload m c)
  | ⟨6, _⟩ => k0_pay9 (xrows m c 6) (wload m c)
  | ⟨7, _⟩ => k0_pay11 (k0_pay10 (xrows m c 7) (wload m c))
  | ⟨_ + 8, h⟩ => absurd h (Nat.not_lt.2 (Nat.le_add_left _ _))

/-- The two blocks chunk `k` writes to the result, from the own block `a` and the peer's block `b` as loaded:
    `own` for the device's own column half, `oth` for the other. -/
def own : Fin 8 → Vec F S1x32x4096 .bf16 → Vec F S1x32x4096 .bf16 → FVec F S32x4096 .bf16
  | ⟨0, _⟩ => fun a b => k0_pay15 (k0_pay12 a) b
  | ⟨1, _⟩ => fun a b => k0_pay22 (k0_pay17 a) (k0_pay19 a) (k0_pay20 b)
  | ⟨2, _⟩ => fun a b => k0_pay27 (k0_pay24 a) b
  | ⟨3, _⟩ => fun a b => k0_pay32 (k0_pay29 a) b
  | ⟨4, _⟩ => fun a b => k0_pay37 (k0_pay34 a) b
  | ⟨5, _⟩ => fun a b => k0_pay42 (k0_pay39 a) b
  | ⟨6, _⟩ => fun a b => k0_pay47 (k0_pay44 a) (k0_pay45 b)
  | ⟨7, _⟩ => fun a b => k0_pay52 (k0_pay49 a) b
  | ⟨_ + 8, h⟩ => absurd h (Nat.not_lt.2 (Nat.le_add_left _ _))
def oth : Fin 8 → Vec F S1x32x4096 .bf16 → Vec F S1x32x4096 .bf16 → FVec F S32x4096 .bf16
  | ⟨0, _⟩ => fun a b => k0_pay16 (k0_pay12 a) b
  | ⟨1, _⟩ => fun a b => k0_pay23 (k0_pay18 b) (k0_pay19 a) (k0_pay20 b)
  | ⟨2, _⟩ => fun a b => k0_pay28 (k0_pay24 a) b
  | ⟨3, _⟩ => fun a b => k0_pay33 (k0_pay30 b) (k0_pay31 (k0_pay29 a) b)
  | ⟨4, _⟩ => fun a b => k0_pay38 (k0_pay34 a) b
  | ⟨5, _⟩ => fun a b => k0_pay43 (k0_pay39 a) b
  | ⟨6, _⟩ => fun a b => k0_pay48 (k0_pay44 a) (k0_pay45 b)
  | ⟨7, _⟩ => fun a b => k0_pay1 (k0_pay50 b) (k0_pay51 (k0_pay49 a) b)
  | ⟨_ + 8, h⟩ => absurd h (Nat.not_lt.2 (Nat.le_add_left _ _))

/-- The chunk a row of the 256 belongs to, and its place inside the chunk. -/
def chunkOf (r : Fin 256) : Fin 8 := ⟨r.val / 32, by omega⟩
def inChunk (r : Fin 256) : Fin 32 := ⟨r.val % 32, Nat.mod_lt _ (by decide)⟩

/-- Index `(0, q, j)` of a 1 × 32 × 4096 block; index `(q, j)` of a 32 × 4096 block. -/
def ix3 (q : Fin 32) (j : Fin 4096) : S1x32x4096.Idx := fun a => match a with
  | ⟨0, _⟩ => ⟨0, Nat.one_pos⟩ | ⟨1, _⟩ => ⟨q.val, q.isLt⟩ | ⟨2, _⟩ => ⟨j.val, j.isLt⟩
def ix2b (q : Fin 32) (j : Fin 4096) : S32x4096.Idx := fun a => match a with
  | ⟨0, _⟩ => ⟨q.val, q.isLt⟩ | ⟨1, _⟩ => ⟨j.val, j.isLt⟩

/-- The whole scratch buffer of device `c` once every copy has landed: slab 0 its own eight blocks, slab 1 its peer's. -/
def commOf (c : Dev nD) : (cc0_scratch0 : Ref sig .tc).ty.Contents (Elt F) := fun i =>
  let r : Fin 256 := ⟨(i 1).val, (i 1).isLt⟩
  let j : Fin 4096 := ⟨(i 2).val, (i 2).isLt⟩
  if (i 0).val = 0 then lg m c (chunkOf r) (ix3 (inChunk r) j) else lg m (peer c) (chunkOf r) (ix3 (inChunk r) j)

/-- What the second loop's loads of chunk `k` return once the copies have landed: the own block and the peer's. -/
def mine (c : Dev nD) : Fin 8 → Vec F S1x32x4096 .bf16
  | ⟨0, _⟩ => (cM).view.readAt (Elt F) (Rect.unit (s := S2x256x4096) ![0, 0, 0] S1x32x4096.size inb_S2x256x4096_S1x32x4096_0_0_0).toLoadRect (commOf m c)
  | ⟨1, _⟩ => (cM).view.readAt (Elt F) (Rect.unit (s := S2x256x4096) ![0, 32, 0] S1x32x4096.size inb_S2x256x4096_S1x32x4096_0_32_0).toLoadRect (commOf m c)
  | ⟨2, _⟩ => (cM).view.readAt (Elt F) (Rect.unit (s := S2x256x4096) ![0, 64, 0] S1x32x4096.size inb_S2x256x4096_S1x32x4096_0_64_0).toLoadRect (commOf m c)
  | ⟨3, _⟩ => (cM).view.readAt (Elt F) (Rect.unit (s := S2x256x4096) ![0, 96, 0] S1x32x4096.size inb_S2x256x4096_S1x32x4096_0_96_0).toLoadRect (commOf m c)
  | ⟨4, _⟩ => (cM).view.readAt (Elt F) (Rect.unit (s := S2x256x4096) ![0, 128, 0] S1x32x4096.size inb_S2x256x4096_S1x32x4096_0_128_0).toLoadRect (commOf m c)
  | ⟨5, _⟩ => (cM).view.readAt (Elt F) (Rect.unit (s := S2x256x4096) ![0, 160, 0] S1x32x4096.size inb_S2x256x4096_S1x32x4096_0_160_0).toLoadRect (commOf m c)
  | ⟨6, _⟩ => (cM).view.readAt (Elt F) (Rect.unit (s := S2x256x4096) ![0, 192, 0] S1x32x4096.size inb_S2x256x4096_S1x32x4096_0_192_0).toLoadRect (commOf m c)
  | ⟨7, _⟩ => (cM).view.readAt (Elt F) (Rect.unit (s := S2x256x4096) ![0, 224, 0] S1x32x4096.size inb_S2x256x4096_S1x32x4096_0_224_0).toLoadRect (commOf m c)
  | ⟨_ + 8, h⟩ => absurd h (Nat.not_lt.2 (Nat.le_add_left _ _))
def theirs (c : Dev nD) : Fin 8 → Vec F S1x32x4096 .bf16
  | ⟨0, _⟩ => (cM).view.readAt (Elt F) (Rect.unit (s := S2x256x4096) ![1, 0, 0] S1x32x4096.size inb_S2x256x4096_S1x32x4096_1_0_0).toLoadRect (commOf m c)
  | ⟨1, _⟩ => (cM).view.readAt (Elt F) (Rect.unit (s := S2x256x4096) ![1, 32, 0] S1x32x4096.size inb_S2x256x4096_S1x32x4096_1_32_0).toLoadRect (commOf m c)
  | ⟨2, _⟩ => (cM).view.readAt (Elt F) (Rect.unit (s := S2x256x4096) ![1, 64, 0] S1x32x4096.size inb_S2x256x4096_S1x32x4096_1_64_0).toLoadRect (commOf m c)
  | ⟨3, _⟩ => (cM).view.readAt (Elt F) (Rect.unit (s := S2x256x4096) ![1, 96, 0] S1x32x4096.size inb_S2x256x4096_S1x32x4096_1_96_0).toLoadRect (commOf m c)
  | ⟨4, _⟩ => (cM).view.readAt (Elt F) (Rect.unit (s := S2x256x4096) ![1, 128, 0] S1x32x4096.size inb_S2x256x4096_S1x32x4096_1_128_0).toLoadRect (commOf m c)
  | ⟨5, _⟩ => (cM).view.readAt (Elt F) (Rect.unit (s := S2x256x4096) ![1, 160, 0] S1x32x4096.size inb_S2x256x4096_S1x32x4096_1_160_0).toLoadRect (commOf m c)
  | ⟨6, _⟩ => (cM).view.readAt (Elt F) (Rect.unit (s := S2x256x4096) ![1, 192, 0] S1x32x4096.size inb_S2x256x4096_S1x32x4096_1_192_0).toLoadRect (commOf m c)
  | ⟨7, _⟩ => (cM).view.readAt (Elt F) (Rect.unit (s := S2x256x4096) ![1, 224, 0] S1x32x4096.size inb_S2x256x4096_S1x32x4096_1_224_0).toLoadRect (commOf m c)
  | ⟨_ + 8, h⟩ => absurd h (Nat.not_lt.2 (Nat.le_add_left _ _))

/-- The whole staged result of device `c` after the body: row `r`, column `j` comes from chunk `r / 32`; the
    column half `j / 4096` equal to the device's `y` takes the own block, the other half the peer's. -/
def outOf (c : Dev nD) : (cc0_stg2_0 : Ref sig .tc).ty.Contents (Elt F) := fun i =>
  let r : Fin 256 := ⟨(i 0).val, (i 0).isLt⟩
  let jj : Fin 4096 := ⟨(i 1).val % 4096, Nat.mod_lt _ (by decide)⟩
  if (i 1).val / 4096 = yOf c then own (chunkOf r) (mine m c (chunkOf r)) (theirs m c (chunkOf r)) (ix2b (inChunk r) jj)
  else oth (chunkOf r) (mine m c (chunkOf r)) (theirs m c (chunkOf r)) (ix2b (inChunk r) jj)

end Cert.Kernel.Data

end
-- ==== Proof.SchedBits.lean ====
/-
  The protocol between a device and its peer, as cells, duties and payloads.

  Each device has seventeen cells.  Its BARRIER cell (the runtime's barrier semaphore) has one duty: the peer's
  entry signal, one unit, which hands the device the peer's slab 1 of the scratch buffer — the eight row blocks the
  device's copies will land in — together with the knowledge that the peer's eight receive cells are at their first
  round.  Send cell `k` has one duty, paid on the device itself when its copy `k` has read its source: it returns the
  share of rows `32k ..` of slab 0 lent to the copy.  Receive cell `k` has one duty, paid by the PEER's copy `k` when
  it has written rows `32k ..` of the device's slab 1: it hands over those rows holding the peer's block `k`.
  A device owes, at launch, one unit to its peer's barrier cell and the eight copies' credit to its peer's receive
  cells; barrier cells sit below receive cells in the order of waiting, so a device that waits on its barrier while
  still owing its copies cannot be part of a cycle.
-/
import proofs.«900346_g7700000000000347_dist_arsfmx_v7x_xyz2x2x4_y_t256_d512_v4096_bf16_1_alg».proof.Proof.DataBits
import Idealize.ShloMosaic.Lib.Pipeline.Launch
import Idealize.ShloMosaic.Lib.Pipeline.Kit
import Idealize.ShloMosaic.Lib.Tactic

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the staging pipeline's and the pairing protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Semaphores, cells and the row blocks of the scratch buffer -/

/-- The runtime's barrier semaphore; the send and the receive semaphore of chunk `k`. -/
abbrev barS : Sem sig := (SemArray.scalar (sig.barrier 0 rfl) : Sems sig S_).sem
def sendS : Fin 8 → DmaSem sig
  | ⟨0, _⟩ => ((cc0_scratch1.slice (Rect.unit (s := S8) ![0] S1.size inb_S8_S1_0)).squeeze S_ squeezes_S1_S_).sem
  | ⟨1, _⟩ => ((cc0_scratch1.slice (Rect.unit (s := S8) ![1] S1.size inb_S8_S1_1)).squeeze S_ squeezes_S1_S_).sem
  | ⟨2, _⟩ => ((cc0_scratch1.slice (Rect.unit (s := S8) ![2] S1.size inb_S8_S1_2)).squeeze S_ squeezes_S1_S_).sem
  | ⟨3, _⟩ => ((cc0_scratch1.slice (Rect.unit (s := S8) ![3] S1.size inb_S8_S1_3)).squeeze S_ squeezes_S1_S_).sem
  | ⟨4, _⟩ => ((cc0_scratch1.slice (Rect.unit (s := S8) ![4] S1.size inb_S8_S1_4)).squeeze S_ squeezes_S1_S_).sem
  | ⟨5, _⟩ => ((cc0_scratch1.slice (Rect.unit (s := S8) ![5] S1.size inb_S8_S1_5)).squeeze S_ squeezes_S1_S_).sem
  | ⟨6, _⟩ => ((cc0_scratch1.slice (Rect.unit (s := S8) ![6] S1.size inb_S8_S1_6)).squeeze S_ squeezes_S1_S_).sem
  | ⟨7, _⟩ => ((cc0_scratch1.slice (Rect.unit (s := S8) ![7] S1.size inb_S8_S1_7)).squeeze S_ squeezes_S1_S_).sem
  | ⟨_ + 8, h⟩ => absurd h (Nat.not_lt.2 (Nat.le_add_left _ _))
def recvS : Fin 8 → DmaSem sig
  | ⟨0, _⟩ => ((cc0_scratch2.slice (Rect.unit (s := S8) ![0] S1.size inb_S8_S1_0)).squeeze S_ squeezes_S1_S_).sem
  | ⟨1, _⟩ => ((cc0_scratch2.slice (Rect.unit (s := S8) ![1] S1.size inb_S8_S1_1)).squeeze S_ squeezes_S1_S_).sem
  | ⟨2, _⟩ => ((cc0_scratch2.slice (Rect.unit (s := S8) ![2] S1.size inb_S8_S1_2)).squeeze S_ squeezes_S1_S_).sem
  | ⟨3, _⟩ => ((cc0_scratch2.slice (Rect.unit (s := S8) ![3] S1.size inb_S8_S1_3)).squeeze S_ squeezes_S1_S_).sem
  | ⟨4, _⟩ => ((cc0_scratch2.slice (Rect.unit (s := S8) ![4] S1.size inb_S8_S1_4)).squeeze S_ squeezes_S1_S_).sem
  | ⟨5, _⟩ => ((cc0_scratch2.slice (Rect.unit (s := S8) ![5] S1.size inb_S8_S1_5)).squeeze S_ squeezes_S1_S_).sem
  | ⟨6, _⟩ => ((cc0_scratch2.slice (Rect.unit (s := S8) ![6] S1.size inb_S8_S1_6)).squeeze S_ squeezes_S1_S_).sem
  | ⟨7, _⟩ => ((cc0_scratch2.slice (Rect.unit (s := S8) ![7] S1.size inb_S8_S1_7)).squeeze S_ squeezes_S1_S_).sem
  | ⟨_ + 8, h⟩ => absurd h (Nat.not_lt.2 (Nat.le_add_left _ _))

theorem sendS_val (k : Fin 8) : (sendS k).val = 3 + k.val := by revert k; decide
theorem recvS_val (k : Fin 8) : (recvS k).val = 11 + k.val := by revert k; decide

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- Rows `32k ..` of slab 0 (a copy's source) and of slab 1 (a copy's destination), as 32 × 4096 memrefs. -/
def srcM : Fin 8 → Memref sig .tc .vmem S32x4096 .bf16
  | ⟨0, _⟩ => ((cM).slice (Rect.unit (s := S2x256x4096) ![0, 0, 0] S1x32x4096.size inb_S2x256x4096_S1x32x4096_0_0_0) (fun _ => rfl)).squeeze S32x4096 squeezes_S1x32x4096_S32x4096
  | ⟨1, _⟩ => ((cM).slice (Rect.unit (s := S2x256x4096) ![0, 32, 0] S1x32x4096.size inb_S2x256x4096_S1x32x4096_0_32_0) (fun _ => rfl)).squeeze S32x4096 squeezes_S1x32x4096_S32x4096
  | ⟨2, _⟩ => ((cM).slice (Rect.unit (s := S2x256x4096) ![0, 64, 0] S1x32x4096.size inb_S2x256x4096_S1x32x4096_0_64_0) (fun _ => rfl)).squeeze S32x4096 squeezes_S1x32x4096_S32x4096
  | ⟨3, _⟩ => ((cM).slice (Rect.unit (s := S2x256x4096) ![0, 96, 0] S1x32x4096.size inb_S2x256x4096_S1x32x4096_0_96_0) (fun _ => rfl)).squeeze S32x4096 squeezes_S1x32x4096_S32x4096
  | ⟨4, _⟩ => ((cM).slice (Rect.unit (s := S2x256x4096) ![0, 128, 0] S1x32x4096.size inb_S2x256x4096_S1x32x4096_0_128_0) (fun _ => rfl)).squeeze S32x4096 squeezes_S1x32x4096_S32x4096
  | ⟨5, _⟩ => ((cM).slice (Rect.unit (s := S2x256x4096) ![0, 160, 0] S1x32x4096.size inb_S2x256x4096_S1x32x4096_0_160_0) (fun _ => rfl)).squeeze S32x4096 squeezes_S1x32x4096_S32x4096
  | ⟨6, _⟩ => ((cM).slice (Rect.unit (s := S2x256x4096) ![0, 192, 0] S1x32x4096.size inb_S2x256x4096_S1x32x4096_0_192_0) (fun _ => rfl)).squeeze S32x4096 squeezes_S1x32x4096_S32x4096
  | ⟨7, _⟩ => ((cM).slice (Rect.unit (s := S2x256x4096) ![0, 224, 0] S1x32x4096.size inb_S2x256x4096_S1x32x4096_0_224_0) (fun _ => rfl)).squeeze S32x4096 squeezes_S1x32x4096_S32x4096
  | ⟨_ + 8, h⟩ => absurd h (Nat.not_lt.2 (Nat.le_add_left _ _))
def dstM : Fin 8 → Memref sig .tc .vmem S32x4096 .bf16
  | ⟨0, _⟩ => ((cM).slice (Rect.unit (s := S2x256x4096) ![1, 0, 0] S1x32x4096.size inb_S2x256x4096_S1x32x4096_1_0_0) (fun _ => rfl)).squeeze S32x4096 squeezes_S1x32x4096_S32x4096
  | ⟨1, _⟩ => ((cM).slice (Rect.unit (s := S2x256x4096) ![1, 32, 0] S1x32x4096.size inb_S2x256x4096_S1x32x4096_1_32_0) (fun _ => rfl)).squeeze S32x4096 squeezes_S1x32x4096_S32x4096
  | ⟨2, _⟩ => ((cM).slice (Rect.unit (s := S2x256x4096) ![1, 64, 0] S1x32x4096.size inb_S2x256x4096_S1x32x4096_1_64_0) (fun _ => rfl)).squeeze S32x4096 squeezes_S1x32x4096_S32x4096
  | ⟨3, _⟩ => ((cM).slice (Rect.unit (s := S2x256x4096) ![1, 96, 0] S1x32x4096.size inb_S2x256x4096_S1x32x4096_1_96_0) (fun _ => rfl)).squeeze S32x4096 squeezes_S1x32x4096_S32x4096
  | ⟨4, _⟩ => ((cM).slice (Rect.unit (s := S2x256x4096) ![1, 128, 0] S1x32x4096.size inb_S2x256x4096_S1x32x4096_1_128_0) (fun _ => rfl)).squeeze S32x4096 squeezes_S1x32x4096_S32x4096
  | ⟨5, _⟩ => ((cM).slice (Rect.unit (s := S2x256x4096) ![1, 160, 0] S1x32x4096.size inb_S2x256x4096_S1x32x4096_1_160_0) (fun _ => rfl)).squeeze S32x4096 squeezes_S1x32x4096_S32x4096
  | ⟨6, _⟩ => ((cM).slice (Rect.unit (s := S2x256x4096) ![1, 192, 0] S1x32x4096.size inb_S2x256x4096_S1x32x4096_1_192_0) (fun _ => rfl)).squeeze S32x4096 squeezes_S1x32x4096_S32x4096
  | ⟨7, _⟩ => ((cM).slice (Rect.unit (s := S2x256x4096) ![1, 224, 0] S1x32x4096.size inb_S2x256x4096_S1x32x4096_1_224_0) (fun _ => rfl)).squeeze S32x4096 squeezes_S1x32x4096_S32x4096
  | ⟨_ + 8, h⟩ => absurd h (Nat.not_lt.2 (Nat.le_add_left _ _))

/-- The credit one copy pays on each of its two cells: the same for every chunk. -/
abbrev N : ℕ := (dstM 0).view.dmaCredit
theorem N_pos : 0 < N := View.dmaCredit_pos _ (by decide)
theorem dst_credit (k : Fin 8) : (dstM k).view.dmaCredit = N := by revert k; decide

/-! ## What the cells hand over -/

/-- Rows `32k ..` of slab 1 of device `c`'s scratch, at some contents `f`, owned outright: what a copy into them needs. -/
def dstPts (c : Dev nD) : Fin 8 → (cc0_scratch0 : Ref sig .tc).ty.Contents (Elt F) → sProp 𝕄
  | ⟨0, _⟩ => fun f => ((((cM).slice (Rect.unit (s := S2x256x4096) ![1, 0, 0] S1x32x4096.size inb_S2x256x4096_S1x32x4096_1_0_0) (fun _ => rfl)).squeeze S32x4096 squeezes_S1x32x4096_S32x4096).view.loc (c : Thread nD τ) ↦[(((cM).slice (Rect.unit (s := S2x256x4096) ![1, 0, 0] S1x32x4096.size inb_S2x256x4096_S1x32x4096_1_0_0) (fun _ => rfl)).squeeze S32x4096 squeezes_S1x32x4096_S32x4096).view.set]{fullShare} f : sProp 𝕄)
  | ⟨1, _⟩ => fun f => ((((cM).slice (Rect.unit (s := S2x256x4096) ![1, 32, 0] S1x32x4096.size inb_S2x256x4096_S1x32x4096_1_32_0) (fun _ => rfl)).squeeze S32x4096 squeezes_S1x32x4096_S32x4096).view.loc (c : Thread nD τ) ↦[(((cM).slice (Rect.unit (s := S2x256x4096) ![1, 32, 0] S1x32x4096.size inb_S2x256x4096_S1x32x4096_1_32_0) (fun _ => rfl)).squeeze S32x4096 squeezes_S1x32x4096_S32x4096).view.set]{fullShare} f : sProp 𝕄)
  | ⟨2, _⟩ => fun f => ((((cM).slice (Rect.unit (s := S2x256x4096) ![1, 64, 0] S1x32x4096.size inb_S2x256x4096_S1x32x4096_1_64_0) (fun _ => rfl)).squeeze S32x4096 squeezes_S1x32x4096_S32x4096).view.loc (c : Thread nD τ) ↦[(((cM).slice (Rect.unit (s := S2x256x4096) ![1, 64, 0] S1x32x4096.size inb_S2x256x4096_S1x32x4096_1_64_0) (fun _ => rfl)).squeeze S32x4096 squeezes_S1x32x4096_S32x4096).view.set]{fullShare} f : sProp 𝕄)
  | ⟨3, _⟩ => fun f => ((((cM).slice (Rect.unit (s := S2x256x4096) ![1, 96, 0] S1x32x4096.size inb_S2x256x4096_S1x32x4096_1_96_0) (fun _ => rfl)).squeeze S32x4096 squeezes_S1x32x4096_S32x4096).view.loc (c : Thread nD τ) ↦[(((cM).slice (Rect.unit (s := S2x256x4096) ![1, 96, 0] S1x32x4096.size inb_S2x256x4096_S1x32x4096_1_96_0) (fun _ => rfl)).squeeze S32x4096 squeezes_S1x32x4096_S32x4096).view.set]{fullShare} f : sProp 𝕄)
  | ⟨4, _⟩ => fun f => ((((cM).slice (Rect.unit (s := S2x256x4096) ![1, 128, 0] S1x32x4096.size inb_S2x256x4096_S1x32x4096_1_128_0) (fun _ => rfl)).squeeze S32x4096 squeezes_S1x32x4096_S32x4096).view.loc (c : Thread nD τ) ↦[(((cM).slice (Rect.unit (s := S2x256x4096) ![1, 128, 0] S1x32x4096.size inb_S2x256x4096_S1x32x4096_1_128_0) (fun _ => rfl)).squeeze S32x4096 squeezes_S1x32x4096_S32x4096).view.set]{fullShare} f : sProp 𝕄)
  | ⟨5, _⟩ => fun f => ((((cM).slice (Rect.unit (s := S2x256x4096) ![1, 160, 0] S1x32x4096.size inb_S2x256x4096_S1x32x4096_1_160_0) (fun _ => rfl)).squeeze S32x4096 squeezes_S1x32x4096_S32x4096).view.loc (c : Thread nD τ) ↦[(((cM).slice (Rect.unit (s := S2x256x4096) ![1, 160, 0] S1x32x4096.size inb_S2x256x4096_S1x32x4096_1_160_0) (fun _ => rfl)).squeeze S32x4096 squeezes_S1x32x4096_S32x4096).view.set]{fullShare} f : sProp 𝕄)
  | ⟨6, _⟩ => fun f => ((((cM).slice (Rect.unit (s := S2x256x4096) ![1, 192, 0] S1x32x4096.size inb_S2x256x4096_S1x32x4096_1_192_0) (fun _ => rfl)).squeeze S32x4096 squeezes_S1x32x4096_S32x4096).view.loc (c : Thread nD τ) ↦[(((cM).slice (Rect.unit (s := S2x256x4096) ![1, 192, 0] S1x32x4096.size inb_S2x256x4096_S1x32x4096_1_192_0) (fun _ => rfl)).squeeze S32x4096 squeezes_S1x32x4096_S32x4096).view.set]{fullShare} f : sProp 𝕄)
  | ⟨7, _⟩ => fun f => ((((cM).slice (Rect.unit (s := S2x256x4096) ![1, 224, 0] S1x32x4096.size inb_S2x256x4096_S1x32x4096_1_224_0) (fun _ => rfl)).squeeze S32x4096 squeezes_S1x32x4096_S32x4096).view.loc (c : Thread nD τ) ↦[(((cM).slice (Rect.unit (s := S2x256x4096) ![1, 224, 0] S1x32x4096.size inb_S2x256x4096_S1x32x4096_1_224_0) (fun _ => rfl)).squeeze S32x4096 squeezes_S1x32x4096_S32x4096).view.set]{fullShare} f : sProp 𝕄)
  | ⟨_ + 8, h⟩ => absurd h (Nat.not_lt.2 (Nat.le_add_left _ _))
/-- Rows `32k ..` of slab 0 of device `c`'s scratch holding its own block `k`, at the share `q`. -/
def srcPts (c : Dev nD) : Fin 8 → PosShare TreeShare → sProp 𝕄
  | ⟨0, _⟩ => fun q => ((((cM).slice (Rect.unit (s := S2x256x4096) ![0, 0, 0] S1x32x4096.size inb_S2x256x4096_S1x32x4096_0_0_0) (fun _ => rfl)).squeeze S32x4096 squeezes_S1x32x4096_S32x4096).view.loc (c : Thread nD τ) ↦[(((cM).slice (Rect.unit (s := S2x256x4096) ![0, 0, 0] S1x32x4096.size inb_S2x256x4096_S1x32x4096_0_0_0) (fun _ => rfl)).squeeze S32x4096 squeezes_S1x32x4096_S32x4096).view.set]{q} commOf m c : sProp 𝕄)
  | ⟨1, _⟩ => fun q => ((((cM).slice (Rect.unit (s := S2x256x4096) ![0, 32, 0] S1x32x4096.size inb_S2x256x4096_S1x32x4096_0_32_0) (fun _ => rfl)).squeeze S32x4096 squeezes_S1x32x4096_S32x4096).view.loc (c : Thread nD τ) ↦[(((cM).slice (Rect.unit (s := S2x256x4096) ![0, 32, 0] S1x32x4096.size inb_S2x256x4096_S1x32x4096_0_32_0) (fun _ => rfl)).squeeze S32x4096 squeezes_S1x32x4096_S32x4096).view.set]{q} commOf m c : sProp 𝕄)
  | ⟨2, _⟩ => fun q => ((((cM).slice (Rect.unit (s := S2x256x4096) ![0, 64, 0] S1x32x4096.size inb_S2x256x4096_S1x32x4096_0_64_0) (fun _ => rfl)).squeeze S32x4096 squeezes_S1x32x4096_S32x4096).view.loc (c : Thread nD τ) ↦[(((cM).slice (Rect.unit (s := S2x256x4096) ![0, 64, 0] S1x32x4096.size inb_S2x256x4096_S1x32x4096_0_64_0) (fun _ => rfl)).squeeze S32x4096 squeezes_S1x32x4096_S32x4096).view.set]{q} commOf m c : sProp 𝕄)
  | ⟨3, _⟩ => fun q => ((((cM).slice (Rect.unit (s := S2x256x4096) ![0, 96, 0] S1x32x4096.size inb_S2x256x4096_S1x32x4096_0_96_0) (fun _ => rfl)).squeeze S32x4096 squeezes_S1x32x4096_S32x4096).view.loc (c : Thread nD τ) ↦[(((cM).slice (Rect.unit (s := S2x256x4096) ![0, 96, 0] S1x32x4096.size inb_S2x256x4096_S1x32x4096_0_96_0) (fun _ => rfl)).squeeze S32x4096 squeezes_S1x32x4096_S32x4096).view.set]{q} commOf m c : sProp 𝕄)
  | ⟨4, _⟩ => fun q => ((((cM).slice (Rect.unit (s := S2x256x4096) ![0, 128, 0] S1x32x4096.size inb_S2x256x4096_S1x32x4096_0_128_0) (fun _ => rfl)).squeeze S32x4096 squeezes_S1x32x4096_S32x4096).view.loc (c : Thread nD τ) ↦[(((cM).slice (Rect.unit (s := S2x256x4096) ![0, 128, 0] S1x32x4096.size inb_S2x256x4096_S1x32x4096_0_128_0) (fun _ => rfl)).squeeze S32x4096 squeezes_S1x32x4096_S32x4096).view.set]{q} commOf m c : sProp 𝕄)
  | ⟨5, _⟩ => fun q => ((((cM).slice (Rect.unit (s := S2x256x4096) ![0, 160, 0] S1x32x4096.size inb_S2x256x4096_S1x32x4096_0_160_0) (fun _ => rfl)).squeeze S32x4096 squeezes_S1x32x4096_S32x4096).view.loc (c : Thread nD τ) ↦[(((cM).slice (Rect.unit (s := S2x256x4096) ![0, 160, 0] S1x32x4096.size inb_S2x256x4096_S1x32x4096_0_160_0) (fun _ => rfl)).squeeze S32x4096 squeezes_S1x32x4096_S32x4096).view.set]{q} commOf m c : sProp 𝕄)
  | ⟨6, _⟩ => fun q => ((((cM).slice (Rect.unit (s := S2x256x4096) ![0, 192, 0] S1x32x4096.size inb_S2x256x4096_S1x32x4096_0_192_0) (fun _ => rfl)).squeeze S32x4096 squeezes_S1x32x4096_S32x4096).view.loc (c : Thread nD τ) ↦[(((cM).slice (Rect.unit (s := S2x256x4096) ![0, 192, 0] S1x32x4096.size inb_S2x256x4096_S1x32x4096_0_192_0) (fun _ => rfl)).squeeze S32x4096 squeezes_S1x32x4096_S32x4096).view.set]{q} commOf m c : sProp 𝕄)
  | ⟨7, _⟩ => fun q => ((((cM).slice (Rect.unit (s := S2x256x4096) ![0, 224, 0] S1x32x4096.size inb_S2x256x4096_S1x32x4096_0_224_0) (fun _ => rfl)).squeeze S32x4096 squeezes_S1x32x4096_S32x4096).view.loc (c : Thread nD τ) ↦[(((cM).slice (Rect.unit (s := S2x256x4096) ![0, 224, 0] S1x32x4096.size inb_S2x256x4096_S1x32x4096_0_224_0) (fun _ => rfl)).squeeze S32x4096 squeezes_S1x32x4096_S32x4096).view.set]{q} commOf m c : sProp 𝕄)
  | ⟨_ + 8, h⟩ => absurd h (Nat.not_lt.2 (Nat.le_add_left _ _))

/-- The peer's entry signal hands device `c` the peer's eight destination row blocks, at whatever they hold, and that
    each of the peer's receive cells is at its first round. -/
def barPay (c : Dev nD) : sProp 𝕄 :=
  iprop((∃ f, dstPts (F := F) (peer c) 0 f) ∗ reached ER (recvCell (peer c) 0) 0
    ∗ (∃ f, dstPts (F := F) (peer c) 1 f) ∗ reached ER (recvCell (peer c) 1) 0
    ∗ (∃ f, dstPts (F := F) (peer c) 2 f) ∗ reached ER (recvCell (peer c) 2) 0
    ∗ (∃ f, dstPts (F := F) (peer c) 3 f) ∗ reached ER (recvCell (peer c) 3) 0
    ∗ (∃ f, dstPts (F := F) (peer c) 4 f) ∗ reached ER (recvCell (peer c) 4) 0
    ∗ (∃ f, dstPts (F := F) (peer c) 5 f) ∗ reached ER (recvCell (peer c) 5) 0
    ∗ (∃ f, dstPts (F := F) (peer c) 6 f) ∗ reached ER (recvCell (peer c) 6) 0
    ∗ (∃ f, dstPts (F := F) (peer c) 7 f) ∗ reached ER (recvCell (peer c) 7) 0)
/-- Copy `k` having read its source returns the half share of the source rows it was lent. -/
def sendPay (c : Dev nD) (k : Fin 8) : sProp 𝕄 := srcPts m c k fullShare.left
/-- The peer's copy `k` having landed hands device `c` rows `32k ..` of its slab 1 holding the peer's block `k`. -/
def recvPay (c : Dev nD) (k : Fin 8) : sProp 𝕄 := dstPts c k (commOf m c)

/-- Which chunk a send or receive semaphore belongs to (its position in its array of eight). -/
def chunkS (s : DmaSem sig) : Fin 8 := ⟨(s.val + 5) % 8, Nat.mod_lt _ (by decide)⟩
theorem chunkS_send (k : Fin 8) : chunkS (sendS k) = k := by revert k; decide
theorem chunkS_recv (k : Fin 8) : chunkS (recvS k) = k := by revert k; decide

/-- One round: a barrier cell has one duty of one unit; a send or a receive cell one duty of a copy's credit. The
    staging semaphores (values below 3) are not the protocol's. -/
def pairRd : Rounds.Schedule (GSem nD τ sig) Unit 𝕄 where
  duties g r := if r = 0 ∧ g.1.2 = .tc then (match g.2 with | .reg _ => {()} | .dma s => if 3 ≤ s.val then {()} else ∅) else ∅
  amount g _ _ := match g.2 with | .reg _ => 1 | .dma _ => N
  payload g _ _ := match g.2 with
    | .reg _ => barPay g.1.1
    | .dma s => if s.val < 3 then iprop(emp) else if s.val < 11 then sendPay m g.1.1 (chunkS s) else recvPay m g.1.1 (chunkS s)
  amount_pos g _ _ _ := by
    cases hg : g.2 with
    | reg _ => simp only [hg]; exact Nat.one_pos
    | dma _ => simp only [hg]; exact N_pos

end Cert.Kernel.Sched

end
-- ==== Proof.LevelsBits.lean ====
/-
  What a device owes at launch, and the order in which cells may be waited on.

  Device `c` owes its peer nine things: the credit of each of its eight copies, on the peer's eight receive cells, and
  one unit on the peer's barrier cell.  Cells are ranked: a staging or a send cell at 0, a barrier cell at 1, a receive
  cell at 2.  A device may wait on a cell only while everything it still owes is ranked strictly higher.  It waits on
  its staging cells owing everything (all ranked at least 1); on its barrier cell owing only the eight copies (ranked
  2); on its send and receive cells owing nothing.  A cycle of devices each waiting for the next would need ranks that
  increase around the cycle, so there is none.
-/
import proofs.«900346_g7700000000000347_dist_arsfmx_v7x_xyz2x2x4_y_t256_d512_v4096_bf16_1_alg».proof.Proof.SchedBits

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The eight copies' credit, owed to the peer's receive cells — summed with the first chunk's last, since the copies are paid in the order of the chunks and each payment takes the last summand off —; with the peer's barrier unit, everything owed at launch. -/
def Orecv (c : Dev nD) : CellTallies nD τ sig Unit := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N
def O₀ (c : Dev nD) : CellTallies nD τ sig Unit := Orecv c + tallyAt (barCell (peer c)) () 1

/-- Every TensorCore cell is ranked (at the one index); a barrier cell at 1, a receive cell at 2, the others at 0. -/
def L (g : GSem nD τ sig) : Finset Unit := if g.1.2 = .tc then {()} else ∅
def lv (g : GSem nD τ sig) (_ : Unit) : ℕ := match g.2 with | .reg _ => 1 | .dma s => if 11 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 8) (u : Unit) : lv (recvCell c k) u = 2 := by
  show (if 11 ≤ (recvS k).val then 2 else 0) = 2
  rw [recvS_val, if_pos (by omega)]
theorem lv_send (c : Dev nD) (k : Fin 8) (u : Unit) : lv (sendCell c k) u = 0 := by
  show (if 11 ≤ (sendS k).val then 2 else 0) = 0
  rw [sendS_val, if_neg (by have := k.isLt; omega)]
theorem lv_stage (c : Dev nD) (q : DmaSem sig) (hq : q.val < 3) (u : Unit) : lv ((c : Thread nD τ), .dma q) u = 0 := by
  show (if 11 ≤ q.val then 2 else 0) = 0
  rw [if_neg (by omega)]

/-- Everything `O` owes is ranked, strictly above `b`. -/
def Above (b : ℕ) (O : CellTallies nD τ sig Unit) : Prop := ∀ (g : GSem nD τ sig) (i : Unit), 0 < O g i → i ∈ L g ∧ b < lv g i

theorem Above.zero (b : ℕ) : Above b 0 := fun g i h => absurd h (Nat.lt_irrefl 0)
theorem Above.add {b : ℕ} {O₁ O₂ : CellTallies nD τ sig Unit} (h₁ : Above b O₁) (h₂ : Above b O₂) : Above b (O₁ + O₂) :=
  fun g i h => (Pipeline.add_pos_cases h).elim (h₁ g i) (h₂ g i)
theorem Above.mono {b b' : ℕ} {O : CellTallies nD τ sig Unit} (hb : b' ≤ b) (h : Above b O) : Above b' O :=
  fun g i hg => ⟨(h g i hg).1, Nat.lt_of_le_of_lt hb (h g i hg).2⟩
theorem Above.tally {b : ℕ} (g₀ : GSem nD τ sig) (n : ℕ) (hL : () ∈ L g₀) (hb : b < lv g₀ ()) : Above b (tallyAt g₀ () n) := fun g i h => by
  rw [tallyAt_apply] at h
  by_cases hh : g = g₀ ∧ i = ()
  · rw [hh.1]; exact ⟨hL, hb⟩
  · rw [if_neg hh] at h; exact absurd h (Nat.lt_irrefl 0)

theorem above_recv (c : Dev nD) (k : Fin 8) : Above 1 (tallyAt (recvCell c k) () N) :=
  Above.tally _ _ (by rw [L_tc]; exact Finset.mem_singleton_self _) (by rw [lv_recv]; decide)
theorem above_bar (c : Dev nD) : Above 0 (tallyAt (barCell c) () 1) :=
  Above.tally _ _ (by rw [L_tc]; exact Finset.mem_singleton_self _) (by rw [lv_bar]; decide)
theorem above_Orecv (c : Dev nD) : Above 1 (Orecv c) := by
  unfold Orecv
  exact ((((((((above_recv (peer c) 7).add (above_recv (peer c) 6)).add (above_recv (peer c) 5)).add (above_recv (peer c) 4)).add (above_recv (peer c) 3)).add (above_recv (peer c) 2)).add (above_recv (peer c) 1)).add (above_recv (peer c) 0))
theorem above_O₀ (c : Dev nD) : Above 0 (O₀ c) := ((above_Orecv c).mono (Nat.zero_le _)).add (above_bar (peer c))

/-- A wait on a cell ranked at most `b` is allowed while everything owed is ranked above `b`. -/
theorem mayWait_of_above (c : Dev nD) (s : SemLoc sig) {b : ℕ} {O : CellTallies nD τ sig Unit}
    (hs : lv ((c : Thread nD τ), s) () ≤ b) (h : Above b O) :
    (levAts L lv : sProp 𝕄) ⊢ MayWait (c : Thread nD τ) s () O :=
  Pipeline.mayWait_of_levAts (by rw [L_tc]; exact Finset.mem_singleton_self _)
    (fun g i hg => ⟨(h g i hg).1, Nat.lt_of_le_of_lt hs (h g i hg).2⟩)

/-- The barrier wait, owing the eight copies. -/
theorem mayWait_bar (c : Dev nD) : (levAts L lv : sProp 𝕄) ⊢ MayWait (c : Thread nD τ) (.reg barS) () (Orecv c) :=
  mayWait_of_above c _ (Nat.le_of_eq (lv_bar c ())) (above_Orecv c)

end Cert.Kernel.Sched

end
-- ==== Proof.SchedTabBits.lean ====
/-
  The schedule's tables, entry by entry.

  The protocol's one round gives a barrier cell one duty of one unit, a send cell and a receive cell one duty each of
  a copy's credit, and no cell any duty in a later round.  Stated here as equations with the table entry on the left:
  the duties, the amount of each duty, the units a round expects (the sum of the amounts over the one duty), and what
  each duty hands over.  The semaphore of send cell k has value 3 + k and that of receive cell k has value 11 + k, so
  the tests on the value that tell the three kinds of cell apart are decided by arithmetic, and the chunk read back
  from the value is k.  The barrier's payload is written out as its sixteen conjuncts in order, two for each of the eight
  chunks; and each of the eight-way tables of semaphores and row blocks is given branch by branch.
-/
import proofs.«900346_g7700000000000347_dist_arsfmx_v7x_xyz2x2x4_y_t256_d512_v4096_bf16_1_alg».proof.Proof.SchedBits

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values that tell the cells apart -/

theorem sendS_ge (k : Fin 8) : 3 ≤ (sendS k).val := by rw [sendS_val]; omega
theorem sendS_not_lt (k : Fin 8) : ¬ (sendS k).val < 3 := by rw [sendS_val]; omega
theorem sendS_lt (k : Fin 8) : (sendS k).val < 11 := by rw [sendS_val]; omega
theorem recvS_ge (k : Fin 8) : 3 ≤ (recvS k).val := by rw [recvS_val]; omega
theorem recvS_not_lt3 (k : Fin 8) : ¬ (recvS k).val < 3 := by rw [recvS_val]; omega
theorem recvS_not_lt11 (k : Fin 8) : ¬ (recvS k).val < 11 := by rw [recvS_val]; omega

/-! ## Duties -/

theorem duties_bar (c : Dev nD) : (pairRd (F := F) m).duties (barCell c) 0 = {()} := by
  dsimp only [pairRd]; exact if_pos ⟨rfl, rfl⟩
theorem duties_send (c : Dev nD) (k : Fin 8) : (pairRd (F := F) m).duties (sendCell c k) 0 = {()} := by
  dsimp only [pairRd]; rw [if_pos ⟨rfl, rfl⟩]; exact if_pos (sendS_ge k)
theorem duties_recv (c : Dev nD) (k : Fin 8) : (pairRd (F := F) m).duties (recvCell c k) 0 = {()} := by
  dsimp only [pairRd]; rw [if_pos ⟨rfl, rfl⟩]; exact if_pos (recvS_ge k)
theorem duties_later (g : GSem nD τ sig) : ∀ r, 1 ≤ r → (pairRd (F := F) m).duties g r = ∅ :=
  fun r hr => by dsimp only [pairRd]; exact if_neg fun h => by have := h.1; omega

/-! ## Amounts and the units a round expects -/

theorem amount_bar (c : Dev nD) (d : Unit) : (pairRd (F := F) m).amount (barCell c) 0 d = 1 := rfl
theorem amount_send (c : Dev nD) (k : Fin 8) (d : Unit) : (pairRd (F := F) m).amount (sendCell c k) 0 d = N := rfl
theorem amount_recv (c : Dev nD) (k : Fin 8) (d : Unit) : (pairRd (F := F) m).amount (recvCell c k) 0 d = N := rfl

theorem expect_bar (c : Dev nD) : (pairRd (F := F) m).expect (barCell c) 0 = 1 := by
  unfold Schedule.expect Schedule.amountOf; rw [duties_bar, Finset.sum_singleton, amount_bar]
theorem expect_send (c : Dev nD) (k : Fin 8) : (pairRd (F := F) m).expect (sendCell c k) 0 = N := by
  unfold Schedule.expect Schedule.amountOf; rw [duties_send, Finset.sum_singleton, amount_send]
theorem expect_recv (c : Dev nD) (k : Fin 8) : (pairRd (F := F) m).expect (recvCell c k) 0 = N := by
  unfold Schedule.expect Schedule.amountOf; rw [duties_recv, Finset.sum_singleton, amount_recv]

/-! ## Payloads -/

theorem payload_bar (c : Dev nD) (d : Unit) : (pairRd (F := F) m).payload (barCell c) 0 d = barPay c := rfl
theorem payload_send (c : Dev nD) (k : Fin 8) (d : Unit) : (pairRd (F := F) m).payload (sendCell c k) 0 d = sendPay m c k := by
  dsimp only [pairRd]; rw [if_neg (sendS_not_lt k), if_pos (sendS_lt k), chunkS_send]
theorem payload_recv (c : Dev nD) (k : Fin 8) (d : Unit) : (pairRd (F := F) m).payload (recvCell c k) 0 d = recvPay m c k := by
  dsimp only [pairRd]; rw [if_neg (recvS_not_lt3 k), if_neg (recvS_not_lt11 k), chunkS_recv]

/-- The barrier's payload as its sixteen conjuncts: for each chunk, 0 first, the peer's destination rows at some contents
    and then that the peer's receive cell is at its first round. -/
theorem barPay_eq (c : Dev nD) : barPay (F := F) c = iprop((∃ f, dstPts (F := F) (peer c) 0 f) ∗ reached ER (recvCell (peer c) 0) 0 ∗ (∃ f, dstPts (F := F) (peer c) 1 f) ∗ reached ER (recvCell (peer c) 1) 0 ∗ (∃ f, dstPts (F := F) (peer c) 2 f) ∗ reached ER (recvCell (peer c) 2) 0 ∗ (∃ f, dstPts (F := F) (peer c) 3 f) ∗ reached ER (recvCell (peer c) 3) 0 ∗ (∃ f, dstPts (F := F) (peer c) 4 f) ∗ reached ER (recvCell (peer c) 4) 0 ∗ (∃ f, dstPts (F := F) (peer c) 5 f) ∗ reached ER (recvCell (peer c) 5) 0 ∗ (∃ f, dstPts (F := F) (peer c) 6 f) ∗ reached ER (recvCell (peer c) 6) 0 ∗ (∃ f, dstPts (F := F) (peer c) 7 f) ∗ reached ER (recvCell (peer c) 7) 0) := by
  unfold barPay; rfl

/-! ## The eight-way tables, branch by branch (the primed forms at an index given by its value and bound) -/

theorem sendS_0 : sendS 0 = ((cc0_scratch1.slice (Rect.unit (s := S8) ![0] S1.size inb_S8_S1_0)).squeeze S_ squeezes_S1_S_).sem := rfl
theorem sendS_0' : sendS ⟨0, by decide⟩ = ((cc0_scratch1.slice (Rect.unit (s := S8) ![0] S1.size inb_S8_S1_0)).squeeze S_ squeezes_S1_S_).sem := rfl
theorem sendS_1 : sendS 1 = ((cc0_scratch1.slice (Rect.unit (s := S8) ![1] S1.size inb_S8_S1_1)).squeeze S_ squeezes_S1_S_).sem := rfl
theorem sendS_1' : sendS ⟨1, by decide⟩ = ((cc0_scratch1.slice (Rect.unit (s := S8) ![1] S1.size inb_S8_S1_1)).squeeze S_ squeezes_S1_S_).sem := rfl
theorem sendS_2 : sendS 2 = ((cc0_scratch1.slice (Rect.unit (s := S8) ![2] S1.size inb_S8_S1_2)).squeeze S_ squeezes_S1_S_).sem := rfl
theorem sendS_2' : sendS ⟨2, by decide⟩ = ((cc0_scratch1.slice (Rect.unit (s := S8) ![2] S1.size inb_S8_S1_2)).squeeze S_ squeezes_S1_S_).sem := rfl
theorem sendS_3 : sendS 3 = ((cc0_scratch1.slice (Rect.unit (s := S8) ![3] S1.size inb_S8_S1_3)).squeeze S_ squeezes_S1_S_).sem := rfl
theorem sendS_3' : sendS ⟨3, by decide⟩ = ((cc0_scratch1.slice (Rect.unit (s := S8) ![3] S1.size inb_S8_S1_3)).squeeze S_ squeezes_S1_S_).sem := rfl
theorem sendS_4 : sendS 4 = ((cc0_scratch1.slice (Rect.unit (s := S8) ![4] S1.size inb_S8_S1_4)).squeeze S_ squeezes_S1_S_).sem := rfl
theorem sendS_4' : sendS ⟨4, by decide⟩ = ((cc0_scratch1.slice (Rect.unit (s := S8) ![4] S1.size inb_S8_S1_4)).squeeze S_ squeezes_S1_S_).sem := rfl
theorem sendS_5 : sendS 5 = ((cc0_scratch1.slice (Rect.unit (s := S8) ![5] S1.size inb_S8_S1_5)).squeeze S_ squeezes_S1_S_).sem := rfl
theorem sendS_5' : sendS ⟨5, by decide⟩ = ((cc0_scratch1.slice (Rect.unit (s := S8) ![5] S1.size inb_S8_S1_5)).squeeze S_ squeezes_S1_S_).sem := rfl
theorem sendS_6 : sendS 6 = ((cc0_scratch1.slice (Rect.unit (s := S8) ![6] S1.size inb_S8_S1_6)).squeeze S_ squeezes_S1_S_).sem := rfl
theorem sendS_6' : sendS ⟨6, by decide⟩ = ((cc0_scratch1.slice (Rect.unit (s := S8) ![6] S1.size inb_S8_S1_6)).squeeze S_ squeezes_S1_S_).sem := rfl
theorem sendS_7 : sendS 7 = ((cc0_scratch1.slice (Rect.unit (s := S8) ![7] S1.size inb_S8_S1_7)).squeeze S_ squeezes_S1_S_).sem := rfl
theorem sendS_7' : sendS ⟨7, by decide⟩ = ((cc0_scratch1.slice (Rect.unit (s := S8) ![7] S1.size inb_S8_S1_7)).squeeze S_ squeezes_S1_S_).sem := rfl

theorem recvS_0 : recvS 0 = ((cc0_scratch2.slice (Rect.unit (s := S8) ![0] S1.size inb_S8_S1_0)).squeeze S_ squeezes_S1_S_).sem := rfl
theorem recvS_0' : recvS ⟨0, by decide⟩ = ((cc0_scratch2.slice (Rect.unit (s := S8) ![0] S1.size inb_S8_S1_0)).squeeze S_ squeezes_S1_S_).sem := rfl
theorem recvS_1 : recvS 1 = ((cc0_scratch2.slice (Rect.unit (s := S8) ![1] S1.size inb_S8_S1_1)).squeeze S_ squeezes_S1_S_).sem := rfl
theorem recvS_1' : recvS ⟨1, by decide⟩ = ((cc0_scratch2.slice (Rect.unit (s := S8) ![1] S1.size inb_S8_S1_1)).squeeze S_ squeezes_S1_S_).sem := rfl
theorem recvS_2 : recvS 2 = ((cc0_scratch2.slice (Rect.unit (s := S8) ![2] S1.size inb_S8_S1_2)).squeeze S_ squeezes_S1_S_).sem := rfl
theorem recvS_2' : recvS ⟨2, by decide⟩ = ((cc0_scratch2.slice (Rect.unit (s := S8) ![2] S1.size inb_S8_S1_2)).squeeze S_ squeezes_S1_S_).sem := rfl
theorem recvS_3 : recvS 3 = ((cc0_scratch2.slice (Rect.unit (s := S8) ![3] S1.size inb_S8_S1_3)).squeeze S_ squeezes_S1_S_).sem := rfl
theorem recvS_3' : recvS ⟨3, by decide⟩ = ((cc0_scratch2.slice (Rect.unit (s := S8) ![3] S1.size inb_S8_S1_3)).squeeze S_ squeezes_S1_S_).sem := rfl
theorem recvS_4 : recvS 4 = ((cc0_scratch2.slice (Rect.unit (s := S8) ![4] S1.size inb_S8_S1_4)).squeeze S_ squeezes_S1_S_).sem := rfl
theorem recvS_4' : recvS ⟨4, by decide⟩ = ((cc0_scratch2.slice (Rect.unit (s := S8) ![4] S1.size inb_S8_S1_4)).squeeze S_ squeezes_S1_S_).sem := rfl
theorem recvS_5 : recvS 5 = ((cc0_scratch2.slice (Rect.unit (s := S8) ![5] S1.size inb_S8_S1_5)).squeeze S_ squeezes_S1_S_).sem := rfl
theorem recvS_5' : recvS ⟨5, by decide⟩ = ((cc0_scratch2.slice (Rect.unit (s := S8) ![5] S1.size inb_S8_S1_5)).squeeze S_ squeezes_S1_S_).sem := rfl
theorem recvS_6 : recvS 6 = ((cc0_scratch2.slice (Rect.unit (s := S8) ![6] S1.size inb_S8_S1_6)).squeeze S_ squeezes_S1_S_).sem := rfl
theorem recvS_6' : recvS ⟨6, by decide⟩ = ((cc0_scratch2.slice (Rect.unit (s := S8) ![6] S1.size inb_S8_S1_6)).squeeze S_ squeezes_S1_S_).sem := rfl
theorem recvS_7 : recvS 7 = ((cc0_scratch2.slice (Rect.unit (s := S8) ![7] S1.size inb_S8_S1_7)).squeeze S_ squeezes_S1_S_).sem := rfl
theorem recvS_7' : recvS ⟨7, by decide⟩ = ((cc0_scratch2.slice (Rect.unit (s := S8) ![7] S1.size inb_S8_S1_7)).squeeze S_ squeezes_S1_S_).sem := rfl

theorem srcPts_0 (c : Dev nD) (q : PosShare TreeShare) : srcPts m c 0 q = ((((cM).slice (Rect.unit (s := S2x256x4096) ![0, 0, 0] S1x32x4096.size inb_S2x256x4096_S1x32x4096_0_0_0) (fun _ => rfl)).squeeze S32x4096 squeezes_S1x32x4096_S32x4096).view.loc (c : Thread nD τ) ↦[(((cM).slice (Rect.unit (s := S2x256x4096) ![0, 0, 0] S1x32x4096.size inb_S2x256x4096_S1x32x4096_0_0_0) (fun _ => rfl)).squeeze S32x4096 squeezes_S1x32x4096_S32x4096).view.set]{q} commOf m c : sProp 𝕄) := rfl
theorem srcPts_0' (c : Dev nD) (q : PosShare TreeShare) : srcPts m c ⟨0, by decide⟩ q = ((((cM).slice (Rect.unit (s := S2x256x4096) ![0, 0, 0] S1x32x4096.size inb_S2x256x4096_S1x32x4096_0_0_0) (fun _ => rfl)).squeeze S32x4096 squeezes_S1x32x4096_S32x4096).view.loc (c : Thread nD τ) ↦[(((cM).slice (Rect.unit (s := S2x256x4096) ![0, 0, 0] S1x32x4096.size inb_S2x256x4096_S1x32x4096_0_0_0) (fun _ => rfl)).squeeze S32x4096 squeezes_S1x32x4096_S32x4096).view.set]{q} commOf m c : sProp 𝕄) := rfl
theorem srcPts_1 (c : Dev nD) (q : PosShare TreeShare) : srcPts m c 1 q = ((((cM).slice (Rect.unit (s := S2x256x4096) ![0, 32, 0] S1x32x4096.size inb_S2x256x4096_S1x32x4096_0_32_0) (fun _ => rfl)).squeeze S32x4096 squeezes_S1x32x4096_S32x4096).view.loc (c : Thread nD τ) ↦[(((cM).slice (Rect.unit (s := S2x256x4096) ![0, 32, 0] S1x32x4096.size inb_S2x256x4096_S1x32x4096_0_32_0) (fun _ => rfl)).squeeze S32x4096 squeezes_S1x32x4096_S32x4096).view.set]{q} commOf m c : sProp 𝕄) := rfl
theorem srcPts_1' (c : Dev nD) (q : PosShare TreeShare) : srcPts m c ⟨1, by decide⟩ q = ((((cM).slice (Rect.unit (s := S2x256x4096) ![0, 32, 0] S1x32x4096.size inb_S2x256x4096_S1x32x4096_0_32_0) (fun _ => rfl)).squeeze S32x4096 squeezes_S1x32x4096_S32x4096).view.loc (c : Thread nD τ) ↦[(((cM).slice (Rect.unit (s := S2x256x4096) ![0, 32, 0] S1x32x4096.size inb_S2x256x4096_S1x32x4096_0_32_0) (fun _ => rfl)).squeeze S32x4096 squeezes_S1x32x4096_S32x4096).view.set]{q} commOf m c : sProp 𝕄) := rfl
theorem srcPts_2 (c : Dev nD) (q : PosShare TreeShare) : srcPts m c 2 q = ((((cM).slice (Rect.unit (s := S2x256x4096) ![0, 64, 0] S1x32x4096.size inb_S2x256x4096_S1x32x4096_0_64_0) (fun _ => rfl)).squeeze S32x4096 squeezes_S1x32x4096_S32x4096).view.loc (c : Thread nD τ) ↦[(((cM).slice (Rect.unit (s := S2x256x4096) ![0, 64, 0] S1x32x4096.size inb_S2x256x4096_S1x32x4096_0_64_0) (fun _ => rfl)).squeeze S32x4096 squeezes_S1x32x4096_S32x4096).view.set]{q} commOf m c : sProp 𝕄) := rfl
theorem srcPts_2' (c : Dev nD) (q : PosShare TreeShare) : srcPts m c ⟨2, by decide⟩ q = ((((cM).slice (Rect.unit (s := S2x256x4096) ![0, 64, 0] S1x32x4096.size inb_S2x256x4096_S1x32x4096_0_64_0) (fun _ => rfl)).squeeze S32x4096 squeezes_S1x32x4096_S32x4096).view.loc (c : Thread nD τ) ↦[(((cM).slice (Rect.unit (s := S2x256x4096) ![0, 64, 0] S1x32x4096.size inb_S2x256x4096_S1x32x4096_0_64_0) (fun _ => rfl)).squeeze S32x4096 squeezes_S1x32x4096_S32x4096).view.set]{q} commOf m c : sProp 𝕄) := rfl
theorem srcPts_3 (c : Dev nD) (q : PosShare TreeShare) : srcPts m c 3 q = ((((cM).slice (Rect.unit (s := S2x256x4096) ![0, 96, 0] S1x32x4096.size inb_S2x256x4096_S1x32x4096_0_96_0) (fun _ => rfl)).squeeze S32x4096 squeezes_S1x32x4096_S32x4096).view.loc (c : Thread nD τ) ↦[(((cM).slice (Rect.unit (s := S2x256x4096) ![0, 96, 0] S1x32x4096.size inb_S2x256x4096_S1x32x4096_0_96_0) (fun _ => rfl)).squeeze S32x4096 squeezes_S1x32x4096_S32x4096).view.set]{q} commOf m c : sProp 𝕄) := rfl
theorem srcPts_3' (c : Dev nD) (q : PosShare TreeShare) : srcPts m c ⟨3, by decide⟩ q = ((((cM).slice (Rect.unit (s := S2x256x4096) ![0, 96, 0] S1x32x4096.size inb_S2x256x4096_S1x32x4096_0_96_0) (fun _ => rfl)).squeeze S32x4096 squeezes_S1x32x4096_S32x4096).view.loc (c : Thread nD τ) ↦[(((cM).slice (Rect.unit (s := S2x256x4096) ![0, 96, 0] S1x32x4096.size inb_S2x256x4096_S1x32x4096_0_96_0) (fun _ => rfl)).squeeze S32x4096 squeezes_S1x32x4096_S32x4096).view.set]{q} commOf m c : sProp 𝕄) := rfl
theorem srcPts_4 (c : Dev nD) (q : PosShare TreeShare) : srcPts m c 4 q = ((((cM).slice (Rect.unit (s := S2x256x4096) ![0, 128, 0] S1x32x4096.size inb_S2x256x4096_S1x32x4096_0_128_0) (fun _ => rfl)).squeeze S32x4096 squeezes_S1x32x4096_S32x4096).view.loc (c : Thread nD τ) ↦[(((cM).slice (Rect.unit (s := S2x256x4096) ![0, 128, 0] S1x32x4096.size inb_S2x256x4096_S1x32x4096_0_128_0) (fun _ => rfl)).squeeze S32x4096 squeezes_S1x32x4096_S32x4096).view.set]{q} commOf m c : sProp 𝕄) := rfl
theorem srcPts_4' (c : Dev nD) (q : PosShare TreeShare) : srcPts m c ⟨4, by decide⟩ q = ((((cM).slice (Rect.unit (s := S2x256x4096) ![0, 128, 0] S1x32x4096.size inb_S2x256x4096_S1x32x4096_0_128_0) (fun _ => rfl)).squeeze S32x4096 squeezes_S1x32x4096_S32x4096).view.loc (c : Thread nD τ) ↦[(((cM).slice (Rect.unit (s := S2x256x4096) ![0, 128, 0] S1x32x4096.size inb_S2x256x4096_S1x32x4096_0_128_0) (fun _ => rfl)).squeeze S32x4096 squeezes_S1x32x4096_S32x4096).view.set]{q} commOf m c : sProp 𝕄) := rfl
theorem srcPts_5 (c : Dev nD) (q : PosShare TreeShare) : srcPts m c 5 q = ((((cM).slice (Rect.unit (s := S2x256x4096) ![0, 160, 0] S1x32x4096.size inb_S2x256x4096_S1x32x4096_0_160_0) (fun _ => rfl)).squeeze S32x4096 squeezes_S1x32x4096_S32x4096).view.loc (c : Thread nD τ) ↦[(((cM).slice (Rect.unit (s := S2x256x4096) ![0, 160, 0] S1x32x4096.size inb_S2x256x4096_S1x32x4096_0_160_0) (fun _ => rfl)).squeeze S32x4096 squeezes_S1x32x4096_S32x4096).view.set]{q} commOf m c : sProp 𝕄) := rfl
theorem srcPts_5' (c : Dev nD) (q : PosShare TreeShare) : srcPts m c ⟨5, by decide⟩ q = ((((cM).slice (Rect.unit (s := S2x256x4096) ![0, 160, 0] S1x32x4096.size inb_S2x256x4096_S1x32x4096_0_160_0) (fun _ => rfl)).squeeze S32x4096 squeezes_S1x32x4096_S32x4096).view.loc (c : Thread nD τ) ↦[(((cM).slice (Rect.unit (s := S2x256x4096) ![0, 160, 0] S1x32x4096.size inb_S2x256x4096_S1x32x4096_0_160_0) (fun _ => rfl)).squeeze S32x4096 squeezes_S1x32x4096_S32x4096).view.set]{q} commOf m c : sProp 𝕄) := rfl
theorem srcPts_6 (c : Dev nD) (q : PosShare TreeShare) : srcPts m c 6 q = ((((cM).slice (Rect.unit (s := S2x256x4096) ![0, 192, 0] S1x32x4096.size inb_S2x256x4096_S1x32x4096_0_192_0) (fun _ => rfl)).squeeze S32x4096 squeezes_S1x32x4096_S32x4096).view.loc (c : Thread nD τ) ↦[(((cM).slice (Rect.unit (s := S2x256x4096) ![0, 192, 0] S1x32x4096.size inb_S2x256x4096_S1x32x4096_0_192_0) (fun _ => rfl)).squeeze S32x4096 squeezes_S1x32x4096_S32x4096).view.set]{q} commOf m c : sProp 𝕄) := rfl
theorem srcPts_6' (c : Dev nD) (q : PosShare TreeShare) : srcPts m c ⟨6, by decide⟩ q = ((((cM).slice (Rect.unit (s := S2x256x4096) ![0, 192, 0] S1x32x4096.size inb_S2x256x4096_S1x32x4096_0_192_0) (fun _ => rfl)).squeeze S32x4096 squeezes_S1x32x4096_S32x4096).view.loc (c : Thread nD τ) ↦[(((cM).slice (Rect.unit (s := S2x256x4096) ![0, 192, 0] S1x32x4096.size inb_S2x256x4096_S1x32x4096_0_192_0) (fun _ => rfl)).squeeze S32x4096 squeezes_S1x32x4096_S32x4096).view.set]{q} commOf m c : sProp 𝕄) := rfl
theorem srcPts_7 (c : Dev nD) (q : PosShare TreeShare) : srcPts m c 7 q = ((((cM).slice (Rect.unit (s := S2x256x4096) ![0, 224, 0] S1x32x4096.size inb_S2x256x4096_S1x32x4096_0_224_0) (fun _ => rfl)).squeeze S32x4096 squeezes_S1x32x4096_S32x4096).view.loc (c : Thread nD τ) ↦[(((cM).slice (Rect.unit (s := S2x256x4096) ![0, 224, 0] S1x32x4096.size inb_S2x256x4096_S1x32x4096_0_224_0) (fun _ => rfl)).squeeze S32x4096 squeezes_S1x32x4096_S32x4096).view.set]{q} commOf m c : sProp 𝕄) := rfl
theorem srcPts_7' (c : Dev nD) (q : PosShare TreeShare) : srcPts m c ⟨7, by decide⟩ q = ((((cM).slice (Rect.unit (s := S2x256x4096) ![0, 224, 0] S1x32x4096.size inb_S2x256x4096_S1x32x4096_0_224_0) (fun _ => rfl)).squeeze S32x4096 squeezes_S1x32x4096_S32x4096).view.loc (c : Thread nD τ) ↦[(((cM).slice (Rect.unit (s := S2x256x4096) ![0, 224, 0] S1x32x4096.size inb_S2x256x4096_S1x32x4096_0_224_0) (fun _ => rfl)).squeeze S32x4096 squeezes_S1x32x4096_S32x4096).view.set]{q} commOf m c : sProp 𝕄) := rfl

theorem dstPts_0 (c : Dev nD) (f : (cc0_scratch0 : Ref sig .tc).ty.Contents (Elt F)) : dstPts (F := F) c 0 f = ((((cM).slice (Rect.unit (s := S2x256x4096) ![1, 0, 0] S1x32x4096.size inb_S2x256x4096_S1x32x4096_1_0_0) (fun _ => rfl)).squeeze S32x4096 squeezes_S1x32x4096_S32x4096).view.loc (c : Thread nD τ) ↦[(((cM).slice (Rect.unit (s := S2x256x4096) ![1, 0, 0] S1x32x4096.size inb_S2x256x4096_S1x32x4096_1_0_0) (fun _ => rfl)).squeeze S32x4096 squeezes_S1x32x4096_S32x4096).view.set]{fullShare} f : sProp 𝕄) := rfl
theorem dstPts_0' (c : Dev nD) (f : (cc0_scratch0 : Ref sig .tc).ty.Contents (Elt F)) : dstPts (F := F) c ⟨0, by decide⟩ f = ((((cM).slice (Rect.unit (s := S2x256x4096) ![1, 0, 0] S1x32x4096.size inb_S2x256x4096_S1x32x4096_1_0_0) (fun _ => rfl)).squeeze S32x4096 squeezes_S1x32x4096_S32x4096).view.loc (c : Thread nD τ) ↦[(((cM).slice (Rect.unit (s := S2x256x4096) ![1, 0, 0] S1x32x4096.size inb_S2x256x4096_S1x32x4096_1_0_0) (fun _ => rfl)).squeeze S32x4096 squeezes_S1x32x4096_S32x4096).view.set]{fullShare} f : sProp 𝕄) := rfl
theorem dstPts_1 (c : Dev nD) (f : (cc0_scratch0 : Ref sig .tc).ty.Contents (Elt F)) : dstPts (F := F) c 1 f = ((((cM).slice (Rect.unit (s := S2x256x4096) ![1, 32, 0] S1x32x4096.size inb_S2x256x4096_S1x32x4096_1_32_0) (fun _ => rfl)).squeeze S32x4096 squeezes_S1x32x4096_S32x4096).view.loc (c : Thread nD τ) ↦[(((cM).slice (Rect.unit (s := S2x256x4096) ![1, 32, 0] S1x32x4096.size inb_S2x256x4096_S1x32x4096_1_32_0) (fun _ => rfl)).squeeze S32x4096 squeezes_S1x32x4096_S32x4096).view.set]{fullShare} f : sProp 𝕄) := rfl
theorem dstPts_1' (c : Dev nD) (f : (cc0_scratch0 : Ref sig .tc).ty.Contents (Elt F)) : dstPts (F := F) c ⟨1, by decide⟩ f = ((((cM).slice (Rect.unit (s := S2x256x4096) ![1, 32, 0] S1x32x4096.size inb_S2x256x4096_S1x32x4096_1_32_0) (fun _ => rfl)).squeeze S32x4096 squeezes_S1x32x4096_S32x4096).view.loc (c : Thread nD τ) ↦[(((cM).slice (Rect.unit (s := S2x256x4096) ![1, 32, 0] S1x32x4096.size inb_S2x256x4096_S1x32x4096_1_32_0) (fun _ => rfl)).squeeze S32x4096 squeezes_S1x32x4096_S32x4096).view.set]{fullShare} f : sProp 𝕄) := rfl
theorem dstPts_2 (c : Dev nD) (f : (cc0_scratch0 : Ref sig .tc).ty.Contents (Elt F)) : dstPts (F := F) c 2 f = ((((cM).slice (Rect.unit (s := S2x256x4096) ![1, 64, 0] S1x32x4096.size inb_S2x256x4096_S1x32x4096_1_64_0) (fun _ => rfl)).squeeze S32x4096 squeezes_S1x32x4096_S32x4096).view.loc (c : Thread nD τ) ↦[(((cM).slice (Rect.unit (s := S2x256x4096) ![1, 64, 0] S1x32x4096.size inb_S2x256x4096_S1x32x4096_1_64_0) (fun _ => rfl)).squeeze S32x4096 squeezes_S1x32x4096_S32x4096).view.set]{fullShare} f : sProp 𝕄) := rfl
theorem dstPts_2' (c : Dev nD) (f : (cc0_scratch0 : Ref sig .tc).ty.Contents (Elt F)) : dstPts (F := F) c ⟨2, by decide⟩ f = ((((cM).slice (Rect.unit (s := S2x256x4096) ![1, 64, 0] S1x32x4096.size inb_S2x256x4096_S1x32x4096_1_64_0) (fun _ => rfl)).squeeze S32x4096 squeezes_S1x32x4096_S32x4096).view.loc (c : Thread nD τ) ↦[(((cM).slice (Rect.unit (s := S2x256x4096) ![1, 64, 0] S1x32x4096.size inb_S2x256x4096_S1x32x4096_1_64_0) (fun _ => rfl)).squeeze S32x4096 squeezes_S1x32x4096_S32x4096).view.set]{fullShare} f : sProp 𝕄) := rfl
theorem dstPts_3 (c : Dev nD) (f : (cc0_scratch0 : Ref sig .tc).ty.Contents (Elt F)) : dstPts (F := F) c 3 f = ((((cM).slice (Rect.unit (s := S2x256x4096) ![1, 96, 0] S1x32x4096.size inb_S2x256x4096_S1x32x4096_1_96_0) (fun _ => rfl)).squeeze S32x4096 squeezes_S1x32x4096_S32x4096).view.loc (c : Thread nD τ) ↦[(((cM).slice (Rect.unit (s := S2x256x4096) ![1, 96, 0] S1x32x4096.size inb_S2x256x4096_S1x32x4096_1_96_0) (fun _ => rfl)).squeeze S32x4096 squeezes_S1x32x4096_S32x4096).view.set]{fullShare} f : sProp 𝕄) := rfl
theorem dstPts_3' (c : Dev nD) (f : (cc0_scratch0 : Ref sig .tc).ty.Contents (Elt F)) : dstPts (F := F) c ⟨3, by decide⟩ f = ((((cM).slice (Rect.unit (s := S2x256x4096) ![1, 96, 0] S1x32x4096.size inb_S2x256x4096_S1x32x4096_1_96_0) (fun _ => rfl)).squeeze S32x4096 squeezes_S1x32x4096_S32x4096).view.loc (c : Thread nD τ) ↦[(((cM).slice (Rect.unit (s := S2x256x4096) ![1, 96, 0] S1x32x4096.size inb_S2x256x4096_S1x32x4096_1_96_0) (fun _ => rfl)).squeeze S32x4096 squeezes_S1x32x4096_S32x4096).view.set]{fullShare} f : sProp 𝕄) := rfl
theorem dstPts_4 (c : Dev nD) (f : (cc0_scratch0 : Ref sig .tc).ty.Contents (Elt F)) : dstPts (F := F) c 4 f = ((((cM).slice (Rect.unit (s := S2x256x4096) ![1, 128, 0] S1x32x4096.size inb_S2x256x4096_S1x32x4096_1_128_0) (fun _ => rfl)).squeeze S32x4096 squeezes_S1x32x4096_S32x4096).view.loc (c : Thread nD τ) ↦[(((cM).slice (Rect.unit (s := S2x256x4096) ![1, 128, 0] S1x32x4096.size inb_S2x256x4096_S1x32x4096_1_128_0) (fun _ => rfl)).squeeze S32x4096 squeezes_S1x32x4096_S32x4096).view.set]{fullShare} f : sProp 𝕄) := rfl
theorem dstPts_4' (c : Dev nD) (f : (cc0_scratch0 : Ref sig .tc).ty.Contents (Elt F)) : dstPts (F := F) c ⟨4, by decide⟩ f = ((((cM).slice (Rect.unit (s := S2x256x4096) ![1, 128, 0] S1x32x4096.size inb_S2x256x4096_S1x32x4096_1_128_0) (fun _ => rfl)).squeeze S32x4096 squeezes_S1x32x4096_S32x4096).view.loc (c : Thread nD τ) ↦[(((cM).slice (Rect.unit (s := S2x256x4096) ![1, 128, 0] S1x32x4096.size inb_S2x256x4096_S1x32x4096_1_128_0) (fun _ => rfl)).squeeze S32x4096 squeezes_S1x32x4096_S32x4096).view.set]{fullShare} f : sProp 𝕄) := rfl
theorem dstPts_5 (c : Dev nD) (f : (cc0_scratch0 : Ref sig .tc).ty.Contents (Elt F)) : dstPts (F := F) c 5 f = ((((cM).slice (Rect.unit (s := S2x256x4096) ![1, 160, 0] S1x32x4096.size inb_S2x256x4096_S1x32x4096_1_160_0) (fun _ => rfl)).squeeze S32x4096 squeezes_S1x32x4096_S32x4096).view.loc (c : Thread nD τ) ↦[(((cM).slice (Rect.unit (s := S2x256x4096) ![1, 160, 0] S1x32x4096.size inb_S2x256x4096_S1x32x4096_1_160_0) (fun _ => rfl)).squeeze S32x4096 squeezes_S1x32x4096_S32x4096).view.set]{fullShare} f : sProp 𝕄) := rfl
theorem dstPts_5' (c : Dev nD) (f : (cc0_scratch0 : Ref sig .tc).ty.Contents (Elt F)) : dstPts (F := F) c ⟨5, by decide⟩ f = ((((cM).slice (Rect.unit (s := S2x256x4096) ![1, 160, 0] S1x32x4096.size inb_S2x256x4096_S1x32x4096_1_160_0) (fun _ => rfl)).squeeze S32x4096 squeezes_S1x32x4096_S32x4096).view.loc (c : Thread nD τ) ↦[(((cM).slice (Rect.unit (s := S2x256x4096) ![1, 160, 0] S1x32x4096.size inb_S2x256x4096_S1x32x4096_1_160_0) (fun _ => rfl)).squeeze S32x4096 squeezes_S1x32x4096_S32x4096).view.set]{fullShare} f : sProp 𝕄) := rfl
theorem dstPts_6 (c : Dev nD) (f : (cc0_scratch0 : Ref sig .tc).ty.Contents (Elt F)) : dstPts (F := F) c 6 f = ((((cM).slice (Rect.unit (s := S2x256x4096) ![1, 192, 0] S1x32x4096.size inb_S2x256x4096_S1x32x4096_1_192_0) (fun _ => rfl)).squeeze S32x4096 squeezes_S1x32x4096_S32x4096).view.loc (c : Thread nD τ) ↦[(((cM).slice (Rect.unit (s := S2x256x4096) ![1, 192, 0] S1x32x4096.size inb_S2x256x4096_S1x32x4096_1_192_0) (fun _ => rfl)).squeeze S32x4096 squeezes_S1x32x4096_S32x4096).view.set]{fullShare} f : sProp 𝕄) := rfl
theorem dstPts_6' (c : Dev nD) (f : (cc0_scratch0 : Ref sig .tc).ty.Contents (Elt F)) : dstPts (F := F) c ⟨6, by decide⟩ f = ((((cM).slice (Rect.unit (s := S2x256x4096) ![1, 192, 0] S1x32x4096.size inb_S2x256x4096_S1x32x4096_1_192_0) (fun _ => rfl)).squeeze S32x4096 squeezes_S1x32x4096_S32x4096).view.loc (c : Thread nD τ) ↦[(((cM).slice (Rect.unit (s := S2x256x4096) ![1, 192, 0] S1x32x4096.size inb_S2x256x4096_S1x32x4096_1_192_0) (fun _ => rfl)).squeeze S32x4096 squeezes_S1x32x4096_S32x4096).view.set]{fullShare} f : sProp 𝕄) := rfl
theorem dstPts_7 (c : Dev nD) (f : (cc0_scratch0 : Ref sig .tc).ty.Contents (Elt F)) : dstPts (F := F) c 7 f = ((((cM).slice (Rect.unit (s := S2x256x4096) ![1, 224, 0] S1x32x4096.size inb_S2x256x4096_S1x32x4096_1_224_0) (fun _ => rfl)).squeeze S32x4096 squeezes_S1x32x4096_S32x4096).view.loc (c : Thread nD τ) ↦[(((cM).slice (Rect.unit (s := S2x256x4096) ![1, 224, 0] S1x32x4096.size inb_S2x256x4096_S1x32x4096_1_224_0) (fun _ => rfl)).squeeze S32x4096 squeezes_S1x32x4096_S32x4096).view.set]{fullShare} f : sProp 𝕄) := rfl
theorem dstPts_7' (c : Dev nD) (f : (cc0_scratch0 : Ref sig .tc).ty.Contents (Elt F)) : dstPts (F := F) c ⟨7, by decide⟩ f = ((((cM).slice (Rect.unit (s := S2x256x4096) ![1, 224, 0] S1x32x4096.size inb_S2x256x4096_S1x32x4096_1_224_0) (fun _ => rfl)).squeeze S32x4096 squeezes_S1x32x4096_S32x4096).view.loc (c : Thread nD τ) ↦[(((cM).slice (Rect.unit (s := S2x256x4096) ![1, 224, 0] S1x32x4096.size inb_S2x256x4096_S1x32x4096_1_224_0) (fun _ => rfl)).squeeze S32x4096 squeezes_S1x32x4096_S32x4096).view.set]{fullShare} f : sProp 𝕄) := rfl

end Cert.Kernel.Sched

end
-- ==== Proof.ProtoBits.lean ====
/-
  What a device holds at each stage, and the pipeline's proof data.

  A device's seventeen cells are numbered: 0 its barrier cell, 1 + k its send cell of chunk k, 9 + k its receive
  cell of chunk k.  At the start of its body a device knows the invariants of its own cells, of its peer's barrier
  cell (which it signals) and of its peer's eight receive cells (which its copies pay); it stands at the first round
  of each of its own cells; it knows the first round reached on the cells it pays and on its own send and receive
  cells; and it holds the seventeen tokens of the duties it pays: its peer's barrier duty, its own eight send
  duties, its peer's eight receive duties.  With that it holds the credit others owe it — one unit on its barrier
  cell, one copy's worth on each receive cell —, the ranking of the cells, and its scratch buffer at whatever it
  holds.  After the body the scratch buffer holds its own eight blocks and its peer's, and its sixteen send and
  receive semaphores are back at zero.
  The staged copy of x and the staged half of W are left as fetched; the staged result holds the whole softmax.
-/
import proofs.«900346_g7700000000000347_dist_arsfmx_v7x_xyz2x2x4_y_t256_d512_v4096_bf16_1_alg».proof.Proof.LevelsBits
import proofs.«900346_g7700000000000347_dist_arsfmx_v7x_xyz2x2x4_y_t256_d512_v4096_bf16_1_alg».proof.Proof.SchedTabBits

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's seventeen semaphores in the numbering above, and its cells. -/
def csem : Fin 17 → SemLoc sig := fun j =>
  if j.val = 0 then .reg barS else if h : j.val < 9 then .dma (sendS ⟨j.val - 1, by omega⟩) else .dma (recvS ⟨j.val - 9, by omega⟩)
abbrev kcell (ck : Dev nD × Fin 17) : GSem nD τ sig := ((ck.1 : Thread nD τ), csem ck.2)

theorem kcell_bar (c : Dev nD) : kcell (c, 0) = barCell c := rfl
theorem csem_send (k : Fin 8) : csem ⟨1 + k.val, by omega⟩ = .dma (sendS k) := by revert k; decide
theorem csem_recv (k : Fin 8) : csem ⟨9 + k.val, by omega⟩ = .dma (recvS k) := by revert k; decide
theorem kcell_send (c : Dev nD) (k : Fin 8) : kcell (c, ⟨1 + k.val, by omega⟩) = sendCell c k := congrArg (Prod.mk (c : Thread nD τ)) (csem_send k)
theorem kcell_recv (c : Dev nD) (k : Fin 8) : kcell (c, ⟨9 + k.val, by omega⟩) = recvCell c k := congrArg (Prod.mk (c : Thread nD τ)) (csem_recv k)

/-- The invariants a device's body opens, under the names `K` the launch allocated them at. -/
def cellInvs (K : Dev nD × Fin 17 → ℕ) (c : Dev nD) : sProp 𝕄 :=
  iprop(cellInv ER (pairRd m) (K (c, 0)) (barCell c)
    ∗ cellInv ER (pairRd m) (K (c, 1)) (sendCell c 0)
    ∗ cellInv ER (pairRd m) (K (c, 2)) (sendCell c 1)
    ∗ cellInv ER (pairRd m) (K (c, 3)) (sendCell c 2)
    ∗ cellInv ER (pairRd m) (K (c, 4)) (sendCell c 3)
    ∗ cellInv ER (pairRd m) (K (c, 5)) (sendCell c 4)
    ∗ cellInv ER (pairRd m) (K (c, 6)) (sendCell c 5)
    ∗ cellInv ER (pairRd m) (K (c, 7)) (sendCell c 6)
    ∗ cellInv ER (pairRd m) (K (c, 8)) (sendCell c 7)
    ∗ cellInv ER (pairRd m) (K (c, 9)) (recvCell c 0)
    ∗ cellInv ER (pairRd m) (K (c, 10)) (recvCell c 1)
    ∗ cellInv ER (pairRd m) (K (c, 11)) (recvCell c 2)
    ∗ cellInv ER (pairRd m) (K (c, 12)) (recvCell c 3)
    ∗ cellInv ER (pairRd m) (K (c, 13)) (recvCell c 4)
    ∗ cellInv ER (pairRd m) (K (c, 14)) (recvCell c 5)
    ∗ cellInv ER (pairRd m) (K (c, 15)) (recvCell c 6)
    ∗ cellInv ER (pairRd m) (K (c, 16)) (recvCell c 7)
    ∗ cellInv ER (pairRd m) (K (peer c, 0)) (barCell (peer c))
    ∗ cellInv ER (pairRd m) (K (peer c, 9)) (recvCell (peer c) 0)
    ∗ cellInv ER (pairRd m) (K (peer c, 10)) (recvCell (peer c) 1)
    ∗ cellInv ER (pairRd m) (K (peer c, 11)) (recvCell (peer c) 2)
    ∗ cellInv ER (pairRd m) (K (peer c, 12)) (recvCell (peer c) 3)
    ∗ cellInv ER (pairRd m) (K (peer c, 13)) (recvCell (peer c) 4)
    ∗ cellInv ER (pairRd m) (K (peer c, 14)) (recvCell (peer c) 5)
    ∗ cellInv ER (pairRd m) (K (peer c, 15)) (recvCell (peer c) 6)
    ∗ cellInv ER (pairRd m) (K (peer c, 16)) (recvCell (peer c) 7))

instance cellInvs_persistent (K : Dev nD × Fin 17 → ℕ) (c : Dev nD) : BI.Persistent (cellInvs m K c) := by unfold cellInvs; infer_instance

/-- The protocol's ghost state a device starts from: invariants, positions, reached rounds, the tokens it pays with. -/
def ghost (K : Dev nD × Fin 17 → ℕ) (c : Dev nD) : sProp 𝕄 :=
  iprop(cellInvs m K c
    ∗ atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ reached ER (barCell (peer c)) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ dutyTok ER (barCell (peer c)) 0 ()
    ∗ dutyTok ER (sendCell c 0) 0 ()
    ∗ dutyTok ER (sendCell c 1) 0 ()
    ∗ dutyTok ER (sendCell c 2) 0 ()
    ∗ dutyTok ER (sendCell c 3) 0 ()
    ∗ dutyTok ER (sendCell c 4) 0 ()
    ∗ dutyTok ER (sendCell c 5) 0 ()
    ∗ dutyTok ER (sendCell c 6) 0 ()
    ∗ dutyTok ER (sendCell c 7) 0 ()
    ∗ dutyTok ER (recvCell (peer c) 0) 0 ()
    ∗ dutyTok ER (recvCell (peer c) 1) 0 ()
    ∗ dutyTok ER (recvCell (peer c) 2) 0 ()
    ∗ dutyTok ER (recvCell (peer c) 3) 0 ()
    ∗ dutyTok ER (recvCell (peer c) 4) 0 ()
    ∗ dutyTok ER (recvCell (peer c) 5) 0 ()
    ∗ dutyTok ER (recvCell (peer c) 6) 0 ()
    ∗ dutyTok ER (recvCell (peer c) 7) 0 ())

/-- The credit others owe a device at launch: its peer's entry signal and its peer's eight copies. -/
def launchCreds (c : Dev nD) : sProp 𝕄 :=
  iprop(cred (tallyAt (barCell c) () 1) ∗ cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))

/-- What a device's body starts from, but for its scratch buffer. -/
def start (c : Dev nD) : sProp 𝕄 :=
  iprop((∃ K, ghost m K c) ∗ launchCreds (F := F) c ∗ levAts L lv)

/-- The scratch buffer of device `c`, whole. -/
def scrPts (c : Dev nD) (f : (cc0_scratch0 : Ref sig .tc).ty.Contents (Elt F)) : sProp 𝕄 :=
  (((c : Thread nD τ).loc cc0_scratch0) ↦{fullShare} f)

/-- Before the point, and after it. -/
def Φ₀ (c : Dev nD) : sProp 𝕄 := iprop(start m c ∗ ∃ f, scrPts (F := F) c f)
def Φ₁ (c : Dev nD) : sProp 𝕄 :=
  iprop(scrPts c (commOf m c) ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0)

/-- The pipeline's proof data: the arrays as launched; the staged inputs left as fetched; the staged result at the
    whole softmax; everything owed before the point, nothing after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Sched

end
-- ==== Proof.CommFactsBits.lean ====
/-
  The scratch buffer, row block by row block.

  The whole-scratch function commOf says what every element of a device's two-slab scratch holds once all copies have
  landed: slab 0, row r, lane j holds the device's own chunk r / 32 at place (r % 32, j); slab 1 the peer's.  A row
  block of 32 rows starting at row R = 32 k of slab s, seen as a 32 × 4096 array, has its element (q, j) at
  (s, R + q, j): the squeeze re-indexes (q, j) as (0, q, j), both at row-major position q · 4096 + j, and the
  rectangle adds its offsets.  So an element lies under the block exactly when its slab is s and its row is in
  [R, R + 32), and then it is the block's element (row - R, lane).

  Two consequences, each on the rows concerned only.  Writing chunk k through the 1 × 32 × 4096 rectangle at rows
  R.. of slab 0 leaves there what commOf says.  And copying the source block (rows R.. of slab 0, read off commOf
  of device c) over rows R.. of slab 1 leaves there what commOf of the PEER says: the peer's slab 1 holds the chunks
  of the peer's peer, which is c.
-/
import proofs.«900346_g7700000000000347_dist_arsfmx_v7x_xyz2x2x4_y_t256_d512_v4096_bf16_1_alg».proof.Proof.SchedBits
import Idealize.ShloMosaic.Lib.Pipeline.Value

noncomputable section

namespace Cert.Kernel.CommFacts

open Cert.Kernel Cert.Kernel.Gen Cert.Kernel.Mesh Cert.Kernel.Data
open Idealize.ShloMosaic Idealize.ShloMosaic.TcCoe

/-! ## A row block of the scratch buffer as a 32 × 4096 view -/

/-- Rows off 1 .. off 1 + 32 of slab off 0 (lanes off 2 .. off 2 + 4096), squeezed to 32 × 4096. -/
abbrev blk (off : Fin 3 → Nat) (inb : ∀ a, off a + S1x32x4096.size a ≤ S2x256x4096.size a) : View sig .tc .vmem S32x4096 .bf16 :=
  ((cM.slice (Rect.unit (s := S2x256x4096) off S1x32x4096.size inb) (fun _ => rfl)).squeeze S32x4096 squeezes_S1x32x4096_S32x4096).view

/-- Element (q, j) of the block is element (0, q, j) of the rectangle: the same row-major position. -/
theorem emb_blk_eq (off : Fin 3 → Nat) (inb : ∀ a, off a + S1x32x4096.size a ≤ S2x256x4096.size a) (q : Fin 32) (j : Fin 4096) :
    (blk off inb).emb (ix2b q j) = (cM.access (Rect.unit (s := S2x256x4096) off S1x32x4096.size inb)).emb (ix3 q j) := by
  have e : Shape.reshapeEquiv squeezes_S1x32x4096_S32x4096.numel_eq (ix2b q j) = ix3 q j :=
    Shape.reshapeEquiv_eq_of_rowMajor _ (by
      rw [Shape.rowMajor_val_three, Shape.rowMajor_val_two]
      show (0 * 32 + q.val) * 4096 + j.val = q.val * 4096 + j.val
      omega)
  show (Rect.unit (s := S2x256x4096) off S1x32x4096.size inb).emb (Shape.reshapeEquiv squeezes_S1x32x4096_S32x4096.numel_eq (ix2b q j)) = _
  rw [e]; rfl

/-- Its coordinates: the rectangle's offsets plus (0, q, j). -/
theorem emb_blk (off : Fin 3 → Nat) (inb : ∀ a, off a + S1x32x4096.size a ≤ S2x256x4096.size a) (q : Fin 32) (j : Fin 4096) (a : Fin 3) :
    ((blk off inb).emb (ix2b q j) a : Nat) = off a + (ix3 q j a : Nat) := by
  rw [emb_blk_eq]
  show ((Rect.unit (s := S2x256x4096) off S1x32x4096.size inb).emb (ix3 q j) a : Nat) = _
  rw [Rect.emb_apply]
  show off a + 1 * (ix3 q j a : Nat) = _
  rw [Nat.one_mul]

/-- An element lies under the block exactly when each coordinate is within the rectangle's range. -/
theorem mem_blk (off : Fin 3 → Nat) (inb : ∀ a, off a + S1x32x4096.size a ≤ S2x256x4096.size a) (i : (cc0_scratch0 : Ref sig .tc).ty.Idx) :
    i ∈ (blk off inb).set ↔ ∀ a, off a ≤ i a ∧ (i a : Nat) < off a + S1x32x4096.size a := by
  -- the squeeze keeps the set of elements, and a rectangle of the whole buffer covers the rectangle's own set
  have hs : (blk off inb).set = (Rect.unit (s := S2x256x4096) off S1x32x4096.size inb).set :=
    (View.set_reshape ((View.whole cc0_scratch0).slice (Rect.unit (s := S2x256x4096) off S1x32x4096.size inb))
      squeezes_S1x32x4096_S32x4096.numel_eq).trans (View.set_slice_whole cc0_scratch0 _)
  rw [hs]
  exact Rect.mem_set_unit

/-- The same with the slab and the first row named: slab s, rows R .. R + 32, every lane. -/
theorem mem_core (off : Fin 3 → Nat) (inb : ∀ a, off a + S1x32x4096.size a ≤ S2x256x4096.size a) (s R : Nat)
    (h0 : off 0 = s) (h1 : off 1 = R) (h2 : off 2 = 0) (i : (cc0_scratch0 : Ref sig .tc).ty.Idx) :
    i ∈ (blk off inb).set ↔ (i 0).val = s ∧ R ≤ (i 1).val ∧ (i 1).val < R + 32 := by
  rw [mem_blk]
  constructor
  · intro h
    have a0 : off 0 ≤ (i 0).val ∧ (i 0).val < off 0 + 1 := h 0
    have a1 : off 1 ≤ (i 1).val ∧ (i 1).val < off 1 + 32 := h 1
    omega
  · intro h a
    have l2 : (i 2).val < 4096 := (i 2).isLt
    match a with
    | ⟨0, _⟩ => show off 0 ≤ (i 0).val ∧ (i 0).val < off 0 + 1; omega
    | ⟨1, _⟩ => show off 1 ≤ (i 1).val ∧ (i 1).val < off 1 + 32; omega
    | ⟨2, _⟩ => show off 2 ≤ (i 2).val ∧ (i 2).val < off 2 + 4096; omega

/-- An element under the block is the block's element (row - first row, lane - first lane). -/
theorem eq_emb_of_mem (off : Fin 3 → Nat) (inb : ∀ a, off a + S1x32x4096.size a ≤ S2x256x4096.size a)
    (i : (cc0_scratch0 : Ref sig .tc).ty.Idx) (hi : i ∈ (blk off inb).set) : ∃ (q : Fin 32) (j : Fin 4096), i = (blk off inb).emb (ix2b q j) := by
  rw [mem_blk] at hi
  have a0 : off 0 ≤ (i 0).val ∧ (i 0).val < off 0 + 1 := hi 0
  have a1 : off 1 ≤ (i 1).val ∧ (i 1).val < off 1 + 32 := hi 1
  have a2 : off 2 ≤ (i 2).val ∧ (i 2).val < off 2 + 4096 := hi 2
  refine ⟨⟨(i 1).val - off 1, by omega⟩, ⟨(i 2).val - off 2, by omega⟩, funext fun a => Fin.ext ?_⟩
  rw [emb_blk]
  match a with
  | ⟨0, _⟩ => show (i 0).val = off 0 + 0; omega
  | ⟨1, _⟩ => show (i 1).val = off 1 + ((i 1).val - off 1); omega
  | ⟨2, _⟩ => show (i 2).val = off 2 + ((i 2).val - off 2); omega

/-! ## What the scratch holds at a row of chunk k -/

variable {F : FTy → Type} [FloatOps F]
variable (m : (ℓ : Loc nD τ sig) → Buf (Elt F) ℓ)

/-- At row 32 k + q and lane j the scratch holds place (q, j) of chunk k: the device's own in slab 0, the peer's otherwise. -/
theorem commOf_at (c : Dev nD) (i : (cc0_scratch0 : Ref sig .tc).ty.Idx) (k : Fin 8) (q : Fin 32) (j : Fin 4096)
    (h1 : (i 1).val = 32 * k.val + q.val) (h2 : (i 2).val = j.val) :
    commOf m c i = if (i 0).val = 0 then lg m c k (ix3 q j) else lg m (peer c) k (ix3 q j) := by
  have hk : chunkOf ⟨(i 1).val, (i 1).isLt⟩ = k := Fin.ext (by show (i 1).val / 32 = k.val; omega)
  have hq : inChunk ⟨(i 1).val, (i 1).isLt⟩ = q := Fin.ext (by show (i 1).val % 32 = q.val; omega)
  have hj : (⟨(i 2).val, (i 2).isLt⟩ : Fin 4096) = j := Fin.ext h2
  show (if (i 0).val = 0 then lg m c (chunkOf ⟨(i 1).val, (i 1).isLt⟩) (ix3 (inChunk ⟨(i 1).val, (i 1).isLt⟩) ⟨(i 2).val, (i 2).isLt⟩)
    else lg m (peer c) (chunkOf ⟨(i 1).val, (i 1).isLt⟩) (ix3 (inChunk ⟨(i 1).val, (i 1).isLt⟩) ⟨(i 2).val, (i 2).isLt⟩)) = _
  rw [hk, hq, hj]

/-- The block's element (q, j), when the block is rows 32 k .. of slab 0: the device's own chunk k at (q, j). -/
theorem commOf_blk0 (k : Fin 8) (off : Fin 3 → Nat) (inb : ∀ a, off a + S1x32x4096.size a ≤ S2x256x4096.size a)
    (h0 : off 0 = 0) (h1 : off 1 = 32 * k.val) (h2 : off 2 = 0) (c : Dev nD) (q : Fin 32) (j : Fin 4096) :
    commOf m c ((blk off inb).emb (ix2b q j)) = lg m c k (ix3 q j) := by
  have e0 := emb_blk off inb q j 0
  have e1 := emb_blk off inb q j 1
  have e2 := emb_blk off inb q j 2
  rw [commOf_at m c _ k q j (by rw [e1]; show off 1 + q.val = _; omega) (by rw [e2]; show off 2 + j.val = _; omega),
    if_pos (by rw [e0]; show off 0 + 0 = 0; omega)]

/-- The same when the block is rows 32 k .. of slab 1: the peer's chunk k at (q, j). -/
theorem commOf_blk1 (k : Fin 8) (off : Fin 3 → Nat) (inb : ∀ a, off a + S1x32x4096.size a ≤ S2x256x4096.size a)
    (h0 : off 0 = 1) (h1 : off 1 = 32 * k.val) (h2 : off 2 = 0) (c : Dev nD) (q : Fin 32) (j : Fin 4096) :
    commOf m c ((blk off inb).emb (ix2b q j)) = lg m (peer c) k (ix3 q j) := by
  have e0 := emb_blk off inb q j 0
  have e1 := emb_blk off inb q j 1
  have e2 := emb_blk off inb q j 2
  rw [commOf_at m c _ k q j (by rw [e1]; show off 1 + q.val = _; omega) (by rw [e2]; show off 2 + j.val = _; omega),
    if_neg (by rw [e0]; show ¬ off 0 + 0 = 0; omega)]

/-! ## The two facts, for a block given by its offsets -/

/-- Chunk k written through the rectangle at rows 32 k .. of slab 0 leaves, under that block, what commOf says. -/
theorem stored_core (k : Fin 8) (off : Fin 3 → Nat) (inb : ∀ a, off a + S1x32x4096.size a ≤ S2x256x4096.size a)
    (h0 : off 0 = 0) (h1 : off 1 = 32 * k.val) (h2 : off 2 = 0) (c : Dev nD) (f0 : (cc0_scratch0 : Ref sig .tc).ty.Contents (Elt F)) :
    ∀ i ∈ (blk off inb).set,
      View.write (Elt F) (cM.access (Rect.unit (s := S2x256x4096) off S1x32x4096.size inb)) f0 (lg m c k) Finset.univ i = commOf m c i := by
  intro i hi
  obtain ⟨q, j, rfl⟩ := eq_emb_of_mem off inb i hi
  -- the written value at the rectangle's element (0, q, j) is the payload there
  have hw : View.write (Elt F) (cM.access (Rect.unit (s := S2x256x4096) off S1x32x4096.size inb)) f0 (lg m c k) Finset.univ
      ((cM.access (Rect.unit (s := S2x256x4096) off S1x32x4096.size inb)).emb (ix3 q j)) = lg m c k (ix3 q j) :=
    View.write_emb_of_mem (v := cM.access (Rect.unit (s := S2x256x4096) off S1x32x4096.size inb)) (Val := Elt F) f0 (lg m c k)
      (M := Finset.univ) (x := ix3 q j) (Finset.mem_univ _)
  exact (congrArg (View.write (Elt F) (cM.access (Rect.unit (s := S2x256x4096) off S1x32x4096.size inb)) f0 (lg m c k) Finset.univ)
    (emb_blk_eq off inb q j)).trans (hw.trans (commOf_blk0 m k off inb h0 h1 h2 c q j).symm)

/-- The source block (rows 32 k .. of slab 0) read off commOf of c and written over the destination block (rows 32 k .. of
    slab 1) leaves, under the destination block, what commOf of the peer says. -/
theorem landed_core (k : Fin 8) (offS : Fin 3 → Nat) (inbS : ∀ a, offS a + S1x32x4096.size a ≤ S2x256x4096.size a)
    (offD : Fin 3 → Nat) (inbD : ∀ a, offD a + S1x32x4096.size a ≤ S2x256x4096.size a)
    (s0 : offS 0 = 0) (s1 : offS 1 = 32 * k.val) (s2 : offS 2 = 0) (d0 : offD 0 = 1) (d1 : offD 1 = 32 * k.val) (d2 : offD 2 = 0)
    (c : Dev nD) (fd : (cc0_scratch0 : Ref sig .tc).ty.Contents (Elt F)) :
    ∀ i ∈ (blk offD inbD).set,
      (blk offD inbD).write (Elt F) fd ((blk offS inbS).read (Elt F) (commOf m c)) Finset.univ i = commOf m (peer c) i := by
  intro i hi
  obtain ⟨q, j, rfl⟩ := eq_emb_of_mem offD inbD i hi
  -- the source block read off commOf of c, at (q, j): c's own chunk k there
  have hr : (blk offS inbS).read (Elt F) (commOf m c) (ix2b q j) = lg m c k (ix3 q j) :=
    commOf_blk0 m k offS inbS s0 s1 s2 c q j
  -- the written value at the destination block's element (q, j) is the payload there
  have hw : (blk offD inbD).write (Elt F) fd ((blk offS inbS).read (Elt F) (commOf m c)) Finset.univ ((blk offD inbD).emb (ix2b q j))
      = (blk offS inbS).read (Elt F) (commOf m c) (ix2b q j) :=
    View.write_emb_of_mem (v := blk offD inbD) (Val := Elt F) fd ((blk offS inbS).read (Elt F) (commOf m c))
      (M := Finset.univ) (x := ix2b q j) (Finset.mem_univ _)
  -- the peer's slab 1 holds the chunks of the peer's peer, which is c
  have hd : commOf m (peer c) ((blk offD inbD).emb (ix2b q j)) = lg m c k (ix3 q j) := by
    have h := commOf_blk1 m k offD inbD d0 d1 d2 (peer c) q j
    rw [peer_peer] at h
    exact h
  exact hw.trans (hr.trans hd.symm)

/-! ## The sixteen blocks -/

theorem stored_0 (c : Dev nD) (f0 : (cc0_scratch0 : Ref sig .tc).ty.Contents (Elt F)) :
    ∀ i ∈ ((cM.slice (Rect.unit (s := S2x256x4096) ![0, 0, 0] S1x32x4096.size inb_S2x256x4096_S1x32x4096_0_0_0) (fun _ => rfl)).squeeze S32x4096 squeezes_S1x32x4096_S32x4096).view.set, View.write (Elt F) (cM.access (Rect.unit (s := S2x256x4096) ![0, 0, 0] S1x32x4096.size inb_S2x256x4096_S1x32x4096_0_0_0)) f0 (lg m c ⟨0, by decide⟩) Finset.univ i = commOf m c i :=
  stored_core m ⟨0, by decide⟩ ![0, 0, 0] inb_S2x256x4096_S1x32x4096_0_0_0 rfl rfl rfl c f0
theorem landed_0 (c : Dev nD) (fd : (cc0_scratch0 : Ref sig .tc).ty.Contents (Elt F)) :
    ∀ i ∈ ((cM.slice (Rect.unit (s := S2x256x4096) ![1, 0, 0] S1x32x4096.size inb_S2x256x4096_S1x32x4096_1_0_0) (fun _ => rfl)).squeeze S32x4096 squeezes_S1x32x4096_S32x4096).view.set, ((cM.slice (Rect.unit (s := S2x256x4096) ![1, 0, 0] S1x32x4096.size inb_S2x256x4096_S1x32x4096_1_0_0) (fun _ => rfl)).squeeze S32x4096 squeezes_S1x32x4096_S32x4096).view.write (Elt F) fd (((cM.slice (Rect.unit (s := S2x256x4096) ![0, 0, 0] S1x32x4096.size inb_S2x256x4096_S1x32x4096_0_0_0) (fun _ => rfl)).squeeze S32x4096 squeezes_S1x32x4096_S32x4096).view.read (Elt F) (commOf m c)) Finset.univ i = commOf m (peer c) i :=
  landed_core m ⟨0, by decide⟩ ![0, 0, 0] inb_S2x256x4096_S1x32x4096_0_0_0 ![1, 0, 0] inb_S2x256x4096_S1x32x4096_1_0_0 rfl rfl rfl rfl rfl rfl c fd
theorem stored_1 (c : Dev nD) (f0 : (cc0_scratch0 : Ref sig .tc).ty.Contents (Elt F)) :
    ∀ i ∈ ((cM.slice (Rect.unit (s := S2x256x4096) ![0, 32, 0] S1x32x4096.size inb_S2x256x4096_S1x32x4096_0_32_0) (fun _ => rfl)).squeeze S32x4096 squeezes_S1x32x4096_S32x4096).view.set, View.write (Elt F) (cM.access (Rect.unit (s := S2x256x4096) ![0, 32, 0] S1x32x4096.size inb_S2x256x4096_S1x32x4096_0_32_0)) f0 (lg m c ⟨1, by decide⟩) Finset.univ i = commOf m c i :=
  stored_core m ⟨1, by decide⟩ ![0, 32, 0] inb_S2x256x4096_S1x32x4096_0_32_0 rfl rfl rfl c f0
theorem landed_1 (c : Dev nD) (fd : (cc0_scratch0 : Ref sig .tc).ty.Contents (Elt F)) :
    ∀ i ∈ ((cM.slice (Rect.unit (s := S2x256x4096) ![1, 32, 0] S1x32x4096.size inb_S2x256x4096_S1x32x4096_1_32_0) (fun _ => rfl)).squeeze S32x4096 squeezes_S1x32x4096_S32x4096).view.set, ((cM.slice (Rect.unit (s := S2x256x4096) ![1, 32, 0] S1x32x4096.size inb_S2x256x4096_S1x32x4096_1_32_0) (fun _ => rfl)).squeeze S32x4096 squeezes_S1x32x4096_S32x4096).view.write (Elt F) fd (((cM.slice (Rect.unit (s := S2x256x4096) ![0, 32, 0] S1x32x4096.size inb_S2x256x4096_S1x32x4096_0_32_0) (fun _ => rfl)).squeeze S32x4096 squeezes_S1x32x4096_S32x4096).view.read (Elt F) (commOf m c)) Finset.univ i = commOf m (peer c) i :=
  landed_core m ⟨1, by decide⟩ ![0, 32, 0] inb_S2x256x4096_S1x32x4096_0_32_0 ![1, 32, 0] inb_S2x256x4096_S1x32x4096_1_32_0 rfl rfl rfl rfl rfl rfl c fd
theorem stored_2 (c : Dev nD) (f0 : (cc0_scratch0 : Ref sig .tc).ty.Contents (Elt F)) :
    ∀ i ∈ ((cM.slice (Rect.unit (s := S2x256x4096) ![0, 64, 0] S1x32x4096.size inb_S2x256x4096_S1x32x4096_0_64_0) (fun _ => rfl)).squeeze S32x4096 squeezes_S1x32x4096_S32x4096).view.set, View.write (Elt F) (cM.access (Rect.unit (s := S2x256x4096) ![0, 64, 0] S1x32x4096.size inb_S2x256x4096_S1x32x4096_0_64_0)) f0 (lg m c ⟨2, by decide⟩) Finset.univ i = commOf m c i :=
  stored_core m ⟨2, by decide⟩ ![0, 64, 0] inb_S2x256x4096_S1x32x4096_0_64_0 rfl rfl rfl c f0
theorem landed_2 (c : Dev nD) (fd : (cc0_scratch0 : Ref sig .tc).ty.Contents (Elt F)) :
    ∀ i ∈ ((cM.slice (Rect.unit (s := S2x256x4096) ![1, 64, 0] S1x32x4096.size inb_S2x256x4096_S1x32x4096_1_64_0) (fun _ => rfl)).squeeze S32x4096 squeezes_S1x32x4096_S32x4096).view.set, ((cM.slice (Rect.unit (s := S2x256x4096) ![1, 64, 0] S1x32x4096.size inb_S2x256x4096_S1x32x4096_1_64_0) (fun _ => rfl)).squeeze S32x4096 squeezes_S1x32x4096_S32x4096).view.write (Elt F) fd (((cM.slice (Rect.unit (s := S2x256x4096) ![0, 64, 0] S1x32x4096.size inb_S2x256x4096_S1x32x4096_0_64_0) (fun _ => rfl)).squeeze S32x4096 squeezes_S1x32x4096_S32x4096).view.read (Elt F) (commOf m c)) Finset.univ i = commOf m (peer c) i :=
  landed_core m ⟨2, by decide⟩ ![0, 64, 0] inb_S2x256x4096_S1x32x4096_0_64_0 ![1, 64, 0] inb_S2x256x4096_S1x32x4096_1_64_0 rfl rfl rfl rfl rfl rfl c fd
theorem stored_3 (c : Dev nD) (f0 : (cc0_scratch0 : Ref sig .tc).ty.Contents (Elt F)) :
    ∀ i ∈ ((cM.slice (Rect.unit (s := S2x256x4096) ![0, 96, 0] S1x32x4096.size inb_S2x256x4096_S1x32x4096_0_96_0) (fun _ => rfl)).squeeze S32x4096 squeezes_S1x32x4096_S32x4096).view.set, View.write (Elt F) (cM.access (Rect.unit (s := S2x256x4096) ![0, 96, 0] S1x32x4096.size inb_S2x256x4096_S1x32x4096_0_96_0)) f0 (lg m c ⟨3, by decide⟩) Finset.univ i = commOf m c i :=
  stored_core m ⟨3, by decide⟩ ![0, 96, 0] inb_S2x256x4096_S1x32x4096_0_96_0 rfl rfl rfl c f0
theorem landed_3 (c : Dev nD) (fd : (cc0_scratch0 : Ref sig .tc).ty.Contents (Elt F)) :
    ∀ i ∈ ((cM.slice (Rect.unit (s := S2x256x4096) ![1, 96, 0] S1x32x4096.size inb_S2x256x4096_S1x32x4096_1_96_0) (fun _ => rfl)).squeeze S32x4096 squeezes_S1x32x4096_S32x4096).view.set, ((cM.slice (Rect.unit (s := S2x256x4096) ![1, 96, 0] S1x32x4096.size inb_S2x256x4096_S1x32x4096_1_96_0) (fun _ => rfl)).squeeze S32x4096 squeezes_S1x32x4096_S32x4096).view.write (Elt F) fd (((cM.slice (Rect.unit (s := S2x256x4096) ![0, 96, 0] S1x32x4096.size inb_S2x256x4096_S1x32x4096_0_96_0) (fun _ => rfl)).squeeze S32x4096 squeezes_S1x32x4096_S32x4096).view.read (Elt F) (commOf m c)) Finset.univ i = commOf m (peer c) i :=
  landed_core m ⟨3, by decide⟩ ![0, 96, 0] inb_S2x256x4096_S1x32x4096_0_96_0 ![1, 96, 0] inb_S2x256x4096_S1x32x4096_1_96_0 rfl rfl rfl rfl rfl rfl c fd
theorem stored_4 (c : Dev nD) (f0 : (cc0_scratch0 : Ref sig .tc).ty.Contents (Elt F)) :
    ∀ i ∈ ((cM.slice (Rect.unit (s := S2x256x4096) ![0, 128, 0] S1x32x4096.size inb_S2x256x4096_S1x32x4096_0_128_0) (fun _ => rfl)).squeeze S32x4096 squeezes_S1x32x4096_S32x4096).view.set, View.write (Elt F) (cM.access (Rect.unit (s := S2x256x4096) ![0, 128, 0] S1x32x4096.size inb_S2x256x4096_S1x32x4096_0_128_0)) f0 (lg m c ⟨4, by decide⟩) Finset.univ i = commOf m c i :=
  stored_core m ⟨4, by decide⟩ ![0, 128, 0] inb_S2x256x4096_S1x32x4096_0_128_0 rfl rfl rfl c f0
theorem landed_4 (c : Dev nD) (fd : (cc0_scratch0 : Ref sig .tc).ty.Contents (Elt F)) :
    ∀ i ∈ ((cM.slice (Rect.unit (s := S2x256x4096) ![1, 128, 0] S1x32x4096.size inb_S2x256x4096_S1x32x4096_1_128_0) (fun _ => rfl)).squeeze S32x4096 squeezes_S1x32x4096_S32x4096).view.set, ((cM.slice (Rect.unit (s := S2x256x4096) ![1, 128, 0] S1x32x4096.size inb_S2x256x4096_S1x32x4096_1_128_0) (fun _ => rfl)).squeeze S32x4096 squeezes_S1x32x4096_S32x4096).view.write (Elt F) fd (((cM.slice (Rect.unit (s := S2x256x4096) ![0, 128, 0] S1x32x4096.size inb_S2x256x4096_S1x32x4096_0_128_0) (fun _ => rfl)).squeeze S32x4096 squeezes_S1x32x4096_S32x4096).view.read (Elt F) (commOf m c)) Finset.univ i = commOf m (peer c) i :=
  landed_core m ⟨4, by decide⟩ ![0, 128, 0] inb_S2x256x4096_S1x32x4096_0_128_0 ![1, 128, 0] inb_S2x256x4096_S1x32x4096_1_128_0 rfl rfl rfl rfl rfl rfl c fd
theorem stored_5 (c : Dev nD) (f0 : (cc0_scratch0 : Ref sig .tc).ty.Contents (Elt F)) :
    ∀ i ∈ ((cM.slice (Rect.unit (s := S2x256x4096) ![0, 160, 0] S1x32x4096.size inb_S2x256x4096_S1x32x4096_0_160_0) (fun _ => rfl)).squeeze S32x4096 squeezes_S1x32x4096_S32x4096).view.set, View.write (Elt F) (cM.access (Rect.unit (s := S2x256x4096) ![0, 160, 0] S1x32x4096.size inb_S2x256x4096_S1x32x4096_0_160_0)) f0 (lg m c ⟨5, by decide⟩) Finset.univ i = commOf m c i :=
  stored_core m ⟨5, by decide⟩ ![0, 160, 0] inb_S2x256x4096_S1x32x4096_0_160_0 rfl rfl rfl c f0
theorem landed_5 (c : Dev nD) (fd : (cc0_scratch0 : Ref sig .tc).ty.Contents (Elt F)) :
    ∀ i ∈ ((cM.slice (Rect.unit (s := S2x256x4096) ![1, 160, 0] S1x32x4096.size inb_S2x256x4096_S1x32x4096_1_160_0) (fun _ => rfl)).squeeze S32x4096 squeezes_S1x32x4096_S32x4096).view.set, ((cM.slice (Rect.unit (s := S2x256x4096) ![1, 160, 0] S1x32x4096.size inb_S2x256x4096_S1x32x4096_1_160_0) (fun _ => rfl)).squeeze S32x4096 squeezes_S1x32x4096_S32x4096).view.write (Elt F) fd (((cM.slice (Rect.unit (s := S2x256x4096) ![0, 160, 0] S1x32x4096.size inb_S2x256x4096_S1x32x4096_0_160_0) (fun _ => rfl)).squeeze S32x4096 squeezes_S1x32x4096_S32x4096).view.read (Elt F) (commOf m c)) Finset.univ i = commOf m (peer c) i :=
  landed_core m ⟨5, by decide⟩ ![0, 160, 0] inb_S2x256x4096_S1x32x4096_0_160_0 ![1, 160, 0] inb_S2x256x4096_S1x32x4096_1_160_0 rfl rfl rfl rfl rfl rfl c fd
theorem stored_6 (c : Dev nD) (f0 : (cc0_scratch0 : Ref sig .tc).ty.Contents (Elt F)) :
    ∀ i ∈ ((cM.slice (Rect.unit (s := S2x256x4096) ![0, 192, 0] S1x32x4096.size inb_S2x256x4096_S1x32x4096_0_192_0) (fun _ => rfl)).squeeze S32x4096 squeezes_S1x32x4096_S32x4096).view.set, View.write (Elt F) (cM.access (Rect.unit (s := S2x256x4096) ![0, 192, 0] S1x32x4096.size inb_S2x256x4096_S1x32x4096_0_192_0)) f0 (lg m c ⟨6, by decide⟩) Finset.univ i = commOf m c i :=
  stored_core m ⟨6, by decide⟩ ![0, 192, 0] inb_S2x256x4096_S1x32x4096_0_192_0 rfl rfl rfl c f0
theorem landed_6 (c : Dev nD) (fd : (cc0_scratch0 : Ref sig .tc).ty.Contents (Elt F)) :
    ∀ i ∈ ((cM.slice (Rect.unit (s := S2x256x4096) ![1, 192, 0] S1x32x4096.size inb_S2x256x4096_S1x32x4096_1_192_0) (fun _ => rfl)).squeeze S32x4096 squeezes_S1x32x4096_S32x4096).view.set, ((cM.slice (Rect.unit (s := S2x256x4096) ![1, 192, 0] S1x32x4096.size inb_S2x256x4096_S1x32x4096_1_192_0) (fun _ => rfl)).squeeze S32x4096 squeezes_S1x32x4096_S32x4096).view.write (Elt F) fd (((cM.slice (Rect.unit (s := S2x256x4096) ![0, 192, 0] S1x32x4096.size inb_S2x256x4096_S1x32x4096_0_192_0) (fun _ => rfl)).squeeze S32x4096 squeezes_S1x32x4096_S32x4096).view.read (Elt F) (commOf m c)) Finset.univ i = commOf m (peer c) i :=
  landed_core m ⟨6, by decide⟩ ![0, 192, 0] inb_S2x256x4096_S1x32x4096_0_192_0 ![1, 192, 0] inb_S2x256x4096_S1x32x4096_1_192_0 rfl rfl rfl rfl rfl rfl c fd
theorem stored_7 (c : Dev nD) (f0 : (cc0_scratch0 : Ref sig .tc).ty.Contents (Elt F)) :
    ∀ i ∈ ((cM.slice (Rect.unit (s := S2x256x4096) ![0, 224, 0] S1x32x4096.size inb_S2x256x4096_S1x32x4096_0_224_0) (fun _ => rfl)).squeeze S32x4096 squeezes_S1x32x4096_S32x4096).view.set, View.write (Elt F) (cM.access (Rect.unit (s := S2x256x4096) ![0, 224, 0] S1x32x4096.size inb_S2x256x4096_S1x32x4096_0_224_0)) f0 (lg m c ⟨7, by decide⟩) Finset.univ i = commOf m c i :=
  stored_core m ⟨7, by decide⟩ ![0, 224, 0] inb_S2x256x4096_S1x32x4096_0_224_0 rfl rfl rfl c f0
theorem landed_7 (c : Dev nD) (fd : (cc0_scratch0 : Ref sig .tc).ty.Contents (Elt F)) :
    ∀ i ∈ ((cM.slice (Rect.unit (s := S2x256x4096) ![1, 224, 0] S1x32x4096.size inb_S2x256x4096_S1x32x4096_1_224_0) (fun _ => rfl)).squeeze S32x4096 squeezes_S1x32x4096_S32x4096).view.set, ((cM.slice (Rect.unit (s := S2x256x4096) ![1, 224, 0] S1x32x4096.size inb_S2x256x4096_S1x32x4096_1_224_0) (fun _ => rfl)).squeeze S32x4096 squeezes_S1x32x4096_S32x4096).view.write (Elt F) fd (((cM.slice (Rect.unit (s := S2x256x4096) ![0, 224, 0] S1x32x4096.size inb_S2x256x4096_S1x32x4096_0_224_0) (fun _ => rfl)).squeeze S32x4096 squeezes_S1x32x4096_S32x4096).view.read (Elt F) (commOf m c)) Finset.univ i = commOf m (peer c) i :=
  landed_core m ⟨7, by decide⟩ ![0, 224, 0] inb_S2x256x4096_S1x32x4096_0_224_0 ![1, 224, 0] inb_S2x256x4096_S1x32x4096_1_224_0 rfl rfl rfl rfl rfl rfl c fd

theorem mem_src_0 (i : (cc0_scratch0 : Ref sig .tc).ty.Idx) :
    i ∈ ((cM.slice (Rect.unit (s := S2x256x4096) ![0, 0, 0] S1x32x4096.size inb_S2x256x4096_S1x32x4096_0_0_0) (fun _ => rfl)).squeeze S32x4096 squeezes_S1x32x4096_S32x4096).view.set ↔ (i 0).val = 0 ∧ 0 ≤ (i 1).val ∧ (i 1).val < 0 + 32 :=
  mem_core ![0, 0, 0] inb_S2x256x4096_S1x32x4096_0_0_0 0 0 rfl rfl rfl i
theorem mem_dst_0 (i : (cc0_scratch0 : Ref sig .tc).ty.Idx) :
    i ∈ ((cM.slice (Rect.unit (s := S2x256x4096) ![1, 0, 0] S1x32x4096.size inb_S2x256x4096_S1x32x4096_1_0_0) (fun _ => rfl)).squeeze S32x4096 squeezes_S1x32x4096_S32x4096).view.set ↔ (i 0).val = 1 ∧ 0 ≤ (i 1).val ∧ (i 1).val < 0 + 32 :=
  mem_core ![1, 0, 0] inb_S2x256x4096_S1x32x4096_1_0_0 1 0 rfl rfl rfl i
theorem mem_src_1 (i : (cc0_scratch0 : Ref sig .tc).ty.Idx) :
    i ∈ ((cM.slice (Rect.unit (s := S2x256x4096) ![0, 32, 0] S1x32x4096.size inb_S2x256x4096_S1x32x4096_0_32_0) (fun _ => rfl)).squeeze S32x4096 squeezes_S1x32x4096_S32x4096).view.set ↔ (i 0).val = 0 ∧ 32 ≤ (i 1).val ∧ (i 1).val < 32 + 32 :=
  mem_core ![0, 32, 0] inb_S2x256x4096_S1x32x4096_0_32_0 0 32 rfl rfl rfl i
theorem mem_dst_1 (i : (cc0_scratch0 : Ref sig .tc).ty.Idx) :
    i ∈ ((cM.slice (Rect.unit (s := S2x256x4096) ![1, 32, 0] S1x32x4096.size inb_S2x256x4096_S1x32x4096_1_32_0) (fun _ => rfl)).squeeze S32x4096 squeezes_S1x32x4096_S32x4096).view.set ↔ (i 0).val = 1 ∧ 32 ≤ (i 1).val ∧ (i 1).val < 32 + 32 :=
  mem_core ![1, 32, 0] inb_S2x256x4096_S1x32x4096_1_32_0 1 32 rfl rfl rfl i
theorem mem_src_2 (i : (cc0_scratch0 : Ref sig .tc).ty.Idx) :
    i ∈ ((cM.slice (Rect.unit (s := S2x256x4096) ![0, 64, 0] S1x32x4096.size inb_S2x256x4096_S1x32x4096_0_64_0) (fun _ => rfl)).squeeze S32x4096 squeezes_S1x32x4096_S32x4096).view.set ↔ (i 0).val = 0 ∧ 64 ≤ (i 1).val ∧ (i 1).val < 64 + 32 :=
  mem_core ![0, 64, 0] inb_S2x256x4096_S1x32x4096_0_64_0 0 64 rfl rfl rfl i
theorem mem_dst_2 (i : (cc0_scratch0 : Ref sig .tc).ty.Idx) :
    i ∈ ((cM.slice (Rect.unit (s := S2x256x4096) ![1, 64, 0] S1x32x4096.size inb_S2x256x4096_S1x32x4096_1_64_0) (fun _ => rfl)).squeeze S32x4096 squeezes_S1x32x4096_S32x4096).view.set ↔ (i 0).val = 1 ∧ 64 ≤ (i 1).val ∧ (i 1).val < 64 + 32 :=
  mem_core ![1, 64, 0] inb_S2x256x4096_S1x32x4096_1_64_0 1 64 rfl rfl rfl i
theorem mem_src_3 (i : (cc0_scratch0 : Ref sig .tc).ty.Idx) :
    i ∈ ((cM.slice (Rect.unit (s := S2x256x4096) ![0, 96, 0] S1x32x4096.size inb_S2x256x4096_S1x32x4096_0_96_0) (fun _ => rfl)).squeeze S32x4096 squeezes_S1x32x4096_S32x4096).view.set ↔ (i 0).val = 0 ∧ 96 ≤ (i 1).val ∧ (i 1).val < 96 + 32 :=
  mem_core ![0, 96, 0] inb_S2x256x4096_S1x32x4096_0_96_0 0 96 rfl rfl rfl i
theorem mem_dst_3 (i : (cc0_scratch0 : Ref sig .tc).ty.Idx) :
    i ∈ ((cM.slice (Rect.unit (s := S2x256x4096) ![1, 96, 0] S1x32x4096.size inb_S2x256x4096_S1x32x4096_1_96_0) (fun _ => rfl)).squeeze S32x4096 squeezes_S1x32x4096_S32x4096).view.set ↔ (i 0).val = 1 ∧ 96 ≤ (i 1).val ∧ (i 1).val < 96 + 32 :=
  mem_core ![1, 96, 0] inb_S2x256x4096_S1x32x4096_1_96_0 1 96 rfl rfl rfl i
theorem mem_src_4 (i : (cc0_scratch0 : Ref sig .tc).ty.Idx) :
    i ∈ ((cM.slice (Rect.unit (s := S2x256x4096) ![0, 128, 0] S1x32x4096.size inb_S2x256x4096_S1x32x4096_0_128_0) (fun _ => rfl)).squeeze S32x4096 squeezes_S1x32x4096_S32x4096).view.set ↔ (i 0).val = 0 ∧ 128 ≤ (i 1).val ∧ (i 1).val < 128 + 32 :=
  mem_core ![0, 128, 0] inb_S2x256x4096_S1x32x4096_0_128_0 0 128 rfl rfl rfl i
theorem mem_dst_4 (i : (cc0_scratch0 : Ref sig .tc).ty.Idx) :
    i ∈ ((cM.slice (Rect.unit (s := S2x256x4096) ![1, 128, 0] S1x32x4096.size inb_S2x256x4096_S1x32x4096_1_128_0) (fun _ => rfl)).squeeze S32x4096 squeezes_S1x32x4096_S32x4096).view.set ↔ (i 0).val = 1 ∧ 128 ≤ (i 1).val ∧ (i 1).val < 128 + 32 :=
  mem_core ![1, 128, 0] inb_S2x256x4096_S1x32x4096_1_128_0 1 128 rfl rfl rfl i
theorem mem_src_5 (i : (cc0_scratch0 : Ref sig .tc).ty.Idx) :
    i ∈ ((cM.slice (Rect.unit (s := S2x256x4096) ![0, 160, 0] S1x32x4096.size inb_S2x256x4096_S1x32x4096_0_160_0) (fun _ => rfl)).squeeze S32x4096 squeezes_S1x32x4096_S32x4096).view.set ↔ (i 0).val = 0 ∧ 160 ≤ (i 1).val ∧ (i 1).val < 160 + 32 :=
  mem_core ![0, 160, 0] inb_S2x256x4096_S1x32x4096_0_160_0 0 160 rfl rfl rfl i
theorem mem_dst_5 (i : (cc0_scratch0 : Ref sig .tc).ty.Idx) :
    i ∈ ((cM.slice (Rect.unit (s := S2x256x4096) ![1, 160, 0] S1x32x4096.size inb_S2x256x4096_S1x32x4096_1_160_0) (fun _ => rfl)).squeeze S32x4096 squeezes_S1x32x4096_S32x4096).view.set ↔ (i 0).val = 1 ∧ 160 ≤ (i 1).val ∧ (i 1).val < 160 + 32 :=
  mem_core ![1, 160, 0] inb_S2x256x4096_S1x32x4096_1_160_0 1 160 rfl rfl rfl i
theorem mem_src_6 (i : (cc0_scratch0 : Ref sig .tc).ty.Idx) :
    i ∈ ((cM.slice (Rect.unit (s := S2x256x4096) ![0, 192, 0] S1x32x4096.size inb_S2x256x4096_S1x32x4096_0_192_0) (fun _ => rfl)).squeeze S32x4096 squeezes_S1x32x4096_S32x4096).view.set ↔ (i 0).val = 0 ∧ 192 ≤ (i 1).val ∧ (i 1).val < 192 + 32 :=
  mem_core ![0, 192, 0] inb_S2x256x4096_S1x32x4096_0_192_0 0 192 rfl rfl rfl i
theorem mem_dst_6 (i : (cc0_scratch0 : Ref sig .tc).ty.Idx) :
    i ∈ ((cM.slice (Rect.unit (s := S2x256x4096) ![1, 192, 0] S1x32x4096.size inb_S2x256x4096_S1x32x4096_1_192_0) (fun _ => rfl)).squeeze S32x4096 squeezes_S1x32x4096_S32x4096).view.set ↔ (i 0).val = 1 ∧ 192 ≤ (i 1).val ∧ (i 1).val < 192 + 32 :=
  mem_core ![1, 192, 0] inb_S2x256x4096_S1x32x4096_1_192_0 1 192 rfl rfl rfl i
theorem mem_src_7 (i : (cc0_scratch0 : Ref sig .tc).ty.Idx) :
    i ∈ ((cM.slice (Rect.unit (s := S2x256x4096) ![0, 224, 0] S1x32x4096.size inb_S2x256x4096_S1x32x4096_0_224_0) (fun _ => rfl)).squeeze S32x4096 squeezes_S1x32x4096_S32x4096).view.set ↔ (i 0).val = 0 ∧ 224 ≤ (i 1).val ∧ (i 1).val < 224 + 32 :=
  mem_core ![0, 224, 0] inb_S2x256x4096_S1x32x4096_0_224_0 0 224 rfl rfl rfl i
theorem mem_dst_7 (i : (cc0_scratch0 : Ref sig .tc).ty.Idx) :
    i ∈ ((cM.slice (Rect.unit (s := S2x256x4096) ![1, 224, 0] S1x32x4096.size inb_S2x256x4096_S1x32x4096_1_224_0) (fun _ => rfl)).squeeze S32x4096 squeezes_S1x32x4096_S32x4096).view.set ↔ (i 0).val = 1 ∧ 224 ≤ (i 1).val ∧ (i 1).val < 224 + 32 :=
  mem_core ![1, 224, 0] inb_S2x256x4096_S1x32x4096_1_224_0 1 224 rfl rfl rfl i

end Cert.Kernel.CommFacts

end
-- ==== Proof.ScratchSplitBits.lean ====
/-
  The whole scratch buffer as its sixteen row blocks.

  The scratch buffer has two slabs of 256 rows.  Cut each slab into eight blocks of 32 rows: block t of the sixteen is
  slab t / 8, rows 32 (t % 8) .. 32 (t % 8) + 32, every lane.  An element lies under block t exactly when its slab is
  t / 8 and its row is in that range; so two different blocks share no element (a different slab, or disjoint row
  ranges), and every element lies under one (its slab is 0 or 1, and its row, below 256, is in the range of row / 32).
  Ownership of the whole buffer at contents f is therefore the same assertion as the sixteen ownerships of the blocks at
  f, conjoined in order: slab 0's eight blocks, then slab 1's.  No decision looks at the lane axis.
-/
import proofs.«900346_g7700000000000347_dist_arsfmx_v7x_xyz2x2x4_y_t256_d512_v4096_bf16_1_alg».proof.Proof.CommFactsBits
import Idealize.ShloMosaic.Rules.PointsTo

noncomputable section

namespace Cert.Kernel.ScratchSplit

open Cert.Kernel Cert.Kernel.Gen Cert.Kernel.Mesh Cert.Kernel.Data
open Cert.Kernel.Sched Cert.Kernel.CommFacts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The sixteen blocks -/

/-- Block t: slab t / 8, first row 32 (t % 8), first lane 0. -/
abbrev offG (t : Fin 16) : Fin 3 → Nat := ![t.val / 8, 32 * (t.val % 8), 0]

theorem inbG (t : Fin 16) : ∀ a, offG t a + S1x32x4096.size a ≤ S2x256x4096.size a := by
  intro a
  have := t.isLt
  match a with
  | ⟨0, _⟩ => show t.val / 8 + 1 ≤ 2; omega
  | ⟨1, _⟩ => show 32 * (t.val % 8) + 32 ≤ 256; omega
  | ⟨2, _⟩ => show 0 + 4096 ≤ 4096; omega

/-- The elements under block t. -/
abbrev K (t : Fin 16) : Finset ((cc0_scratch0 : Ref sig .tc).ty.Idx) := (blk (offG t) (inbG t)).set

theorem mem_K (t : Fin 16) (i : (cc0_scratch0 : Ref sig .tc).ty.Idx) :
    i ∈ K t ↔ (i 0).val = t.val / 8 ∧ 32 * (t.val % 8) ≤ (i 1).val ∧ (i 1).val < 32 * (t.val % 8) + 32 :=
  mem_core (offG t) (inbG t) (t.val / 8) (32 * (t.val % 8)) rfl rfl rfl i

/-- Different blocks share no element: the slab and the row range determine t. -/
theorem K_disj (t t' : Fin 16) (h : t ≠ t') : Disjoint (K t) (K t') :=
  Finset.disjoint_left.mpr fun i hi hi' => by
    rw [mem_K] at hi hi'
    have := t.isLt
    have := t'.isLt
    exact h (Fin.ext (by omega))

/-- Every element lies under a block: that of its slab and of its row / 32. -/
theorem K_cover : (Finset.univ : Finset ((cc0_scratch0 : Ref sig .tc).ty.Idx)) = (Finset.univ : Finset (Fin 16)).biUnion K := by
  ext i
  have h0 : (i 0).val < 2 := (i 0).isLt
  have h1 : (i 1).val < 256 := (i 1).isLt
  refine ⟨fun _ => Finset.mem_biUnion.mpr ⟨⟨8 * (i 0).val + (i 1).val / 32, by omega⟩, Finset.mem_univ _, ?_⟩, fun _ => Finset.mem_univ _⟩
  rw [mem_K]
  show (i 0).val = (8 * (i 0).val + (i 1).val / 32) / 8 ∧ 32 * ((8 * (i 0).val + (i 1).val / 32) % 8) ≤ (i 1).val
    ∧ (i 1).val < 32 * ((8 * (i 0).val + (i 1).val / 32) % 8) + 32
  omega

/-! ## Ownership of the whole is ownership of the sixteen -/

/-- As an equation of assertions: the whole buffer at f, and the sixteen blocks at f, slab 0's eight then slab 1's. -/
theorem scratch_eq (c : Dev nD) (f : (cc0_scratch0 : Ref sig .tc).ty.Contents (Elt F)) :
    (((c : Thread nD τ).loc cc0_scratch0) ↦{fullShare} f : sProp 𝕄)
      = iprop((((cM.slice (Rect.unit (s := S2x256x4096) ![0, 0, 0] S1x32x4096.size inb_S2x256x4096_S1x32x4096_0_0_0) (fun _ => rfl)).squeeze S32x4096 squeezes_S1x32x4096_S32x4096).view.loc (c : Thread nD τ) ↦[((cM.slice (Rect.unit (s := S2x256x4096) ![0, 0, 0] S1x32x4096.size inb_S2x256x4096_S1x32x4096_0_0_0) (fun _ => rfl)).squeeze S32x4096 squeezes_S1x32x4096_S32x4096).view.set]{fullShare} f) ∗ (((cM.slice (Rect.unit (s := S2x256x4096) ![0, 32, 0] S1x32x4096.size inb_S2x256x4096_S1x32x4096_0_32_0) (fun _ => rfl)).squeeze S32x4096 squeezes_S1x32x4096_S32x4096).view.loc (c : Thread nD τ) ↦[((cM.slice (Rect.unit (s := S2x256x4096) ![0, 32, 0] S1x32x4096.size inb_S2x256x4096_S1x32x4096_0_32_0) (fun _ => rfl)).squeeze S32x4096 squeezes_S1x32x4096_S32x4096).view.set]{fullShare} f) ∗ (((cM.slice (Rect.unit (s := S2x256x4096) ![0, 64, 0] S1x32x4096.size inb_S2x256x4096_S1x32x4096_0_64_0) (fun _ => rfl)).squeeze S32x4096 squeezes_S1x32x4096_S32x4096).view.loc (c : Thread nD τ) ↦[((cM.slice (Rect.unit (s := S2x256x4096) ![0, 64, 0] S1x32x4096.size inb_S2x256x4096_S1x32x4096_0_64_0) (fun _ => rfl)).squeeze S32x4096 squeezes_S1x32x4096_S32x4096).view.set]{fullShare} f) ∗ (((cM.slice (Rect.unit (s := S2x256x4096) ![0, 96, 0] S1x32x4096.size inb_S2x256x4096_S1x32x4096_0_96_0) (fun _ => rfl)).squeeze S32x4096 squeezes_S1x32x4096_S32x4096).view.loc (c : Thread nD τ) ↦[((cM.slice (Rect.unit (s := S2x256x4096) ![0, 96, 0] S1x32x4096.size inb_S2x256x4096_S1x32x4096_0_96_0) (fun _ => rfl)).squeeze S32x4096 squeezes_S1x32x4096_S32x4096).view.set]{fullShare} f) ∗ (((cM.slice (Rect.unit (s := S2x256x4096) ![0, 128, 0] S1x32x4096.size inb_S2x256x4096_S1x32x4096_0_128_0) (fun _ => rfl)).squeeze S32x4096 squeezes_S1x32x4096_S32x4096).view.loc (c : Thread nD τ) ↦[((cM.slice (Rect.unit (s := S2x256x4096) ![0, 128, 0] S1x32x4096.size inb_S2x256x4096_S1x32x4096_0_128_0) (fun _ => rfl)).squeeze S32x4096 squeezes_S1x32x4096_S32x4096).view.set]{fullShare} f) ∗ (((cM.slice (Rect.unit (s := S2x256x4096) ![0, 160, 0] S1x32x4096.size inb_S2x256x4096_S1x32x4096_0_160_0) (fun _ => rfl)).squeeze S32x4096 squeezes_S1x32x4096_S32x4096).view.loc (c : Thread nD τ) ↦[((cM.slice (Rect.unit (s := S2x256x4096) ![0, 160, 0] S1x32x4096.size inb_S2x256x4096_S1x32x4096_0_160_0) (fun _ => rfl)).squeeze S32x4096 squeezes_S1x32x4096_S32x4096).view.set]{fullShare} f) ∗ (((cM.slice (Rect.unit (s := S2x256x4096) ![0, 192, 0] S1x32x4096.size inb_S2x256x4096_S1x32x4096_0_192_0) (fun _ => rfl)).squeeze S32x4096 squeezes_S1x32x4096_S32x4096).view.loc (c : Thread nD τ) ↦[((cM.slice (Rect.unit (s := S2x256x4096) ![0, 192, 0] S1x32x4096.size inb_S2x256x4096_S1x32x4096_0_192_0) (fun _ => rfl)).squeeze S32x4096 squeezes_S1x32x4096_S32x4096).view.set]{fullShare} f) ∗ (((cM.slice (Rect.unit (s := S2x256x4096) ![0, 224, 0] S1x32x4096.size inb_S2x256x4096_S1x32x4096_0_224_0) (fun _ => rfl)).squeeze S32x4096 squeezes_S1x32x4096_S32x4096).view.loc (c : Thread nD τ) ↦[((cM.slice (Rect.unit (s := S2x256x4096) ![0, 224, 0] S1x32x4096.size inb_S2x256x4096_S1x32x4096_0_224_0) (fun _ => rfl)).squeeze S32x4096 squeezes_S1x32x4096_S32x4096).view.set]{fullShare} f) ∗ (((cM.slice (Rect.unit (s := S2x256x4096) ![1, 0, 0] S1x32x4096.size inb_S2x256x4096_S1x32x4096_1_0_0) (fun _ => rfl)).squeeze S32x4096 squeezes_S1x32x4096_S32x4096).view.loc (c : Thread nD τ) ↦[((cM.slice (Rect.unit (s := S2x256x4096) ![1, 0, 0] S1x32x4096.size inb_S2x256x4096_S1x32x4096_1_0_0) (fun _ => rfl)).squeeze S32x4096 squeezes_S1x32x4096_S32x4096).view.set]{fullShare} f) ∗ (((cM.slice (Rect.unit (s := S2x256x4096) ![1, 32, 0] S1x32x4096.size inb_S2x256x4096_S1x32x4096_1_32_0) (fun _ => rfl)).squeeze S32x4096 squeezes_S1x32x4096_S32x4096).view.loc (c : Thread nD τ) ↦[((cM.slice (Rect.unit (s := S2x256x4096) ![1, 32, 0] S1x32x4096.size inb_S2x256x4096_S1x32x4096_1_32_0) (fun _ => rfl)).squeeze S32x4096 squeezes_S1x32x4096_S32x4096).view.set]{fullShare} f) ∗ (((cM.slice (Rect.unit (s := S2x256x4096) ![1, 64, 0] S1x32x4096.size inb_S2x256x4096_S1x32x4096_1_64_0) (fun _ => rfl)).squeeze S32x4096 squeezes_S1x32x4096_S32x4096).view.loc (c : Thread nD τ) ↦[((cM.slice (Rect.unit (s := S2x256x4096) ![1, 64, 0] S1x32x4096.size inb_S2x256x4096_S1x32x4096_1_64_0) (fun _ => rfl)).squeeze S32x4096 squeezes_S1x32x4096_S32x4096).view.set]{fullShare} f) ∗ (((cM.slice (Rect.unit (s := S2x256x4096) ![1, 96, 0] S1x32x4096.size inb_S2x256x4096_S1x32x4096_1_96_0) (fun _ => rfl)).squeeze S32x4096 squeezes_S1x32x4096_S32x4096).view.loc (c : Thread nD τ) ↦[((cM.slice (Rect.unit (s := S2x256x4096) ![1, 96, 0] S1x32x4096.size inb_S2x256x4096_S1x32x4096_1_96_0) (fun _ => rfl)).squeeze S32x4096 squeezes_S1x32x4096_S32x4096).view.set]{fullShare} f) ∗ (((cM.slice (Rect.unit (s := S2x256x4096) ![1, 128, 0] S1x32x4096.size inb_S2x256x4096_S1x32x4096_1_128_0) (fun _ => rfl)).squeeze S32x4096 squeezes_S1x32x4096_S32x4096).view.loc (c : Thread nD τ) ↦[((cM.slice (Rect.unit (s := S2x256x4096) ![1, 128, 0] S1x32x4096.size inb_S2x256x4096_S1x32x4096_1_128_0) (fun _ => rfl)).squeeze S32x4096 squeezes_S1x32x4096_S32x4096).view.set]{fullShare} f) ∗ (((cM.slice (Rect.unit (s := S2x256x4096) ![1, 160, 0] S1x32x4096.size inb_S2x256x4096_S1x32x4096_1_160_0) (fun _ => rfl)).squeeze S32x4096 squeezes_S1x32x4096_S32x4096).view.loc (c : Thread nD τ) ↦[((cM.slice (Rect.unit (s := S2x256x4096) ![1, 160, 0] S1x32x4096.size inb_S2x256x4096_S1x32x4096_1_160_0) (fun _ => rfl)).squeeze S32x4096 squeezes_S1x32x4096_S32x4096).view.set]{fullShare} f) ∗ (((cM.slice (Rect.unit (s := S2x256x4096) ![1, 192, 0] S1x32x4096.size inb_S2x256x4096_S1x32x4096_1_192_0) (fun _ => rfl)).squeeze S32x4096 squeezes_S1x32x4096_S32x4096).view.loc (c : Thread nD τ) ↦[((cM.slice (Rect.unit (s := S2x256x4096) ![1, 192, 0] S1x32x4096.size inb_S2x256x4096_S1x32x4096_1_192_0) (fun _ => rfl)).squeeze S32x4096 squeezes_S1x32x4096_S32x4096).view.set]{fullShare} f) ∗ (((cM.slice (Rect.unit (s := S2x256x4096) ![1, 224, 0] S1x32x4096.size inb_S2x256x4096_S1x32x4096_1_224_0) (fun _ => rfl)).squeeze S32x4096 squeezes_S1x32x4096_S32x4096).view.loc (c : Thread nD τ) ↦[((cM.slice (Rect.unit (s := S2x256x4096) ![1, 224, 0] S1x32x4096.size inb_S2x256x4096_S1x32x4096_1_224_0) (fun _ => rfl)).squeeze S32x4096 squeezes_S1x32x4096_S32x4096).view.set]{fullShare} f)) := by
  have h1 : (((c : Thread nD τ).loc cc0_scratch0) ↦{fullShare} f : sProp 𝕄)
      = bigSep (Finset.univ : Finset (Fin 16)) fun t => (((c : Thread nD τ).loc cc0_scratch0) ↦[K t]{fullShare} f : sProp 𝕄) := by
    have hb : (((c : Thread nD τ).loc cc0_scratch0) ↦[(Finset.univ : Finset (Fin 16)).biUnion K]{fullShare} f : sProp 𝕄)
        = bigSep (Finset.univ : Finset (Fin 16)) fun t => (((c : Thread nD τ).loc cc0_scratch0) ↦[K t]{fullShare} f : sProp 𝕄) :=
      pointsTo_biUnion (ℓ := (c : Thread nD τ).loc cc0_scratch0) Finset.univ K (fun t _ t' _ h => K_disj t t' h)
    rw [← K_cover] at hb
    exact hb
  rw [h1]
  exact bigSep_univ_eq_bigSepL [(0 : Fin 16), 1, 2, 3, 4, 5, 6, 7, 8, 9, 10, 11, 12, 13, 14, 15] (by decide) (by decide) _

/-- The same as a two-way entailment: .1 splits the whole buffer, .2 joins the sixteen blocks back. -/
theorem scratch_split (c : Dev nD) (f : (cc0_scratch0 : Ref sig .tc).ty.Contents (Elt F)) :
    (((c : Thread nD τ).loc cc0_scratch0) ↦{fullShare} f : sProp 𝕄)
      ⊣⊢ iprop((((cM.slice (Rect.unit (s := S2x256x4096) ![0, 0, 0] S1x32x4096.size inb_S2x256x4096_S1x32x4096_0_0_0) (fun _ => rfl)).squeeze S32x4096 squeezes_S1x32x4096_S32x4096).view.loc (c : Thread nD τ) ↦[((cM.slice (Rect.unit (s := S2x256x4096) ![0, 0, 0] S1x32x4096.size inb_S2x256x4096_S1x32x4096_0_0_0) (fun _ => rfl)).squeeze S32x4096 squeezes_S1x32x4096_S32x4096).view.set]{fullShare} f) ∗ (((cM.slice (Rect.unit (s := S2x256x4096) ![0, 32, 0] S1x32x4096.size inb_S2x256x4096_S1x32x4096_0_32_0) (fun _ => rfl)).squeeze S32x4096 squeezes_S1x32x4096_S32x4096).view.loc (c : Thread nD τ) ↦[((cM.slice (Rect.unit (s := S2x256x4096) ![0, 32, 0] S1x32x4096.size inb_S2x256x4096_S1x32x4096_0_32_0) (fun _ => rfl)).squeeze S32x4096 squeezes_S1x32x4096_S32x4096).view.set]{fullShare} f) ∗ (((cM.slice (Rect.unit (s := S2x256x4096) ![0, 64, 0] S1x32x4096.size inb_S2x256x4096_S1x32x4096_0_64_0) (fun _ => rfl)).squeeze S32x4096 squeezes_S1x32x4096_S32x4096).view.loc (c : Thread nD τ) ↦[((cM.slice (Rect.unit (s := S2x256x4096) ![0, 64, 0] S1x32x4096.size inb_S2x256x4096_S1x32x4096_0_64_0) (fun _ => rfl)).squeeze S32x4096 squeezes_S1x32x4096_S32x4096).view.set]{fullShare} f) ∗ (((cM.slice (Rect.unit (s := S2x256x4096) ![0, 96, 0] S1x32x4096.size inb_S2x256x4096_S1x32x4096_0_96_0) (fun _ => rfl)).squeeze S32x4096 squeezes_S1x32x4096_S32x4096).view.loc (c : Thread nD τ) ↦[((cM.slice (Rect.unit (s := S2x256x4096) ![0, 96, 0] S1x32x4096.size inb_S2x256x4096_S1x32x4096_0_96_0) (fun _ => rfl)).squeeze S32x4096 squeezes_S1x32x4096_S32x4096).view.set]{fullShare} f) ∗ (((cM.slice (Rect.unit (s := S2x256x4096) ![0, 128, 0] S1x32x4096.size inb_S2x256x4096_S1x32x4096_0_128_0) (fun _ => rfl)).squeeze S32x4096 squeezes_S1x32x4096_S32x4096).view.loc (c : Thread nD τ) ↦[((cM.slice (Rect.unit (s := S2x256x4096) ![0, 128, 0] S1x32x4096.size inb_S2x256x4096_S1x32x4096_0_128_0) (fun _ => rfl)).squeeze S32x4096 squeezes_S1x32x4096_S32x4096).view.set]{fullShare} f) ∗ (((cM.slice (Rect.unit (s := S2x256x4096) ![0, 160, 0] S1x32x4096.size inb_S2x256x4096_S1x32x4096_0_160_0) (fun _ => rfl)).squeeze S32x4096 squeezes_S1x32x4096_S32x4096).view.loc (c : Thread nD τ) ↦[((cM.slice (Rect.unit (s := S2x256x4096) ![0, 160, 0] S1x32x4096.size inb_S2x256x4096_S1x32x4096_0_160_0) (fun _ => rfl)).squeeze S32x4096 squeezes_S1x32x4096_S32x4096).view.set]{fullShare} f) ∗ (((cM.slice (Rect.unit (s := S2x256x4096) ![0, 192, 0] S1x32x4096.size inb_S2x256x4096_S1x32x4096_0_192_0) (fun _ => rfl)).squeeze S32x4096 squeezes_S1x32x4096_S32x4096).view.loc (c : Thread nD τ) ↦[((cM.slice (Rect.unit (s := S2x256x4096) ![0, 192, 0] S1x32x4096.size inb_S2x256x4096_S1x32x4096_0_192_0) (fun _ => rfl)).squeeze S32x4096 squeezes_S1x32x4096_S32x4096).view.set]{fullShare} f) ∗ (((cM.slice (Rect.unit (s := S2x256x4096) ![0, 224, 0] S1x32x4096.size inb_S2x256x4096_S1x32x4096_0_224_0) (fun _ => rfl)).squeeze S32x4096 squeezes_S1x32x4096_S32x4096).view.loc (c : Thread nD τ) ↦[((cM.slice (Rect.unit (s := S2x256x4096) ![0, 224, 0] S1x32x4096.size inb_S2x256x4096_S1x32x4096_0_224_0) (fun _ => rfl)).squeeze S32x4096 squeezes_S1x32x4096_S32x4096).view.set]{fullShare} f) ∗ (((cM.slice (Rect.unit (s := S2x256x4096) ![1, 0, 0] S1x32x4096.size inb_S2x256x4096_S1x32x4096_1_0_0) (fun _ => rfl)).squeeze S32x4096 squeezes_S1x32x4096_S32x4096).view.loc (c : Thread nD τ) ↦[((cM.slice (Rect.unit (s := S2x256x4096) ![1, 0, 0] S1x32x4096.size inb_S2x256x4096_S1x32x4096_1_0_0) (fun _ => rfl)).squeeze S32x4096 squeezes_S1x32x4096_S32x4096).view.set]{fullShare} f) ∗ (((cM.slice (Rect.unit (s := S2x256x4096) ![1, 32, 0] S1x32x4096.size inb_S2x256x4096_S1x32x4096_1_32_0) (fun _ => rfl)).squeeze S32x4096 squeezes_S1x32x4096_S32x4096).view.loc (c : Thread nD τ) ↦[((cM.slice (Rect.unit (s := S2x256x4096) ![1, 32, 0] S1x32x4096.size inb_S2x256x4096_S1x32x4096_1_32_0) (fun _ => rfl)).squeeze S32x4096 squeezes_S1x32x4096_S32x4096).view.set]{fullShare} f) ∗ (((cM.slice (Rect.unit (s := S2x256x4096) ![1, 64, 0] S1x32x4096.size inb_S2x256x4096_S1x32x4096_1_64_0) (fun _ => rfl)).squeeze S32x4096 squeezes_S1x32x4096_S32x4096).view.loc (c : Thread nD τ) ↦[((cM.slice (Rect.unit (s := S2x256x4096) ![1, 64, 0] S1x32x4096.size inb_S2x256x4096_S1x32x4096_1_64_0) (fun _ => rfl)).squeeze S32x4096 squeezes_S1x32x4096_S32x4096).view.set]{fullShare} f) ∗ (((cM.slice (Rect.unit (s := S2x256x4096) ![1, 96, 0] S1x32x4096.size inb_S2x256x4096_S1x32x4096_1_96_0) (fun _ => rfl)).squeeze S32x4096 squeezes_S1x32x4096_S32x4096).view.loc (c : Thread nD τ) ↦[((cM.slice (Rect.unit (s := S2x256x4096) ![1, 96, 0] S1x32x4096.size inb_S2x256x4096_S1x32x4096_1_96_0) (fun _ => rfl)).squeeze S32x4096 squeezes_S1x32x4096_S32x4096).view.set]{fullShare} f) ∗ (((cM.slice (Rect.unit (s := S2x256x4096) ![1, 128, 0] S1x32x4096.size inb_S2x256x4096_S1x32x4096_1_128_0) (fun _ => rfl)).squeeze S32x4096 squeezes_S1x32x4096_S32x4096).view.loc (c : Thread nD τ) ↦[((cM.slice (Rect.unit (s := S2x256x4096) ![1, 128, 0] S1x32x4096.size inb_S2x256x4096_S1x32x4096_1_128_0) (fun _ => rfl)).squeeze S32x4096 squeezes_S1x32x4096_S32x4096).view.set]{fullShare} f) ∗ (((cM.slice (Rect.unit (s := S2x256x4096) ![1, 160, 0] S1x32x4096.size inb_S2x256x4096_S1x32x4096_1_160_0) (fun _ => rfl)).squeeze S32x4096 squeezes_S1x32x4096_S32x4096).view.loc (c : Thread nD τ) ↦[((cM.slice (Rect.unit (s := S2x256x4096) ![1, 160, 0] S1x32x4096.size inb_S2x256x4096_S1x32x4096_1_160_0) (fun _ => rfl)).squeeze S32x4096 squeezes_S1x32x4096_S32x4096).view.set]{fullShare} f) ∗ (((cM.slice (Rect.unit (s := S2x256x4096) ![1, 192, 0] S1x32x4096.size inb_S2x256x4096_S1x32x4096_1_192_0) (fun _ => rfl)).squeeze S32x4096 squeezes_S1x32x4096_S32x4096).view.loc (c : Thread nD τ) ↦[((cM.slice (Rect.unit (s := S2x256x4096) ![1, 192, 0] S1x32x4096.size inb_S2x256x4096_S1x32x4096_1_192_0) (fun _ => rfl)).squeeze S32x4096 squeezes_S1x32x4096_S32x4096).view.set]{fullShare} f) ∗ (((cM.slice (Rect.unit (s := S2x256x4096) ![1, 224, 0] S1x32x4096.size inb_S2x256x4096_S1x32x4096_1_224_0) (fun _ => rfl)).squeeze S32x4096 squeezes_S1x32x4096_S32x4096).view.loc (c : Thread nD τ) ↦[((cM.slice (Rect.unit (s := S2x256x4096) ![1, 224, 0] S1x32x4096.size inb_S2x256x4096_S1x32x4096_1_224_0) (fun _ => rfl)).squeeze S32x4096 squeezes_S1x32x4096_S32x4096).view.set]{fullShare} f)) :=
  BiEntails.of_eq (scratch_eq c f)

end Cert.Kernel.ScratchSplit

end
-- ==== Proof.OutGeomBits.lean ====
/-
  The sixteen rectangles of the result a device stores through.

  The staged result is 256 × 8192.  For chunk k the device stores two 32 × 4096 blocks, both at rows 32 k .. 32 k + 32:
  one at columns 4096 y .. with y the device's own half, the other at columns 4096 (1 - y) .., the other half.  A
  rectangle at row offset R and column offset 4096 y has its element (q, j) at (R + q, 4096 y + j); so an element
  (r, col) of the result lies under it exactly when R ≤ r < R + 32 and col / 4096 = y, and it is then the block's element
  (r - R, col % 4096), where r - R = r % 32 because 32 divides R.  A store through the rectangle leaves the payload
  there and the old contents everywhere else.  Nothing is decided over the column axis but col / 4096.
-/
import proofs.«900346_g7700000000000347_dist_arsfmx_v7x_xyz2x2x4_y_t256_d512_v4096_bf16_1_alg».proof.Proof.DataBits
import proofs.«900346_g7700000000000347_dist_arsfmx_v7x_xyz2x2x4_y_t256_d512_v4096_bf16_1_alg».proof.Proof.MeshBits
import proofs.«900346_g7700000000000347_dist_arsfmx_v7x_xyz2x2x4_y_t256_d512_v4096_bf16_1_alg».proof.Proof.Gen.Kernel
import Idealize.ShloMosaic.Lib.Pipeline.Value

noncomputable section

namespace Cert.Kernel.OutGeom

open Cert.Kernel Cert.Kernel.Gen Cert.Kernel.Mesh Cert.Kernel.Data
open Idealize.ShloMosaic Idealize.ShloMosaic.TcCoe

/-! ## A 32 × 4096 rectangle of the result, given by its offsets -/

section Core
variable (off : Fin 2 → Nat) (inb : ∀ a, off a + S32x4096.size a ≤ S256x8192.size a)

/-- The rectangle's element x sits at the offsets plus x. -/
theorem emb_core (x : S32x4096.Idx) (a : Fin 2) :
    ((oM.access (Rect.unit (s := S256x8192) off S32x4096.size inb)).emb x a : Nat) = off a + (x a : Nat) := by
  show ((Rect.unit (s := S256x8192) off S32x4096.size inb).emb x a : Nat) = _
  rw [Rect.emb_apply]
  show off a + 1 * (x a : Nat) = _
  rw [Nat.one_mul]

/-- Its element (q, j), with the two offsets named. -/
theorem emb_pair (R C : Nat) (h0 : off 0 = R) (h1 : off 1 = C) (q : Fin 32) (j : Fin 4096) :
    ((oM.access (Rect.unit (s := S256x8192) off S32x4096.size inb)).emb (ix2b q j) 0).val = R + q.val
      ∧ ((oM.access (Rect.unit (s := S256x8192) off S32x4096.size inb)).emb (ix2b q j) 1).val = C + j.val :=
  ⟨(emb_core off inb (ix2b q j) 0).trans (by rw [h0]; rfl), (emb_core off inb (ix2b q j) 1).trans (by rw [h1]; rfl)⟩

/-- The elements under it: each coordinate within the rectangle's range. -/
theorem mem_range (i : (cc0_stg2_0 : Ref sig .tc).ty.Idx) :
    i ∈ (oM.access (Rect.unit (s := S256x8192) off S32x4096.size inb)).set ↔ ∀ a, off a ≤ i a ∧ (i a : Nat) < off a + S32x4096.size a := by
  have hs : (oM.access (Rect.unit (s := S256x8192) off S32x4096.size inb)).set = (Rect.unit (s := S256x8192) off S32x4096.size inb).set :=
    View.set_slice_whole cc0_stg2_0 _
  rw [hs]
  exact Rect.mem_set_unit

/-- The same with the row offset R and the column half y named: rows R .. R + 32, columns of half y. -/
theorem mem_core (R y : Nat) (h0 : off 0 = R) (h1 : off 1 = 4096 * y) (i : (cc0_stg2_0 : Ref sig .tc).ty.Idx) :
    i ∈ (oM.access (Rect.unit (s := S256x8192) off S32x4096.size inb)).set ↔ R ≤ (i 0).val ∧ (i 0).val < R + 32 ∧ (i 1).val / 4096 = y := by
  rw [mem_range]
  have l1 : (i 1).val < 8192 := (i 1).isLt
  constructor
  · intro h
    have a0 : off 0 ≤ (i 0).val ∧ (i 0).val < off 0 + 32 := h 0
    have a1 : off 1 ≤ (i 1).val ∧ (i 1).val < off 1 + 4096 := h 1
    omega
  · intro h a
    match a with
    | ⟨0, _⟩ => show off 0 ≤ (i 0).val ∧ (i 0).val < off 0 + 32; omega
    | ⟨1, _⟩ => show off 1 ≤ (i 1).val ∧ (i 1).val < off 1 + 4096; omega

variable {F : FTy → Type} [FloatOps F]

/-- A store through the rectangle, read at the element that is the rectangle's (q, j): the payload there. -/
theorem write_at (f : (cc0_stg2_0 : Ref sig .tc).ty.Contents (Elt F)) (w : FVec F S32x4096 .bf16) (i : (cc0_stg2_0 : Ref sig .tc).ty.Idx)
    (q : Fin 32) (j : Fin 4096) (hq : (i 0).val = off 0 + q.val) (hj : (i 1).val = off 1 + j.val) :
    View.write (Elt F) (oM.access (Rect.unit (s := S256x8192) off S32x4096.size inb)) f w Finset.univ i = w (ix2b q j) := by
  have e : i = (oM.access (Rect.unit (s := S256x8192) off S32x4096.size inb)).emb (ix2b q j) :=
    funext fun a => Fin.ext (by
      rw [emb_core]
      match a with
      | ⟨0, _⟩ => exact hq
      | ⟨1, _⟩ => exact hj)
  have hw : View.write (Elt F) (oM.access (Rect.unit (s := S256x8192) off S32x4096.size inb)) f w Finset.univ
      ((oM.access (Rect.unit (s := S256x8192) off S32x4096.size inb)).emb (ix2b q j)) = w (ix2b q j) :=
    View.write_emb_of_mem (v := oM.access (Rect.unit (s := S256x8192) off S32x4096.size inb)) (Val := Elt F) f w
      (M := Finset.univ) (x := ix2b q j) (Finset.mem_univ _)
  exact (congrArg (View.write (Elt F) (oM.access (Rect.unit (s := S256x8192) off S32x4096.size inb)) f w Finset.univ) e).trans hw

/-- At an element under the rectangle: the payload at (row % 32, column % 4096), the row offset being a multiple of 32. -/
theorem write_mem (R y : Nat) (h0 : off 0 = R) (h1 : off 1 = 4096 * y) (hR : R % 32 = 0)
    (f : (cc0_stg2_0 : Ref sig .tc).ty.Contents (Elt F)) (w : FVec F S32x4096 .bf16) (i : (cc0_stg2_0 : Ref sig .tc).ty.Idx)
    (hi : i ∈ (oM.access (Rect.unit (s := S256x8192) off S32x4096.size inb)).set) :
    View.write (Elt F) (oM.access (Rect.unit (s := S256x8192) off S32x4096.size inb)) f w Finset.univ i
      = w (ix2b (inChunk ⟨(i 0).val, (i 0).isLt⟩) ⟨(i 1).val % 4096, Nat.mod_lt _ (by decide)⟩) := by
  rw [mem_core off inb R y h0 h1] at hi
  have l1 : (i 1).val < 8192 := (i 1).isLt
  exact write_at off inb f w i _ _ (by show (i 0).val = off 0 + (i 0).val % 32; omega) (by show (i 1).val = off 1 + (i 1).val % 4096; omega)

/-- At an element not under the rectangle: the old contents. -/
theorem write_not (f : (cc0_stg2_0 : Ref sig .tc).ty.Contents (Elt F)) (w : FVec F S32x4096 .bf16) (i : (cc0_stg2_0 : Ref sig .tc).ty.Idx)
    (hi : i ∉ (oM.access (Rect.unit (s := S256x8192) off S32x4096.size inb)).set) :
    View.write (Elt F) (oM.access (Rect.unit (s := S256x8192) off S32x4096.size inb)) f w Finset.univ i = f i := by
  -- under the whole mask the masked elements are the view's elements
  have hi' : i ∉ (oM.access (Rect.unit (s := S256x8192) off S32x4096.size inb)).setOn Finset.univ := by
    rw [View.setOn_univ]; exact hi
  exact View.write_of_not_mem (v := oM.access (Rect.unit (s := S256x8192) off S32x4096.size inb)) (Val := Elt F) f w Finset.univ hi'

end Core

/-! ## The sixteen rectangles, as the stores spell them -/

variable {F : FTy → Type} [FloatOps F]

/-! ### Chunk 0: rows 0 .. 32 -/

theorem row_own_0 (c : Dev nD) : k0_off1 c 0 = 0 := by rw [k0_off1_eq]; rfl
theorem col_own_0 (c : Dev nD) : k0_off1 c 1 = 4096 * yOf c := by rw [k0_off1_eq]; rfl
theorem row_oth_0 (c : Dev nD) : k0_off2 c 0 = 0 := by rw [k0_off2_eq]; rfl
theorem col_oth_0 (c : Dev nD) : k0_off2 c 1 = 4096 * (1 - yOf c) := by
  rw [k0_off2_eq]; show 4096 - 4096 * yOf c = 4096 * (1 - yOf c); have := yOf_lt c; omega

theorem mem_own_0 (c : Dev nD) (i : (cc0_stg2_0 : Ref sig .tc).ty.Idx) :
    i ∈ (oM.access (Rect.unit (s := S256x8192) (k0_off1 c) S32x4096.size (k0_off1_inb c))).set ↔ 0 ≤ (i 0).val ∧ (i 0).val < 0 + 32 ∧ (i 1).val / 4096 = yOf c :=
  mem_core (k0_off1 c) (k0_off1_inb c) 0 (yOf c) (row_own_0 c) (col_own_0 c) i
theorem mem_oth_0 (c : Dev nD) (i : (cc0_stg2_0 : Ref sig .tc).ty.Idx) :
    i ∈ (oM.access (Rect.unit (s := S256x8192) (k0_off2 c) S32x4096.size (k0_off2_inb c))).set ↔ 0 ≤ (i 0).val ∧ (i 0).val < 0 + 32 ∧ (i 1).val / 4096 = 1 - yOf c :=
  mem_core (k0_off2 c) (k0_off2_inb c) 0 (1 - yOf c) (row_oth_0 c) (col_oth_0 c) i

theorem emb_own_0 (c : Dev nD) (q : Fin 32) (j : Fin 4096) :
    ((oM.access (Rect.unit (s := S256x8192) (k0_off1 c) S32x4096.size (k0_off1_inb c))).emb (ix2b q j) 0).val = 0 + q.val ∧ ((oM.access (Rect.unit (s := S256x8192) (k0_off1 c) S32x4096.size (k0_off1_inb c))).emb (ix2b q j) 1).val = 4096 * yOf c + j.val :=
  emb_pair (k0_off1 c) (k0_off1_inb c) 0 (4096 * yOf c) (row_own_0 c) (col_own_0 c) q j
theorem emb_oth_0 (c : Dev nD) (q : Fin 32) (j : Fin 4096) :
    ((oM.access (Rect.unit (s := S256x8192) (k0_off2 c) S32x4096.size (k0_off2_inb c))).emb (ix2b q j) 0).val = 0 + q.val ∧ ((oM.access (Rect.unit (s := S256x8192) (k0_off2 c) S32x4096.size (k0_off2_inb c))).emb (ix2b q j) 1).val = 4096 * (1 - yOf c) + j.val :=
  emb_pair (k0_off2 c) (k0_off2_inb c) 0 (4096 * (1 - yOf c)) (row_oth_0 c) (col_oth_0 c) q j

theorem write_own_0 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off1 c) S32x4096.size (k0_off1_inb c))).set) :
    View.write (Elt F) (oM.access (Rect.unit (s := S256x8192) (k0_off1 c) S32x4096.size (k0_off1_inb c))) f w Finset.univ i
      = w (ix2b (inChunk ⟨(i 0).val, (i 0).isLt⟩) ⟨(i 1).val % 4096, Nat.mod_lt _ (by decide)⟩) :=
  write_mem (k0_off1 c) (k0_off1_inb c) 0 (yOf c) (row_own_0 c) (col_own_0 c) (by decide) f w i hi
theorem write_own_0_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off1 c) S32x4096.size (k0_off1_inb c))).set) :
    View.write (Elt F) (oM.access (Rect.unit (s := S256x8192) (k0_off1 c) S32x4096.size (k0_off1_inb c))) f w Finset.univ i = f i :=
  write_not (k0_off1 c) (k0_off1_inb c) f w i hi
theorem write_oth_0 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off2 c) S32x4096.size (k0_off2_inb c))).set) :
    View.write (Elt F) (oM.access (Rect.unit (s := S256x8192) (k0_off2 c) S32x4096.size (k0_off2_inb c))) f w Finset.univ i
      = w (ix2b (inChunk ⟨(i 0).val, (i 0).isLt⟩) ⟨(i 1).val % 4096, Nat.mod_lt _ (by decide)⟩) :=
  write_mem (k0_off2 c) (k0_off2_inb c) 0 (1 - yOf c) (row_oth_0 c) (col_oth_0 c) (by decide) f w i hi
theorem write_oth_0_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off2 c) S32x4096.size (k0_off2_inb c))).set) :
    View.write (Elt F) (oM.access (Rect.unit (s := S256x8192) (k0_off2 c) S32x4096.size (k0_off2_inb c))) f w Finset.univ i = f i :=
  write_not (k0_off2 c) (k0_off2_inb c) f w i hi

/-! ### Chunk 1: rows 32 .. 64 -/

theorem row_own_1 (c : Dev nD) : k0_off3 c 0 = 32 := by rw [k0_off3_eq]; rfl
theorem col_own_1 (c : Dev nD) : k0_off3 c 1 = 4096 * yOf c := by rw [k0_off3_eq]; rfl
theorem row_oth_1 (c : Dev nD) : k0_off4 c 0 = 32 := by rw [k0_off4_eq]; rfl
theorem col_oth_1 (c : Dev nD) : k0_off4 c 1 = 4096 * (1 - yOf c) := by
  rw [k0_off4_eq]; show 4096 - 4096 * yOf c = 4096 * (1 - yOf c); have := yOf_lt c; omega

theorem mem_own_1 (c : Dev nD) (i : (cc0_stg2_0 : Ref sig .tc).ty.Idx) :
    i ∈ (oM.access (Rect.unit (s := S256x8192) (k0_off3 c) S32x4096.size (k0_off3_inb c))).set ↔ 32 ≤ (i 0).val ∧ (i 0).val < 32 + 32 ∧ (i 1).val / 4096 = yOf c :=
  mem_core (k0_off3 c) (k0_off3_inb c) 32 (yOf c) (row_own_1 c) (col_own_1 c) i
theorem mem_oth_1 (c : Dev nD) (i : (cc0_stg2_0 : Ref sig .tc).ty.Idx) :
    i ∈ (oM.access (Rect.unit (s := S256x8192) (k0_off4 c) S32x4096.size (k0_off4_inb c))).set ↔ 32 ≤ (i 0).val ∧ (i 0).val < 32 + 32 ∧ (i 1).val / 4096 = 1 - yOf c :=
  mem_core (k0_off4 c) (k0_off4_inb c) 32 (1 - yOf c) (row_oth_1 c) (col_oth_1 c) i

theorem emb_own_1 (c : Dev nD) (q : Fin 32) (j : Fin 4096) :
    ((oM.access (Rect.unit (s := S256x8192) (k0_off3 c) S32x4096.size (k0_off3_inb c))).emb (ix2b q j) 0).val = 32 + q.val ∧ ((oM.access (Rect.unit (s := S256x8192) (k0_off3 c) S32x4096.size (k0_off3_inb c))).emb (ix2b q j) 1).val = 4096 * yOf c + j.val :=
  emb_pair (k0_off3 c) (k0_off3_inb c) 32 (4096 * yOf c) (row_own_1 c) (col_own_1 c) q j
theorem emb_oth_1 (c : Dev nD) (q : Fin 32) (j : Fin 4096) :
    ((oM.access (Rect.unit (s := S256x8192) (k0_off4 c) S32x4096.size (k0_off4_inb c))).emb (ix2b q j) 0).val = 32 + q.val ∧ ((oM.access (Rect.unit (s := S256x8192) (k0_off4 c) S32x4096.size (k0_off4_inb c))).emb (ix2b q j) 1).val = 4096 * (1 - yOf c) + j.val :=
  emb_pair (k0_off4 c) (k0_off4_inb c) 32 (4096 * (1 - yOf c)) (row_oth_1 c) (col_oth_1 c) q j

theorem write_own_1 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off3 c) S32x4096.size (k0_off3_inb c))).set) :
    View.write (Elt F) (oM.access (Rect.unit (s := S256x8192) (k0_off3 c) S32x4096.size (k0_off3_inb c))) f w Finset.univ i
      = w (ix2b (inChunk ⟨(i 0).val, (i 0).isLt⟩) ⟨(i 1).val % 4096, Nat.mod_lt _ (by decide)⟩) :=
  write_mem (k0_off3 c) (k0_off3_inb c) 32 (yOf c) (row_own_1 c) (col_own_1 c) (by decide) f w i hi
theorem write_own_1_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off3 c) S32x4096.size (k0_off3_inb c))).set) :
    View.write (Elt F) (oM.access (Rect.unit (s := S256x8192) (k0_off3 c) S32x4096.size (k0_off3_inb c))) f w Finset.univ i = f i :=
  write_not (k0_off3 c) (k0_off3_inb c) f w i hi
theorem write_oth_1 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off4 c) S32x4096.size (k0_off4_inb c))).set) :
    View.write (Elt F) (oM.access (Rect.unit (s := S256x8192) (k0_off4 c) S32x4096.size (k0_off4_inb c))) f w Finset.univ i
      = w (ix2b (inChunk ⟨(i 0).val, (i 0).isLt⟩) ⟨(i 1).val % 4096, Nat.mod_lt _ (by decide)⟩) :=
  write_mem (k0_off4 c) (k0_off4_inb c) 32 (1 - yOf c) (row_oth_1 c) (col_oth_1 c) (by decide) f w i hi
theorem write_oth_1_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off4 c) S32x4096.size (k0_off4_inb c))).set) :
    View.write (Elt F) (oM.access (Rect.unit (s := S256x8192) (k0_off4 c) S32x4096.size (k0_off4_inb c))) f w Finset.univ i = f i :=
  write_not (k0_off4 c) (k0_off4_inb c) f w i hi

/-! ### Chunk 2: rows 64 .. 96 -/

theorem row_own_2 (c : Dev nD) : k0_off5 c 0 = 64 := by rw [k0_off5_eq]; rfl
theorem col_own_2 (c : Dev nD) : k0_off5 c 1 = 4096 * yOf c := by rw [k0_off5_eq]; rfl
theorem row_oth_2 (c : Dev nD) : k0_off6 c 0 = 64 := by rw [k0_off6_eq]; rfl
theorem col_oth_2 (c : Dev nD) : k0_off6 c 1 = 4096 * (1 - yOf c) := by
  rw [k0_off6_eq]; show 4096 - 4096 * yOf c = 4096 * (1 - yOf c); have := yOf_lt c; omega

theorem mem_own_2 (c : Dev nD) (i : (cc0_stg2_0 : Ref sig .tc).ty.Idx) :
    i ∈ (oM.access (Rect.unit (s := S256x8192) (k0_off5 c) S32x4096.size (k0_off5_inb c))).set ↔ 64 ≤ (i 0).val ∧ (i 0).val < 64 + 32 ∧ (i 1).val / 4096 = yOf c :=
  mem_core (k0_off5 c) (k0_off5_inb c) 64 (yOf c) (row_own_2 c) (col_own_2 c) i
theorem mem_oth_2 (c : Dev nD) (i : (cc0_stg2_0 : Ref sig .tc).ty.Idx) :
    i ∈ (oM.access (Rect.unit (s := S256x8192) (k0_off6 c) S32x4096.size (k0_off6_inb c))).set ↔ 64 ≤ (i 0).val ∧ (i 0).val < 64 + 32 ∧ (i 1).val / 4096 = 1 - yOf c :=
  mem_core (k0_off6 c) (k0_off6_inb c) 64 (1 - yOf c) (row_oth_2 c) (col_oth_2 c) i

theorem emb_own_2 (c : Dev nD) (q : Fin 32) (j : Fin 4096) :
    ((oM.access (Rect.unit (s := S256x8192) (k0_off5 c) S32x4096.size (k0_off5_inb c))).emb (ix2b q j) 0).val = 64 + q.val ∧ ((oM.access (Rect.unit (s := S256x8192) (k0_off5 c) S32x4096.size (k0_off5_inb c))).emb (ix2b q j) 1).val = 4096 * yOf c + j.val :=
  emb_pair (k0_off5 c) (k0_off5_inb c) 64 (4096 * yOf c) (row_own_2 c) (col_own_2 c) q j
theorem emb_oth_2 (c : Dev nD) (q : Fin 32) (j : Fin 4096) :
    ((oM.access (Rect.unit (s := S256x8192) (k0_off6 c) S32x4096.size (k0_off6_inb c))).emb (ix2b q j) 0).val = 64 + q.val ∧ ((oM.access (Rect.unit (s := S256x8192) (k0_off6 c) S32x4096.size (k0_off6_inb c))).emb (ix2b q j) 1).val = 4096 * (1 - yOf c) + j.val :=
  emb_pair (k0_off6 c) (k0_off6_inb c) 64 (4096 * (1 - yOf c)) (row_oth_2 c) (col_oth_2 c) q j

theorem write_own_2 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off5 c) S32x4096.size (k0_off5_inb c))).set) :
    View.write (Elt F) (oM.access (Rect.unit (s := S256x8192) (k0_off5 c) S32x4096.size (k0_off5_inb c))) f w Finset.univ i
      = w (ix2b (inChunk ⟨(i 0).val, (i 0).isLt⟩) ⟨(i 1).val % 4096, Nat.mod_lt _ (by decide)⟩) :=
  write_mem (k0_off5 c) (k0_off5_inb c) 64 (yOf c) (row_own_2 c) (col_own_2 c) (by decide) f w i hi
theorem write_own_2_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off5 c) S32x4096.size (k0_off5_inb c))).set) :
    View.write (Elt F) (oM.access (Rect.unit (s := S256x8192) (k0_off5 c) S32x4096.size (k0_off5_inb c))) f w Finset.univ i = f i :=
  write_not (k0_off5 c) (k0_off5_inb c) f w i hi
theorem write_oth_2 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off6 c) S32x4096.size (k0_off6_inb c))).set) :
    View.write (Elt F) (oM.access (Rect.unit (s := S256x8192) (k0_off6 c) S32x4096.size (k0_off6_inb c))) f w Finset.univ i
      = w (ix2b (inChunk ⟨(i 0).val, (i 0).isLt⟩) ⟨(i 1).val % 4096, Nat.mod_lt _ (by decide)⟩) :=
  write_mem (k0_off6 c) (k0_off6_inb c) 64 (1 - yOf c) (row_oth_2 c) (col_oth_2 c) (by decide) f w i hi
theorem write_oth_2_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off6 c) S32x4096.size (k0_off6_inb c))).set) :
    View.write (Elt F) (oM.access (Rect.unit (s := S256x8192) (k0_off6 c) S32x4096.size (k0_off6_inb c))) f w Finset.univ i = f i :=
  write_not (k0_off6 c) (k0_off6_inb c) f w i hi

/-! ### Chunk 3: rows 96 .. 128 -/

theorem row_own_3 (c : Dev nD) : k0_off7 c 0 = 96 := by rw [k0_off7_eq]; rfl
theorem col_own_3 (c : Dev nD) : k0_off7 c 1 = 4096 * yOf c := by rw [k0_off7_eq]; rfl
theorem row_oth_3 (c : Dev nD) : k0_off8 c 0 = 96 := by rw [k0_off8_eq]; rfl
theorem col_oth_3 (c : Dev nD) : k0_off8 c 1 = 4096 * (1 - yOf c) := by
  rw [k0_off8_eq]; show 4096 - 4096 * yOf c = 4096 * (1 - yOf c); have := yOf_lt c; omega

theorem mem_own_3 (c : Dev nD) (i : (cc0_stg2_0 : Ref sig .tc).ty.Idx) :
    i ∈ (oM.access (Rect.unit (s := S256x8192) (k0_off7 c) S32x4096.size (k0_off7_inb c))).set ↔ 96 ≤ (i 0).val ∧ (i 0).val < 96 + 32 ∧ (i 1).val / 4096 = yOf c :=
  mem_core (k0_off7 c) (k0_off7_inb c) 96 (yOf c) (row_own_3 c) (col_own_3 c) i
theorem mem_oth_3 (c : Dev nD) (i : (cc0_stg2_0 : Ref sig .tc).ty.Idx) :
    i ∈ (oM.access (Rect.unit (s := S256x8192) (k0_off8 c) S32x4096.size (k0_off8_inb c))).set ↔ 96 ≤ (i 0).val ∧ (i 0).val < 96 + 32 ∧ (i 1).val / 4096 = 1 - yOf c :=
  mem_core (k0_off8 c) (k0_off8_inb c) 96 (1 - yOf c) (row_oth_3 c) (col_oth_3 c) i

theorem emb_own_3 (c : Dev nD) (q : Fin 32) (j : Fin 4096) :
    ((oM.access (Rect.unit (s := S256x8192) (k0_off7 c) S32x4096.size (k0_off7_inb c))).emb (ix2b q j) 0).val = 96 + q.val ∧ ((oM.access (Rect.unit (s := S256x8192) (k0_off7 c) S32x4096.size (k0_off7_inb c))).emb (ix2b q j) 1).val = 4096 * yOf c + j.val :=
  emb_pair (k0_off7 c) (k0_off7_inb c) 96 (4096 * yOf c) (row_own_3 c) (col_own_3 c) q j
theorem emb_oth_3 (c : Dev nD) (q : Fin 32) (j : Fin 4096) :
    ((oM.access (Rect.unit (s := S256x8192) (k0_off8 c) S32x4096.size (k0_off8_inb c))).emb (ix2b q j) 0).val = 96 + q.val ∧ ((oM.access (Rect.unit (s := S256x8192) (k0_off8 c) S32x4096.size (k0_off8_inb c))).emb (ix2b q j) 1).val = 4096 * (1 - yOf c) + j.val :=
  emb_pair (k0_off8 c) (k0_off8_inb c) 96 (4096 * (1 - yOf c)) (row_oth_3 c) (col_oth_3 c) q j

theorem write_own_3 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off7 c) S32x4096.size (k0_off7_inb c))).set) :
    View.write (Elt F) (oM.access (Rect.unit (s := S256x8192) (k0_off7 c) S32x4096.size (k0_off7_inb c))) f w Finset.univ i
      = w (ix2b (inChunk ⟨(i 0).val, (i 0).isLt⟩) ⟨(i 1).val % 4096, Nat.mod_lt _ (by decide)⟩) :=
  write_mem (k0_off7 c) (k0_off7_inb c) 96 (yOf c) (row_own_3 c) (col_own_3 c) (by decide) f w i hi
theorem write_own_3_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off7 c) S32x4096.size (k0_off7_inb c))).set) :
    View.write (Elt F) (oM.access (Rect.unit (s := S256x8192) (k0_off7 c) S32x4096.size (k0_off7_inb c))) f w Finset.univ i = f i :=
  write_not (k0_off7 c) (k0_off7_inb c) f w i hi
theorem write_oth_3 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off8 c) S32x4096.size (k0_off8_inb c))).set) :
    View.write (Elt F) (oM.access (Rect.unit (s := S256x8192) (k0_off8 c) S32x4096.size (k0_off8_inb c))) f w Finset.univ i
      = w (ix2b (inChunk ⟨(i 0).val, (i 0).isLt⟩) ⟨(i 1).val % 4096, Nat.mod_lt _ (by decide)⟩) :=
  write_mem (k0_off8 c) (k0_off8_inb c) 96 (1 - yOf c) (row_oth_3 c) (col_oth_3 c) (by decide) f w i hi
theorem write_oth_3_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off8 c) S32x4096.size (k0_off8_inb c))).set) :
    View.write (Elt F) (oM.access (Rect.unit (s := S256x8192) (k0_off8 c) S32x4096.size (k0_off8_inb c))) f w Finset.univ i = f i :=
  write_not (k0_off8 c) (k0_off8_inb c) f w i hi

/-! ### Chunk 4: rows 128 .. 160 -/

theorem row_own_4 (c : Dev nD) : k0_off9 c 0 = 128 := by rw [k0_off9_eq]; rfl
theorem col_own_4 (c : Dev nD) : k0_off9 c 1 = 4096 * yOf c := by rw [k0_off9_eq]; rfl
theorem row_oth_4 (c : Dev nD) : k0_off10 c 0 = 128 := by rw [k0_off10_eq]; rfl
theorem col_oth_4 (c : Dev nD) : k0_off10 c 1 = 4096 * (1 - yOf c) := by
  rw [k0_off10_eq]; show 4096 - 4096 * yOf c = 4096 * (1 - yOf c); have := yOf_lt c; omega

theorem mem_own_4 (c : Dev nD) (i : (cc0_stg2_0 : Ref sig .tc).ty.Idx) :
    i ∈ (oM.access (Rect.unit (s := S256x8192) (k0_off9 c) S32x4096.size (k0_off9_inb c))).set ↔ 128 ≤ (i 0).val ∧ (i 0).val < 128 + 32 ∧ (i 1).val / 4096 = yOf c :=
  mem_core (k0_off9 c) (k0_off9_inb c) 128 (yOf c) (row_own_4 c) (col_own_4 c) i
theorem mem_oth_4 (c : Dev nD) (i : (cc0_stg2_0 : Ref sig .tc).ty.Idx) :
    i ∈ (oM.access (Rect.unit (s := S256x8192) (k0_off10 c) S32x4096.size (k0_off10_inb c))).set ↔ 128 ≤ (i 0).val ∧ (i 0).val < 128 + 32 ∧ (i 1).val / 4096 = 1 - yOf c :=
  mem_core (k0_off10 c) (k0_off10_inb c) 128 (1 - yOf c) (row_oth_4 c) (col_oth_4 c) i

theorem emb_own_4 (c : Dev nD) (q : Fin 32) (j : Fin 4096) :
    ((oM.access (Rect.unit (s := S256x8192) (k0_off9 c) S32x4096.size (k0_off9_inb c))).emb (ix2b q j) 0).val = 128 + q.val ∧ ((oM.access (Rect.unit (s := S256x8192) (k0_off9 c) S32x4096.size (k0_off9_inb c))).emb (ix2b q j) 1).val = 4096 * yOf c + j.val :=
  emb_pair (k0_off9 c) (k0_off9_inb c) 128 (4096 * yOf c) (row_own_4 c) (col_own_4 c) q j
theorem emb_oth_4 (c : Dev nD) (q : Fin 32) (j : Fin 4096) :
    ((oM.access (Rect.unit (s := S256x8192) (k0_off10 c) S32x4096.size (k0_off10_inb c))).emb (ix2b q j) 0).val = 128 + q.val ∧ ((oM.access (Rect.unit (s := S256x8192) (k0_off10 c) S32x4096.size (k0_off10_inb c))).emb (ix2b q j) 1).val = 4096 * (1 - yOf c) + j.val :=
  emb_pair (k0_off10 c) (k0_off10_inb c) 128 (4096 * (1 - yOf c)) (row_oth_4 c) (col_oth_4 c) q j

theorem write_own_4 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off9 c) S32x4096.size (k0_off9_inb c))).set) :
    View.write (Elt F) (oM.access (Rect.unit (s := S256x8192) (k0_off9 c) S32x4096.size (k0_off9_inb c))) f w Finset.univ i
      = w (ix2b (inChunk ⟨(i 0).val, (i 0).isLt⟩) ⟨(i 1).val % 4096, Nat.mod_lt _ (by decide)⟩) :=
  write_mem (k0_off9 c) (k0_off9_inb c) 128 (yOf c) (row_own_4 c) (col_own_4 c) (by decide) f w i hi
theorem write_own_4_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off9 c) S32x4096.size (k0_off9_inb c))).set) :
    View.write (Elt F) (oM.access (Rect.unit (s := S256x8192) (k0_off9 c) S32x4096.size (k0_off9_inb c))) f w Finset.univ i = f i :=
  write_not (k0_off9 c) (k0_off9_inb c) f w i hi
theorem write_oth_4 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off10 c) S32x4096.size (k0_off10_inb c))).set) :
    View.write (Elt F) (oM.access (Rect.unit (s := S256x8192) (k0_off10 c) S32x4096.size (k0_off10_inb c))) f w Finset.univ i
      = w (ix2b (inChunk ⟨(i 0).val, (i 0).isLt⟩) ⟨(i 1).val % 4096, Nat.mod_lt _ (by decide)⟩) :=
  write_mem (k0_off10 c) (k0_off10_inb c) 128 (1 - yOf c) (row_oth_4 c) (col_oth_4 c) (by decide) f w i hi
theorem write_oth_4_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off10 c) S32x4096.size (k0_off10_inb c))).set) :
    View.write (Elt F) (oM.access (Rect.unit (s := S256x8192) (k0_off10 c) S32x4096.size (k0_off10_inb c))) f w Finset.univ i = f i :=
  write_not (k0_off10 c) (k0_off10_inb c) f w i hi

/-! ### Chunk 5: rows 160 .. 192 -/

theorem row_own_5 (c : Dev nD) : k0_off11 c 0 = 160 := by rw [k0_off11_eq]; rfl
theorem col_own_5 (c : Dev nD) : k0_off11 c 1 = 4096 * yOf c := by rw [k0_off11_eq]; rfl
theorem row_oth_5 (c : Dev nD) : k0_off12 c 0 = 160 := by rw [k0_off12_eq]; rfl
theorem col_oth_5 (c : Dev nD) : k0_off12 c 1 = 4096 * (1 - yOf c) := by
  rw [k0_off12_eq]; show 4096 - 4096 * yOf c = 4096 * (1 - yOf c); have := yOf_lt c; omega

theorem mem_own_5 (c : Dev nD) (i : (cc0_stg2_0 : Ref sig .tc).ty.Idx) :
    i ∈ (oM.access (Rect.unit (s := S256x8192) (k0_off11 c) S32x4096.size (k0_off11_inb c))).set ↔ 160 ≤ (i 0).val ∧ (i 0).val < 160 + 32 ∧ (i 1).val / 4096 = yOf c :=
  mem_core (k0_off11 c) (k0_off11_inb c) 160 (yOf c) (row_own_5 c) (col_own_5 c) i
theorem mem_oth_5 (c : Dev nD) (i : (cc0_stg2_0 : Ref sig .tc).ty.Idx) :
    i ∈ (oM.access (Rect.unit (s := S256x8192) (k0_off12 c) S32x4096.size (k0_off12_inb c))).set ↔ 160 ≤ (i 0).val ∧ (i 0).val < 160 + 32 ∧ (i 1).val / 4096 = 1 - yOf c :=
  mem_core (k0_off12 c) (k0_off12_inb c) 160 (1 - yOf c) (row_oth_5 c) (col_oth_5 c) i

theorem emb_own_5 (c : Dev nD) (q : Fin 32) (j : Fin 4096) :
    ((oM.access (Rect.unit (s := S256x8192) (k0_off11 c) S32x4096.size (k0_off11_inb c))).emb (ix2b q j) 0).val = 160 + q.val ∧ ((oM.access (Rect.unit (s := S256x8192) (k0_off11 c) S32x4096.size (k0_off11_inb c))).emb (ix2b q j) 1).val = 4096 * yOf c + j.val :=
  emb_pair (k0_off11 c) (k0_off11_inb c) 160 (4096 * yOf c) (row_own_5 c) (col_own_5 c) q j
theorem emb_oth_5 (c : Dev nD) (q : Fin 32) (j : Fin 4096) :
    ((oM.access (Rect.unit (s := S256x8192) (k0_off12 c) S32x4096.size (k0_off12_inb c))).emb (ix2b q j) 0).val = 160 + q.val ∧ ((oM.access (Rect.unit (s := S256x8192) (k0_off12 c) S32x4096.size (k0_off12_inb c))).emb (ix2b q j) 1).val = 4096 * (1 - yOf c) + j.val :=
  emb_pair (k0_off12 c) (k0_off12_inb c) 160 (4096 * (1 - yOf c)) (row_oth_5 c) (col_oth_5 c) q j

theorem write_own_5 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off11 c) S32x4096.size (k0_off11_inb c))).set) :
    View.write (Elt F) (oM.access (Rect.unit (s := S256x8192) (k0_off11 c) S32x4096.size (k0_off11_inb c))) f w Finset.univ i
      = w (ix2b (inChunk ⟨(i 0).val, (i 0).isLt⟩) ⟨(i 1).val % 4096, Nat.mod_lt _ (by decide)⟩) :=
  write_mem (k0_off11 c) (k0_off11_inb c) 160 (yOf c) (row_own_5 c) (col_own_5 c) (by decide) f w i hi
theorem write_own_5_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off11 c) S32x4096.size (k0_off11_inb c))).set) :
    View.write (Elt F) (oM.access (Rect.unit (s := S256x8192) (k0_off11 c) S32x4096.size (k0_off11_inb c))) f w Finset.univ i = f i :=
  write_not (k0_off11 c) (k0_off11_inb c) f w i hi
theorem write_oth_5 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off12 c) S32x4096.size (k0_off12_inb c))).set) :
    View.write (Elt F) (oM.access (Rect.unit (s := S256x8192) (k0_off12 c) S32x4096.size (k0_off12_inb c))) f w Finset.univ i
      = w (ix2b (inChunk ⟨(i 0).val, (i 0).isLt⟩) ⟨(i 1).val % 4096, Nat.mod_lt _ (by decide)⟩) :=
  write_mem (k0_off12 c) (k0_off12_inb c) 160 (1 - yOf c) (row_oth_5 c) (col_oth_5 c) (by decide) f w i hi
theorem write_oth_5_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off12 c) S32x4096.size (k0_off12_inb c))).set) :
    View.write (Elt F) (oM.access (Rect.unit (s := S256x8192) (k0_off12 c) S32x4096.size (k0_off12_inb c))) f w Finset.univ i = f i :=
  write_not (k0_off12 c) (k0_off12_inb c) f w i hi

/-! ### Chunk 6: rows 192 .. 224 -/

theorem row_own_6 (c : Dev nD) : k0_off13 c 0 = 192 := by rw [k0_off13_eq]; rfl
theorem col_own_6 (c : Dev nD) : k0_off13 c 1 = 4096 * yOf c := by rw [k0_off13_eq]; rfl
theorem row_oth_6 (c : Dev nD) : k0_off14 c 0 = 192 := by rw [k0_off14_eq]; rfl
theorem col_oth_6 (c : Dev nD) : k0_off14 c 1 = 4096 * (1 - yOf c) := by
  rw [k0_off14_eq]; show 4096 - 4096 * yOf c = 4096 * (1 - yOf c); have := yOf_lt c; omega

theorem mem_own_6 (c : Dev nD) (i : (cc0_stg2_0 : Ref sig .tc).ty.Idx) :
    i ∈ (oM.access (Rect.unit (s := S256x8192) (k0_off13 c) S32x4096.size (k0_off13_inb c))).set ↔ 192 ≤ (i 0).val ∧ (i 0).val < 192 + 32 ∧ (i 1).val / 4096 = yOf c :=
  mem_core (k0_off13 c) (k0_off13_inb c) 192 (yOf c) (row_own_6 c) (col_own_6 c) i
theorem mem_oth_6 (c : Dev nD) (i : (cc0_stg2_0 : Ref sig .tc).ty.Idx) :
    i ∈ (oM.access (Rect.unit (s := S256x8192) (k0_off14 c) S32x4096.size (k0_off14_inb c))).set ↔ 192 ≤ (i 0).val ∧ (i 0).val < 192 + 32 ∧ (i 1).val / 4096 = 1 - yOf c :=
  mem_core (k0_off14 c) (k0_off14_inb c) 192 (1 - yOf c) (row_oth_6 c) (col_oth_6 c) i

theorem emb_own_6 (c : Dev nD) (q : Fin 32) (j : Fin 4096) :
    ((oM.access (Rect.unit (s := S256x8192) (k0_off13 c) S32x4096.size (k0_off13_inb c))).emb (ix2b q j) 0).val = 192 + q.val ∧ ((oM.access (Rect.unit (s := S256x8192) (k0_off13 c) S32x4096.size (k0_off13_inb c))).emb (ix2b q j) 1).val = 4096 * yOf c + j.val :=
  emb_pair (k0_off13 c) (k0_off13_inb c) 192 (4096 * yOf c) (row_own_6 c) (col_own_6 c) q j
theorem emb_oth_6 (c : Dev nD) (q : Fin 32) (j : Fin 4096) :
    ((oM.access (Rect.unit (s := S256x8192) (k0_off14 c) S32x4096.size (k0_off14_inb c))).emb (ix2b q j) 0).val = 192 + q.val ∧ ((oM.access (Rect.unit (s := S256x8192) (k0_off14 c) S32x4096.size (k0_off14_inb c))).emb (ix2b q j) 1).val = 4096 * (1 - yOf c) + j.val :=
  emb_pair (k0_off14 c) (k0_off14_inb c) 192 (4096 * (1 - yOf c)) (row_oth_6 c) (col_oth_6 c) q j

theorem write_own_6 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off13 c) S32x4096.size (k0_off13_inb c))).set) :
    View.write (Elt F) (oM.access (Rect.unit (s := S256x8192) (k0_off13 c) S32x4096.size (k0_off13_inb c))) f w Finset.univ i
      = w (ix2b (inChunk ⟨(i 0).val, (i 0).isLt⟩) ⟨(i 1).val % 4096, Nat.mod_lt _ (by decide)⟩) :=
  write_mem (k0_off13 c) (k0_off13_inb c) 192 (yOf c) (row_own_6 c) (col_own_6 c) (by decide) f w i hi
theorem write_own_6_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off13 c) S32x4096.size (k0_off13_inb c))).set) :
    View.write (Elt F) (oM.access (Rect.unit (s := S256x8192) (k0_off13 c) S32x4096.size (k0_off13_inb c))) f w Finset.univ i = f i :=
  write_not (k0_off13 c) (k0_off13_inb c) f w i hi
theorem write_oth_6 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off14 c) S32x4096.size (k0_off14_inb c))).set) :
    View.write (Elt F) (oM.access (Rect.unit (s := S256x8192) (k0_off14 c) S32x4096.size (k0_off14_inb c))) f w Finset.univ i
      = w (ix2b (inChunk ⟨(i 0).val, (i 0).isLt⟩) ⟨(i 1).val % 4096, Nat.mod_lt _ (by decide)⟩) :=
  write_mem (k0_off14 c) (k0_off14_inb c) 192 (1 - yOf c) (row_oth_6 c) (col_oth_6 c) (by decide) f w i hi
theorem write_oth_6_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off14 c) S32x4096.size (k0_off14_inb c))).set) :
    View.write (Elt F) (oM.access (Rect.unit (s := S256x8192) (k0_off14 c) S32x4096.size (k0_off14_inb c))) f w Finset.univ i = f i :=
  write_not (k0_off14 c) (k0_off14_inb c) f w i hi

/-! ### Chunk 7: rows 224 .. 256 -/

theorem row_own_7 (c : Dev nD) : k0_off15 c 0 = 224 := by rw [k0_off15_eq]; rfl
theorem col_own_7 (c : Dev nD) : k0_off15 c 1 = 4096 * yOf c := by rw [k0_off15_eq]; rfl
theorem row_oth_7 (c : Dev nD) : k0_off16 c 0 = 224 := by rw [k0_off16_eq]; rfl
theorem col_oth_7 (c : Dev nD) : k0_off16 c 1 = 4096 * (1 - yOf c) := by
  rw [k0_off16_eq]; show 4096 - 4096 * yOf c = 4096 * (1 - yOf c); have := yOf_lt c; omega

theorem mem_own_7 (c : Dev nD) (i : (cc0_stg2_0 : Ref sig .tc).ty.Idx) :
    i ∈ (oM.access (Rect.unit (s := S256x8192) (k0_off15 c) S32x4096.size (k0_off15_inb c))).set ↔ 224 ≤ (i 0).val ∧ (i 0).val < 224 + 32 ∧ (i 1).val / 4096 = yOf c :=
  mem_core (k0_off15 c) (k0_off15_inb c) 224 (yOf c) (row_own_7 c) (col_own_7 c) i
theorem mem_oth_7 (c : Dev nD) (i : (cc0_stg2_0 : Ref sig .tc).ty.Idx) :
    i ∈ (oM.access (Rect.unit (s := S256x8192) (k0_off16 c) S32x4096.size (k0_off16_inb c))).set ↔ 224 ≤ (i 0).val ∧ (i 0).val < 224 + 32 ∧ (i 1).val / 4096 = 1 - yOf c :=
  mem_core (k0_off16 c) (k0_off16_inb c) 224 (1 - yOf c) (row_oth_7 c) (col_oth_7 c) i

theorem emb_own_7 (c : Dev nD) (q : Fin 32) (j : Fin 4096) :
    ((oM.access (Rect.unit (s := S256x8192) (k0_off15 c) S32x4096.size (k0_off15_inb c))).emb (ix2b q j) 0).val = 224 + q.val ∧ ((oM.access (Rect.unit (s := S256x8192) (k0_off15 c) S32x4096.size (k0_off15_inb c))).emb (ix2b q j) 1).val = 4096 * yOf c + j.val :=
  emb_pair (k0_off15 c) (k0_off15_inb c) 224 (4096 * yOf c) (row_own_7 c) (col_own_7 c) q j
theorem emb_oth_7 (c : Dev nD) (q : Fin 32) (j : Fin 4096) :
    ((oM.access (Rect.unit (s := S256x8192) (k0_off16 c) S32x4096.size (k0_off16_inb c))).emb (ix2b q j) 0).val = 224 + q.val ∧ ((oM.access (Rect.unit (s := S256x8192) (k0_off16 c) S32x4096.size (k0_off16_inb c))).emb (ix2b q j) 1).val = 4096 * (1 - yOf c) + j.val :=
  emb_pair (k0_off16 c) (k0_off16_inb c) 224 (4096 * (1 - yOf c)) (row_oth_7 c) (col_oth_7 c) q j

theorem write_own_7 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off15 c) S32x4096.size (k0_off15_inb c))).set) :
    View.write (Elt F) (oM.access (Rect.unit (s := S256x8192) (k0_off15 c) S32x4096.size (k0_off15_inb c))) f w Finset.univ i
      = w (ix2b (inChunk ⟨(i 0).val, (i 0).isLt⟩) ⟨(i 1).val % 4096, Nat.mod_lt _ (by decide)⟩) :=
  write_mem (k0_off15 c) (k0_off15_inb c) 224 (yOf c) (row_own_7 c) (col_own_7 c) (by decide) f w i hi
theorem write_own_7_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off15 c) S32x4096.size (k0_off15_inb c))).set) :
    View.write (Elt F) (oM.access (Rect.unit (s := S256x8192) (k0_off15 c) S32x4096.size (k0_off15_inb c))) f w Finset.univ i = f i :=
  write_not (k0_off15 c) (k0_off15_inb c) f w i hi
theorem write_oth_7 (c : Dev nD) (f : (cc0_stg2_0 : Ref sig .tc).ty.Contents (Elt F)) (w : FVec F S32x4096 .bf16) (i : (cc0_stg2_0 : Ref sig .tc).ty.Idx)
    (hi : i ∈ (oM.access (Rect.unit (s := S256x8192) (k0_off16 c) S32x4096.size (k0_off16_inb c))).set) :
    View.write (Elt F) (oM.access (Rect.unit (s := S256x8192) (k0_off16 c) S32x4096.size (k0_off16_inb c))) f w Finset.univ i
      = w (ix2b (inChunk ⟨(i 0).val, (i 0).isLt⟩) ⟨(i 1).val % 4096, Nat.mod_lt _ (by decide)⟩) :=
  write_mem (k0_off16 c) (k0_off16_inb c) 224 (1 - yOf c) (row_oth_7 c) (col_oth_7 c) (by decide) f w i hi
theorem write_oth_7_not (c : Dev nD) (f : (cc0_stg2_0 : Ref sig .tc).ty.Contents (Elt F)) (w : FVec F S32x4096 .bf16) (i : (cc0_stg2_0 : Ref sig .tc).ty.Idx)
    (hi : i ∉ (oM.access (Rect.unit (s := S256x8192) (k0_off16 c) S32x4096.size (k0_off16_inb c))).set) :
    View.write (Elt F) (oM.access (Rect.unit (s := S256x8192) (k0_off16 c) S32x4096.size (k0_off16_inb c))) f w Finset.univ i = f i :=
  write_not (k0_off16 c) (k0_off16_inb c) f w i hi

end Cert.Kernel.OutGeom

end
-- ==== Proof.OutBridgeBits.lean ====
/-
  What the sixteen stores leave in the staged result is the function outOf.

  The body stores, for each chunk k, the block own k through the rectangle at rows 32 k .. of the device's own column
  half and the block oth k through the rectangle at the same rows of the other half.  Each stored block agrees with
  outOf on its rectangle: the rectangle's element (q, j) is the result's element (32 k + q, 4096 h + j), whose chunk is
  k, whose place in the chunk is q, whose column half is h and whose lane is j — and outOf there is own k at (q, j)
  when h is the device's own half, oth k at (q, j) when it is the other.  The sixteen rectangles cover the result: a
  row below 256 lies in the rows of chunk row / 32, a column below 8192 in one of the two halves.  Writes whose
  payloads all agree with one function, and which cover, leave that function, whatever the buffer held before and in
  whatever order they were made.
-/
import proofs.«900346_g7700000000000347_dist_arsfmx_v7x_xyz2x2x4_y_t256_d512_v4096_bf16_1_alg».proof.Proof.OutGeomBits
import proofs.«900346_g7700000000000347_dist_arsfmx_v7x_xyz2x2x4_y_t256_d512_v4096_bf16_1_alg».proof.Proof.DataBits
import Idealize.ShloMosaic.Lib.Writes

noncomputable section

namespace Cert.Kernel.OutBridge

open Cert.Kernel Cert.Kernel.Gen Cert.Kernel.Mesh Cert.Kernel.Data
open Idealize.ShloMosaic Idealize.ShloMosaic.TcCoe

variable {F : FTy → Type} [FloatOps F]
variable (m : (ℓ : Loc nD τ sig) → Buf (Elt F) ℓ)

/-! ## outOf at an element given by its chunk, place, half and lane -/

/-- At row 32 k + q and a column whose lane is j, outOf is own k at (q, j) in the device's own half, oth k at (q, j) in the other. -/
theorem outOf_at (c : Dev nD) (i : (cc0_stg2_0 : Ref sig .tc).ty.Idx) (k : Fin 8) (q : Fin 32) (j : Fin 4096)
    (h0 : (i 0).val = 32 * k.val + q.val) (h1 : (i 1).val % 4096 = j.val) :
    outOf m c i = if (i 1).val / 4096 = yOf c then own k (mine m c k) (theirs m c k) (ix2b q j)
      else oth k (mine m c k) (theirs m c k) (ix2b q j) := by
  have hk : chunkOf ⟨(i 0).val, (i 0).isLt⟩ = k := Fin.ext (by show (i 0).val / 32 = k.val; omega)
  have hq : inChunk ⟨(i 0).val, (i 0).isLt⟩ = q := Fin.ext (by show (i 0).val % 32 = q.val; omega)
  have hj : (⟨(i 1).val % 4096, Nat.mod_lt _ (by decide)⟩ : Fin 4096) = j := Fin.ext h1
  show (if (i 1).val / 4096 = yOf c
      then own (chunkOf ⟨(i 0).val, (i 0).isLt⟩) (mine m c (chunkOf ⟨(i 0).val, (i 0).isLt⟩)) (theirs m c (chunkOf ⟨(i 0).val, (i 0).isLt⟩))
        (ix2b (inChunk ⟨(i 0).val, (i 0).isLt⟩) ⟨(i 1).val % 4096, Nat.mod_lt _ (by decide)⟩)
      else oth (chunkOf ⟨(i 0).val, (i 0).isLt⟩) (mine m c (chunkOf ⟨(i 0).val, (i 0).isLt⟩)) (theirs m c (chunkOf ⟨(i 0).val, (i 0).isLt⟩))
        (ix2b (inChunk ⟨(i 0).val, (i 0).isLt⟩) ⟨(i 1).val % 4096, Nat.mod_lt _ (by decide)⟩)) = _
  rw [hk, hq, hj]

/-! ## Each stored block agrees with outOf on its rectangle -/

/-- The block own k, stored at rows 32 k .. of the device's own half. -/
theorem piece_own_core (c : Dev nD) (off : Fin 2 → Nat) (inb : ∀ a, off a + S32x4096.size a ≤ S256x8192.size a) (k : Fin 8)
    (h0 : off 0 = 32 * k.val) (h1 : off 1 = 4096 * yOf c) (x : S32x4096.Idx) :
    own k (mine m c k) (theirs m c k) x = outOf m c ((Rect.unit (s := S256x8192) off S32x4096.size inb).emb x) := by
  have e0 : (((Rect.unit (s := S256x8192) off S32x4096.size inb).emb x) 0).val = off 0 + (x 0).val := OutGeom.emb_core off inb x 0
  have e1 : (((Rect.unit (s := S256x8192) off S32x4096.size inb).emb x) 1).val = off 1 + (x 1).val := OutGeom.emb_core off inb x 1
  have hx0 : (x 0).val < 32 := (x 0).isLt
  have hx1 : (x 1).val < 4096 := (x 1).isLt
  have hy := yOf_lt c
  rw [outOf_at m c _ k ⟨(x 0).val, hx0⟩ ⟨(x 1).val, hx1⟩ (by rw [e0]; show off 0 + (x 0).val = 32 * k.val + (x 0).val; omega)
      (by rw [e1]; show (off 1 + (x 1).val) % 4096 = (x 1).val; omega),
    if_pos (by rw [e1]; omega)]
  exact congrArg (own k (mine m c k) (theirs m c k)) (funext fun a => match a with | ⟨0, _⟩ => rfl | ⟨1, _⟩ => rfl)

/-- The block oth k, stored at rows 32 k .. of the other half. -/
theorem piece_oth_core (c : Dev nD) (off : Fin 2 → Nat) (inb : ∀ a, off a + S32x4096.size a ≤ S256x8192.size a) (k : Fin 8)
    (h0 : off 0 = 32 * k.val) (h1 : off 1 = 4096 * (1 - yOf c)) (x : S32x4096.Idx) :
    oth k (mine m c k) (theirs m c k) x = outOf m c ((Rect.unit (s := S256x8192) off S32x4096.size inb).emb x) := by
  have e0 : (((Rect.unit (s := S256x8192) off S32x4096.size inb).emb x) 0).val = off 0 + (x 0).val := OutGeom.emb_core off inb x 0
  have e1 : (((Rect.unit (s := S256x8192) off S32x4096.size inb).emb x) 1).val = off 1 + (x 1).val := OutGeom.emb_core off inb x 1
  have hx0 : (x 0).val < 32 := (x 0).isLt
  have hx1 : (x 1).val < 4096 := (x 1).isLt
  have hy := yOf_lt c
  rw [outOf_at m c _ k ⟨(x 0).val, hx0⟩ ⟨(x 1).val, hx1⟩ (by rw [e0]; show off 0 + (x 0).val = 32 * k.val + (x 0).val; omega)
      (by rw [e1]; show (off 1 + (x 1).val) % 4096 = (x 1).val; omega),
    if_neg (by rw [e1]; omega)]
  exact congrArg (oth k (mine m c k) (theirs m c k)) (funext fun a => match a with | ⟨0, _⟩ => rfl | ⟨1, _⟩ => rfl)

/-- The elements of a rectangle itself (not of the view through it): rows R .. R + 32, columns of half y. -/
theorem mem_rect (off : Fin 2 → Nat) (inb : ∀ a, off a + S32x4096.size a ≤ S256x8192.size a) (R y : Nat)
    (h0 : off 0 = R) (h1 : off 1 = 4096 * y) (i : S256x8192.Idx) :
    i ∈ (Rect.unit (s := S256x8192) off S32x4096.size inb).set ↔ R ≤ (i 0).val ∧ (i 0).val < R + 32 ∧ (i 1).val / 4096 = y := by
  rw [← View.set_slice_whole cc0_stg2_0 (Rect.unit (s := S256x8192) off S32x4096.size inb)]
  exact OutGeom.mem_core off inb R y h0 h1 i

/-! ## The sixteen pieces, newest first -/

abbrev p_oth7 (c : Dev nD) : View.Piece (Elt F) S256x8192 .bf16 := ⟨Rect.unit (s := S256x8192) (k0_off16 c) S32x4096.size (k0_off16_inb c), oth ⟨7, by decide⟩ (mine m c ⟨7, by decide⟩) (theirs m c ⟨7, by decide⟩)⟩
abbrev p_own7 (c : Dev nD) : View.Piece (Elt F) S256x8192 .bf16 := ⟨Rect.unit (s := S256x8192) (k0_off15 c) S32x4096.size (k0_off15_inb c), own ⟨7, by decide⟩ (mine m c ⟨7, by decide⟩) (theirs m c ⟨7, by decide⟩)⟩
abbrev p_oth6 (c : Dev nD) : View.Piece (Elt F) S256x8192 .bf16 := ⟨Rect.unit (s := S256x8192) (k0_off14 c) S32x4096.size (k0_off14_inb c), oth ⟨6, by decide⟩ (mine m c ⟨6, by decide⟩) (theirs m c ⟨6, by decide⟩)⟩
abbrev p_own6 (c : Dev nD) : View.Piece (Elt F) S256x8192 .bf16 := ⟨Rect.unit (s := S256x8192) (k0_off13 c) S32x4096.size (k0_off13_inb c), own ⟨6, by decide⟩ (mine m c ⟨6, by decide⟩) (theirs m c ⟨6, by decide⟩)⟩
abbrev p_oth5 (c : Dev nD) : View.Piece (Elt F) S256x8192 .bf16 := ⟨Rect.unit (s := S256x8192) (k0_off12 c) S32x4096.size (k0_off12_inb c), oth ⟨5, by decide⟩ (mine m c ⟨5, by decide⟩) (theirs m c ⟨5, by decide⟩)⟩
abbrev p_own5 (c : Dev nD) : View.Piece (Elt F) S256x8192 .bf16 := ⟨Rect.unit (s := S256x8192) (k0_off11 c) S32x4096.size (k0_off11_inb c), own ⟨5, by decide⟩ (mine m c ⟨5, by decide⟩) (theirs m c ⟨5, by decide⟩)⟩
abbrev p_oth4 (c : Dev nD) : View.Piece (Elt F) S256x8192 .bf16 := ⟨Rect.unit (s := S256x8192) (k0_off10 c) S32x4096.size (k0_off10_inb c), oth ⟨4, by decide⟩ (mine m c ⟨4, by decide⟩) (theirs m c ⟨4, by decide⟩)⟩
abbrev p_own4 (c : Dev nD) : View.Piece (Elt F) S256x8192 .bf16 := ⟨Rect.unit (s := S256x8192) (k0_off9 c) S32x4096.size (k0_off9_inb c), own ⟨4, by decide⟩ (mine m c ⟨4, by decide⟩) (theirs m c ⟨4, by decide⟩)⟩
abbrev p_oth3 (c : Dev nD) : View.Piece (Elt F) S256x8192 .bf16 := ⟨Rect.unit (s := S256x8192) (k0_off8 c) S32x4096.size (k0_off8_inb c), oth ⟨3, by decide⟩ (mine m c ⟨3, by decide⟩) (theirs m c ⟨3, by decide⟩)⟩
abbrev p_own3 (c : Dev nD) : View.Piece (Elt F) S256x8192 .bf16 := ⟨Rect.unit (s := S256x8192) (k0_off7 c) S32x4096.size (k0_off7_inb c), own ⟨3, by decide⟩ (mine m c ⟨3, by decide⟩) (theirs m c ⟨3, by decide⟩)⟩
abbrev p_oth2 (c : Dev nD) : View.Piece (Elt F) S256x8192 .bf16 := ⟨Rect.unit (s := S256x8192) (k0_off6 c) S32x4096.size (k0_off6_inb c), oth ⟨2, by decide⟩ (mine m c ⟨2, by decide⟩) (theirs m c ⟨2, by decide⟩)⟩
abbrev p_own2 (c : Dev nD) : View.Piece (Elt F) S256x8192 .bf16 := ⟨Rect.unit (s := S256x8192) (k0_off5 c) S32x4096.size (k0_off5_inb c), own ⟨2, by decide⟩ (mine m c ⟨2, by decide⟩) (theirs m c ⟨2, by decide⟩)⟩
abbrev p_oth1 (c : Dev nD) : View.Piece (Elt F) S256x8192 .bf16 := ⟨Rect.unit (s := S256x8192) (k0_off4 c) S32x4096.size (k0_off4_inb c), oth ⟨1, by decide⟩ (mine m c ⟨1, by decide⟩) (theirs m c ⟨1, by decide⟩)⟩
abbrev p_own1 (c : Dev nD) : View.Piece (Elt F) S256x8192 .bf16 := ⟨Rect.unit (s := S256x8192) (k0_off3 c) S32x4096.size (k0_off3_inb c), own ⟨1, by decide⟩ (mine m c ⟨1, by decide⟩) (theirs m c ⟨1, by decide⟩)⟩
abbrev p_oth0 (c : Dev nD) : View.Piece (Elt F) S256x8192 .bf16 := ⟨Rect.unit (s := S256x8192) (k0_off2 c) S32x4096.size (k0_off2_inb c), oth ⟨0, by decide⟩ (mine m c ⟨0, by decide⟩) (theirs m c ⟨0, by decide⟩)⟩
abbrev p_own0 (c : Dev nD) : View.Piece (Elt F) S256x8192 .bf16 := ⟨Rect.unit (s := S256x8192) (k0_off1 c) S32x4096.size (k0_off1_inb c), own ⟨0, by decide⟩ (mine m c ⟨0, by decide⟩) (theirs m c ⟨0, by decide⟩)⟩

/-- The stores in the order the body makes them, the last one first: chunk 7's other half, chunk 7's own half, … , chunk 0's. -/
abbrev pieces (c : Dev nD) : List (View.Piece (Elt F) S256x8192 .bf16) := [p_oth7 m c, p_own7 m c, p_oth6 m c, p_own6 m c, p_oth5 m c, p_own5 m c, p_oth4 m c, p_own4 m c, p_oth3 m c, p_own3 m c, p_oth2 m c, p_own2 m c, p_oth1 m c, p_own1 m c, p_oth0 m c, p_own0 m c]

/-- Every piece's payload is outOf on its rectangle. -/
theorem pieces_agree (c : Dev nD) : ∀ p ∈ pieces m c, ∀ x : p.1.shape.Idx, p.2 x = outOf m c (p.1.emb x) :=
  List.forall_mem_cons.2 ⟨piece_oth_core m c (k0_off16 c) (k0_off16_inb c) ⟨7, by decide⟩ (OutGeom.row_oth_7 c) (OutGeom.col_oth_7 c),
    List.forall_mem_cons.2 ⟨piece_own_core m c (k0_off15 c) (k0_off15_inb c) ⟨7, by decide⟩ (OutGeom.row_own_7 c) (OutGeom.col_own_7 c),
    List.forall_mem_cons.2 ⟨piece_oth_core m c (k0_off14 c) (k0_off14_inb c) ⟨6, by decide⟩ (OutGeom.row_oth_6 c) (OutGeom.col_oth_6 c),
    List.forall_mem_cons.2 ⟨piece_own_core m c (k0_off13 c) (k0_off13_inb c) ⟨6, by decide⟩ (OutGeom.row_own_6 c) (OutGeom.col_own_6 c),
    List.forall_mem_cons.2 ⟨piece_oth_core m c (k0_off12 c) (k0_off12_inb c) ⟨5, by decide⟩ (OutGeom.row_oth_5 c) (OutGeom.col_oth_5 c),
    List.forall_mem_cons.2 ⟨piece_own_core m c (k0_off11 c) (k0_off11_inb c) ⟨5, by decide⟩ (OutGeom.row_own_5 c) (OutGeom.col_own_5 c),
    List.forall_mem_cons.2 ⟨piece_oth_core m c (k0_off10 c) (k0_off10_inb c) ⟨4, by decide⟩ (OutGeom.row_oth_4 c) (OutGeom.col_oth_4 c),
    List.forall_mem_cons.2 ⟨piece_own_core m c (k0_off9 c) (k0_off9_inb c) ⟨4, by decide⟩ (OutGeom.row_own_4 c) (OutGeom.col_own_4 c),
    List.forall_mem_cons.2 ⟨piece_oth_core m c (k0_off8 c) (k0_off8_inb c) ⟨3, by decide⟩ (OutGeom.row_oth_3 c) (OutGeom.col_oth_3 c),
    List.forall_mem_cons.2 ⟨piece_own_core m c (k0_off7 c) (k0_off7_inb c) ⟨3, by decide⟩ (OutGeom.row_own_3 c) (OutGeom.col_own_3 c),
    List.forall_mem_cons.2 ⟨piece_oth_core m c (k0_off6 c) (k0_off6_inb c) ⟨2, by decide⟩ (OutGeom.row_oth_2 c) (OutGeom.col_oth_2 c),
    List.forall_mem_cons.2 ⟨piece_own_core m c (k0_off5 c) (k0_off5_inb c) ⟨2, by decide⟩ (OutGeom.row_own_2 c) (OutGeom.col_own_2 c),
    List.forall_mem_cons.2 ⟨piece_oth_core m c (k0_off4 c) (k0_off4_inb c) ⟨1, by decide⟩ (OutGeom.row_oth_1 c) (OutGeom.col_oth_1 c),
    List.forall_mem_cons.2 ⟨piece_own_core m c (k0_off3 c) (k0_off3_inb c) ⟨1, by decide⟩ (OutGeom.row_own_1 c) (OutGeom.col_own_1 c),
    List.forall_mem_cons.2 ⟨piece_oth_core m c (k0_off2 c) (k0_off2_inb c) ⟨0, by decide⟩ (OutGeom.row_oth_0 c) (OutGeom.col_oth_0 c),
    List.forall_mem_cons.2 ⟨piece_own_core m c (k0_off1 c) (k0_off1_inb c) ⟨0, by decide⟩ (OutGeom.row_own_0 c) (OutGeom.col_own_0 c),
    fun _ h => absurd h List.not_mem_nil⟩⟩⟩⟩⟩⟩⟩⟩⟩⟩⟩⟩⟩⟩⟩⟩

/-- Every element of the result lies under a piece: that of its chunk and of its column half. -/
theorem pieces_cover (c : Dev nD) (i : S256x8192.Idx) : ∃ p ∈ pieces m c, i ∈ p.1.set := by
  have l0 : (i 0).val < 256 := (i 0).isLt
  have l1 : (i 1).val < 8192 := (i 1).isLt
  have hy := yOf_lt c
  obtain ⟨k, hk⟩ : ∃ k : Fin 8, (i 0).val / 32 = k.val := ⟨⟨(i 0).val / 32, by omega⟩, rfl⟩
  by_cases hh : (i 1).val / 4096 = yOf c
  · match k, hk with
    | ⟨0, _⟩, hk =>
      have hk' : (i 0).val / 32 = 0 := hk
      exact ⟨p_own0 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), (mem_rect (k0_off1 c) (k0_off1_inb c) 0 (yOf c) (OutGeom.row_own_0 c) (OutGeom.col_own_0 c) i).mpr ⟨by omega, by omega, hh⟩⟩
    | ⟨1, _⟩, hk =>
      have hk' : (i 0).val / 32 = 1 := hk
      exact ⟨p_own1 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), (mem_rect (k0_off3 c) (k0_off3_inb c) 32 (yOf c) (OutGeom.row_own_1 c) (OutGeom.col_own_1 c) i).mpr ⟨by omega, by omega, hh⟩⟩
    | ⟨2, _⟩, hk =>
      have hk' : (i 0).val / 32 = 2 := hk
      exact ⟨p_own2 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), (mem_rect (k0_off5 c) (k0_off5_inb c) 64 (yOf c) (OutGeom.row_own_2 c) (OutGeom.col_own_2 c) i).mpr ⟨by omega, by omega, hh⟩⟩
    | ⟨3, _⟩, hk =>
      have hk' : (i 0).val / 32 = 3 := hk
      exact ⟨p_own3 m c, List.Mem.tail _ (List.Mem.tail _ (List.Mem.tail _ (List.Mem.tail _ (List.Mem.tail _ (List.Mem.tail _ (List.Mem.tail _ (List.Mem.tail _ (List.Mem.tail _ (List.Mem.head _))))))))), (mem_rect (k0_off7 c) (k0_off7_inb c) 96 (yOf c) (OutGeom.row_own_3 c) (OutGeom.col_own_3 c) i).mpr ⟨by omega, by omega, hh⟩⟩
    | ⟨4, _⟩, hk =>
      have hk' : (i 0).val / 32 = 4 := hk
      exact ⟨p_own4 m c, List.Mem.tail _ (List.Mem.tail _ (List.Mem.tail _ (List.Mem.tail _ (List.Mem.tail _ (List.Mem.tail _ (List.Mem.tail _ (List.Mem.head _))))))), (mem_rect (k0_off9 c) (k0_off9_inb c) 128 (yOf c) (OutGeom.row_own_4 c) (OutGeom.col_own_4 c) i).mpr ⟨by omega, by omega, hh⟩⟩
    | ⟨5, _⟩, hk =>
      have hk' : (i 0).val / 32 = 5 := hk
      exact ⟨p_own5 m c, List.Mem.tail _ (List.Mem.tail _ (List.Mem.tail _ (List.Mem.tail _ (List.Mem.tail _ (List.Mem.head _))))), (mem_rect (k0_off11 c) (k0_off11_inb c) 160 (yOf c) (OutGeom.row_own_5 c) (OutGeom.col_own_5 c) i).mpr ⟨by omega, by omega, hh⟩⟩
    | ⟨6, _⟩, hk =>
      have hk' : (i 0).val / 32 = 6 := hk
      exact ⟨p_own6 m c, List.Mem.tail _ (List.Mem.tail _ (List.Mem.tail _ (List.Mem.head _))), (mem_rect (k0_off13 c) (k0_off13_inb c) 192 (yOf c) (OutGeom.row_own_6 c) (OutGeom.col_own_6 c) i).mpr ⟨by omega, by omega, hh⟩⟩
    | ⟨7, _⟩, hk =>
      have hk' : (i 0).val / 32 = 7 := hk
      exact ⟨p_own7 m c, List.Mem.tail _ (List.Mem.head _), (mem_rect (k0_off15 c) (k0_off15_inb c) 224 (yOf c) (OutGeom.row_own_7 c) (OutGeom.col_own_7 c) i).mpr ⟨by omega, by omega, hh⟩⟩
  · have hh' : (i 1).val / 4096 = 1 - yOf c := by omega
    match k, hk with
    | ⟨0, _⟩, hk =>
      have hk' : (i 0).val / 32 = 0 := hk
      exact ⟨p_oth0 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), (mem_rect (k0_off2 c) (k0_off2_inb c) 0 (1 - yOf c) (OutGeom.row_oth_0 c) (OutGeom.col_oth_0 c) i).mpr ⟨by omega, by omega, hh'⟩⟩
    | ⟨1, _⟩, hk =>
      have hk' : (i 0).val / 32 = 1 := hk
      exact ⟨p_oth1 m c, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), (mem_rect (k0_off4 c) (k0_off4_inb c) 32 (1 - yOf c) (OutGeom.row_oth_1 c) (OutGeom.col_oth_1 c) i).mpr ⟨by omega, by omega, hh'⟩⟩
    | ⟨2, _⟩, hk =>
      have hk' : (i 0).val / 32 = 2 := hk
      exact ⟨p_oth2 m c, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), (mem_rect (k0_off6 c) (k0_off6_inb c) 64 (1 - yOf c) (OutGeom.row_oth_2 c) (OutGeom.col_oth_2 c) i).mpr ⟨by omega, by omega, hh'⟩⟩
    | ⟨3, _⟩, hk =>
      have hk' : (i 0).val / 32 = 3 := hk
      exact ⟨p_oth3 m c, List.Mem.tail _ (List.Mem.tail _ (List.Mem.tail _ (List.Mem.tail _ (List.Mem.tail _ (List.Mem.tail _ (List.Mem.tail _ (List.Mem.tail _ (List.Mem.head _)))))))), (mem_rect (k0_off8 c) (k0_off8_inb c) 96 (1 - yOf c) (OutGeom.row_oth_3 c) (OutGeom.col_oth_3 c) i).mpr ⟨by omega, by omega, hh'⟩⟩
    | ⟨4, _⟩, hk =>
      have hk' : (i 0).val / 32 = 4 := hk
      exact ⟨p_oth4 m c, List.Mem.tail _ (List.Mem.tail _ (List.Mem.tail _ (List.Mem.tail _ (List.Mem.tail _ (List.Mem.tail _ (List.Mem.head _)))))), (mem_rect (k0_off10 c) (k0_off10_inb c) 128 (1 - yOf c) (OutGeom.row_oth_4 c) (OutGeom.col_oth_4 c) i).mpr ⟨by omega, by omega, hh'⟩⟩
    | ⟨5, _⟩, hk =>
      have hk' : (i 0).val / 32 = 5 := hk
      exact ⟨p_oth5 m c, List.Mem.tail _ (List.Mem.tail _ (List.Mem.tail _ (List.Mem.tail _ (List.Mem.head _)))), (mem_rect (k0_off12 c) (k0_off12_inb c) 160 (1 - yOf c) (OutGeom.row_oth_5 c) (OutGeom.col_oth_5 c) i).mpr ⟨by omega, by omega, hh'⟩⟩
    | ⟨6, _⟩, hk =>
      have hk' : (i 0).val / 32 = 6 := hk
      exact ⟨p_oth6 m c, List.Mem.tail _ (List.Mem.tail _ (List.Mem.head _)), (mem_rect (k0_off14 c) (k0_off14_inb c) 192 (1 - yOf c) (OutGeom.row_oth_6 c) (OutGeom.col_oth_6 c) i).mpr ⟨by omega, by omega, hh'⟩⟩
    | ⟨7, _⟩, hk =>
      have hk' : (i 0).val / 32 = 7 := hk
      exact ⟨p_oth7 m c, List.Mem.head _, (mem_rect (k0_off16 c) (k0_off16_inb c) 224 (1 - yOf c) (OutGeom.row_oth_7 c) (OutGeom.col_oth_7 c) i).mpr ⟨by omega, by omega, hh'⟩⟩

/-! ## The bridge -/

/-- What the sixteen stores leave over any old contents is outOf. -/
theorem out_bridge (c : Dev nD) (fo : (cc0_stg2_0 : Ref sig .tc).ty.Contents (Elt F)) :
    oM.view.writes (Elt F) fo
      [⟨Rect.unit (s := S256x8192) (k0_off16 c) S32x4096.size (k0_off16_inb c), oth ⟨7, by decide⟩ (mine m c ⟨7, by decide⟩) (theirs m c ⟨7, by decide⟩)⟩,
        ⟨Rect.unit (s := S256x8192) (k0_off15 c) S32x4096.size (k0_off15_inb c), own ⟨7, by decide⟩ (mine m c ⟨7, by decide⟩) (theirs m c ⟨7, by decide⟩)⟩,
        ⟨Rect.unit (s := S256x8192) (k0_off14 c) S32x4096.size (k0_off14_inb c), oth ⟨6, by decide⟩ (mine m c ⟨6, by decide⟩) (theirs m c ⟨6, by decide⟩)⟩,
        ⟨Rect.unit (s := S256x8192) (k0_off13 c) S32x4096.size (k0_off13_inb c), own ⟨6, by decide⟩ (mine m c ⟨6, by decide⟩) (theirs m c ⟨6, by decide⟩)⟩,
        ⟨Rect.unit (s := S256x8192) (k0_off12 c) S32x4096.size (k0_off12_inb c), oth ⟨5, by decide⟩ (mine m c ⟨5, by decide⟩) (theirs m c ⟨5, by decide⟩)⟩,
        ⟨Rect.unit (s := S256x8192) (k0_off11 c) S32x4096.size (k0_off11_inb c), own ⟨5, by decide⟩ (mine m c ⟨5, by decide⟩) (theirs m c ⟨5, by decide⟩)⟩,
        ⟨Rect.unit (s := S256x8192) (k0_off10 c) S32x4096.size (k0_off10_inb c), oth ⟨4, by decide⟩ (mine m c ⟨4, by decide⟩) (theirs m c ⟨4, by decide⟩)⟩,
        ⟨Rect.unit (s := S256x8192) (k0_off9 c) S32x4096.size (k0_off9_inb c), own ⟨4, by decide⟩ (mine m c ⟨4, by decide⟩) (theirs m c ⟨4, by decide⟩)⟩,
        ⟨Rect.unit (s := S256x8192) (k0_off8 c) S32x4096.size (k0_off8_inb c), oth ⟨3, by decide⟩ (mine m c ⟨3, by decide⟩) (theirs m c ⟨3, by decide⟩)⟩,
        ⟨Rect.unit (s := S256x8192) (k0_off7 c) S32x4096.size (k0_off7_inb c), own ⟨3, by decide⟩ (mine m c ⟨3, by decide⟩) (theirs m c ⟨3, by decide⟩)⟩,
        ⟨Rect.unit (s := S256x8192) (k0_off6 c) S32x4096.size (k0_off6_inb c), oth ⟨2, by decide⟩ (mine m c ⟨2, by decide⟩) (theirs m c ⟨2, by decide⟩)⟩,
        ⟨Rect.unit (s := S256x8192) (k0_off5 c) S32x4096.size (k0_off5_inb c), own ⟨2, by decide⟩ (mine m c ⟨2, by decide⟩) (theirs m c ⟨2, by decide⟩)⟩,
        ⟨Rect.unit (s := S256x8192) (k0_off4 c) S32x4096.size (k0_off4_inb c), oth ⟨1, by decide⟩ (mine m c ⟨1, by decide⟩) (theirs m c ⟨1, by decide⟩)⟩,
        ⟨Rect.unit (s := S256x8192) (k0_off3 c) S32x4096.size (k0_off3_inb c), own ⟨1, by decide⟩ (mine m c ⟨1, by decide⟩) (theirs m c ⟨1, by decide⟩)⟩,
        ⟨Rect.unit (s := S256x8192) (k0_off2 c) S32x4096.size (k0_off2_inb c), oth ⟨0, by decide⟩ (mine m c ⟨0, by decide⟩) (theirs m c ⟨0, by decide⟩)⟩,
        ⟨Rect.unit (s := S256x8192) (k0_off1 c) S32x4096.size (k0_off1_inb c), own ⟨0, by decide⟩ (mine m c ⟨0, by decide⟩) (theirs m c ⟨0, by decide⟩)⟩]
      = outOf m c := by
  show oM.view.writes (Elt F) fo (pieces m c) = outOf m c
  funext i
  -- reading the whole buffer at i is the contents at i
  exact (congrFun (View.read_whole (Val := Elt F) cc0_stg2_0 (oM.view.writes (Elt F) fo (pieces m c))) i).symm.trans
    (View.read_writes_apply_of_pieces (v := oM.view) (Val := Elt F) fo (outOf m c) (pieces m c) (pieces_agree m c) i (pieces_cover m c i))

end Cert.Kernel.OutBridge

end
-- ==== Proof.BodyBits.lean ====
/-
  One device's body, stepped from what the device holds at its start to what it holds at its end.

  The device splits its scratch buffer into the sixteen row blocks (eight of slab 0, eight of slab 1).  It signals
  its peer's barrier cell, handing over its eight slab-1 blocks; computes and stores chunk 0; waits on its own
  barrier cell, which brings its peer's eight slab-1 blocks.  For each chunk it then makes the stored rows the rows
  of the whole-scratch function, lends the left half of them to the copy into the peer's slab 1, and keeps the right
  half, from which the second loop reads the block back while the copy may still be reading it.  In the second loop
  each send wait returns the lent half and each receive wait brings the peer's block; the two result blocks are
  formed and written.  At the end the sixteen send and receive cells are closed, their semaphores back at zero; the
  halves and then the sixteen row blocks are joined into the whole scratch buffer; and the sixteen writes into the
  staged result are the whole softmax, whatever the buffer held before.
-/
import proofs.«900346_g7700000000000347_dist_arsfmx_v7x_xyz2x2x4_y_t256_d512_v4096_bf16_1_alg».proof.Proof.ProtoBits
import proofs.«900346_g7700000000000347_dist_arsfmx_v7x_xyz2x2x4_y_t256_d512_v4096_bf16_1_alg».proof.Proof.CommFactsBits
import proofs.«900346_g7700000000000347_dist_arsfmx_v7x_xyz2x2x4_y_t256_d512_v4096_bf16_1_alg».proof.Proof.ScratchSplitBits
import proofs.«900346_g7700000000000347_dist_arsfmx_v7x_xyz2x2x4_y_t256_d512_v4096_bf16_1_alg».proof.Proof.OutBridgeBits

noncomputable section

namespace Cert.Kernel.Body

open Cert.Kernel Cert.Kernel.Gen Cert.Kernel.Mesh Cert.Kernel.Data Cert.Kernel.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_bar duties_send duties_recv amount_bar amount_send amount_recv expect_bar expect_send expect_recv
  payload_bar payload_send payload_recv barPay_eq peer_peer sendPay recvPay
  dstPts_0 dstPts_1 dstPts_2 dstPts_3 dstPts_4 dstPts_5 dstPts_6 dstPts_7
  srcPts_0 srcPts_1 srcPts_2 srcPts_3 srcPts_4 srcPts_5 srcPts_6 srcPts_7

/-- What the body starts from: the protocol's ghost state, the launch credit, the ranking, the whole scratch buffer at
    some contents, everything owed, and the three staging buffers — the inputs as fetched, the result at some contents. -/
def pre (K : Dev nD × Fin 17 → ℕ) (c : Dev nD) (W : Waits sig Unit)
    (f0 : (cc0_scratch0 : Ref sig .tc).ty.Contents (Elt F)) (fo : (cc0_stg2_0 : Ref sig .tc).ty.Contents (Elt F)) : sProp 𝕄 :=
  iprop(ghost m K c ∗ launchCreds (F := F) c ∗ levAts L lv ∗ scrPts c f0 ∗ owes (c : Thread nD τ) (O₀ c) W
    ∗ ((xM).view.loc (c : Thread nD τ) ↦{fullShare} xstg m c) ∗ ((wM).view.loc (c : Thread nD τ) ↦{fullShare} wstg m c)
    ∗ ((oM).view.loc (c : Thread nD τ) ↦{fullShare} fo))

/-- What it ends with: the scratch buffer at the two devices' blocks, the sixteen semaphores at zero, nothing owed,
    the staged inputs untouched and the staged result at the whole softmax. -/
def post (c : Dev nD) : sProp 𝕄 :=
  iprop(scrPts c (commOf m c)
    ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0
    ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0
    ∗ (∃ W', owes (c : Thread nD τ) 0 W')
    ∗ ((xM).view.loc (c : Thread nD τ) ↦{fullShare} xstg m c) ∗ ((wM).view.loc (c : Thread nD τ) ↦{fullShare} wstg m c)
    ∗ ((oM).view.loc (c : Thread nD τ) ↦{fullShare} outOf m c))

omit [FloatOps F] in
/-- A buffer held at contents equal to `G` is held at `G`. -/
theorem pts_of_eq (c : Dev nD) (R G : (cc0_stg2_0 : Ref sig .tc).ty.Contents (Elt F)) (h : R = G) :
    (((oM).view.loc (c : Thread nD τ) ↦{fullShare} R : sProp 𝕄)) ⊢ ((oM).view.loc (c : Thread nD τ) ↦{fullShare} G) := h ▸ BI.Entails.refl _

set_option maxHeartbeats 4000000 in
/-- The body on device `c`, from `pre` to `post`. -/
theorem body_run (K : Dev nD × Fin 17 → ℕ) (c : Dev nD) (W : Waits sig Unit)
    (f0 : (cc0_scratch0 : Ref sig .tc).ty.Contents (Elt F)) (fo : (cc0_stg2_0 : Ref sig .tc).ty.Contents (Elt F))
    :
    pre m K c W f0 fo
      ⊢ wp frame (wpE (defs₀ (F := F)) 𝒱₀ (c : Thread nD τ) none) Set.univ
          (cc0_body xM (Memref.isWhole_whole _) wM (Memref.isWhole_whole _) oM (Memref.isWhole_whole _) cM (Memref.isWhole_whole _) cc0_scratch1 cc0_scratch2) (fun _ => post m c) := by
  unfold pre ghost cellInvs launchCreds scrPts O₀ Orecv
  iintro ⟨⟨⟨#HIb, #HIs0, #HIs1, #HIs2, #HIs3, #HIs4, #HIs5, #HIs6, #HIs7, #HIr0, #HIr1, #HIr2, #HIr3, #HIr4, #HIr5, #HIr6, #HIr7, #HIbp, #HIrp0, #HIrp1, #HIrp2, #HIrp3, #HIrp4, #HIrp5, #HIrp6, #HIrp7⟩, Hat, Hats0, Hats1, Hats2, Hats3, Hats4, Hats5, Hats6, Hats7, Hatr0, Hatr1, Hatr2, Hatr3, Hatr4, Hatr5, Hatr6, Hatr7, #Hrbp, #Hrs0, #Hrs1, #Hrs2, #Hrs3, #Hrs4, #Hrs5, #Hrs6, #Hrs7, #Hr0, #Hr1, #Hr2, #Hr3, #Hr4, #Hr5, #Hr6, #Hr7, Htok, Hts0, Hts1, Hts2, Hts3, Hts4, Hts5, Hts6, Hts7, Htr0, Htr1, Htr2, Htr3, Htr4, Htr5, Htr6, Htr7⟩, ⟨Hcr, Hcr0, Hcr1, Hcr2, Hcr3, Hcr4, Hcr5, Hcr6, Hcr7⟩, #Hlev, Hscr, HO, Hx, Hw, Ho⟩
  -- the scratch buffer as its sixteen row blocks
  ihave Hpieces := (ScratchSplit.scratch_split (F := F) c f0).1 $$ Hscr
  icases Hpieces with ⟨Hs0, Hs1, Hs2, Hs3, Hs4, Hs5, Hs6, Hs7, Hd0, Hd1, Hd2, Hd3, Hd4, Hd5, Hd6, Hd7⟩
  -- the destination blocks first: the source blocks, what is owed and the staging buffers are taken up again after them
  irevert Hs0
  iintro Hs0
  irevert Hs1
  iintro Hs1
  irevert Hs2
  iintro Hs2
  irevert Hs3
  iintro Hs3
  irevert Hs4
  iintro Hs4
  irevert Hs5
  iintro Hs5
  irevert Hs6
  iintro Hs6
  irevert Hs7
  iintro Hs7
  irevert HO
  iintro HO
  irevert Hx
  iintro Hx
  irevert Hw
  iintro Hw
  irevert Ho
  iintro Ho
  have hd1 := dev1_eq
  have hd2 := dev2_eq
  have hd3 := dev3_eq
  have hd4 := dev4_eq
  have hd5 := dev5_eq
  have hd6 := dev6_eq
  have hd7 := dev7_eq
  have hd8 := dev8_eq
  have hd9 := dev9_eq
  have hbar := mayWait_bar (F := F)
  sl_exec
  -- the copy of chunk 0: its stored rows are the whole-scratch function's rows; the left half is lent
  ihave Hs0 := (Entails.of_eq (pointsTo_congr (CommFacts.stored_0 m c f0))) $$ Hs0
  ihave Hs0 := (pointsTo_share (PosShare.mem_left_op_right fullShare)).1 $$ Hs0
  icases Hs0 with ⟨Hs0l, Hs0r⟩
  iapply (Rounds.wp_send_pointsTo 𝒱₀ ER (pairRd m) (c : Thread nD τ) none (c' := ((peer c : Dev nD) : Thread nD τ))
      (src := (((cM).slice (Rect.unit (s := S2x256x4096) ![0, 0, 0] S1x32x4096.size inb_S2x256x4096_S1x32x4096_0_0_0) (fun _ => rfl)).squeeze S32x4096 squeezes_S1x32x4096_S32x4096)) (dst := (((cM).slice (Rect.unit (s := S2x256x4096) ![1, 0, 0] S1x32x4096.size inb_S2x256x4096_S1x32x4096_1_0_0) (fun _ => rfl)).squeeze S32x4096 squeezes_S1x32x4096_S32x4096))
      (κ₁ := K (c, 1)) (κ₂ := K (peer c, 9))
      (r₁ := 0) (r₂ := 0) (d₁ := ()) (d₂ := ()) (fd := Hat_pay1_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N + tallyAt (recvCell (peer c) 0) () N) (W := insert (SemLoc.reg barS, ()) W)
      (by rw [duties_send]; exact Finset.mem_singleton_self _) (by rw [duties_recv]; exact Finset.mem_singleton_self _)
      () () N rfl (amount_send m c 0 ()) (amount_recv m (peer c) 0 ())
      (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N) rfl
      (by rw [payload_send]; first | done | exact BI.Entails.refl _)
      (by rw [payload_recv]; unfold recvPay; rw [dstPts_0, pointsTo_congr (CommFacts.landed_0 m c Hat_pay1_v)]; first | done | exact BI.Entails.refl _))
    $$ [Hs0l Hat_pay1 HO Hts0 Htr0 Hat_pay2]
  · isplitr; · iexact HIs0
    isplitr; · iexact HIrp0
    isplitl [Hs0l]; · iexact Hs0l
    isplitl [Hat_pay1]; · iexact Hat_pay1
    isplitl [HO]; · iexact HO
    isplitl [Hts0]; · iexact Hts0
    isplitr; · iexact Hrs0
    isplitl [Htr0]; · iexact Htr0
    iexact Hat_pay2
  iintro ⟨HcS0, HO⟩
  sl_exec
  -- the copy of chunk 1: its stored rows are the whole-scratch function's rows; the left half is lent
  ihave Hs1 := (Entails.of_eq (pointsTo_congr (CommFacts.stored_1 m c f0))) $$ Hs1
  ihave Hs1 := (pointsTo_share (PosShare.mem_left_op_right fullShare)).1 $$ Hs1
  icases Hs1 with ⟨Hs1l, Hs1r⟩
  iapply (Rounds.wp_send_pointsTo 𝒱₀ ER (pairRd m) (c : Thread nD τ) none (c' := ((peer c : Dev nD) : Thread nD τ))
      (src := (((cM).slice (Rect.unit (s := S2x256x4096) ![0, 32, 0] S1x32x4096.size inb_S2x256x4096_S1x32x4096_0_32_0) (fun _ => rfl)).squeeze S32x4096 squeezes_S1x32x4096_S32x4096)) (dst := (((cM).slice (Rect.unit (s := S2x256x4096) ![1, 32, 0] S1x32x4096.size inb_S2x256x4096_S1x32x4096_1_32_0) (fun _ => rfl)).squeeze S32x4096 squeezes_S1x32x4096_S32x4096))
      (κ₁ := K (c, 2)) (κ₂ := K (peer c, 10))
      (r₁ := 0) (r₂ := 0) (d₁ := ()) (d₂ := ()) (fd := Hat_pay3_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N + tallyAt (recvCell (peer c) 1) () N) (W := insert (SemLoc.reg barS, ()) W)
      (by rw [duties_send]; exact Finset.mem_singleton_self _) (by rw [duties_recv]; exact Finset.mem_singleton_self _)
      () () N rfl (amount_send m c 1 ()) (amount_recv m (peer c) 1 ())
      (tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) rfl
      (by rw [payload_send]; first | done | exact BI.Entails.refl _)
      (by rw [payload_recv]; unfold recvPay; rw [dstPts_1, pointsTo_congr (CommFacts.landed_1 m c Hat_pay3_v)]; first | done | exact BI.Entails.refl _))
    $$ [Hs1l Hat_pay3 HO Hts1 Htr1 Hat_pay4]
  · isplitr; · iexact HIs1
    isplitr; · iexact HIrp1
    isplitl [Hs1l]; · iexact Hs1l
    isplitl [Hat_pay3]; · iexact Hat_pay3
    isplitl [HO]; · iexact HO
    isplitl [Hts1]; · iexact Hts1
    isplitr; · iexact Hrs1
    isplitl [Htr1]; · iexact Htr1
    iexact Hat_pay4
  iintro ⟨HcS1, HO⟩
  sl_exec
  -- the copy of chunk 2: its stored rows are the whole-scratch function's rows; the left half is lent
  ihave Hs2 := (Entails.of_eq (pointsTo_congr (CommFacts.stored_2 m c f0))) $$ Hs2
  ihave Hs2 := (pointsTo_share (PosShare.mem_left_op_right fullShare)).1 $$ Hs2
  icases Hs2 with ⟨Hs2l, Hs2r⟩
  iapply (Rounds.wp_send_pointsTo 𝒱₀ ER (pairRd m) (c : Thread nD τ) none (c' := ((peer c : Dev nD) : Thread nD τ))
      (src := (((cM).slice (Rect.unit (s := S2x256x4096) ![0, 64, 0] S1x32x4096.size inb_S2x256x4096_S1x32x4096_0_64_0) (fun _ => rfl)).squeeze S32x4096 squeezes_S1x32x4096_S32x4096)) (dst := (((cM).slice (Rect.unit (s := S2x256x4096) ![1, 64, 0] S1x32x4096.size inb_S2x256x4096_S1x32x4096_1_64_0) (fun _ => rfl)).squeeze S32x4096 squeezes_S1x32x4096_S32x4096))
      (κ₁ := K (c, 3)) (κ₂ := K (peer c, 11))
      (r₁ := 0) (r₂ := 0) (d₁ := ()) (d₂ := ()) (fd := Hat_pay5_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N + tallyAt (recvCell (peer c) 2) () N) (W := insert (SemLoc.reg barS, ()) W)
      (by rw [duties_send]; exact Finset.mem_singleton_self _) (by rw [duties_recv]; exact Finset.mem_singleton_self _)
      () () N rfl (amount_send m c 2 ()) (amount_recv m (peer c) 2 ())
      (tallyAt (recvCell (peer c) 7) () N + tallyAt (recvCell (peer c) 6) () N + tallyAt (recvCell (peer c) 5) () N + tallyAt (recvCell (peer c) 4) () N + tallyAt (recvCell (peer c) 3) () N) rfl
      (by rw [payload_send]; first | done | exact BI.Entails.refl _)
      (by rw [payload_recv]; unfold recvPay; rw [dstPts_2, pointsTo_congr (CommFacts.landed_2 m c Hat_pay5_v)]; first | done | exact BI.Entails.refl _))
    $$ [Hs2l Hat_pay5 HO Hts2 Htr2 Hat_pay6]
  · isplitr; · iexact HIs2
    isplitr; · iexact HIrp2
    isplitl [Hs2l]; · iexact Hs2l
    isplitl [Hat_pay5]; · iexact Hat_pay5
    isplitl [HO]; · iexact HO
    isplitl [Hts2]; · iexact Hts2
    isplitr; · iexact Hrs2
    isplitl [Htr2]; · iexact Htr2
    iexact Hat_pay6
  iintro ⟨HcS2, HO⟩
  sl_exec
  -- the copy of chunk 3: its stored rows are the whole-scratch function's rows; the left half is lent
  ihave Hs3 := (Entails.of_eq (pointsTo_congr (CommFacts.stored_3 m c f0))) $$ Hs3
  ihave Hs3 := (pointsTo_share (PosShare.mem_left_op_right fullShare)).1 $$ Hs3
  icases Hs3 with ⟨Hs3l, Hs3r⟩
  iapply (Rounds.wp_send_pointsTo 𝒱₀ ER (pairRd m) (c : Thread nD τ) none (c' := ((peer c : Dev nD) : Thread nD τ))
      (src := (((cM).slice (Rect.unit (s := S2x256x4096) ![0, 96, 0] S1x32x4096.size inb_S2x256x4096_S1x32x4096_0_96_0) (fun _ => rfl)).squeeze S32x4096 squeezes_S1x32x4096_S32x4096)) (dst := (((cM).slice (Rect.unit (s := S2x256x4096) ![1, 96, 0] S1x32x4096.size inb_S2x256x4096_S1x32x4096_1_96_0) (fun _ => rfl)).squeeze S32x4096 squeezes_S1x32x4096_S32x4096))
      (κ₁ := K (c, 4)) (κ₂ := K (peer c, 12))
      (r₁ := 0) (r₂ := 0) (d₁ := ()) (d₂ := ()) (fd := Hat_pay7_v) (q := fullShare.left) (fs := commOf m c)
      (O₀ := tallyAt (recvCell (peer c) 7) () N + tallyAt (recvCell (peer c) 6) () N + tallyAt (recvCell (peer c) 5) () N + tallyAt (recvCell (peer c) 4) () N + tallyAt (recvCell (peer c) 3) () N) (W := insert (SemLoc.reg barS, ()) W)
      (by rw [duties_send]; exact Finset.mem_singleton_self _) (by rw [duties_recv]; exact Finset.mem_singleton_self _)
      () () N rfl (amount_send m c 3 ()) (amount_recv m (peer c) 3 ())
      (tallyAt (recvCell (peer c) 7) () N + tallyAt (recvCell (peer c) 6) () N + tallyAt (recvCell (peer c) 5) () N + tallyAt (recvCell (peer c) 4) () N) rfl
      (by rw [payload_send]; first | done | exact BI.Entails.refl _)
      (by rw [payload_recv]; unfold recvPay; rw [dstPts_3, pointsTo_congr (CommFacts.landed_3 m c Hat_pay7_v)]; first | done | exact BI.Entails.refl _))
    $$ [Hs3l Hat_pay7 HO Hts3 Htr3 Hat_pay8]
  · isplitr; · iexact HIs3
    isplitr; · iexact HIrp3
    isplitl [Hs3l]; · iexact Hs3l
    isplitl [Hat_pay7]; · iexact Hat_pay7
    isplitl [HO]; · iexact HO
    isplitl [Hts3]; · iexact Hts3
    isplitr; · iexact Hrs3
    isplitl [Htr3]; · iexact Htr3
    iexact Hat_pay8
  iintro ⟨HcS3, HO⟩
  sl_exec
  -- the copy of chunk 4: its stored rows are the whole-scratch function's rows; the left half is lent
  ihave Hs4 := (Entails.of_eq (pointsTo_congr (CommFacts.stored_4 m c f0))) $$ Hs4
  ihave Hs4 := (pointsTo_share (PosShare.mem_left_op_right fullShare)).1 $$ Hs4
  icases Hs4 with ⟨Hs4l, Hs4r⟩
  iapply (Rounds.wp_send_pointsTo 𝒱₀ ER (pairRd m) (c : Thread nD τ) none (c' := ((peer c : Dev nD) : Thread nD τ))
      (src := (((cM).slice (Rect.unit (s := S2x256x4096) ![0, 128, 0] S1x32x4096.size inb_S2x256x4096_S1x32x4096_0_128_0) (fun _ => rfl)).squeeze S32x4096 squeezes_S1x32x4096_S32x4096)) (dst := (((cM).slice (Rect.unit (s := S2x256x4096) ![1, 128, 0] S1x32x4096.size inb_S2x256x4096_S1x32x4096_1_128_0) (fun _ => rfl)).squeeze S32x4096 squeezes_S1x32x4096_S32x4096))
      (κ₁ := K (c, 5)) (κ₂ := K (peer c, 13))
      (r₁ := 0) (r₂ := 0) (d₁ := ()) (d₂ := ()) (fd := Hat_pay9_v) (q := fullShare.left) (fs := commOf m c)
      (O₀ := tallyAt (recvCell (peer c) 7) () N + tallyAt (recvCell (peer c) 6) () N + tallyAt (recvCell (peer c) 5) () N + tallyAt (recvCell (peer c) 4) () N) (W := insert (SemLoc.reg barS, ()) W)
      (by rw [duties_send]; exact Finset.mem_singleton_self _) (by rw [duties_recv]; exact Finset.mem_singleton_self _)
      () () N rfl (amount_send m c 4 ()) (amount_recv m (peer c) 4 ())
      (tallyAt (recvCell (peer c) 7) () N + tallyAt (recvCell (peer c) 6) () N + tallyAt (recvCell (peer c) 5) () N) rfl
      (by rw [payload_send]; first | done | exact BI.Entails.refl _)
      (by rw [payload_recv]; unfold recvPay; rw [dstPts_4, pointsTo_congr (CommFacts.landed_4 m c Hat_pay9_v)]; first | done | exact BI.Entails.refl _))
    $$ [Hs4l Hat_pay9 HO Hts4 Htr4 Hat_pay10]
  · isplitr; · iexact HIs4
    isplitr; · iexact HIrp4
    isplitl [Hs4l]; · iexact Hs4l
    isplitl [Hat_pay9]; · iexact Hat_pay9
    isplitl [HO]; · iexact HO
    isplitl [Hts4]; · iexact Hts4
    isplitr; · iexact Hrs4
    isplitl [Htr4]; · iexact Htr4
    iexact Hat_pay10
  iintro ⟨HcS4, HO⟩
  sl_exec
  -- the copy of chunk 5: its stored rows are the whole-scratch function's rows; the left half is lent
  ihave Hs5 := (Entails.of_eq (pointsTo_congr (CommFacts.stored_5 m c f0))) $$ Hs5
  ihave Hs5 := (pointsTo_share (PosShare.mem_left_op_right fullShare)).1 $$ Hs5
  icases Hs5 with ⟨Hs5l, Hs5r⟩
  iapply (Rounds.wp_send_pointsTo 𝒱₀ ER (pairRd m) (c : Thread nD τ) none (c' := ((peer c : Dev nD) : Thread nD τ))
      (src := (((cM).slice (Rect.unit (s := S2x256x4096) ![0, 160, 0] S1x32x4096.size inb_S2x256x4096_S1x32x4096_0_160_0) (fun _ => rfl)).squeeze S32x4096 squeezes_S1x32x4096_S32x4096)) (dst := (((cM).slice (Rect.unit (s := S2x256x4096) ![1, 160, 0] S1x32x4096.size inb_S2x256x4096_S1x32x4096_1_160_0) (fun _ => rfl)).squeeze S32x4096 squeezes_S1x32x4096_S32x4096))
      (κ₁ := K (c, 6)) (κ₂ := K (peer c, 14))
      (r₁ := 0) (r₂ := 0) (d₁ := ()) (d₂ := ()) (fd := Hat_pay11_v) (q := fullShare.left) (fs := commOf m c)
      (O₀ := tallyAt (recvCell (peer c) 7) () N + tallyAt (recvCell (peer c) 6) () N + tallyAt (recvCell (peer c) 5) () N) (W := insert (SemLoc.reg barS, ()) W)
      (by rw [duties_send]; exact Finset.mem_singleton_self _) (by rw [duties_recv]; exact Finset.mem_singleton_self _)
      () () N rfl (amount_send m c 5 ()) (amount_recv m (peer c) 5 ())
      (tallyAt (recvCell (peer c) 7) () N + tallyAt (recvCell (peer c) 6) () N) rfl
      (by rw [payload_send]; first | done | exact BI.Entails.refl _)
      (by rw [payload_recv]; unfold recvPay; rw [dstPts_5, pointsTo_congr (CommFacts.landed_5 m c Hat_pay11_v)]; first | done | exact BI.Entails.refl _))
    $$ [Hs5l Hat_pay11 HO Hts5 Htr5 Hat_pay12]
  · isplitr; · iexact HIs5
    isplitr; · iexact HIrp5
    isplitl [Hs5l]; · iexact Hs5l
    isplitl [Hat_pay11]; · iexact Hat_pay11
    isplitl [HO]; · iexact HO
    isplitl [Hts5]; · iexact Hts5
    isplitr; · iexact Hrs5
    isplitl [Htr5]; · iexact Htr5
    iexact Hat_pay12
  iintro ⟨HcS5, HO⟩
  sl_exec
  -- the copy of chunk 6: its stored rows are the whole-scratch function's rows; the left half is lent
  ihave Hs6 := (Entails.of_eq (pointsTo_congr (CommFacts.stored_6 m c f0))) $$ Hs6
  ihave Hs6 := (pointsTo_share (PosShare.mem_left_op_right fullShare)).1 $$ Hs6
  icases Hs6 with ⟨Hs6l, Hs6r⟩
  iapply (Rounds.wp_send_pointsTo 𝒱₀ ER (pairRd m) (c : Thread nD τ) none (c' := ((peer c : Dev nD) : Thread nD τ))
      (src := (((cM).slice (Rect.unit (s := S2x256x4096) ![0, 192, 0] S1x32x4096.size inb_S2x256x4096_S1x32x4096_0_192_0) (fun _ => rfl)).squeeze S32x4096 squeezes_S1x32x4096_S32x4096)) (dst := (((cM).slice (Rect.unit (s := S2x256x4096) ![1, 192, 0] S1x32x4096.size inb_S2x256x4096_S1x32x4096_1_192_0) (fun _ => rfl)).squeeze S32x4096 squeezes_S1x32x4096_S32x4096))
      (κ₁ := K (c, 7)) (κ₂ := K (peer c, 15))
      (r₁ := 0) (r₂ := 0) (d₁ := ()) (d₂ := ()) (fd := Hat_pay13_v) (q := fullShare.left) (fs := commOf m c)
      (O₀ := tallyAt (recvCell (peer c) 7) () N + tallyAt (recvCell (peer c) 6) () N) (W := insert (SemLoc.reg barS, ()) W)
      (by rw [duties_send]; exact Finset.mem_singleton_self _) (by rw [duties_recv]; exact Finset.mem_singleton_self _)
      () () N rfl (amount_send m c 6 ()) (amount_recv m (peer c) 6 ())
      (tallyAt (recvCell (peer c) 7) () N) rfl
      (by rw [payload_send]; first | done | exact BI.Entails.refl _)
      (by rw [payload_recv]; unfold recvPay; rw [dstPts_6, pointsTo_congr (CommFacts.landed_6 m c Hat_pay13_v)]; first | done | exact BI.Entails.refl _))
    $$ [Hs6l Hat_pay13 HO Hts6 Htr6 Hat_pay14]
  · isplitr; · iexact HIs6
    isplitr; · iexact HIrp6
    isplitl [Hs6l]; · iexact Hs6l
    isplitl [Hat_pay13]; · iexact Hat_pay13
    isplitl [HO]; · iexact HO
    isplitl [Hts6]; · iexact Hts6
    isplitr; · iexact Hrs6
    isplitl [Htr6]; · iexact Htr6
    iexact Hat_pay14
  iintro ⟨HcS6, HO⟩
  sl_exec
  -- the copy of chunk 7: its stored rows are the whole-scratch function's rows; the left half is lent
  ihave Hs7 := (Entails.of_eq (pointsTo_congr (CommFacts.stored_7 m c f0))) $$ Hs7
  ihave Hs7 := (pointsTo_share (PosShare.mem_left_op_right fullShare)).1 $$ Hs7
  icases Hs7 with ⟨Hs7l, Hs7r⟩
  iapply (Rounds.wp_send_pointsTo 𝒱₀ ER (pairRd m) (c : Thread nD τ) none (c' := ((peer c : Dev nD) : Thread nD τ))
      (src := (((cM).slice (Rect.unit (s := S2x256x4096) ![0, 224, 0] S1x32x4096.size inb_S2x256x4096_S1x32x4096_0_224_0) (fun _ => rfl)).squeeze S32x4096 squeezes_S1x32x4096_S32x4096)) (dst := (((cM).slice (Rect.unit (s := S2x256x4096) ![1, 224, 0] S1x32x4096.size inb_S2x256x4096_S1x32x4096_1_224_0) (fun _ => rfl)).squeeze S32x4096 squeezes_S1x32x4096_S32x4096))
      (κ₁ := K (c, 8)) (κ₂ := K (peer c, 16))
      (r₁ := 0) (r₂ := 0) (d₁ := ()) (d₂ := ()) (fd := Hat_pay15_v) (q := fullShare.left) (fs := commOf m c)
      (O₀ := tallyAt (recvCell (peer c) 7) () N) (W := insert (SemLoc.reg barS, ()) W)
      (by rw [duties_send]; exact Finset.mem_singleton_self _) (by rw [duties_recv]; exact Finset.mem_singleton_self _)
      () () N rfl (amount_send m c 7 ()) (amount_recv m (peer c) 7 ())
      (0) (zero_add _).symm
      (by rw [payload_send]; first | done | exact BI.Entails.refl _)
      (by rw [payload_recv]; unfold recvPay; rw [dstPts_7, pointsTo_congr (CommFacts.landed_7 m c Hat_pay15_v)]; first | done | exact BI.Entails.refl _))
    $$ [Hs7l Hat_pay15 HO Hts7 Htr7 Hat_pay16]
  · isplitr; · iexact HIs7
    isplitr; · iexact HIrp7
    isplitl [Hs7l]; · iexact Hs7l
    isplitl [Hat_pay15]; · iexact Hat_pay15
    isplitl [HO]; · iexact HO
    isplitl [Hts7]; · iexact Hts7
    isplitr; · iexact Hrs7
    isplitl [Htr7]; · iexact Htr7
    iexact Hat_pay16
  iintro ⟨HcS7, HO⟩
  sl_exec
  -- the sixteen cells close; the halves of each source block are joined
  imod (Rounds.cell_close ER (pairRd m) (Set.mem_univ (K (c, 1))) (fun h => h) (R := 1) (duties_later m (sendCell c 0))) $$ [Hats0] with Hzs0
  · isplitr; · iexact HIs0
    iexact Hats0
  imod (Rounds.cell_close ER (pairRd m) (Set.mem_univ (K (c, 9))) (fun h => h) (R := 1) (duties_later m (recvCell c 0))) $$ [Hatr0] with Hzr0
  · isplitr; · iexact HIr0
    iexact Hatr0
  ihave Hs0 := (pointsTo_share (PosShare.mem_left_op_right fullShare)).2 $$ [Hats0_pay1 Hs0r]
  · isplitl [Hats0_pay1]; · iexact Hats0_pay1
    iexact Hs0r
  imod (Rounds.cell_close ER (pairRd m) (Set.mem_univ (K (c, 2))) (fun h => h) (R := 1) (duties_later m (sendCell c 1))) $$ [Hats1] with Hzs1
  · isplitr; · iexact HIs1
    iexact Hats1
  imod (Rounds.cell_close ER (pairRd m) (Set.mem_univ (K (c, 10))) (fun h => h) (R := 1) (duties_later m (recvCell c 1))) $$ [Hatr1] with Hzr1
  · isplitr; · iexact HIr1
    iexact Hatr1
  ihave Hs1 := (pointsTo_share (PosShare.mem_left_op_right fullShare)).2 $$ [Hats1_pay1 Hs1r]
  · isplitl [Hats1_pay1]; · iexact Hats1_pay1
    iexact Hs1r
  imod (Rounds.cell_close ER (pairRd m) (Set.mem_univ (K (c, 3))) (fun h => h) (R := 1) (duties_later m (sendCell c 2))) $$ [Hats2] with Hzs2
  · isplitr; · iexact HIs2
    iexact Hats2
  imod (Rounds.cell_close ER (pairRd m) (Set.mem_univ (K (c, 11))) (fun h => h) (R := 1) (duties_later m (recvCell c 2))) $$ [Hatr2] with Hzr2
  · isplitr; · iexact HIr2
    iexact Hatr2
  ihave Hs2 := (pointsTo_share (PosShare.mem_left_op_right fullShare)).2 $$ [Hats2_pay1 Hs2r]
  · isplitl [Hats2_pay1]; · iexact Hats2_pay1
    iexact Hs2r
  imod (Rounds.cell_close ER (pairRd m) (Set.mem_univ (K (c, 4))) (fun h => h) (R := 1) (duties_later m (sendCell c 3))) $$ [Hats3] with Hzs3
  · isplitr; · iexact HIs3
    iexact Hats3
  imod (Rounds.cell_close ER (pairRd m) (Set.mem_univ (K (c, 12))) (fun h => h) (R := 1) (duties_later m (recvCell c 3))) $$ [Hatr3] with Hzr3
  · isplitr; · iexact HIr3
    iexact Hatr3
  ihave Hs3 := (pointsTo_share (PosShare.mem_left_op_right fullShare)).2 $$ [Hats3_pay1 Hs3r]
  · isplitl [Hats3_pay1]; · iexact Hats3_pay1
    iexact Hs3r
  imod (Rounds.cell_close ER (pairRd m) (Set.mem_univ (K (c, 5))) (fun h => h) (R := 1) (duties_later m (sendCell c 4))) $$ [Hats4] with Hzs4
  · isplitr; · iexact HIs4
    iexact Hats4
  imod (Rounds.cell_close ER (pairRd m) (Set.mem_univ (K (c, 13))) (fun h => h) (R := 1) (duties_later m (recvCell c 4))) $$ [Hatr4] with Hzr4
  · isplitr; · iexact HIr4
    iexact Hatr4
  ihave Hs4 := (pointsTo_share (PosShare.mem_left_op_right fullShare)).2 $$ [Hats4_pay1 Hs4r]
  · isplitl [Hats4_pay1]; · iexact Hats4_pay1
    iexact Hs4r
  imod (Rounds.cell_close ER (pairRd m) (Set.mem_univ (K (c, 6))) (fun h => h) (R := 1) (duties_later m (sendCell c 5))) $$ [Hats5] with Hzs5
  · isplitr; · iexact HIs5
    iexact Hats5
  imod (Rounds.cell_close ER (pairRd m) (Set.mem_univ (K (c, 14))) (fun h => h) (R := 1) (duties_later m (recvCell c 5))) $$ [Hatr5] with Hzr5
  · isplitr; · iexact HIr5
    iexact Hatr5
  ihave Hs5 := (pointsTo_share (PosShare.mem_left_op_right fullShare)).2 $$ [Hats5_pay1 Hs5r]
  · isplitl [Hats5_pay1]; · iexact Hats5_pay1
    iexact Hs5r
  imod (Rounds.cell_close ER (pairRd m) (Set.mem_univ (K (c, 7))) (fun h => h) (R := 1) (duties_later m (sendCell c 6))) $$ [Hats6] with Hzs6
  · isplitr; · iexact HIs6
    iexact Hats6
  imod (Rounds.cell_close ER (pairRd m) (Set.mem_univ (K (c, 15))) (fun h => h) (R := 1) (duties_later m (recvCell c 6))) $$ [Hatr6] with Hzr6
  · isplitr; · iexact HIr6
    iexact Hatr6
  ihave Hs6 := (pointsTo_share (PosShare.mem_left_op_right fullShare)).2 $$ [Hats6_pay1 Hs6r]
  · isplitl [Hats6_pay1]; · iexact Hats6_pay1
    iexact Hs6r
  imod (Rounds.cell_close ER (pairRd m) (Set.mem_univ (K (c, 8))) (fun h => h) (R := 1) (duties_later m (sendCell c 7))) $$ [Hats7] with Hzs7
  · isplitr; · iexact HIs7
    iexact Hats7
  imod (Rounds.cell_close ER (pairRd m) (Set.mem_univ (K (c, 16))) (fun h => h) (R := 1) (duties_later m (recvCell c 7))) $$ [Hatr7] with Hzr7
  · isplitr; · iexact HIr7
    iexact Hatr7
  ihave Hs7 := (pointsTo_share (PosShare.mem_left_op_right fullShare)).2 $$ [Hats7_pay1 Hs7r]
  · isplitl [Hats7_pay1]; · iexact Hats7_pay1
    iexact Hs7r
  -- the sixteen row blocks are the whole scratch buffer again
  ihave Hscr := (ScratchSplit.scratch_split (F := F) c (commOf m c)).2 $$ [Hs0 Hs1 Hs2 Hs3 Hs4 Hs5 Hs6 Hs7 Hatr0_pay1 Hatr1_pay1 Hatr2_pay1 Hatr3_pay1 Hatr4_pay1 Hatr5_pay1 Hatr6_pay1 Hatr7_pay1]
  ·
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hatr0_pay1]; · iexact Hatr0_pay1
    isplitl [Hatr1_pay1]; · iexact Hatr1_pay1
    isplitl [Hatr2_pay1]; · iexact Hatr2_pay1
    isplitl [Hatr3_pay1]; · iexact Hatr3_pay1
    isplitl [Hatr4_pay1]; · iexact Hatr4_pay1
    isplitl [Hatr5_pay1]; · iexact Hatr5_pay1
    isplitl [Hatr6_pay1]; · iexact Hatr6_pay1
    iexact Hatr7_pay1
  sl_step
  unfold post scrPts
  isplitl [Hscr]; · iexact Hscr
  isplitl [Hzs0]; · iexact Hzs0
  isplitl [Hzs1]; · iexact Hzs1
  isplitl [Hzs2]; · iexact Hzs2
  isplitl [Hzs3]; · iexact Hzs3
  isplitl [Hzs4]; · iexact Hzs4
  isplitl [Hzs5]; · iexact Hzs5
  isplitl [Hzs6]; · iexact Hzs6
  isplitl [Hzs7]; · iexact Hzs7
  isplitl [Hzr0]; · iexact Hzr0
  isplitl [Hzr1]; · iexact Hzr1
  isplitl [Hzr2]; · iexact Hzr2
  isplitl [Hzr3]; · iexact Hzr3
  isplitl [Hzr4]; · iexact Hzr4
  isplitl [Hzr5]; · iexact Hzr5
  isplitl [Hzr6]; · iexact Hzr6
  isplitl [Hzr7]; · iexact Hzr7
  isplitl [HO]; · iexists _; iexact HO
  isplitl [Hx]; · iexact Hx
  isplitl [Hw]; · iexact Hw
  -- the sixteen writes into the staged result are the whole softmax, whatever the buffer held before
  iapply (pts_of_eq (F := F) c _ _ ?_)
  rotate_left
  · iexact Ho
  · exact Eq.trans (by rfl) (OutBridge.out_bridge m c fo)

end Cert.Kernel.Body

end
-- ==== Proof.DealCellsBits.lean ====
/-
  The protocol's cells and tokens at launch.

  The seventeen cells of each device are pairwise distinct across devices and numbers, so the cells of all devices
  form a finite set indexed by (device, number); each cell has one duty in its one round, so the duty tokens are
  indexed the same way.  Funding the protocol's ghost state over these cells and tokens gives every device, for each
  of its own seventeen cells, the round state at counter zero, its position at the start of round 0, the knowledge
  that round 0 is reached, and the token of the cell's one duty.  Of a device's semaphores the sixteen of the copies
  are the kernel's own scoped ones and the barrier semaphore is the one unscoped one.
-/
import proofs.«900346_g7700000000000347_dist_arsfmx_v7x_xyz2x2x4_y_t256_d512_v4096_bf16_1_alg».proof.Proof.ProtoBits
import proofs.«900346_g7700000000000347_dist_arsfmx_v7x_xyz2x2x4_y_t256_d512_v4096_bf16_1_alg».proof.Proof.Gen.Kernel.Launch

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, all different -/

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def pairCells : Finset (GSem nD τ sig) := Finset.univ.map ⟨kcell, kcell_injective⟩

/-- The one duty token of each cell's one round, as minted: indexed like the cells. -/
abbrev tokOf (cj : Dev nD × Fin 17) : GSem nD τ sig × ℕ × Unit := (kcell cj, 0, ())
theorem tokOf_injective : Function.Injective (tokOf : Dev nD × Fin 17 → GSem nD τ sig × ℕ × Unit) :=
  fun a b h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The tokens of device c's own cells' duties, as minted. -/
def toks (c : Dev nD) : sProp 𝕄 := bigSep Finset.univ fun j : Fin 17 => dutyTok ER (kcell (c, j)) 0 ()

/-- What the launch element deals device c. -/
def G (c : Dev nD) : sProp 𝕄 :=
  iprop((bigSep Finset.univ fun j : Fin 17 => roundState ER (pairRd m) (kcell (c, j)) 0)
    ∗ (bigSep Finset.univ fun j : Fin 17 => iprop(atPos ER (kcell (c, j)) 0 ∅ 0 ∗ reached ER (kcell (c, j)) 0)) ∗ toks c)

/-- What the global step makes of it. -/
def G' (c : Dev nD) : sProp 𝕄 := iprop(∃ K, ghost m K c)

/-- A conjunction over the seventeen numbers, written out in order. -/
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- A conjunction over a device's seventeen cells: its barrier cell, its send cells 0..7, its receive cells 0..7. -/
theorem bigSep_cells (c : Dev nD) (Φ : GSem nD τ sig → sProp 𝕄) :
    (bigSep Finset.univ fun j : Fin 17 => Φ (kcell (c, j)))
      = iprop(Φ (barCell c) ∗ Φ (sendCell c 0) ∗ Φ (sendCell c 1) ∗ Φ (sendCell c 2) ∗ Φ (sendCell c 3) ∗ Φ (sendCell c 4) ∗ Φ (sendCell c 5) ∗ Φ (sendCell c 6) ∗ Φ (sendCell c 7) ∗ Φ (recvCell c 0) ∗ Φ (recvCell c 1) ∗ Φ (recvCell c 2) ∗ Φ (recvCell c 3) ∗ Φ (recvCell c 4) ∗ Φ (recvCell c 5) ∗ Φ (recvCell c 6) ∗ Φ (recvCell c 7)) := by
  rw [bigSep_fin17]; rfl

theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun j : Fin 17 => Φ (kcell (c, j)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

/-- The kernel's own scoped semaphores: the sixteen of the copies, send 0..7 then receive 0..7. -/
abbrev osem : Fin 16 → SemLoc sig := fun j => csem ⟨j.val + 1, by omega⟩

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

end Cert.Kernel.Sched

end
-- ==== Proof.DealStorableBits.lean ====
/-
  Every payload of the protocol can be kept inside an invariant.

  A payload is a conjunction of ownerships of row blocks of a scratch buffer (at given or at some contents) and of
  reached marks, or nothing; each of these is an assertion about the part of the ghost state that invariants may hold.
-/
import proofs.«900346_g7700000000000347_dist_arsfmx_v7x_xyz2x2x4_y_t256_d512_v4096_bf16_1_alg».proof.Proof.ProtoBits

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance dstPts_storable (c : Dev nD) (k : Fin 8) (f : (cc0_scratch0 : Ref sig .tc).ty.Contents (Elt F)) :
    BI.Storable (upEmb : UEmb _ 𝕄) (dstPts (F := F) c k f) := by
  match k with
  | ⟨0, _⟩ => unfold dstPts; infer_instance
  | ⟨1, _⟩ => unfold dstPts; infer_instance
  | ⟨2, _⟩ => unfold dstPts; infer_instance
  | ⟨3, _⟩ => unfold dstPts; infer_instance
  | ⟨4, _⟩ => unfold dstPts; infer_instance
  | ⟨5, _⟩ => unfold dstPts; infer_instance
  | ⟨6, _⟩ => unfold dstPts; infer_instance
  | ⟨7, _⟩ => unfold dstPts; infer_instance
  | ⟨n + 8, h⟩ => exact absurd h (by omega)

instance srcPts_storable (c : Dev nD) (k : Fin 8) (q : PosShare TreeShare) :
    BI.Storable (upEmb : UEmb _ 𝕄) (srcPts m c k q) := by
  match k with
  | ⟨0, _⟩ => unfold srcPts; infer_instance
  | ⟨1, _⟩ => unfold srcPts; infer_instance
  | ⟨2, _⟩ => unfold srcPts; infer_instance
  | ⟨3, _⟩ => unfold srcPts; infer_instance
  | ⟨4, _⟩ => unfold srcPts; infer_instance
  | ⟨5, _⟩ => unfold srcPts; infer_instance
  | ⟨6, _⟩ => unfold srcPts; infer_instance
  | ⟨7, _⟩ => unfold srcPts; infer_instance
  | ⟨n + 8, h⟩ => exact absurd h (by omega)

instance barPay_storable (c : Dev nD) : BI.Storable (upEmb : UEmb _ 𝕄) (barPay (F := F) c) := by
  unfold barPay; infer_instance

instance payload_storable (g : GSem nD τ sig) (r : ℕ) (d : Unit) : BI.Storable (upEmb : UEmb _ 𝕄) ((pairRd m).payload g r d) := by
  obtain ⟨t, sm⟩ := g
  cases sm with
  | reg s => exact barPay_storable t.1
  | dma s =>
    show BI.Storable (upEmb : UEmb _ 𝕄) (if s.val < 3 then iprop(emp) else if s.val < 11 then sendPay m t.1 (chunkS s) else recvPay m t.1 (chunkS s))
    split
    · infer_instance
    · split
      · unfold sendPay; infer_instance
      · unfold recvPay; infer_instance

end Cert.Kernel.Sched

end
-- ==== Proof.DealGlobBits.lean ====
/-
  The dealing at launch.

  What funding gives a device concerns its own seventeen cells; what its body needs concerns the cells it acts on.  In
  one step, for every device at once: each cell's round state and its semaphore at zero are put into an invariant, under
  some name; the invariants and the reached marks of all cells of all devices are persistent, so every device may keep
  the ones it needs — its own seventeen, its peer's barrier cell's and its peer's eight receive cells'; the positions
  stay with the cells' own device; and the duty tokens go to the devices that pay them: the barrier token and the eight
  receive tokens of a device's own cells go to its peer, the eight send tokens stay.  Pairing is a bijection of the
  devices, so handing every device's tokens to its peer is a re-indexing of the conjunction over the devices.
-/
import proofs.«900346_g7700000000000347_dist_arsfmx_v7x_xyz2x2x4_y_t256_d512_v4096_bf16_1_alg».proof.Proof.DealCellsBits
import proofs.«900346_g7700000000000347_dist_arsfmx_v7x_xyz2x2x4_y_t256_d512_v4096_bf16_1_alg».proof.Proof.DealStorableBits

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Each device: its seventeen invariants -/

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 17 => semVal (kcell (c, j)) 0 : sProp 𝕄) := by
  rw [ownSems0_eq, unscopedSems0_eq, bigSep_cells c (fun g => (semVal g 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (pairRd m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 17 => semVal (kcell (c, j)) 0) ∗ bigSep Finset.univ fun j : Fin 17 => roundState ER (pairRd m) (kcell (c, j)) 0)
      ⊢ (|={Set.univ}=> bigSep Finset.univ fun j => iprop(∃ κ : ℕ, cellInv ER (pairRd m) κ (kcell (c, j))) : sProp 𝕄) from by
        rw [← bigSep_sep']
        exact (bigSep_mono fun j _ => (Rounds.body_intro ER (pairRd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## What is shared, and what stays -/

/-- Every cell's invariant, under the names K, and every cell's reached mark: persistent, for every device to draw on. -/
def records (K : Dev nD × Fin 17 → ℕ) : sProp 𝕄 :=
  iprop((bigSep Finset.univ fun ck : Dev nD × Fin 17 => cellInv ER (pairRd m) (K ck) (kcell ck))
    ∗ bigSep Finset.univ fun ck : Dev nD × Fin 17 => reached ER (kcell ck) 0)
instance records_persistent (K : Dev nD × Fin 17 → ℕ) : BI.Persistent (records m K) := by unfold records; infer_instance

theorem inv_at (K : Dev nD × Fin 17 → ℕ) (ck : Dev nD × Fin 17) :
    (bigSep Finset.univ fun ck : Dev nD × Fin 17 => (cellInv ER (pairRd m) (K ck) (kcell ck) : sProp 𝕄)) ⊢ cellInv ER (pairRd m) (K ck) (kcell ck) :=
  bigSep_elim (Finset.mem_univ ck)
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-- The tokens of the duties device c pays: its peer's barrier duty, its own eight send duties, its peer's eight receive duties. -/
def payToks (c : Dev nD) : sProp 𝕄 :=
  iprop(dutyTok ER (barCell (peer c)) 0 () ∗ dutyTok ER (sendCell c 0) 0 () ∗ dutyTok ER (sendCell c 1) 0 () ∗ dutyTok ER (sendCell c 2) 0 () ∗ dutyTok ER (sendCell c 3) 0 () ∗ dutyTok ER (sendCell c 4) 0 () ∗ dutyTok ER (sendCell c 5) 0 () ∗ dutyTok ER (sendCell c 6) 0 () ∗ dutyTok ER (sendCell c 7) 0 () ∗ dutyTok ER (recvCell (peer c) 0) 0 () ∗ dutyTok ER (recvCell (peer c) 1) 0 () ∗ dutyTok ER (recvCell (peer c) 2) 0 () ∗ dutyTok ER (recvCell (peer c) 3) 0 () ∗ dutyTok ER (recvCell (peer c) 4) 0 () ∗ dutyTok ER (recvCell (peer c) 5) 0 () ∗ dutyTok ER (recvCell (peer c) 6) 0 () ∗ dutyTok ER (recvCell (peer c) 7) 0 ())
/-- Device c's positions on its own seventeen cells. -/
def ats (c : Dev nD) : sProp 𝕄 :=
  iprop(atPos ER (barCell c) 0 ∅ 0 ∗ atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0 ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0)
def linear (c : Dev nD) : sProp 𝕄 := iprop(ats (F := F) c ∗ payToks c)

set_option maxRecDepth 4000 in
theorem ghost_intro (K : Dev nD × Fin 17 → ℕ) (c : Dev nD) : iprop(records m K ∗ linear c) ⊢ G' m c := by
  unfold records linear ats payToks G' ghost cellInvs
  iintro ⟨⟨#HI, #HR⟩, ⟨Ha0, Ha1, Ha2, Ha3, Ha4, Ha5, Ha6, Ha7, Ha8, Ha9, Ha10, Ha11, Ha12, Ha13, Ha14, Ha15, Ha16⟩, Ht0, Ht1, Ht2, Ht3, Ht4, Ht5, Ht6, Ht7, Ht8, Ht9, Ht10, Ht11, Ht12, Ht13, Ht14, Ht15, Ht16⟩
  iexists K
  isplitr
  · isplitr; · iapply (show _ ⊢ (cellInv ER (pairRd m) (K (c, 0)) (barCell c) : sProp 𝕄) from inv_at m K (c, 0)); iexact HI
    isplitr; · iapply (show _ ⊢ (cellInv ER (pairRd m) (K (c, 1)) (sendCell c 0) : sProp 𝕄) from inv_at m K (c, 1)); iexact HI
    isplitr; · iapply (show _ ⊢ (cellInv ER (pairRd m) (K (c, 2)) (sendCell c 1) : sProp 𝕄) from inv_at m K (c, 2)); iexact HI
    isplitr; · iapply (show _ ⊢ (cellInv ER (pairRd m) (K (c, 3)) (sendCell c 2) : sProp 𝕄) from inv_at m K (c, 3)); iexact HI
    isplitr; · iapply (show _ ⊢ (cellInv ER (pairRd m) (K (c, 4)) (sendCell c 3) : sProp 𝕄) from inv_at m K (c, 4)); iexact HI
    isplitr; · iapply (show _ ⊢ (cellInv ER (pairRd m) (K (c, 5)) (sendCell c 4) : sProp 𝕄) from inv_at m K (c, 5)); iexact HI
    isplitr; · iapply (show _ ⊢ (cellInv ER (pairRd m) (K (c, 6)) (sendCell c 5) : sProp 𝕄) from inv_at m K (c, 6)); iexact HI
    isplitr; · iapply (show _ ⊢ (cellInv ER (pairRd m) (K (c, 7)) (sendCell c 6) : sProp 𝕄) from inv_at m K (c, 7)); iexact HI
    isplitr; · iapply (show _ ⊢ (cellInv ER (pairRd m) (K (c, 8)) (sendCell c 7) : sProp 𝕄) from inv_at m K (c, 8)); iexact HI
    isplitr; · iapply (show _ ⊢ (cellInv ER (pairRd m) (K (c, 9)) (recvCell c 0) : sProp 𝕄) from inv_at m K (c, 9)); iexact HI
    isplitr; · iapply (show _ ⊢ (cellInv ER (pairRd m) (K (c, 10)) (recvCell c 1) : sProp 𝕄) from inv_at m K (c, 10)); iexact HI
    isplitr; · iapply (show _ ⊢ (cellInv ER (pairRd m) (K (c, 11)) (recvCell c 2) : sProp 𝕄) from inv_at m K (c, 11)); iexact HI
    isplitr; · iapply (show _ ⊢ (cellInv ER (pairRd m) (K (c, 12)) (recvCell c 3) : sProp 𝕄) from inv_at m K (c, 12)); iexact HI
    isplitr; · iapply (show _ ⊢ (cellInv ER (pairRd m) (K (c, 13)) (recvCell c 4) : sProp 𝕄) from inv_at m K (c, 13)); iexact HI
    isplitr; · iapply (show _ ⊢ (cellInv ER (pairRd m) (K (c, 14)) (recvCell c 5) : sProp 𝕄) from inv_at m K (c, 14)); iexact HI
    isplitr; · iapply (show _ ⊢ (cellInv ER (pairRd m) (K (c, 15)) (recvCell c 6) : sProp 𝕄) from inv_at m K (c, 15)); iexact HI
    isplitr; · iapply (show _ ⊢ (cellInv ER (pairRd m) (K (c, 16)) (recvCell c 7) : sProp 𝕄) from inv_at m K (c, 16)); iexact HI
    isplitr; · iapply (show _ ⊢ (cellInv ER (pairRd m) (K (peer c, 0)) (barCell (peer c)) : sProp 𝕄) from inv_at m K (peer c, 0)); iexact HI
    isplitr; · iapply (show _ ⊢ (cellInv ER (pairRd m) (K (peer c, 9)) (recvCell (peer c) 0) : sProp 𝕄) from inv_at m K (peer c, 9)); iexact HI
    isplitr; · iapply (show _ ⊢ (cellInv ER (pairRd m) (K (peer c, 10)) (recvCell (peer c) 1) : sProp 𝕄) from inv_at m K (peer c, 10)); iexact HI
    isplitr; · iapply (show _ ⊢ (cellInv ER (pairRd m) (K (peer c, 11)) (recvCell (peer c) 2) : sProp 𝕄) from inv_at m K (peer c, 11)); iexact HI
    isplitr; · iapply (show _ ⊢ (cellInv ER (pairRd m) (K (peer c, 12)) (recvCell (peer c) 3) : sProp 𝕄) from inv_at m K (peer c, 12)); iexact HI
    isplitr; · iapply (show _ ⊢ (cellInv ER (pairRd m) (K (peer c, 13)) (recvCell (peer c) 4) : sProp 𝕄) from inv_at m K (peer c, 13)); iexact HI
    isplitr; · iapply (show _ ⊢ (cellInv ER (pairRd m) (K (peer c, 14)) (recvCell (peer c) 5) : sProp 𝕄) from inv_at m K (peer c, 14)); iexact HI
    isplitr; · iapply (show _ ⊢ (cellInv ER (pairRd m) (K (peer c, 15)) (recvCell (peer c) 6) : sProp 𝕄) from inv_at m K (peer c, 15)); iexact HI
    iapply (show _ ⊢ (cellInv ER (pairRd m) (K (peer c, 16)) (recvCell (peer c) 7) : sProp 𝕄) from inv_at m K (peer c, 16)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  isplitr; · iapply (show _ ⊢ (reached ER (barCell (peer c)) 0 : sProp 𝕄) from reached_at (F := F) (peer c, 0)); iexact HR
  isplitr; · iapply (show _ ⊢ (reached ER (sendCell c 0) 0 : sProp 𝕄) from reached_at (F := F) (c, 1)); iexact HR
  isplitr; · iapply (show _ ⊢ (reached ER (sendCell c 1) 0 : sProp 𝕄) from reached_at (F := F) (c, 2)); iexact HR
  isplitr; · iapply (show _ ⊢ (reached ER (sendCell c 2) 0 : sProp 𝕄) from reached_at (F := F) (c, 3)); iexact HR
  isplitr; · iapply (show _ ⊢ (reached ER (sendCell c 3) 0 : sProp 𝕄) from reached_at (F := F) (c, 4)); iexact HR
  isplitr; · iapply (show _ ⊢ (reached ER (sendCell c 4) 0 : sProp 𝕄) from reached_at (F := F) (c, 5)); iexact HR
  isplitr; · iapply (show _ ⊢ (reached ER (sendCell c 5) 0 : sProp 𝕄) from reached_at (F := F) (c, 6)); iexact HR
  isplitr; · iapply (show _ ⊢ (reached ER (sendCell c 6) 0 : sProp 𝕄) from reached_at (F := F) (c, 7)); iexact HR
  isplitr; · iapply (show _ ⊢ (reached ER (sendCell c 7) 0 : sProp 𝕄) from reached_at (F := F) (c, 8)); iexact HR
  isplitr; · iapply (show _ ⊢ (reached ER (recvCell c 0) 0 : sProp 𝕄) from reached_at (F := F) (c, 9)); iexact HR
  isplitr; · iapply (show _ ⊢ (reached ER (recvCell c 1) 0 : sProp 𝕄) from reached_at (F := F) (c, 10)); iexact HR
  isplitr; · iapply (show _ ⊢ (reached ER (recvCell c 2) 0 : sProp 𝕄) from reached_at (F := F) (c, 11)); iexact HR
  isplitr; · iapply (show _ ⊢ (reached ER (recvCell c 3) 0 : sProp 𝕄) from reached_at (F := F) (c, 12)); iexact HR
  isplitr; · iapply (show _ ⊢ (reached ER (recvCell c 4) 0 : sProp 𝕄) from reached_at (F := F) (c, 13)); iexact HR
  isplitr; · iapply (show _ ⊢ (reached ER (recvCell c 5) 0 : sProp 𝕄) from reached_at (F := F) (c, 14)); iexact HR
  isplitr; · iapply (show _ ⊢ (reached ER (recvCell c 6) 0 : sProp 𝕄) from reached_at (F := F) (c, 15)); iexact HR
  isplitr; · iapply (show _ ⊢ (reached ER (recvCell c 7) 0 : sProp 𝕄) from reached_at (F := F) (c, 16)); iexact HR
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  iexact Ht16

/-! ## The tokens handed to the peers -/

theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_cells c (fun g => (dutyTok ER g 0 () : sProp 𝕄)))]
  simp only [bigSep_sep']
  rw [bigSep_univ_equiv pairing (fun c : Dev nD => (dutyTok ER (barCell c) 0 () : sProp 𝕄)),
    bigSep_univ_equiv pairing (fun c : Dev nD => (dutyTok ER (recvCell c 0) 0 () : sProp 𝕄)),
    bigSep_univ_equiv pairing (fun c : Dev nD => (dutyTok ER (recvCell c 1) 0 () : sProp 𝕄)),
    bigSep_univ_equiv pairing (fun c : Dev nD => (dutyTok ER (recvCell c 2) 0 () : sProp 𝕄)),
    bigSep_univ_equiv pairing (fun c : Dev nD => (dutyTok ER (recvCell c 3) 0 () : sProp 𝕄)),
    bigSep_univ_equiv pairing (fun c : Dev nD => (dutyTok ER (recvCell c 4) 0 () : sProp 𝕄)),
    bigSep_univ_equiv pairing (fun c : Dev nD => (dutyTok ER (recvCell c 5) 0 () : sProp 𝕄)),
    bigSep_univ_equiv pairing (fun c : Dev nD => (dutyTok ER (recvCell c 6) 0 () : sProp 𝕄)),
    bigSep_univ_equiv pairing (fun c : Dev nD => (dutyTok ER (recvCell c 7) 0 () : sProp 𝕄))]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (pairRd m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 17 => iprop(∃ κ : ℕ, cellInv ER (pairRd m) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄)) payToks).symm).trans
      (bigSep_mono fun c _ => show _ ⊢ linear c from Entails.of_eq (by unfold linear ats; rw [bigSep_cells c (fun g => (atPos ER g 0 ∅ 0 : sProp 𝕄))])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Sched

end
-- ==== Proof.DealCredsBits.lean ====
/-
  The credit a device is dealt at launch.

  Every device owes its peer one unit on the peer's barrier cell and one copy's credit on each of the peer's eight
  receive cells, and nothing else.  Pairing is an involution, so the device that owes a device's cells is its peer:
  read at a barrier cell, what device d owes is one unit when d is the cell's device's peer and nothing otherwise;
  read at a receive cell of chunk k, one copy's credit when d is the peer, nothing otherwise.  The launch deals each
  device, for each of its cells, a credit token for everything owed to the cell; owed tallies that are sums deal
  separately, and a tally that every device owes on the same semaphore of its peer deals each device the matching
  token on its own semaphore.  So a device is dealt one unit on its barrier cell and one copy's credit on each of its
  receive cells.
-/
import proofs.«900346_g7700000000000347_dist_arsfmx_v7x_xyz2x2x4_y_t256_d512_v4096_bf16_1_alg».proof.Proof.ProtoBits

noncomputable section

namespace Cert.Kernel.Sched

open Cert.Kernel Cert.Kernel.Gen Cert.Kernel.Mesh Cert.Kernel.Data
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed, read at a cell -/

theorem bar_eq_iff {a b : Dev nD} : Iff (barCell a = barCell b) (a = b) :=
  ⟨fun h => Fin.ext (congrArg (fun g : GSem nD τ sig => g.1.1.val) h), fun h => h ▸ rfl⟩

theorem recvS_injective : Function.Injective recvS := fun j k h =>
  Fin.ext (by have := congrArg Fin.val h; rw [recvS_val, recvS_val] at this; omega)

theorem recv_eq_iff {a b : Dev nD} {j k : Fin 8} : Iff (recvCell a j = recvCell b k) (a = b ∧ j = k) :=
  ⟨fun h => ⟨Fin.ext (congrArg (fun g : GSem nD τ sig => g.1.1.val) h),
      recvS_injective (SemLoc.dma.inj (congrArg Prod.snd h))⟩, fun ⟨h1, h2⟩ => h1 ▸ h2 ▸ rfl⟩

theorem recv_ne_bar (a b : Dev nD) (k : Fin 8) : recvCell a k ≠ barCell b := fun h => by
  have := congrArg Prod.snd h; cases this
theorem bar_ne_recv (a b : Dev nD) (k : Fin 8) : barCell a ≠ recvCell b k := fun h => by
  have := congrArg Prod.snd h; cases this

/-- A device's barrier unit, read at a barrier cell. -/
theorem tally_bar_bar (d c : Dev nD) : tallyAt (barCell (peer d)) () 1 (barCell c) () = if d = peer c then 1 else 0 := by
  rw [tallyAt_apply]
  by_cases h : d = peer c
  · rw [if_pos h, if_pos ⟨by rw [h, peer_peer], rfl⟩]
  · rw [if_neg h, if_neg (fun ⟨h1, _⟩ => h (by rw [bar_eq_iff.mp h1, peer_peer]))]

/-- A device's copy credit of chunk j, read at a receive cell of chunk k. -/
theorem tally_recv_recv (d c : Dev nD) (j k : Fin 8) :
    tallyAt (recvCell (peer d) j) () N (recvCell c k) () = if d = peer c ∧ j = k then N else 0 := by
  rw [tallyAt_apply]
  by_cases h : d = peer c ∧ j = k
  · rw [if_pos h, if_pos ⟨by rw [h.1, peer_peer, h.2], rfl⟩]
  · rw [if_neg h, if_neg (fun ⟨h1, _⟩ => h ⟨by rw [(recv_eq_iff.mp h1).1, peer_peer], (recv_eq_iff.mp h1).2.symm⟩)]

/-- What device d owes device c's barrier cell: one unit if d is c's peer. -/
theorem owed_bar (d c : Dev nD) : O₀ d (barCell c) () = if d = peer c then 1 else 0 := by
  unfold O₀ Orecv
  simp only [Pi.add_apply, Finsupp.add_apply]
  rw [tallyAt_ne_cell (bar_ne_recv c (peer d) 7), tallyAt_ne_cell (bar_ne_recv c (peer d) 6), tallyAt_ne_cell (bar_ne_recv c (peer d) 5),
    tallyAt_ne_cell (bar_ne_recv c (peer d) 4), tallyAt_ne_cell (bar_ne_recv c (peer d) 3), tallyAt_ne_cell (bar_ne_recv c (peer d) 2),
    tallyAt_ne_cell (bar_ne_recv c (peer d) 1), tallyAt_ne_cell (bar_ne_recv c (peer d) 0), Finsupp.zero_apply]
  simp only [Nat.zero_add]
  exact tally_bar_bar d c

/-- What device d owes device c's receive cell of chunk k: one copy's credit if d is c's peer. -/
theorem sum_ite8 (n : ℕ) (k : Fin 8) :
    (if (7 : Fin 8) = k then n else 0) + (if (6 : Fin 8) = k then n else 0) + (if (5 : Fin 8) = k then n else 0) + (if (4 : Fin 8) = k then n else 0)
      + (if (3 : Fin 8) = k then n else 0) + (if (2 : Fin 8) = k then n else 0) + (if (1 : Fin 8) = k then n else 0) + (if (0 : Fin 8) = k then n else 0) = n := by
  fin_cases k <;> simp

theorem owed_recv (d c : Dev nD) (k : Fin 8) : O₀ d (recvCell c k) () = if d = peer c then N else 0 := by
  unfold O₀ Orecv
  simp only [Pi.add_apply, Finsupp.add_apply]
  rw [tally_recv_recv d c 7 k, tally_recv_recv d c 6 k, tally_recv_recv d c 5 k, tally_recv_recv d c 4 k, tally_recv_recv d c 3 k,
    tally_recv_recv d c 2 k, tally_recv_recv d c 1 k, tally_recv_recv d c 0 k, tallyAt_ne_cell (recv_ne_bar c (peer d) k), Finsupp.zero_apply, Nat.add_zero]
  by_cases h : d = peer c
  · simp only [h, _root_.true_and, if_true]
    exact sum_ite8 N k
  · simp only [h, _root_.false_and, if_false]

/-! ## The credit dealt -/

/-- What a device owes, as the sum of its nine one-cell tallies. -/
theorem O₀_eq : (O₀ : Dev nD → CellTallies nD τ sig Unit) = fun d : Dev nD => (((((((tallyAt (recvCell (peer d) 7) () N + tallyAt (recvCell (peer d) 6) () N) + tallyAt (recvCell (peer d) 5) () N) + tallyAt (recvCell (peer d) 4) () N) + tallyAt (recvCell (peer d) 3) () N) + tallyAt (recvCell (peer d) 2) () N) + tallyAt (recvCell (peer d) 1) () N) + tallyAt (recvCell (peer d) 0) () N) + tallyAt (barCell (peer d)) () 1 := rfl

theorem creds (c : Dev nD) : (Pipeline.launchCred O₀ c : sProp 𝕄) ⊢ launchCreds c := by
  rw [O₀_eq, Pipeline.launchCred_add, Pipeline.launchCred_add, Pipeline.launchCred_add, Pipeline.launchCred_add, Pipeline.launchCred_add,
    Pipeline.launchCred_add, Pipeline.launchCred_add, Pipeline.launchCred_add]
  unfold launchCreds
  iintro ⟨⟨⟨⟨⟨⟨⟨⟨H7, H6⟩, H5⟩, H4⟩, H3⟩, H2⟩, H1⟩, H0⟩, HB⟩
  isplitl [HB]; · iapply (Pipeline.launchCred_tallyAt (.reg barS) peer peer peer_peer peer_peer () 1 c); iexact HB
  isplitl [H0]; · iapply (Pipeline.launchCred_tallyAt (.dma (recvS 0)) peer peer peer_peer peer_peer () N c); iexact H0
  isplitl [H1]; · iapply (Pipeline.launchCred_tallyAt (.dma (recvS 1)) peer peer peer_peer peer_peer () N c); iexact H1
  isplitl [H2]; · iapply (Pipeline.launchCred_tallyAt (.dma (recvS 2)) peer peer peer_peer peer_peer () N c); iexact H2
  isplitl [H3]; · iapply (Pipeline.launchCred_tallyAt (.dma (recvS 3)) peer peer peer_peer peer_peer () N c); iexact H3
  isplitl [H4]; · iapply (Pipeline.launchCred_tallyAt (.dma (recvS 4)) peer peer peer_peer peer_peer () N c); iexact H4
  isplitl [H5]; · iapply (Pipeline.launchCred_tallyAt (.dma (recvS 5)) peer peer peer_peer peer_peer () N c); iexact H5
  isplitl [H6]; · iapply (Pipeline.launchCred_tallyAt (.dma (recvS 6)) peer peer peer_peer peer_peer () N c); iexact H6
  iapply (Pipeline.launchCred_tallyAt (.dma (recvS 7)) peer peer peer_peer peer_peer () N c); iexact H7

end Cert.Kernel.Sched

end
-- ==== Proof.DealBits.lean ====
/-
  The launch's ghost dealing, assembled: the cells and tokens and their funding, the payloads fit for invariants, the
  global step that hands every device what its body starts from, and the credit each device is dealt.
-/
import proofs.«900346_g7700000000000347_dist_arsfmx_v7x_xyz2x2x4_y_t256_d512_v4096_bf16_1_alg».proof.Proof.DealCellsBits
import proofs.«900346_g7700000000000347_dist_arsfmx_v7x_xyz2x2x4_y_t256_d512_v4096_bf16_1_alg».proof.Proof.DealStorableBits
import proofs.«900346_g7700000000000347_dist_arsfmx_v7x_xyz2x2x4_y_t256_d512_v4096_bf16_1_alg».proof.Proof.DealGlobBits
import proofs.«900346_g7700000000000347_dist_arsfmx_v7x_xyz2x2x4_y_t256_d512_v4096_bf16_1_alg».proof.Proof.DealCredsBits
-- ==== Proof.LaunchBits.lean ====
/-
  From one device's body to the whole mesh.

  The pipeline hands the body its three staging buffers — the copy of x and the half of W as fetched, the result's at
  whatever it holds — with the invariant before the point; the body's own lemma takes it from there to the invariant
  after the point, the staged inputs untouched and the staged result at the whole softmax, which the pipeline then
  writes back.  At launch every device's seventeen cells are allocated in one step and each device is dealt the
  tokens it pays with; its scratch buffer, scoped to the kernel, comes with the region and goes back with it.  While
  the pipeline waits on a staging cell the device owes, at most, what it owes at launch, all of it ranked above the
  staging cells.  So every weakly fair execution of the sixteen devices' kernels terminates, nothing faults, and at
  the end each device's three arrays are: x and its half of W as they were, and the result the pipeline's flush of
  the staged softmax.
-/
import proofs.«900346_g7700000000000347_dist_arsfmx_v7x_xyz2x2x4_y_t256_d512_v4096_bf16_1_alg».proof.Proof.BodyBits
import proofs.«900346_g7700000000000347_dist_arsfmx_v7x_xyz2x2x4_y_t256_d512_v4096_bf16_1_alg».proof.Proof.DealBits
import proofs.«900346_g7700000000000347_dist_arsfmx_v7x_xyz2x2x4_y_t256_d512_v4096_bf16_1_alg».proof.Proof.Gen.Kernel.Points

noncomputable section

namespace Cert.Kernel.Launch

open Cert.Kernel Cert.Kernel.Gen Cert.Kernel.Mesh Cert.Kernel.Data Cert.Kernel.Sched
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- A whole staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m c ∗ (dats m ρ 0 c).owesAt () t0_0.succ
    ∗ stg c cc0_stg0_0 (xstg m c) ∗ stg c cc0_stg1_0 (wstg m c) ∗ stg c cc0_stg2_0 (outOf m c))

/-- What the body ends with is what the pipeline asks of it after the point. -/
theorem post_to_bodyPost (c : Dev nD) : Body.post m c ⊢ bodyPost m ρ c := by
  unfold Body.post bodyPost Φ₁ Dat.owesAt Pipeline.owesWithin
  rw [show (dats m ρ 0 c).owed t0_0.succ = 0 from rfl]
  iintro ⟨Hscr, Hzs0, Hzs1, Hzs2, Hzs3, Hzs4, Hzs5, Hzs6, Hzs7, Hzr0, Hzr1, Hzr2, Hzr3, Hzr4, Hzr5, Hzr6, Hzr7, ⟨%W', HO⟩, Hx, Hw, Hout⟩
  isplitl [Hscr Hzs0 Hzs1 Hzs2 Hzs3 Hzs4 Hzs5 Hzs6 Hzs7 Hzr0 Hzr1 Hzr2 Hzr3 Hzr4 Hzr5 Hzr6 Hzr7]
  · isplitl [Hscr]; · iexact Hscr
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzs7]; · iexact Hzs7
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    iexact Hzr7
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 8000 in
/-- The library's body obligation on device `c`: the pipeline's form around the body's own lemma. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hcr, Hlev⟩, ⟨%f0, Hscr⟩⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = O₀ c from rfl]
  iapply (wp_mono Idealize.ShloMosaic.frame (wpE (defs₀ (F := F)) 𝒱₀ (c : Thread nD τ) none) Set.univ (Q := fun _ => Body.post m c) (fun _ => post_to_bodyPost m ρ c))
  iapply (Body.body_run m K c W f0 g2)
  unfold Body.pre
  isplitl [Hg]; · iexact Hg
  isplitl [Hcr]; · iexact Hcr
  isplitl [Hlev]; · iexact Hlev
  isplitl [Hscr]; · iexact Hscr
  isplitl [HO]; · iexact HO
  isplitl [Hx]; · iexact Hx
  isplitl [Hw]; · iexact Hw
  iexact Hout

/-! ## Into and out of the pipeline's invariant -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (commOf m c); iexact Hr

/-- While the pipeline waits on a staging cell the device owes what it owes at launch (before the point) or nothing
    (after it); every cell owed is ranked above the staging cells. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of_above c _ (Nat.le_of_eq (lv_stage c _ (by fin_cases w <;> fin_cases s <;> decide) ())) (above_O₀ c)
    · exact mayWait_of_above c _ (Nat.le_of_eq (lv_stage c _ (by fin_cases w <;> fin_cases s <;> decide) ())) (Above.zero 0)

/-! ## The run -/

def finalA (c : Dev nD) (w : Fin cfg0.W) : Buf (Elt F) ((cfg0.win w).arr.view.loc (c : Thread nD τ)) := (dats m ρ 0 c).arrAt w cfg0.N

/-- Every final state has each device's three arrays at the pipeline's final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly
    fair execution of the sixteen kernels — each handshaking with its peer on the barrier semaphore, copying its
    eight logit blocks to it and normalising over both halves — terminates, nothing faulting, with every device's
    arrays at the pipeline's final contents. -/
theorem run_main : θ_run defs (onTc (τ := τ) (main (F := F))) (Sched.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument arrays after the run hold what they held; the result array the flushed staged softmax. -/
theorem finalA_x (c : Dev nD) : finalA m ρ c (0 : Fin 3) = (Sched.s₀ m ρ).mem (win0_0.arr.view.loc (c : Thread nD τ)) :=
  (dats (F := F) m ρ 0 c).arrAt_in (0 : Fin 3) rfl _
theorem finalA_w (c : Dev nD) : finalA m ρ c (1 : Fin 3) = (Sched.s₀ m ρ).mem (win0_1.arr.view.loc (c : Thread nD τ)) :=
  (dats (F := F) m ρ 0 c).arrAt_in (1 : Fin 3) rfl _

end Cert.Kernel.Launch

end
-- ==== Proof.KLogit.lean ====
/-
  The block of logits a device stores is the block of inner products.

  For chunk `k` a device multiplies rows `32k .. 32k+32` of its staged copy of `x` (256 × 512) by its staged half of
  `W` (512 × 4096) into a zero accumulator, narrows the product to bf16 and stores it as a 1 × 32 × 4096 block.  On the
  extended reals the matrix product at `(q, j)` is the sum over the contraction index `t` of `x[32k + q, t] · W[t, j]`,
  the zero accumulator adds nothing, and narrowing is the identity; a load of 32 rows from row `32k` reads row
  `32k + q` at `q`, and the load of the whole half of `W` reads it as it is.  So the stored block at `(0, q, j)` is
  `∑ t, x[32k + q, t] · W[t, j]` of the staged arrays.
-/
import proofs.«900346_g7700000000000347_dist_arsfmx_v7x_xyz2x2x4_y_t256_d512_v4096_bf16_1_alg».proof.Proof.DataIdeal
import Idealize.ShloMosaic.Lib.ValueLayout
import Idealize.ShloMosaic.PureOps.Ideal.Laws

noncomputable section

namespace Cert.KernelIdeal.KValue

open Idealize.ShloMosaic Idealize.ShloMosaic.TcCoe Idealize.SL.Sem
open Cert.KernelIdeal Cert.KernelIdeal.Gen Cert.KernelIdeal.Mesh Cert.KernelIdeal.Data

/-! ## The product of a 32 × 512 block with a 512 × 4096 block at an index -/

/-- The dimension numbers of the block product: rows × contraction times contraction × columns. -/
abbrev DD := dot_S32x512_S512x4096_S32x4096_1_0_0_1_n_n

/-- At output index `i` and contraction index `p` the left operand is read at `(i 0, p)` … -/
theorem lhs_row (i : S32x4096.Idx) (p : DD.contr.Idx) : (DD.lhsIdx i p 0).val = (i 0).val := by
  unfold DotDims.lhsIdx
  rw [dif_neg (show ¬(0 : Fin S32x512.rank) ∈ DD.lhsBatch by decide), dif_pos (show (0 : Fin S32x512.rank) ∈ DD.lhsNonContracting by decide)]
  rfl
theorem lhs_col (i : S32x4096.Idx) (p : DD.contr.Idx) : (DD.lhsIdx i p 1).val = (p ⟨0, by decide⟩).val :=
  DD.lhsIdx_val_of_single rfl i p
/-- … and the right operand at `(p, i 1)`. -/
theorem rhs_row (i : S32x4096.Idx) (p : DD.contr.Idx) : (DD.rhsIdx i p 0).val = (p ⟨0, by decide⟩).val :=
  DD.rhsIdx_val_of_single rfl i p
theorem rhs_col (i : S32x4096.Idx) (p : DD.contr.Idx) : (DD.rhsIdx i p 1).val = (i 1).val := by
  unfold DotDims.rhsIdx
  rw [dif_neg (show ¬(1 : Fin S512x4096.rank) ∈ DD.rhsBatch by decide), dif_pos (show (1 : Fin S512x4096.rank) ∈ DD.rhsNonContracting by decide)]
  rfl

/-- The block product into a zero accumulator, at `(q, j)`: `∑ t, xr (q, t) · wl (t, j)`.  The contraction index set
    has one axis of extent 512, so the sum over it is re-indexed by that axis's coordinate `t : Fin 512`. -/
theorem block_product_apply (xr : FVec Ideal S32x512 .f32) (wl : FVec Ideal S512x4096 .f32) (q : Fin 32) (j : Fin 4096) :
    matmul DD none xr wl (constant (F := Ideal) S32x4096 .f32 0x00000000#32) (ValueIdx.ix2 q j)
      = ∑ t : Fin 512, xr (ValueIdx.ix2 q t) * wl (ValueIdx.ix2 t j) := by
  refine (Ideal.matmul_constant_zero_apply DD none xr wl (ValueIdx.ix2 q j)).trans ?_
  rw [← Equiv.sum_comp (ValueIdx.contrEquiv1 DD 512 rfl rfl).symm]
  refine Finset.sum_congr rfl fun t _ => ?_
  have ht := ValueIdx.contrEquiv1_symm_val DD 512 rfl rfl t
  have el : DD.lhsIdx (ValueIdx.ix2 q j) ((ValueIdx.contrEquiv1 DD 512 rfl rfl).symm t) = ValueIdx.ix2 q t := funext fun a => Fin.ext (by
    match a with
    | ⟨0, _⟩ => exact lhs_row _ _
    | ⟨1, _⟩ => exact (lhs_col _ _).trans ht)
  have er : DD.rhsIdx (ValueIdx.ix2 q j) ((ValueIdx.contrEquiv1 DD 512 rfl rfl).symm t) = ValueIdx.ix2 t j := funext fun a => Fin.ext (by
    match a with
    | ⟨0, _⟩ => exact (rhs_row _ _).trans ht
    | ⟨1, _⟩ => exact rhs_col _ _)
  rw [el, er]

/-- The index `(0, q, j)` of a stored block, written by its coordinates. -/
theorem ix3_eq (q : Fin 32) (j : Fin 4096) : Data.ix3 q j = ValueIdx.ix3 (0 : Fin 1) q j :=
  funext fun a => by match a with | ⟨0, _⟩ => rfl | ⟨1, _⟩ => rfl | ⟨2, _⟩ => rfl

/-- The narrowed block product, seen as a 1 × 32 × 4096 block, at `(0, q, j)`: the inner product of row `q` of the
    left block with column `j` of the right one.  The two casts of an operand to its own shape are the identity, the
    cast that adds the leading unit axis reads `(0, q, j)` at `(q, j)`, and narrowing is the identity on the extended
    reals. -/
theorem stored_apply (xr : FVec Ideal S32x512 .f32) (wl : FVec Ideal S512x4096 .f32) (q : Fin 32) (j : Fin 4096) :
    shapeCast S1x32x4096 (truncf .bf16 (matmul DD none (shapeCast S32x512 xr shapeCasts_S32x512_S32x512)
        (shapeCast S512x4096 wl shapeCasts_S512x4096_S512x4096) (constant (F := Ideal) S32x4096 .f32 0x00000000#32)) bitsLt_bf16_f32)
        shapeCasts_S32x4096_S1x32x4096 (Data.ix3 q j)
      = ∑ t : Fin 512, xr (ValueIdx.ix2 q t) * wl (ValueIdx.ix2 t j) := by
  rw [ix3_eq, shapeCast_self xr, shapeCast_self wl]
  refine (ValueIdx.shapeCast_ab_1ab_apply _ shapeCasts_S32x4096_S1x32x4096 0 q j).trans ?_
  exact block_product_apply xr wl q j

/-! ## The loads -/

/-- Row `32k + q`, column `t` of the staged `x`; row `t`, column `j` of the staged half of `W`. -/
def xi (k : Fin 8) (q : Fin 32) (t : Fin 512) : S256x512.Idx := fun a => match a with
  | ⟨0, _⟩ => ⟨32 * k.val + q.val, by have := k.isLt; have := q.isLt; show _ < 256; omega⟩
  | ⟨1, _⟩ => ⟨t.val, t.isLt⟩
def wi (t : Fin 512) (j : Fin 4096) : S512x4096.Idx := fun a => match a with
  | ⟨0, _⟩ => ⟨t.val, t.isLt⟩
  | ⟨1, _⟩ => ⟨j.val, j.isLt⟩

section
variable {F : FTy → Type} [FloatOps F]
variable (m : (ℓ : Loc nD τ sig) → Buf (Elt F) ℓ)

/-- A load of 32 rows from row `r0` of the staged `x` reads, at `(q, t)`, the buffer at `(r0 + q, t)`: a rectangle's
    element sits at offset + 1 · coordinate on each axis. -/
theorem xload_apply (f : (cc0_stg0_0 : Ref sig .tc).ty.Contents (Elt F)) (r0 : Nat)
    (inb : ∀ a, (![r0, 0] : Fin 2 → Nat) a + S32x512.size a ≤ S256x512.size a) (q : Fin 32) (t : Fin 512)
    (i : S256x512.Idx) (h0 : (i 0).val = r0 + q.val) (h1 : (i 1).val = t.val) :
    (xM).view.readAt (Elt F) (Rect.unit (s := S256x512) ![r0, 0] S32x512.size inb).toLoadRect f (ValueIdx.ix2 q t) = f i := by
  show f ((Rect.unit (s := S256x512) ![r0, 0] S32x512.size inb).toLoadRect.idx (ValueIdx.ix2 q t)) = f i
  refine congrArg f (funext fun a => Fin.ext ?_)
  match a with
  | ⟨0, _⟩ => show r0 + 1 * q.val = (i 0).val; omega
  | ⟨1, _⟩ => show 0 + 1 * t.val = (i 1).val; omega

/-- The load of the whole staged half of `W` reads, at `(t, j)`, the buffer at `(t, j)`. -/
theorem wload_apply (c : Dev nD) (t : Fin 512) (j : Fin 4096) :
    wload m c (ValueIdx.ix2 t j) = wstg m c (wi t j) := by
  show wstg m c (wRect.toLoadRect.idx (ValueIdx.ix2 t j)) = wstg m c (wi t j)
  refine congrArg (wstg m c) (funext fun a => Fin.ext ?_)
  match a with
  | ⟨0, _⟩ => show 0 + 1 * t.val = t.val; omega
  | ⟨1, _⟩ => show 0 + 1 * j.val = j.val; omega

end

/-! ## The stored block -/

variable (m : (ℓ : Loc nD τ sig) → Buf (Elt Ideal) ℓ)

/-- Device `c`'s staged copy of `x` and staged half of `W` as functions into the extended reals (at the exact
    instance an f32 element is an extended real). -/
abbrev xs (c : Dev nD) : S256x512.Idx → EReal := xstg (F := Ideal) m c
abbrev ws (c : Dev nD) : S512x4096.Idx → EReal := wstg (F := Ideal) m c

/-- Chunk `k` of device `c`'s stored logits at `(0, q, j)`: the inner product of row `32k + q` of its staged `x` with
    column `j` of its staged half of `W`.  Each chunk's payload is the narrowed block product of the chunk's 32 loaded
    rows with the loaded half (for chunks 3 and 7 the product and the cast to a 1 × 32 × 4096 block are two named steps
    of the same composition). -/
theorem lg_apply (c : Dev nD) : ∀ (k : Fin 8) (q : Fin 32) (j : Fin 4096),
    lg (F := Ideal) m c k (Data.ix3 q j) = ∑ t : Fin 512, xs m c (xi k q t) * ws m c (wi t j)
  | ⟨0, _⟩, q, j => (stored_apply (xrows m c 0) (wload m c) q j).trans (Finset.sum_congr rfl fun t _ =>
      congrArg₂ (fun a b : EReal => a * b) (xload_apply (xstg m c) 0 _ q t (xi 0 q t) rfl rfl) (wload_apply m c t j))
  | ⟨1, _⟩, q, j => (stored_apply (xrows m c 1) (wload m c) q j).trans (Finset.sum_congr rfl fun t _ =>
      congrArg₂ (fun a b : EReal => a * b) (xload_apply (xstg m c) 32 _ q t (xi 1 q t) rfl rfl) (wload_apply m c t j))
  | ⟨2, _⟩, q, j => (stored_apply (xrows m c 2) (wload m c) q j).trans (Finset.sum_congr rfl fun t _ =>
      congrArg₂ (fun a b : EReal => a * b) (xload_apply (xstg m c) 64 _ q t (xi 2 q t) rfl rfl) (wload_apply m c t j))
  | ⟨3, _⟩, q, j => (stored_apply (xrows m c 3) (wload m c) q j).trans (Finset.sum_congr rfl fun t _ =>
      congrArg₂ (fun a b : EReal => a * b) (xload_apply (xstg m c) 96 _ q t (xi 3 q t) rfl rfl) (wload_apply m c t j))
  | ⟨4, _⟩, q, j => (stored_apply (xrows m c 4) (wload m c) q j).trans (Finset.sum_congr rfl fun t _ =>
      congrArg₂ (fun a b : EReal => a * b) (xload_apply (xstg m c) 128 _ q t (xi 4 q t) rfl rfl) (wload_apply m c t j))
  | ⟨5, _⟩, q, j => (stored_apply (xrows m c 5) (wload m c) q j).trans (Finset.sum_congr rfl fun t _ =>
      congrArg₂ (fun a b : EReal => a * b) (xload_apply (xstg m c) 160 _ q t (xi 5 q t) rfl rfl) (wload_apply m c t j))
  | ⟨6, _⟩, q, j => (stored_apply (xrows m c 6) (wload m c) q j).trans (Finset.sum_congr rfl fun t _ =>
      congrArg₂ (fun a b : EReal => a * b) (xload_apply (xstg m c) 192 _ q t (xi 6 q t) rfl rfl) (wload_apply m c t j))
  | ⟨7, _⟩, q, j => (stored_apply (xrows m c 7) (wload m c) q j).trans (Finset.sum_congr rfl fun t _ =>
      congrArg₂ (fun a b : EReal => a * b) (xload_apply (xstg m c) 224 _ q t (xi 7 q t) rfl rfl) (wload_apply m c t j))

end Cert.KernelIdeal.KValue

end
-- ==== Proof.KLanded.lean ====
/-
  The landed scratch read back.

  Once every copy has landed, slab 0 of a device's scratch buffer holds its own eight blocks of logits and slab 1 its
  peer's eight, block `k` in rows `32k .. 32k+32`.  The second loop loads, for chunk `k`, the 1 × 32 × 4096 rectangle
  at `(0, 32k, 0)` and the one at `(1, 32k, 0)`.  A rectangle's element `(u, q, j)` sits at
  `(slab + u, 32k + q, j)` with `u = 0`; row `32k + q` (`q < 32`) belongs to chunk `(32k + q) / 32 = k` at place
  `(32k + q) % 32 = q`.  So the first load returns the device's own block `k` and the second its peer's block `k`.
  This is index arithmetic only: it holds for every float instance.
-/
import proofs.«900346_g7700000000000347_dist_arsfmx_v7x_xyz2x2x4_y_t256_d512_v4096_bf16_1_alg».proof.Proof.DataIdeal

noncomputable section

namespace Cert.KernelIdeal.KValue

open Idealize.ShloMosaic Idealize.ShloMosaic.TcCoe Idealize.SL.Sem
open Cert.KernelIdeal Cert.KernelIdeal.Gen Cert.KernelIdeal.Mesh Cert.KernelIdeal.Data

variable {F : FTy → Type} [FloatOps F]
variable (m : (ℓ : Loc nD τ sig) → Buf (Elt F) ℓ)

/-- The landed scratch at slab `i 0`, row `32k + x 1`, column `x 2`: element `x` of block `k`, the device's own in
    slab 0 and its peer's otherwise. -/
theorem commOf_block (c : Dev nD) (k : Fin 8) (x : S1x32x4096.Idx) (i : S2x256x4096.Idx)
    (h1 : (i 1).val = 32 * k.val + (x 1).val) (h2 : (i 2).val = (x 2).val) :
    commOf m c i = if (i 0).val = 0 then lg m c k x else lg m (peer c) k x := by
  have hx0 : (x 0).val = 0 := by have : (x 0).val < 1 := (x 0).isLt; omega
  have hx1 : (x 1).val < 32 := (x 1).isLt
  have hk : chunkOf ⟨(i 1).val, (i 1).isLt⟩ = k := Fin.ext (by show (i 1).val / 32 = k.val; omega)
  have hx : Data.ix3 (inChunk ⟨(i 1).val, (i 1).isLt⟩) ⟨(i 2).val, (i 2).isLt⟩ = x := funext fun a => Fin.ext (by
    match a with
    | ⟨0, _⟩ => show 0 = (x 0).val; omega
    | ⟨1, _⟩ => show (i 1).val % 32 = (x 1).val; omega
    | ⟨2, _⟩ => show (i 2).val = (x 2).val; omega)
  show (if (i 0).val = 0 then lg m c (chunkOf ⟨(i 1).val, (i 1).isLt⟩) (Data.ix3 (inChunk ⟨(i 1).val, (i 1).isLt⟩) ⟨(i 2).val, (i 2).isLt⟩)
    else lg m (peer c) (chunkOf ⟨(i 1).val, (i 1).isLt⟩) (Data.ix3 (inChunk ⟨(i 1).val, (i 1).isLt⟩) ⟨(i 2).val, (i 2).isLt⟩)) = _
  rw [hk, hx]

/-- A load of the 1 × 32 × 4096 rectangle at `(s, 32k, 0)` of the landed scratch: block `k`, the device's own when
    `s = 0` and its peer's otherwise. -/
theorem read_block (c : Dev nD) (s r0 : Nat)
    (inb : ∀ a, (![s, r0, 0] : Fin 3 → Nat) a + S1x32x4096.size a ≤ S2x256x4096.size a)
    (k : Fin 8) (hr : r0 = 32 * k.val) (x : S1x32x4096.Idx) :
    (cM).view.readAt (Elt F) (Rect.unit (s := S2x256x4096) ![s, r0, 0] S1x32x4096.size inb).toLoadRect (commOf m c) x
      = if s = 0 then lg m c k x else lg m (peer c) k x := by
  have hx0 : (x 0).val = 0 := by have : (x 0).val < 1 := (x 0).isLt; omega
  refine (commOf_block m c k x ((Rect.unit (s := S2x256x4096) ![s, r0, 0] S1x32x4096.size inb).toLoadRect.idx x) ?_ ?_).trans ?_
  · show r0 + 1 * (x 1).val = 32 * k.val + (x 1).val; omega
  · show 0 + 1 * (x 2).val = (x 2).val; omega
  · show (if s + 1 * (x 0).val = 0 then _ else _) = _
    rw [hx0, Nat.mul_zero, Nat.add_zero]

/-- What the second loop loads from slab 0 for chunk `k` is the device's own block `k`. -/
theorem mine_eq (c : Dev nD) : ∀ k : Fin 8, mine m c k = lg m c k
  | ⟨0, _⟩ => funext fun x => (read_block m c 0 0 _ 0 rfl x).trans (if_pos rfl)
  | ⟨1, _⟩ => funext fun x => (read_block m c 0 32 _ 1 rfl x).trans (if_pos rfl)
  | ⟨2, _⟩ => funext fun x => (read_block m c 0 64 _ 2 rfl x).trans (if_pos rfl)
  | ⟨3, _⟩ => funext fun x => (read_block m c 0 96 _ 3 rfl x).trans (if_pos rfl)
  | ⟨4, _⟩ => funext fun x => (read_block m c 0 128 _ 4 rfl x).trans (if_pos rfl)
  | ⟨5, _⟩ => funext fun x => (read_block m c 0 160 _ 5 rfl x).trans (if_pos rfl)
  | ⟨6, _⟩ => funext fun x => (read_block m c 0 192 _ 6 rfl x).trans (if_pos rfl)
  | ⟨7, _⟩ => funext fun x => (read_block m c 0 224 _ 7 rfl x).trans (if_pos rfl)

/-- What it loads from slab 1 for chunk `k` is the peer's block `k`. -/
theorem theirs_eq (c : Dev nD) : ∀ k : Fin 8, theirs m c k = lg m (peer c) k
  | ⟨0, _⟩ => funext fun x => (read_block m c 1 0 _ 0 rfl x).trans (if_neg Nat.one_ne_zero)
  | ⟨1, _⟩ => funext fun x => (read_block m c 1 32 _ 1 rfl x).trans (if_neg Nat.one_ne_zero)
  | ⟨2, _⟩ => funext fun x => (read_block m c 1 64 _ 2 rfl x).trans (if_neg Nat.one_ne_zero)
  | ⟨3, _⟩ => funext fun x => (read_block m c 1 96 _ 3 rfl x).trans (if_neg Nat.one_ne_zero)
  | ⟨4, _⟩ => funext fun x => (read_block m c 1 128 _ 4 rfl x).trans (if_neg Nat.one_ne_zero)
  | ⟨5, _⟩ => funext fun x => (read_block m c 1 160 _ 5 rfl x).trans (if_neg Nat.one_ne_zero)
  | ⟨6, _⟩ => funext fun x => (read_block m c 1 192 _ 6 rfl x).trans (if_neg Nat.one_ne_zero)
  | ⟨7, _⟩ => funext fun x => (read_block m c 1 224 _ 7 rfl x).trans (if_neg Nat.one_ne_zero)

end Cert.KernelIdeal.KValue

end
-- ==== Proof.KPay.lean ====
/-
  The two blocks a chunk writes, read at an index over the extended reals.

  From its own 1 × 32 × 4096 block a and its peer's block b (logits, as stored) a chunk forms
  E a = exp a and E b = exp b as 32 × 4096 arrays, the row sums of each over the 4096 lanes kept as 32 × 1 columns,
  the column 1 / (rowsum (E a) + rowsum (E b)), and writes E a and E b each multiplied by that column spread along
  the lanes, narrowed.  The eight chunks print this same arithmetic cut into differently grouped terms; each is, by
  unfolding alone, the one composition named here.  Over the extended reals the widening and the narrowing are the
  identity, so at row q and lane j the two written values are

      exp (a q j) · (1 / (∑ j', exp (a q j') + ∑ j', exp (b q j')))   and   exp (b q j) · (1 / (the same)).

  Four re-indexings carry the proof, each read at an explicit index first: the cast 1 × 32 × 4096 → 32 × 4096 reads
  (0, q, j) at (q, j); the sum over the lanes at row q is the sum over j' of the elements (q, j'); the cast
  32 → 32 × 1 reads q at (q, 0); the spread 32 × 1 → 32 × 4096 reads (q, 0) at (q, j).
-/
import proofs.«900346_g7700000000000347_dist_arsfmx_v7x_xyz2x2x4_y_t256_d512_v4096_bf16_1_alg».proof.Proof.DataIdeal
import Idealize.ShloMosaic.Lib.Pipeline.Value
import Idealize.ShloMosaic.PureOps.Ideal.Laws
import Idealize.ShloMosaic.Lib.IdealHost

noncomputable section

namespace Cert.KernelIdeal.KPay

open Idealize.ShloMosaic
open Cert.KernelIdeal Cert.KernelIdeal.Gen Cert.KernelIdeal.Data

/-- Index q of a 32-vector; index (q, 0) of a 32 × 1 column. -/
def ixr (q : Fin 32) : S32.Idx := fun a => match a with
  | ⟨0, _⟩ => ⟨q.val, q.isLt⟩
def ixc (q : Fin 32) : S32x1.Idx := fun a => match a with
  | ⟨0, _⟩ => ⟨q.val, q.isLt⟩ | ⟨1, _⟩ => ⟨0, Nat.one_pos⟩

/-! ### The four re-indexings at an index -/

section Reindex
variable {α : Type}

/-- The cast 1 × 32 × 4096 → 32 × 4096 at (q, j) reads (0, q, j): both have row-major position q · 4096 + j. -/
theorem cast3_apply (x : S1x32x4096.Idx → α) (q : Fin 32) (j : Fin 4096) :
    shapeCast S32x4096 x shapeCasts_S1x32x4096_S32x4096 (ix2b q j) = x (ix3 q j) :=
  shapeCast_apply x shapeCasts_S1x32x4096_S32x4096 (ix2b q j) (ix3 q j) (by
    rw [Shape.rowMajor_val_three, Shape.rowMajor_val_two]
    show (0 * 32 + q.val) * 4096 + j.val = q.val * 4096 + j.val
    omega)

/-- The cast 32 → 32 × 1 at (q, 0) reads q: both have row-major position q. -/
theorem keep_apply (z : S32.Idx → α) (q : Fin 32) :
    shapeCast S32x1 z shapeCasts_S32_S32x1 (ixc q) = z (ixr q) :=
  shapeCast_apply z shapeCasts_S32_S32x1 (ixc q) (ixr q) (by
    rw [Shape.rowMajor_val_one, Shape.rowMajor_val_two]
    show q.val = q.val * 1 + 0
    omega)

/-- The spread 32 × 1 → 32 × 4096 at (q, j) reads (q, 0): the row is kept, the unit axis reads its one element. -/
theorem spread_apply (v : S32x1.Idx → α) (q : Fin 32) (j : Fin 4096) :
    broadcastTo S32x4096 v broadcasts_S32x1_S32x4096 (ix2b q j) = v (ixc q) :=
  broadcastTo_apply v broadcasts_S32x1_S32x4096 (ix2b q j) (ixc q) (fun a => match a with
    | ⟨0, _⟩ => by show q.val = if (32 : Nat) = 1 then 0 else q.val; rw [if_neg (by decide)]
    | ⟨1, _⟩ => by show 0 = if (1 : Nat) = 1 then 0 else j.val; rw [if_pos rfl])

end Reindex

/-- Row q with lane k put back is (q, k). -/
theorem lift_row (q : Fin 32) (k : Fin (S32x4096.size 1)) :
    reduces_S32x4096_S32.lift (ixr q) k = ix2b q ⟨k.val, k.isLt⟩ :=
  funext fun c => Fin.ext (by match c with | ⟨0, _⟩ => rfl | ⟨1, _⟩ => rfl)

/-- The sum over the lanes at row q is the sum over j' of the elements (q, j'). -/
theorem lanes_apply (src : FVec Ideal S32x4096 .f32) (q : Fin 32) :
    multiReduction (F := Ideal) .add [1] S32 src 0x00000000#32 reduces_S32x4096_S32 (.inl rfl) rfl (ixr q)
      = ∑ j' : Fin 4096, src (ix2b q j') :=
  (Ideal.multiReduction_add_single src 0x00000000#32 reduces_S32x4096_S32 (.inl rfl) rfl (ixr q)).trans
    (Finset.sum_congr rfl fun k _ => congrArg src (lift_row q k))

/-! ### The one composition every chunk prints -/

/-- exp of a stored block, as a 32 × 4096 array of f32. -/
def eblk (a : Vec Ideal S1x32x4096 .bf16) : FVec Ideal S32x4096 .f32 :=
  exp (extf .f32 (shapeCast S32x4096 a shapeCasts_S1x32x4096_S32x4096) bitsLt_bf16_f32)

/-- The row sums over the lanes, kept as a 32 × 1 column. -/
def rsum (e : FVec Ideal S32x4096 .f32) : FVec Ideal S32x1 .f32 :=
  shapeCast S32x1 (multiReduction (F := Ideal) .add [1] S32 e 0x00000000#32 reduces_S32x4096_S32 (.inl rfl) rfl) shapeCasts_S32_S32x1

/-- The column 1 / (s₁ + s₂). -/
def recip (s1 s2 : FVec Ideal S32x1 .f32) : FVec Ideal S32x1 .f32 :=
  divf (broadcast S32x1 (Scalar.ofBits (F := Ideal) .f32 0x3F800000#32)) (addf s1 s2)

/-- A 32 × 4096 array times a column spread along the lanes, narrowed. -/
def scaled (e : FVec Ideal S32x4096 .f32) (r : FVec Ideal S32x1 .f32) : FVec Ideal S32x4096 .bf16 :=
  truncf .bf16 (mulf e (broadcastTo S32x4096 r broadcasts_S32x1_S32x4096)) bitsLt_bf16_f32

theorem eblk_apply (a : Vec Ideal S1x32x4096 .bf16) (q : Fin 32) (j : Fin 4096) :
    eblk a (ix2b q j) = Ideal.exp (a (ix3 q j)) :=
  congrArg Ideal.exp (cast3_apply a q j)

theorem rsum_apply (e : FVec Ideal S32x4096 .f32) (q : Fin 32) :
    rsum e (ixc q) = ∑ j' : Fin 4096, e (ix2b q j') :=
  (keep_apply _ q).trans (lanes_apply e q)

/-- The pattern 0x3F800000 is the real 1, so the column is 1 / (s₁ + s₂) at each row. -/
theorem recip_apply (s1 s2 : FVec Ideal S32x1 .f32) (q : Fin 32) :
    recip s1 s2 (ixc q) = Ideal.div 1 (s1 (ixc q) + s2 (ixc q)) := by
  show Ideal.div (Ideal.ofBits .f32 0x3F800000#32) (s1 (ixc q) + s2 (ixc q)) = _
  rw [Ideal.ofBits_one_f32]

theorem scaled_apply (e : FVec Ideal S32x4096 .f32) (r : FVec Ideal S32x1 .f32) (q : Fin 32) (j : Fin 4096) :
    scaled e r (ix2b q j) = e (ix2b q j) * r (ixc q) :=
  congrArg (e (ix2b q j) * ·) (spread_apply r q j)

/-- Each chunk's own block and other block are that composition: the printed terms unfold to it. -/
theorem own_eq (k : Fin 8) (a b : Vec Ideal S1x32x4096 .bf16) :
    own (F := Ideal) k a b = scaled (eblk a) (recip (rsum (eblk a)) (rsum (eblk b))) := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨n + 8, h⟩ => exact absurd h (by omega)

theorem oth_eq (k : Fin 8) (a b : Vec Ideal S1x32x4096 .bf16) :
    oth (F := Ideal) k a b = scaled (eblk b) (recip (rsum (eblk a)) (rsum (eblk b))) := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨n + 8, h⟩ => exact absurd h (by omega)

/-! ### The written values -/

/-- The composition at (q, j): the exponential there times 1 / (the two row sums). -/
theorem scaled_eblk_apply (c a b : Vec Ideal S1x32x4096 .bf16) (q : Fin 32) (j : Fin 4096) :
    scaled (eblk c) (recip (rsum (eblk a)) (rsum (eblk b))) (ix2b q j)
      = Ideal.exp (c (ix3 q j)) * Ideal.div 1 ((∑ j' : Fin 4096, Ideal.exp (a (ix3 q j'))) + (∑ j' : Fin 4096, Ideal.exp (b (ix3 q j')))) := by
  rw [scaled_apply, recip_apply, rsum_apply, rsum_apply, eblk_apply]
  simp only [eblk_apply]

theorem own_apply (k : Fin 8) (a b : Vec Ideal S1x32x4096 .bf16) (q : Fin 32) (j : Fin 4096) :
    own (F := Ideal) k a b (ix2b q j)
      = Ideal.exp (a (ix3 q j)) * Ideal.div 1 ((∑ j' : Fin 4096, Ideal.exp (a (ix3 q j'))) + (∑ j' : Fin 4096, Ideal.exp (b (ix3 q j')))) := by
  rw [own_eq]; exact scaled_eblk_apply a a b q j

theorem oth_apply (k : Fin 8) (a b : Vec Ideal S1x32x4096 .bf16) (q : Fin 32) (j : Fin 4096) :
    oth (F := Ideal) k a b (ix2b q j)
      = Ideal.exp (b (ix3 q j)) * Ideal.div 1 ((∑ j' : Fin 4096, Ideal.exp (a (ix3 q j'))) + (∑ j' : Fin 4096, Ideal.exp (b (ix3 q j')))) := by
  rw [oth_eq]; exact scaled_eblk_apply b a b q j

end Cert.KernelIdeal.KPay

end
-- ==== Proof.Spec.lean ====
/-
  The function both programs compute, stated once over the whole arrays and over no program.

  For `x : 256 × 512` and `W : 512 × 8192` the logit of row `r` and column `j` is the inner product
  `∑ k, x r k · W k j`.  The result at `(r, j)` is the softmax of row `r` WITHOUT a shift by the row's maximum:
  `exp (logit r j) · (1 / S r)`, where the row's normaliser `S r` is written as the sum over the low half of the
  columns (`j < 4096`) plus the sum over the high half (`4096 ≤ j`).  That split is how the result arises on a
  pair of devices each holding one half of `W`'s columns; the order of the two halves is immaterial (`+` on the
  extended reals is commutative), and the whole is the sum over all 8192 columns.
-/
import Idealize.ShloMosaic.PureOps.Ideal
import Idealize.ShloMosaic.Lib.ValueIdx

noncomputable section

namespace Cert.Softmax

open Idealize.ShloMosaic Idealize.ShloMosaic.ValueIdx

abbrev SX : Shape := ⟨2, ![256, 512]⟩
abbrev SW : Shape := ⟨2, ![512, 8192]⟩
abbrev SO : Shape := ⟨2, ![256, 8192]⟩

/-- Row `r`, column `k` of `x`; row `k`, column `j` of `W`; row `r`, column `j` of the result. -/
def ixX (r : Fin 256) (k : Fin 512) : SX.Idx := fun a => match a with | ⟨0, _⟩ => ⟨r.val, r.isLt⟩ | ⟨1, _⟩ => ⟨k.val, k.isLt⟩
def ixW (k : Fin 512) (j : Fin 8192) : SW.Idx := fun a => match a with | ⟨0, _⟩ => ⟨k.val, k.isLt⟩ | ⟨1, _⟩ => ⟨j.val, j.isLt⟩
def ixO (r : Fin 256) (j : Fin 8192) : SO.Idx := fun a => match a with | ⟨0, _⟩ => ⟨r.val, r.isLt⟩ | ⟨1, _⟩ => ⟨j.val, j.isLt⟩

/-- Column `j` of the low half and of the high half of the 8192 columns. -/
def lo (j : Fin 4096) : Fin 8192 := ⟨j.val, by omega⟩
def hi (j : Fin 4096) : Fin 8192 := ⟨4096 + j.val, by omega⟩

/-- The logit of row `r` and column `j`: the inner product of `x`'s row with `W`'s column. -/
def logit (x : SX.Idx → EReal) (W : SW.Idx → EReal) (r : Fin 256) (j : Fin 8192) : EReal :=
  ∑ k : Fin 512, x (ixX r k) * W (ixW k j)

/-- Row `r`'s normaliser: the exponentials of its logits summed over the low half, plus those over the high half. -/
def rowsum (x : SX.Idx → EReal) (W : SW.Idx → EReal) (r : Fin 256) : EReal :=
  (∑ j : Fin 4096, Ideal.exp (logit x W r (lo j))) + (∑ j : Fin 4096, Ideal.exp (logit x W r (hi j)))

/-- The unshifted softmax of each row of `x · W`. -/
def G (x : SX.Idx → EReal) (W : SW.Idx → EReal) : SO.Idx → EReal := fun i =>
  Ideal.exp (logit x W ⟨(i 0).val, (i 0).isLt⟩ ⟨(i 1).val, (i 1).isLt⟩) * Ideal.div 1 (rowsum x W ⟨(i 0).val, (i 0).isLt⟩)

end Cert.Softmax

end
-- ==== Proof.JoinBlock.lean ====
/-
  Which columns of `W` a device holds.

  The whole `W` is 512 × 8192.  It is cut along its columns into two halves of 4096, and the sixteen devices of the
  2 × 2 × 4 mesh are numbered row-major, so device `c` has the coordinate `y = (c / 4) % 2` on the middle axis.  The
  half a device holds is the one its `y` names: entry `(t, j)` of device `c`'s block is entry `(t, 4096·y + j)` of the
  whole array.  The rows are not cut: the block coordinate on the row axis is 0 on every device.

  Conversely every column `jj < 8192` of the whole array lies in some device's half: `jj = 4096·q + r` with
  `q = jj / 4096 < 2` and `r = jj % 4096`, and device `4·q` has `y = q`.
-/
import proofs.«900346_g7700000000000347_dist_arsfmx_v7x_xyz2x2x4_y_t256_d512_v4096_bf16_1_alg».proof.Proof.Spec
import proofs.«900346_g7700000000000347_dist_arsfmx_v7x_xyz2x2x4_y_t256_d512_v4096_bf16_1_alg».proof.Proof.MeshIdeal
import Idealize.ShloMosaic.Lib.Layout

namespace Cert.KernelIdeal.Join

open Idealize.ShloMosaic Idealize.ShloMosaic.ValueIdx Cert.KernelIdeal Cert.KernelIdeal.Mesh

/-- The rows are not cut: every device's block coordinate along the rows is 0. -/
theorem meshBlock_row (c : Dev nD) : ((Layout.meshBlock [2, 2, 4] ![[], [1]] c) 0).val = 0 := by
  revert c; decide

/-- The columns are cut along the mesh's middle axis: a device's block coordinate along the columns is its `y`. -/
theorem meshBlock_col (c : Dev nD) : ((Layout.meshBlock [2, 2, 4] ![[], [1]] c) 1).val = yOf c := by
  revert c; decide

/-- Column `j` of the half that `y` names is column `4096·y + j` of the whole array, and that is below 8192. -/
theorem col_lt (c : Dev nD) (j : Fin 4096) : 4096 * yOf c + j.val < 8192 := by
  have := yOf_lt c; omega

/-- Entry `(t, j)` of device `c`'s block of a 512 × 8192 array is entry `(t, 4096·y + j)` of the array, `y` the
    device's coordinate on the middle axis: on the row axis the block's offset is `0 · 512`, on the column axis
    `y · 4096`. -/
theorem block_at {α : Type} (c : Dev nD) (Wf : Cert.Softmax.SW.Idx → α) (t : Fin 512) (j : Fin 4096) :
    (Layout.blockN ⟨2, ![512, 4096]⟩ ⟨2, ![512, 8192]⟩ (Layout.meshBlock [2, 2, 4] ![[], [1]] c) Wf) (ix2 t j)
      = Wf (Cert.Softmax.ixW t ⟨4096 * yOf c + j.val, col_lt c j⟩) := by
  show Wf _ = Wf _
  refine congrArg Wf (funext fun a => Fin.ext ?_)
  rw [Layout.TilesN.idx_val]
  match a with
  | ⟨0, _⟩ =>
    show ((Layout.meshBlock [2, 2, 4] ![[], [1]] c) 0).val * 512 + t.val = t.val
    rw [meshBlock_row]; omega
  | ⟨1, _⟩ =>
    show ((Layout.meshBlock [2, 2, 4] ![[], [1]] c) 1).val * 4096 + j.val = 4096 * yOf c + j.val
    rw [meshBlock_col]; omega

/-- Every entry of the whole array lies in some device's block: column `jj` is column `jj % 4096` of the half
    `jj / 4096`, which device `4 · (jj / 4096)` holds. -/
theorem col_cover (i : Cert.Softmax.SW.Idx) :
    ∃ (c : Dev nD) (t : Fin 512) (j : Fin 4096), i = Cert.Softmax.ixW t ⟨4096 * yOf c + j.val, col_lt c j⟩ := by
  have h0 : (i 0).val < 512 := idx2_lt0 i
  have h1 : (i 1).val < 8192 := idx2_lt1 i
  refine ⟨⟨4 * ((i 1).val / 4096), by simp only [nD]; omega⟩, ⟨(i 0).val, h0⟩, ⟨(i 1).val % 4096, Nat.mod_lt _ (by decide)⟩, ?_⟩
  funext a
  match a with
  | ⟨0, _⟩ => exact Fin.ext rfl
  | ⟨1, _⟩ =>
    refine Fin.ext ?_
    show (i 1).val = 4096 * ((4 * ((i 1).val / 4096) / 4) % 2) + (i 1).val % 4096
    omega

end Cert.KernelIdeal.Join
-- ==== Proof.JoinFinite.lean ====
/-
  From "every entry has absolute value below +∞" to "every entry is a real number".

  The precondition is printed as a pure function of two arrays `a` (256 × 512) and `b` (512 × 4096):
  `all (|a| < +∞) ∧ all (|b| < +∞)`, where `all` is a reduction by `and` over both axes starting from `true`, the
  comparison is the order of the extended reals, `|x| = max x (-x)`, and `+∞` is written as the binary32 word
  `0x7F800000` (sign 0, exponent all ones, fraction 0), which denotes `⊤`.
  If the function's one result is `true` then both reductions are `true`, so each compared entry is `true`:
  `max x (-x) < ⊤`.  An extended real is `⊥`, a real, or `⊤`; for `⊥` and `⊤` the maximum is `⊤`, so `x` is a real.
-/
import proofs.«900346_g7700000000000347_dist_arsfmx_v7x_xyz2x2x4_y_t256_d512_v4096_bf16_1_alg».proof.Pre_finite_inputs_Kernel
import Idealize.ShloMosaic.Lib.ReduceAll
import Idealize.ShloMosaic.Lib.ValueIdx
import Idealize.ShloMosaic.PureOps.Ideal

noncomputable section

namespace Cert.KernelIdeal.Join

open Idealize.ShloMosaic Idealize.ShloMosaic.ValueIdx Cert.Pre_finite_inputs_Kernel

/-- The scalar shape has one index. -/
instance : Subsingleton S_.Idx := ⟨fun a b => funext fun d => d.elim0⟩

/-- The binary32 word with sign 0, exponent all ones and fraction 0 denotes `+∞`. -/
theorem inf_word : Ideal.ofBits .f32 0x7F800000#32 = (⊤ : EReal) := by
  simp [Ideal.ofBits, Ideal.ieee]

/-- An extended real whose absolute value `max x (-x)` is below `⊤` is a real: for `x = ⊥` the maximum is `-⊥ = ⊤`,
    for `x = ⊤` it is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The printed comparison `|x| < +∞` answering `true` says `max x (-x) < ⊤`, so `x` is a real. -/
theorem elt_finite (x : EReal) (h : Ideal.cmp .olt (max x (-x)) (Ideal.ofBits .f32 0x7F800000#32) = 1#1) :
    ∃ r : ℝ, x = (r : EReal) := by
  rw [inf_word] at h
  refine real_of_abs_lt_top x ?_
  by_contra hn
  simp [Ideal.cmp, hn] at h

variable [Facts]

/-- If the printed predicate is `true` of `a` and `b`, every entry of `a` and every entry of `b` is a real: the
    conjunction gives both reductions, each reduction by `and` over all axes gives every compared entry, and
    each compared entry is `|x| < +∞`. -/
theorem finite_of_pre (a : FVec Ideal S256x512 .f32) (b : FVec Ideal S512x4096 .f32)
    (h : fn (F := Ideal) a b = fun _ => 1#1) :
    (∀ i, ∃ r : ℝ, a i = (r : EReal)) ∧ (∀ i, ∃ r : ℝ, b i = (r : EReal)) := by
  have h0 := congrFun h ix0
  dsimp only [fn] at h0
  obtain ⟨h1, h2⟩ := IntOp.andi_eq_one.1 h0
  refine ⟨fun i => ?_, fun i => ?_⟩
  · have e := Host.reduce_andi_all _ _ _ _ _ h1 i
    exact elt_finite (a i) e
  · have e := Host.reduce_andi_all _ _ _ _ _ h2 i
    exact elt_finite (b i) e

end Cert.KernelIdeal.Join

end
-- ==== Proof.Join.lean ====
/-
  The layout join: from what is assumed of the sixteen devices' argument buffers to facts about the two whole arrays.

  The comparison of the two programs assumes that every device's first argument buffer is a copy of the whole
  `x` (256 × 512) and that its second is its block of the whole `W` (512 × 8192), the column half its coordinate
  `y = (c / 4) % 2` names; and it assumes of every device's two buffers that all their entries have absolute value
  below `+∞`.  Three things follow.
  (a) What a device stages of `x` is the whole `x`: the staged contents are the read of the buffer through the
      rectangle at offset 0 of the buffer's own sizes, which is the buffer.
  (b) Entry `(t, j)` of what a device stages of `W` is entry `(t, 4096·y + j)` of the whole `W`.
  (c) Every entry of the whole `x` is a real number (any one device's copy is all of it), and so is every entry of the
      whole `W`: column `jj` lies in the half `jj / 4096`, which some device holds, and that device's block is
      all real.
-/
import proofs.«900346_g7700000000000347_dist_arsfmx_v7x_xyz2x2x4_y_t256_d512_v4096_bf16_1_alg».proof.Defs
import proofs.«900346_g7700000000000347_dist_arsfmx_v7x_xyz2x2x4_y_t256_d512_v4096_bf16_1_alg».proof.Proof.DataIdeal
import proofs.«900346_g7700000000000347_dist_arsfmx_v7x_xyz2x2x4_y_t256_d512_v4096_bf16_1_alg».proof.Proof.JoinBlock
import proofs.«900346_g7700000000000347_dist_arsfmx_v7x_xyz2x2x4_y_t256_d512_v4096_bf16_1_alg».proof.Proof.JoinFinite

noncomputable section

namespace Cert.KernelIdeal.Join

open Idealize.ShloMosaic Idealize.ShloMosaic.TcCoe Idealize.SL.Sem Idealize.ShloMosaic.ValueIdx
open Cert.KernelIdeal Cert.KernelIdeal.Gen Cert.KernelIdeal.Mesh Cert.KernelIdeal.Data

/-! ## What a device stages is its argument buffer (any float instance) -/

section Stage

variable {F : FTy → Type} [FloatOps F]
variable (m : (ℓ : Loc nD τ sig) → Buf (Elt F) ℓ)

/-- The staged `x`: the read of the whole buffer through the rectangle at offsets `0 · size` of the buffer's sizes. -/
theorem xstg_eq (c : Dev nD) : (xstg m c : Vec F S256x512 .f32) = m ((c : Thread nD τ).loc main_arg0) := by
  unfold xstg
  exact Memref.read_access_unit_zero (Elt F) main_arg0 (funext fun _ => Nat.zero_mul _) _ _

/-- The staged half of `W`, likewise. -/
theorem wstg_eq (c : Dev nD) : (wstg m c : Vec F S512x4096 .f32) = m ((c : Thread nD τ).loc main_arg1) := by
  unfold wstg
  exact Memref.read_access_unit_zero (Elt F) main_arg1 (funext fun _ => Nat.zero_mul _) _ _

end Stage

/-! ## The whole arrays, and the devices' buffers as their parts -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The whole `x` and the whole `W`: the one-device program's two argument arrays, as functions of an index. -/
abbrev Xof : Cert.Softmax.SX.Idx → EReal :=
  m' (((0 : Dev Cert.ReferenceIdeal.nD).tc : Thread Cert.ReferenceIdeal.nD Cert.ReferenceIdeal.τ).loc Cert.ReferenceIdeal.main_arg0)
abbrev Wof : Cert.Softmax.SW.Idx → EReal :=
  m' (((0 : Dev Cert.ReferenceIdeal.nD).tc : Thread Cert.ReferenceIdeal.nD Cert.ReferenceIdeal.τ).loc Cert.ReferenceIdeal.main_arg1)

/-- What is assumed of the layout: every device's first buffer is the whole `x`, its second its block of the whole `W`. -/
abbrev Agree : Prop :=
  ∀ c : Dev Cert.KernelIdeal.nD,
    m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
    ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg1))

/-- (a) Every device stages the whole `x`. -/
theorem xstg_join (hagree : Agree m m') (c : Dev nD) :
    (xstg (F := Ideal) m c : Cert.Softmax.SX.Idx → EReal) = Xof m' :=
  (xstg_eq m c).trans (hagree c).1

/-- Entry `(t, j)` of device `c`'s second buffer is entry `(t, 4096·y + j)` of the whole `W`. -/
theorem wbuf_at (hagree : Agree m m') (c : Dev nD) (t : Fin 512) (j : Fin 4096) :
    (m ((c.tc : Thread nD τ).loc main_arg1) : (⟨2, ![512, 4096]⟩ : Shape).Idx → EReal) (ix2 t j)
      = Wof m' (Cert.Softmax.ixW t ⟨4096 * yOf c + j.val, col_lt c j⟩) :=
  (congrFun (hagree c).2 (ix2 t j)).trans (block_at c (Wof m') t j)

/-- (b) Entry `(t, j)` of what device `c` stages of `W` is entry `(t, 4096·y + j)` of the whole `W`. -/
theorem wstg_join (hagree : Agree m m') (c : Dev nD) (t : Fin 512) (j : Fin 4096) :
    (wstg (F := Ideal) m c : (⟨2, ![512, 4096]⟩ : Shape).Idx → EReal) (ix2 t j)
      = Wof m' (Cert.Softmax.ixW t ⟨4096 * yOf c + j.val, col_lt c j⟩) :=
  (congrFun (wstg_eq m c) (ix2 t j)).trans (wbuf_at m m' hagree c t j)

/-! ## The whole arrays are real -/

variable [Cert.Pre_finite_inputs_Kernel.Facts]

/-- (c) Every entry of the whole `x` is a real: device 0's buffer is the whole `x` and is all real. -/
theorem X_finite (hpre : Cert.Pre_KernelIdeal m) (hagree : Agree m m') (i : Cert.Softmax.SX.Idx) :
    ∃ a : ℝ, Xof m' i = (a : EReal) := by
  obtain ⟨a, ha⟩ := (finite_of_pre _ _ (hpre ⟨0, by decide⟩)).1 i
  exact ⟨a, (congrFun (hagree ⟨0, by decide⟩).1 i).symm.trans ha⟩

/-- (c) Every entry of the whole `W` is a real: it is an entry of the block of a device that holds its column's half,
    and that block is all real. -/
theorem W_finite (hpre : Cert.Pre_KernelIdeal m) (hagree : Agree m m') (i : Cert.Softmax.SW.Idx) :
    ∃ a : ℝ, Wof m' i = (a : EReal) := by
  obtain ⟨c, t, j, rfl⟩ := col_cover i
  obtain ⟨a, ha⟩ := (finite_of_pre _ _ (hpre c)).2 (ix2 t j)
  exact ⟨a, (wbuf_at m m' hagree c t j).symm.trans ha⟩

end Cert.KernelIdeal.Join

end
-- ==== Proof.KOut.lean ====
/-
  The result buffer a device ends with is the unshifted softmax of the whole arrays.

  Device `c` holds the columns `4096·y .. 4096·y + 4096` of `W`, `y` its mesh coordinate, and its peer the other
  half.  Its own block `k` of stored logits is, at `(q, j)`, the logit of row `32k + q` and column `4096·y + j` of the
  whole arrays; the peer's block, landed in slab 1, is the logit of the same row and column `4096·(1 - y) + j`.  For
  row `r` (chunk `r / 32`, place `r % 32`) the device writes, to the column half `y`, `exp` of its own logits times
  the reciprocal of (the row sum of its own exponentials + the row sum of the peer's), and to the other half `exp` of
  the peer's logits times the same reciprocal.  For `y = 0` the own half is the low columns and the two row sums are
  (low + high), the specification's normaliser as written; for `y = 1` they are (high + low), equal to it by
  commutativity of `+` on the extended reals.  In both cases the entry at `(r, j)` is
  `exp (logit r j) · (1 / rowsum r)`.
-/
import proofs.«900346_g7700000000000347_dist_arsfmx_v7x_xyz2x2x4_y_t256_d512_v4096_bf16_1_alg».proof.Proof.KLogit
import proofs.«900346_g7700000000000347_dist_arsfmx_v7x_xyz2x2x4_y_t256_d512_v4096_bf16_1_alg».proof.Proof.KLanded
import proofs.«900346_g7700000000000347_dist_arsfmx_v7x_xyz2x2x4_y_t256_d512_v4096_bf16_1_alg».proof.Proof.KPay
import proofs.«900346_g7700000000000347_dist_arsfmx_v7x_xyz2x2x4_y_t256_d512_v4096_bf16_1_alg».proof.Proof.Spec
import proofs.«900346_g7700000000000347_dist_arsfmx_v7x_xyz2x2x4_y_t256_d512_v4096_bf16_1_alg».proof.Proof.Join

noncomputable section

namespace Cert.KernelIdeal.KOut

open Idealize.ShloMosaic Idealize.ShloMosaic.TcCoe Idealize.SL.Sem
open Cert.KernelIdeal Cert.KernelIdeal.Gen Cert.KernelIdeal.Mesh Cert.KernelIdeal.Data Cert.KernelIdeal.KValue Cert.Softmax

variable (m : (ℓ : Loc nD τ sig) → Buf (Elt Ideal) ℓ)

/-- Column `j` of device `c`'s half of `W`, as a column of the whole `W`. -/
def colOf (c : Dev nD) (j : Fin 4096) : Fin 8192 :=
  ⟨4096 * yOf c + j.val, by have := yOf_lt c; have := j.isLt; omega⟩

/-- A device with `y = 0` holds the low half of the columns, one with `y = 1` the high half. -/
theorem colOf_lo (c : Dev nD) (h : yOf c = 0) : colOf c = lo :=
  funext fun j => Fin.ext (by show 4096 * yOf c + j.val = j.val; rw [h]; omega)
theorem colOf_hi (c : Dev nD) (h : yOf c = 1) : colOf c = hi :=
  funext fun j => Fin.ext (by show 4096 * yOf c + j.val = 4096 + j.val; rw [h])

/-- Row `r` is row `r % 32` of chunk `r / 32`. -/
theorem xi_row (r : Fin 256) (t : Fin 512) : xi (chunkOf r) (inChunk r) t = ixX r t :=
  funext fun a => Fin.ext (by
    match a with
    | ⟨0, _⟩ => show 32 * (r.val / 32) + r.val % 32 = r.val; omega
    | ⟨1, _⟩ => rfl)

section
variable (X : SX.Idx → EReal) (Wf : SW.Idx → EReal)
variable (hX : ∀ (c : Dev nD) (i : S256x512.Idx), xs m c i = X i)
variable (hW : ∀ (c : Dev nD) (t : Fin 512) (j : Fin 4096), ws m c (wi t j) = Wf (ixW t (colOf c j)))
include hX hW

/-- A device's stored logit for row `r` and column `j` of its half is the logit of the whole arrays at row `r` and
    that column of `W`. -/
theorem lg_logit (c : Dev nD) (r : Fin 256) (j : Fin 4096) :
    lg (F := Ideal) m c (chunkOf r) (Data.ix3 (inChunk r) j) = logit X Wf r (colOf c j) := by
  refine (lg_apply m c (chunkOf r) (inChunk r) j).trans ?_
  show _ = ∑ t : Fin 512, X (ixX r t) * Wf (ixW t (colOf c j))
  refine Finset.sum_congr rfl fun t _ => ?_
  rw [hX c, hW c t j, xi_row]

/-- What the device writes for row `r` to its own column half, and to the other half. -/
theorem own_row (c : Dev nD) (r : Fin 256) (jj : Fin 4096) :
    own (F := Ideal) (chunkOf r) (mine m c (chunkOf r)) (theirs m c (chunkOf r)) (ix2b (inChunk r) jj)
      = Ideal.exp (logit X Wf r (colOf c jj)) * Ideal.div 1 ((∑ j' : Fin 4096, Ideal.exp (logit X Wf r (colOf c j')))
          + ∑ j' : Fin 4096, Ideal.exp (logit X Wf r (colOf (peer c) j'))) := by
  rw [mine_eq, theirs_eq, KPay.own_apply]
  simp only [lg_logit m X Wf hX hW]
theorem oth_row (c : Dev nD) (r : Fin 256) (jj : Fin 4096) :
    oth (F := Ideal) (chunkOf r) (mine m c (chunkOf r)) (theirs m c (chunkOf r)) (ix2b (inChunk r) jj)
      = Ideal.exp (logit X Wf r (colOf (peer c) jj)) * Ideal.div 1 ((∑ j' : Fin 4096, Ideal.exp (logit X Wf r (colOf c j')))
          + ∑ j' : Fin 4096, Ideal.exp (logit X Wf r (colOf (peer c) j'))) := by
  rw [mine_eq, theirs_eq, KPay.oth_apply]
  simp only [lg_logit m X Wf hX hW]

/-- The entry the device ends with at row `r` and column `j8` of the result: the column half `j8 / 4096` equal to the
    device's `y` holds the own block's value, the other half the peer's; either way it is the specification's entry.
    For `y = 0` the own half is the low one (`j8 / 4096 = 0`, `j8 = lo (j8 % 4096)`) and the row sums are low + high;
    for `y = 1` the own half is the high one (`j8 = hi (j8 % 4096)`) and the row sums are high + low, which
    commutativity of `+` turns into low + high. -/
theorem entry (c : Dev nD) (r : Fin 256) (j8 : Fin 8192) :
    (if j8.val / 4096 = yOf c
      then own (F := Ideal) (chunkOf r) (mine m c (chunkOf r)) (theirs m c (chunkOf r))
        (ix2b (inChunk r) ⟨j8.val % 4096, Nat.mod_lt _ (by decide)⟩)
      else oth (F := Ideal) (chunkOf r) (mine m c (chunkOf r)) (theirs m c (chunkOf r))
        (ix2b (inChunk r) ⟨j8.val % 4096, Nat.mod_lt _ (by decide)⟩))
      = Ideal.exp (logit X Wf r j8) * Ideal.div 1 (rowsum X Wf r) := by
  have h8 : j8.val < 8192 := j8.isLt
  rw [own_row m X Wf hX hW, oth_row m X Wf hX hW]
  unfold rowsum
  obtain hy | hy : yOf c = 0 ∨ yOf c = 1 := by have := yOf_lt c; omega
  · have hp : yOf (peer c) = 1 := by rw [yOf_peer, hy]
    rw [colOf_lo c hy, colOf_hi (peer c) hp, hy]
    by_cases hh : j8.val / 4096 = 0
    · rw [if_pos hh, show lo ⟨j8.val % 4096, Nat.mod_lt _ (by decide)⟩ = j8 from
        Fin.ext (by show j8.val % 4096 = j8.val; omega)]
    · rw [if_neg hh, show hi ⟨j8.val % 4096, Nat.mod_lt _ (by decide)⟩ = j8 from
        Fin.ext (by show 4096 + j8.val % 4096 = j8.val; omega)]
  · have hp : yOf (peer c) = 0 := by rw [yOf_peer, hy]
    rw [colOf_hi c hy, colOf_lo (peer c) hp, hy,
      add_comm (∑ j' : Fin 4096, Ideal.exp (logit X Wf r (hi j')))]
    by_cases hh : j8.val / 4096 = 1
    · rw [if_pos hh, show hi ⟨j8.val % 4096, Nat.mod_lt _ (by decide)⟩ = j8 from
        Fin.ext (by show 4096 + j8.val % 4096 = j8.val; omega)]
    · rw [if_neg hh, show lo ⟨j8.val % 4096, Nat.mod_lt _ (by decide)⟩ = j8 from
        Fin.ext (by show j8.val % 4096 = j8.val; omega)]

/-- The whole result buffer device `c` ends with is the specification `G` of the whole arrays. -/
theorem outOf_eq_G (c : Dev nD) : (outOf (F := Ideal) m c : SO.Idx → EReal) = G X Wf :=
  funext fun i => entry m X Wf hX hW c ⟨(i 0).val, (i 0).isLt⟩ ⟨(i 1).val, (i 1).isLt⟩

end

/-! ## At the launched arrays -/

/-- The index `(t, j)` of the staged half of `W`, written by its coordinates. -/
theorem wi_eq (t : Fin 512) (j : Fin 4096) : wi t j = ValueIdx.ix2 t j :=
  funext fun a => by match a with | ⟨0, _⟩ => rfl | ⟨1, _⟩ => rfl

/-- When every device's first argument is the whole `x` and its second the column half of the whole `W` its `y`
    names, the result buffer every device ends with is the specification of the whole `x` and the whole `W`. -/
theorem outOf_is_G_b (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : Cert.KernelIdeal.Join.Agree m m') (c : Dev nD) :
    (outOf (F := Ideal) m c : Cert.Softmax.SO.Idx → EReal)
      = Cert.Softmax.G (Cert.KernelIdeal.Join.Xof m') (Cert.KernelIdeal.Join.Wof m') :=
  outOf_eq_G m (Cert.KernelIdeal.Join.Xof m') (Cert.KernelIdeal.Join.Wof m')
    (fun c i => congrFun (Cert.KernelIdeal.Join.xstg_join m m' hagree c) i)
    (fun c t j => (congrArg (ws m c) (wi_eq t j)).trans (Cert.KernelIdeal.Join.wstg_join m m' hagree c t j))
    c

end Cert.KernelIdeal.KOut

end
-- ==== Proof.SoftmaxLaw.lean ====
/-
  The softmax law over the extended reals, over no program.

  For a row of REAL logits l and any REAL shift m,

      exp (l j - m) / (0 + ∑ k, exp (l k - m))  =  exp (l j) · (1 / (∑ over the low half of exp (l k) + ∑ over the high half of exp (l k))).

  Both sides are the real number  exp (l j) / ∑ k, exp (l k):  exp (a - m) = exp a · exp (-m), the common factor
  exp (-m) > 0 cancels, and a sum of exponentials of reals is a positive real, so neither division meets a zero or an
  infinity.  The sum over the 8192 columns is the sum over the first 4096 plus the sum over the last 4096.

  Beside the law: a finite sum of products of reals is a real (so every logit is), and the maximum of finitely many
  reals, folded from -∞ over a nonempty index set, is a real (so every row's shift is).
-/
import proofs.«900346_g7700000000000347_dist_arsfmx_v7x_xyz2x2x4_y_t256_d512_v4096_bf16_1_alg».proof.Proof.Spec

noncomputable section

namespace Cert.Softmax

open Idealize.ShloMosaic

/-! ### Sums of reals inside the extended reals -/

/-- The extended real of a finite sum of reals is the sum of their extended reals: by induction on the index set,
    the real sum a + b going to the extended sum a + b one term at a time. -/
theorem coe_sum {ι : Type} (s : Finset ι) (f : ι → ℝ) : ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

/-- A sum over the 8192 columns is the sum over the low half plus the sum over the high half:
    8192 = 4096 + 4096, column k < 4096 of the first block is lo k and column k of the second is hi k = 4096 + k. -/
theorem sum_halves {M : Type} [AddCommMonoid M] (f : Fin 8192 → M) :
    ∑ k : Fin 8192, f k = (∑ k : Fin 4096, f (lo k)) + ∑ k : Fin 4096, f (hi k) :=
  Fin.sum_univ_add (a := 4096) (b := 4096) f

/-! ### The law on the reals -/

/-- On the reals: exp (l j - m) · (1 / ∑ k, exp (l k - m)) = exp (l j) · (1 / ∑ k, exp (l k)).
    Each exp (l k - m) is exp (-m) · exp (l k); the factor exp (-m) leaves the sum and cancels. -/
theorem real_law (l : Fin 8192 → ℝ) (m : ℝ) (j : Fin 8192) :
    Real.exp (l j - m) * (1 / ∑ k : Fin 8192, Real.exp (l k - m))
      = Real.exp (l j) * (1 / ((∑ k : Fin 4096, Real.exp (l (lo k))) + ∑ k : Fin 4096, Real.exp (l (hi k)))) := by
  have hm : Real.exp (-m) ≠ 0 := (Real.exp_pos _).ne'
  have hS : (∑ k : Fin 8192, Real.exp (l k)) ≠ 0 :=
    (Finset.sum_pos (fun k _ => Real.exp_pos (l k)) ⟨⟨0, by decide⟩, Finset.mem_univ _⟩).ne'
  have hshift : ∀ a : ℝ, Real.exp (a - m) = Real.exp (-m) * Real.exp a := fun a => by
    rw [← Real.exp_add]; exact congrArg Real.exp (by ring)
  have hsum : ∑ k : Fin 8192, Real.exp (l k - m) = Real.exp (-m) * ∑ k : Fin 8192, Real.exp (l k) := by
    rw [Finset.mul_sum]; exact Finset.sum_congr rfl fun k _ => hshift (l k)
  rw [hsum, hshift (l j), ← sum_halves (fun k => Real.exp (l k))]
  field_simp

/-! ### The law on the extended reals -/

/-- The law for a row of real logits and a real shift.  Every exponential is the extended real of a real exponential, every sum
    the extended real of a real sum, the two denominators are nonzero reals, so each division is the product with the
    real reciprocal; what is left is the real law. -/
theorem softmax_law (l : Fin 8192 → ℝ) (m : ℝ) (j : Fin 8192) :
    Ideal.div (Ideal.exp ((l j : EReal) - (m : EReal))) (0 + ∑ k : Fin 8192, Ideal.exp ((l k : EReal) - (m : EReal)))
      = Ideal.exp (l j : EReal)
          * Ideal.div 1 ((∑ k : Fin 4096, Ideal.exp (l (lo k) : EReal)) + ∑ k : Fin 4096, Ideal.exp (l (hi k) : EReal)) := by
  have hpos : ∀ g : Fin 8192 → ℝ, (∑ k : Fin 8192, Real.exp (g k)) ≠ 0 := fun g =>
    (Finset.sum_pos (fun k _ => Real.exp_pos (g k)) ⟨⟨0, by decide⟩, Finset.mem_univ _⟩).ne'
  have hden : (∑ k : Fin 4096, Real.exp (l (lo k))) + ∑ k : Fin 4096, Real.exp (l (hi k)) ≠ 0 := by
    rw [← sum_halves (fun k => Real.exp (l k))]; exact hpos l
  simp only [← EReal.coe_sub, Ideal.exp_coe]
  rw [← coe_sum, ← coe_sum, ← coe_sum, ← EReal.coe_add, zero_add, Ideal.div_coe (hpos fun k => l k - m), Ideal.div_coe hden,
    one_mul, ← EReal.coe_mul, ← EReal.coe_mul]
  exact congrArg _ (real_law l m j)

/-- The same law for a row of extended reals that ARE reals and a shift that IS a real: the form a program's row meets. -/
theorem softmax_shift (L : Fin 8192 → EReal) (M : EReal) (hL : ∀ k, ∃ a : ℝ, L k = (a : EReal)) (hM : ∃ a : ℝ, M = (a : EReal))
    (j : Fin 8192) :
    Ideal.div (Ideal.exp (L j - M)) (0 + ∑ k : Fin 8192, Ideal.exp (L k - M))
      = Ideal.exp (L j) * Ideal.div 1 ((∑ k : Fin 4096, Ideal.exp (L (lo k))) + ∑ k : Fin 4096, Ideal.exp (L (hi k))) := by
  obtain ⟨m, rfl⟩ := hM
  choose l hl using hL
  obtain rfl : L = fun k => (l k : EReal) := funext hl
  exact softmax_law l m j

/-! ### Logits and maxima of reals are reals -/

/-- A logit of real inputs is a real: a finite sum of products of reals. -/
theorem logit_real (x : SX.Idx → EReal) (W : SW.Idx → EReal) (hx : ∀ i, ∃ a : ℝ, x i = (a : EReal))
    (hW : ∀ i, ∃ a : ℝ, W i = (a : EReal)) (r : Fin 256) (j : Fin 8192) : ∃ l : ℝ, logit x W r j = (l : EReal) := by
  choose a ha using hx
  choose b hb using hW
  refine ⟨∑ k : Fin 512, a (ixX r k) * b (ixW k j), ?_⟩
  unfold logit
  rw [coe_sum]
  exact Finset.sum_congr rfl fun k _ => by rw [ha, hb, EReal.coe_mul]

/-- The maximum of reals folded from -∞ over a nonempty finite set is a real: it is at least one of the reals, so
    not -∞, and below +∞ because -∞ and every real are. -/
theorem fold_max_real {ι : Type} (s : Finset ι) (hs : s.Nonempty) (f : ι → EReal) (hf : ∀ k, ∃ a : ℝ, f k = (a : EReal)) :
    ∃ m : ℝ, s.fold max ⊥ f = (m : EReal) := by
  have hbot : s.fold max ⊥ f ≠ ⊥ := by
    obtain ⟨k, hk⟩ := hs
    obtain ⟨a, ha⟩ := hf k
    have hle : (a : EReal) ≤ s.fold max ⊥ f := (Finset.le_fold_max _).2 (Or.inr ⟨k, hk, ha.ge⟩)
    intro e
    rw [e] at hle
    exact absurd hle (not_le.2 (EReal.bot_lt_coe a))
  have htop : s.fold max ⊥ f ≠ ⊤ :=
    ne_of_lt ((Finset.fold_max_lt _).2 ⟨bot_lt_top, fun k _ => by obtain ⟨a, ha⟩ := hf k; rw [ha]; exact EReal.coe_lt_top a⟩)
  exact ⟨(s.fold max ⊥ f).toReal, (EReal.coe_toReal htop hbot).symm⟩

end Cert.Softmax

end
-- ==== Proof.RefIsG.lean ====
/-
  The one-device reference computes G.

  The reference forms the logits x · W, takes each row's maximum m, and returns exp (logit - m) divided by the
  row's sum of exp (logit - m), narrowed to the 16-bit format.  Over the extended reals the narrowing is the
  identity and every operation is exact.  For real inputs every logit is a real; the row's maximum, folded from -∞
  over the row's 8192 real logits, is a real; and for a real shift the softmax law says the shifted quotient is the
  unshifted exp (logit) · (1 / (sum over the low half of the columns + sum over the high half)): the value G has
  there.  Which real the maximum is plays no part.
-/
import proofs.«900346_g7700000000000347_dist_arsfmx_v7x_xyz2x2x4_y_t256_d512_v4096_bf16_1_alg».proof.Proof.Gen.ReferenceIdeal.Read
import proofs.«900346_g7700000000000347_dist_arsfmx_v7x_xyz2x2x4_y_t256_d512_v4096_bf16_1_alg».proof.Proof.Spec
import proofs.«900346_g7700000000000347_dist_arsfmx_v7x_xyz2x2x4_y_t256_d512_v4096_bf16_1_alg».proof.Proof.SoftmaxLaw

noncomputable section

namespace Cert.ReferenceIdeal.RefValue

open Cert.ReferenceIdeal Cert.ReferenceIdeal.Gen Cert.ReferenceIdeal.Read Cert.Softmax Idealize.ShloMosaic

/-- Element (i 0, i 1) of the product is the logit of row i 0 and column i 1: the same sum over the 512 inner indices,
    the left factor read at (i 0, k) and the right at (k, i 1). -/
theorem v0_is_logit (x0 : (⟨S256x512, .f32⟩ : BufTy).Contents (Elt Ideal)) (x1 : (⟨S512x8192, .f32⟩ : BufTy).Contents (Elt Ideal))
    (i : S256x8192.Idx) :
    val_main_v0 (F := Ideal) x0 x1 i = logit x0 x1 ⟨(i 0).val, (i 0).isLt⟩ ⟨(i 1).val, (i 1).isLt⟩ := by
  rw [val_main_v0_apply]
  unfold logit
  refine Finset.sum_congr rfl fun k _ => ?_
  have el : lidx_main_v0 i k = ixX ⟨(i 0).val, (i 0).isLt⟩ k :=
    funext fun a => Fin.ext (by match a with | ⟨0, _⟩ => rfl | ⟨1, _⟩ => rfl)
  have er : ridx_main_v0 i k = ixW k ⟨(i 1).val, (i 1).isLt⟩ :=
    funext fun a => Fin.ext (by match a with | ⟨0, _⟩ => rfl | ⟨1, _⟩ => rfl)
  rw [el, er]

/-- The shape fact that names the column put back into a row index. -/
theorem red : S256x8192.Reduces [1] S256 := by decide

/-- For real inputs each row's maximum is a real: the reduce with a maximum body over the one axis of 8192 columns is the fold
    of max from its initial value, which is -∞, over the row's logits, which are reals. -/
theorem v1_real (x0 : (⟨S256x512, .f32⟩ : BufTy).Contents (Elt Ideal)) (x1 : (⟨S512x8192, .f32⟩ : BufTy).Contents (Elt Ideal))
    (hx : ∀ i, ∃ a : ℝ, x0 i = (a : EReal)) (hW : ∀ i, ∃ a : ℝ, x1 i = (a : EReal)) (j : S256.Idx) :
    ∃ m : ℝ, val_main_v1 (F := Ideal) x0 x1 j = (m : EReal) := by
  -- the reduce over the one axis, at row j, as the fold over that axis's coordinates
  have hfold : val_main_v1 (F := Ideal) x0 x1 j
      = (Finset.univ : Finset (Fin (S256x8192.size 1))).fold (FloatOps.maximumf (F := Ideal) (φ := .f32))
          (val_main_cst (F := Ideal) (Shape.Idx.first h_S_)) (val_main_v0 (F := Ideal) x0 x1 ∘ red.lift j) :=
    Host.reduce_eq_fold_single (FloatOps.maximumf (F := Ideal) (φ := .f32)) (val_main_v0 (F := Ideal) x0 x1)
      (val_main_cst (F := Ideal)) reducesTo_S256x8192_S256_d1 red h_S_ j
  -- its initial value is -∞
  have hinit : val_main_cst (F := Ideal) (Shape.Idx.first h_S_) = (⊥ : EReal) := by
    show Ideal.ofBits .f32 0xFF800000#32 = ⊥
    simp [Ideal.ofBits, Ideal.ieee]
  rw [hinit] at hfold
  -- the folded elements are the row's logits, reals
  obtain ⟨m, hm⟩ := fold_max_real (Finset.univ : Finset (Fin (S256x8192.size 1))) ⟨⟨0, by decide⟩, Finset.mem_univ _⟩
    (val_main_v0 (F := Ideal) x0 x1 ∘ red.lift j) fun k => by
      obtain ⟨l, hl⟩ := logit_real x0 x1 hx hW ⟨((red.lift j k) 0).val, ((red.lift j k) 0).isLt⟩ ⟨((red.lift j k) 1).val, ((red.lift j k) 1).isLt⟩
      exact ⟨l, (v0_is_logit x0 x1 (red.lift j k)).trans hl⟩
  exact ⟨m, hfold.trans hm⟩

/-- For real inputs the reference's result is G of them. -/
theorem ref_is_G (x0 : (⟨S256x512, .f32⟩ : BufTy).Contents (Elt Ideal)) (x1 : (⟨S512x8192, .f32⟩ : BufTy).Contents (Elt Ideal))
    (hx : ∀ i, ∃ a : ℝ, x0 i = (a : EReal)) (hW : ∀ i, ∃ a : ℝ, x1 i = (a : EReal)) :
    val_main_v10 (F := Ideal) x0 x1 = G x0 x1 := by
  funext i
  -- every column of row i 0 is shifted by that row's maximum: the index of the maximum depends on i 0 alone
  have hrow : ∀ k : Fin 8192, idx_main_v2 (idx_main_v3 (idx_main_v6 (idx_main_v7 (idx_main_v8 i)) k)) = idx_main_v2 (idx_main_v3 i) :=
    fun k => funext fun a => Fin.ext (by match a with | ⟨0, _⟩ => rfl)
  -- column k of row i 0 of the product is that row's logit at k
  have hcol : ∀ k : Fin 8192, val_main_v0 (F := Ideal) x0 x1 (idx_main_v6 (idx_main_v7 (idx_main_v8 i)) k)
      = logit x0 x1 ⟨(i 0).val, (i 0).isLt⟩ k := fun k => v0_is_logit x0 x1 _
  -- read the stages from the result back to the product and the maximum
  simp only [val_main_v10_apply, val_main_v9_apply, val_main_v8_apply, val_main_v7_apply, val_main_v6_apply, val_main_v5_apply,
    val_main_v4_apply, val_main_v3_apply, val_main_v2_apply, val_main_cst_0_apply]
  -- each operation is the exact one on the extended reals; the initial value of the sum is 0
  simp only [Ideal.truncf_def, Ideal.hostDivf_def, Ideal.hostUnary_exp_def, Ideal.subf_def, Ideal.ofBits_def, Ideal.ofBits_zero_f32]
  simp only [hrow, hcol]
  rw [v0_is_logit x0 x1 i]
  -- the law, at the row's real logits and the row's real maximum
  exact softmax_shift (fun k => logit x0 x1 ⟨(i 0).val, (i 0).isLt⟩ k) (val_main_v1 (F := Ideal) x0 x1 (idx_main_v2 (idx_main_v3 i)))
    (fun k => logit_real x0 x1 hx hW _ k) (v1_real x0 x1 hx hW _) ⟨(i 1).val, (i 1).isLt⟩

end Cert.ReferenceIdeal.RefValue

end
-- ==== Proof.lean ====
/-
  A softmax over the 8192 columns of x · W, computed by sixteen devices in pairs, equals the softmax computed on one
  device.

  x is 256 × 512 and W is 512 × 8192.  Every device holds x and one half of W's columns — the half its y coordinate
  names — and works with its peer, the device that differs from it in y only.  In eight chunks of 32 rows each device
  forms its own half of the logits, sends it to its peer, and from its own half and its peer's forms
      exp (logit) · (1 / (Σ over its own half of exp + Σ over its peer's half of exp))
  for all 8192 columns of its rows.  The reference forms exp (logit − max) / Σ exp (logit − max) over the whole row.
  Over the extended reals, with finite inputs, the row maximum is a real number and both are exp (logit) / Σ exp
  (logit): the shift cancels, and the sum over all columns is the sum over the low half plus the sum over the high
  half in either order.  Finiteness is what makes the logits and the maximum real; it comes from the precondition on
  every device's buffers, since every column of W lies in some device's half.

  The pieces: the specification (Spec); the reference computes it (RefIsG, over the law in SoftmaxLaw); a device's
  result buffer is it (KOut, over the blocks read at an index in KPay, KLogit, KLanded and the layout of the halves in
  Join); and that the sixteen kernels run to the end, fault nowhere, leave their arguments unchanged and their result
  at that buffer — the protocol between a device and its peer (SchedIdeal, LevelsIdeal, ProtoIdeal), one device's
  body (BodyIdeal, over the facts about the scratch and result buffers in CommFacts, ScratchSplit, OutGeom, OutBridge),
  the launch (DealIdeal, LaunchIdeal, FinalIdeal), once for the exact instance and once, the same text over the
  word-level program, for the printed kernel.
-/
import proofs.«900346_g7700000000000347_dist_arsfmx_v7x_xyz2x2x4_y_t256_d512_v4096_bf16_1_alg».proof.Defs
import proofs.«900346_g7700000000000347_dist_arsfmx_v7x_xyz2x2x4_y_t256_d512_v4096_bf16_1_alg».proof.Proof.Gen.Kernel
import proofs.«900346_g7700000000000347_dist_arsfmx_v7x_xyz2x2x4_y_t256_d512_v4096_bf16_1_alg».proof.Proof.Gen.Kernel.Skeleton
import proofs.«900346_g7700000000000347_dist_arsfmx_v7x_xyz2x2x4_y_t256_d512_v4096_bf16_1_alg».proof.Proof.Gen.Kernel.Launch
import proofs.«900346_g7700000000000347_dist_arsfmx_v7x_xyz2x2x4_y_t256_d512_v4096_bf16_1_alg».proof.Proof.Gen.Kernel.Points
import proofs.«900346_g7700000000000347_dist_arsfmx_v7x_xyz2x2x4_y_t256_d512_v4096_bf16_1_alg».proof.Proof.Gen.Kernel.Frame
import proofs.«900346_g7700000000000347_dist_arsfmx_v7x_xyz2x2x4_y_t256_d512_v4096_bf16_1_alg».proof.Proof.Gen.KernelIdeal
import proofs.«900346_g7700000000000347_dist_arsfmx_v7x_xyz2x2x4_y_t256_d512_v4096_bf16_1_alg».proof.Proof.Gen.KernelIdeal.Skeleton
import proofs.«900346_g7700000000000347_dist_arsfmx_v7x_xyz2x2x4_y_t256_d512_v4096_bf16_1_alg».proof.Proof.Gen.KernelIdeal.Launch
import proofs.«900346_g7700000000000347_dist_arsfmx_v7x_xyz2x2x4_y_t256_d512_v4096_bf16_1_alg».proof.Proof.Gen.KernelIdeal.Points
import proofs.«900346_g7700000000000347_dist_arsfmx_v7x_xyz2x2x4_y_t256_d512_v4096_bf16_1_alg».proof.Proof.Gen.KernelIdeal.Frame
import proofs.«900346_g7700000000000347_dist_arsfmx_v7x_xyz2x2x4_y_t256_d512_v4096_bf16_1_alg».proof.Proof.Gen.ReferenceIdeal
import proofs.«900346_g7700000000000347_dist_arsfmx_v7x_xyz2x2x4_y_t256_d512_v4096_bf16_1_alg».proof.Proof.Gen.ReferenceIdeal.Run
import proofs.«900346_g7700000000000347_dist_arsfmx_v7x_xyz2x2x4_y_t256_d512_v4096_bf16_1_alg».proof.Proof.Gen.ReferenceIdeal.Read
import proofs.«900346_g7700000000000347_dist_arsfmx_v7x_xyz2x2x4_y_t256_d512_v4096_bf16_1_alg».proof.Proof.Gen.Pre_finite_inputs_Kernel
import proofs.«900346_g7700000000000347_dist_arsfmx_v7x_xyz2x2x4_y_t256_d512_v4096_bf16_1_alg».proof.Proof.Gen.Pre_finite_inputs_ReferenceIdeal
import proofs.«900346_g7700000000000347_dist_arsfmx_v7x_xyz2x2x4_y_t256_d512_v4096_bf16_1_alg».proof.Proof.LaunchIdeal
import proofs.«900346_g7700000000000347_dist_arsfmx_v7x_xyz2x2x4_y_t256_d512_v4096_bf16_1_alg».proof.Proof.FinalIdeal
import proofs.«900346_g7700000000000347_dist_arsfmx_v7x_xyz2x2x4_y_t256_d512_v4096_bf16_1_alg».proof.Proof.LaunchBits
import proofs.«900346_g7700000000000347_dist_arsfmx_v7x_xyz2x2x4_y_t256_d512_v4096_bf16_1_alg».proof.Proof.KOut
import proofs.«900346_g7700000000000347_dist_arsfmx_v7x_xyz2x2x4_y_t256_d512_v4096_bf16_1_alg».proof.Proof.RefIsG
import proofs.«900346_g7700000000000347_dist_arsfmx_v7x_xyz2x2x4_y_t256_d512_v4096_bf16_1_alg».proof.Proof.Join
import Idealize.ShloMosaic.Adequacy
import Idealize.ShloMosaic.Init

noncomputable section

namespace Cert.Proof

open Idealize.ShloMosaic Idealize.SL.Sem

/-- The printed kernel, on the sixteen devices, runs to the end and leaves x and its half of W as they were. -/
theorem frame_k [Cert.Kernel.Facts] [Cert.Pre_finite_inputs_Kernel.Facts] : Cert.frame_Kernel := fun m g _ =>
  (θ_run Cert.Kernel.defs _ _).mono
    (fun r h c => ⟨(h c 0).trans (Cert.Kernel.Launch.finalA_x m g c), (h c 1).trans (Cert.Kernel.Launch.finalA_w m g c)⟩)
    (Cert.Kernel.Launch.run_main (F := Bits) m g)

/-- So does its reading over the extended reals. -/
theorem frame_ki [Cert.KernelIdeal.Facts] [Cert.Pre_finite_inputs_Kernel.Facts] : Cert.frame_KernelIdeal := fun m g _ =>
  (θ_run Cert.KernelIdeal.defs _ _).mono
    (fun r h c => ⟨(h c 0).trans (Cert.KernelIdeal.Launch.finalA_x m g c), (h c 1).trans (Cert.KernelIdeal.Launch.finalA_w m g c)⟩)
    (Cert.KernelIdeal.Launch.run_main (F := Ideal) m g)

/-- The reference runs to the end with its arguments unchanged: its generated run, the value dropped. -/
theorem frame_ri [Cert.ReferenceIdeal.Facts] [Cert.Pre_finite_inputs_ReferenceIdeal.Facts] : Cert.frame_ReferenceIdeal := fun m g _ =>
  (θ_run Cert.ReferenceIdeal.defs _ _).mono (fun _ h c => (h c).2) (Cert.ReferenceIdeal.Value.run (F := Ideal) m g)

/-- Every device's result is the unshifted softmax of the whole arrays, and so is the reference's. -/
theorem algebraic [Cert.KernelIdeal.Facts] [Cert.ReferenceIdeal.Facts] [Cert.Pre_finite_inputs_Kernel.Facts] :
    Cert.algebraic_KernelIdeal_ReferenceIdeal := by
  intro m g m' g' hpre hagree
  refine ⟨Cert.Softmax.G (Cert.KernelIdeal.Join.Xof m') (Cert.KernelIdeal.Join.Wof m'), ?_, ?_⟩
  · refine (θ_run Cert.KernelIdeal.defs _ _).mono (fun r h c => ⟨?_, ?_, ?_⟩) (Cert.KernelIdeal.Launch.run_main (F := Ideal) m g)
    · exact ((h c 2).trans (Cert.KernelIdeal.Sched.arrAt_out m g c)).trans (Cert.KernelIdeal.KOut.outOf_is_G_b m m' hagree c)
    · exact (h c 0).trans (Cert.KernelIdeal.Launch.finalA_x m g c)
    · exact (h c 1).trans (Cert.KernelIdeal.Launch.finalA_w m g c)
  · refine (θ_run Cert.ReferenceIdeal.defs _ _).mono (fun r h => ?_) (Cert.ReferenceIdeal.Value.run (F := Ideal) m' g')
    exact ⟨((h 0).1.trans (Cert.ReferenceIdeal.Read.val_main_v10_eq _ _)).trans
        (Cert.ReferenceIdeal.RefValue.ref_is_G _ _ (Cert.KernelIdeal.Join.X_finite m m' hpre hagree) (Cert.KernelIdeal.Join.W_finite m m' hpre hagree)),
      (h 0).2⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    @frame_k Cert.Kernel.Gen.facts Cert.Pre_finite_inputs_Kernel.Gen.facts,
    @frame_ki Cert.KernelIdeal.Gen.facts Cert.Pre_finite_inputs_Kernel.Gen.facts,
    @frame_ri Cert.ReferenceIdeal.Gen.facts Cert.Pre_finite_inputs_ReferenceIdeal.Gen.facts,
    trivial,
    @algebraic Cert.KernelIdeal.Gen.facts Cert.ReferenceIdeal.Gen.facts Cert.Pre_finite_inputs_Kernel.Gen.facts⟩

end Cert.Proof

end
